-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v145)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v145) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v142) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x32 : Shape := ⟨2, ![512, 32]⟩
abbrev S32 : Shape := ⟨1, ![32]⟩
abbrev S32x40 : Shape := ⟨2, ![32, 40]⟩
abbrev S40 : Shape := ⟨1, ![40]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x32 : S_.BroadcastsInDim S512x32 (![] : Fin 0 → Fin S512x32.rank)
  reducesTo_S512x32_S_d0_1 : S512x32.ReducesTo [0, 1] S_
  bcast_S_S32 : S_.BroadcastsInDim S32 (![] : Fin 0 → Fin S32.rank)
  reducesTo_S32_S_d0 : S32.ReducesTo [0] S_
  bcast_S_S32x40 : S_.BroadcastsInDim S32x40 (![] : Fin 0 → Fin S32x40.rank)
  reducesTo_S32x40_S_d0_1 : S32x40.ReducesTo [0, 1] S_
  bcast_S_S40 : S_.BroadcastsInDim S40 (![] : Fin 0 → Fin S40.rank)
  reducesTo_S40_S_d0 : S40.ReducesTo [0] S_

variable [Facts]

def fn_part3 {F : FTy → Type} [FloatOps F] (main_arg12 : FVec F S32x40 .f32) (main_arg13 : FVec F S40 .f32) (main_v48 : IVec S_ 1) (main_v49 : FVec F S40 .f32) (main_v50 : FVec F S40 .f32) : IVec S_ 1 :=
  let main_v51 : IVec S40 1 := cmpf .olt main_v49 main_v50
  let main_c_19 : IVec S_ 1 := constantI S_ 1 1#1
  let main_v52 : IVec S_ 1 := (fun x v => Host.reduce IntOp.andi x v reducesTo_S40_S_d0 h_S_) main_v51 main_c_19
  let main_v53 : IVec S_ 1 := andi main_v48 main_v52
  let main_v54 : FVec F S32x40 .f32 := Host.absf main_arg12
  let main_cst_20 : FVec F S_ .f32 := constant S_ .f32 0x7F800000#32
  let main_v55 : FVec F S32x40 .f32 := broadcastInDim S32x40 ![] bcast_S_S32x40 main_cst_20
  let main_v56 : IVec S32x40 1 := cmpf .olt main_v54 main_v55
  let main_c_21 : IVec S_ 1 := constantI S_ 1 1#1
  let main_v57 : IVec S_ 1 := (fun x v => Host.reduce IntOp.andi x v reducesTo_S32x40_S_d0_1 h_S_) main_v56 main_c_21
  let main_v58 : IVec S_ 1 := andi main_v53 main_v57
  let main_v59 : FVec F S40 .f32 := Host.absf main_arg13
  let main_cst_22 : FVec F S_ .f32 := constant S_ .f32 0x7F800000#32
  let main_v60 : FVec F S40 .f32 := broadcastInDim S40 ![] bcast_S_S40 main_cst_22
  let main_v61 : IVec S40 1 := cmpf .olt main_v59 main_v60
  let main_c_23 : IVec S_ 1 := constantI S_ 1 1#1
  let main_v62 : IVec S_ 1 := (fun x v => Host.reduce IntOp.andi x v reducesTo_S40_S_d0 h_S_) main_v61 main_c_23
  let main_v63 : IVec S_ 1 := andi main_v58 main_v62
  main_v63

def fn_part2 {F : FTy → Type} [FloatOps F] (main_arg8 : FVec F S512x32 .f32) (main_arg9 : FVec F S32 .f32) (main_arg10 : FVec F S32x40 .f32) (main_arg11 : FVec F S40 .f32) (main_arg12 : FVec F S32x40 .f32) (main_arg13 : FVec F S40 .f32) (main_v33 : IVec S_ 1) : IVec S_ 1 :=
  let main_v34 : FVec F S512x32 .f32 := Host.absf main_arg8
  let main_cst_12 : FVec F S_ .f32 := constant S_ .f32 0x7F800000#32
  let main_v35 : FVec F S512x32 .f32 := broadcastInDim S512x32 ![] bcast_S_S512x32 main_cst_12
  let main_v36 : IVec S512x32 1 := cmpf .olt main_v34 main_v35
  let main_c_13 : IVec S_ 1 := constantI S_ 1 1#1
  let main_v37 : IVec S_ 1 := (fun x v => Host.reduce IntOp.andi x v reducesTo_S512x32_S_d0_1 h_S_) main_v36 main_c_13
  let main_v38 : IVec S_ 1 := andi main_v33 main_v37
  let main_v39 : FVec F S32 .f32 := Host.absf main_arg9
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x40 .f32 := Host.absf main_arg10
  let main_cst_16 : FVec F S_ .f32 := constant S_ .f32 0x7F800000#32
  let main_v45 : FVec F S32x40 .f32 := broadcastInDim S32x40 ![] bcast_S_S32x40 main_cst_16
  let main_v46 : IVec S32x40 1 := cmpf .olt main_v44 main_v45
  let main_c_17 : IVec S_ 1 := constantI S_ 1 1#1
  let main_v47 : IVec S_ 1 := (fun x v => Host.reduce IntOp.andi x v reducesTo_S32x40_S_d0_1 h_S_) main_v46 main_c_17
  let main_v48 : IVec S_ 1 := andi main_v43 main_v47
  let main_v49 : FVec F S40 .f32 := Host.absf main_arg11
  let main_cst_18 : FVec F S_ .f32 := constant S_ .f32 0x7F800000#32
  let main_v50 : FVec F S40 .f32 := broadcastInDim S40 ![] bcast_S_S40 main_cst_18
  fn_part3 (F := F) main_arg12 main_arg13 main_v48 main_v49 main_v50

def fn_part1 {F : FTy → Type} [FloatOps F] (main_arg5 : FVec F S32 .f32) (main_arg6 : FVec F S512x32 .f32) (main_arg7 : FVec F S32 .f32) (main_arg8 : FVec F S512x32 .f32) (main_arg9 : FVec F S32 .f32) (main_arg10 : FVec F S32x40 .f32) (main_arg11 : FVec F S40 .f32) (main_arg12 : FVec F S32x40 .f32) (main_arg13 : FVec F S40 .f32) (main_v13 : IVec S_ 1) (main_v16 : IVec S512x32 1) : IVec S_ 1 :=
  let main_c_5 : IVec S_ 1 := constantI S_ 1 1#1
  let main_v17 : IVec S_ 1 := (fun x v => Host.reduce IntOp.andi x v reducesTo_S512x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S512x32 .f32 := Host.absf main_arg6
  let main_cst_8 : FVec F S_ .f32 := constant S_ .f32 0x7F800000#32
  let main_v25 : FVec F S512x32 .f32 := broadcastInDim S512x32 ![] bcast_S_S512x32 main_cst_8
  let main_v26 : IVec S512x32 1 := cmpf .olt main_v24 main_v25
  let main_c_9 : IVec S_ 1 := constantI S_ 1 1#1
  let main_v27 : IVec S_ 1 := (fun x v => Host.reduce IntOp.andi x v reducesTo_S512x32_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S100000x512 .f32) (main_arg1 : IVec S2x3200000 32) (main_arg2 : FVec F S512x32 .f32) (main_arg3 : FVec F S32 .f32) (main_arg4 : FVec F S512x32 .f32) (main_arg5 : FVec F S32 .f32) (main_arg6 : FVec F S512x32 .f32) (main_arg7 : FVec F S32 .f32) (main_arg8 : FVec F S512x32 .f32) (main_arg9 : FVec F S32 .f32) (main_arg10 : FVec F S32x40 .f32) (main_arg11 : FVec F S40 .f32) (main_arg12 : FVec F S32x40 .f32) (main_arg13 : FVec F S40 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x32 .f32 := Host.absf main_arg2
  let main_cst_0 : FVec F S_ .f32 := constant S_ .f32 0x7F800000#32
  let main_v5 : FVec F S512x32 .f32 := broadcastInDim S512x32 ![] bcast_S_S512x32 main_cst_0
  let main_v6 : IVec S512x32 1 := cmpf .olt main_v4 main_v5
  let main_c_1 : IVec S_ 1 := constantI S_ 1 1#1
  let main_v7 : IVec S_ 1 := (fun x v => Host.reduce IntOp.andi x v reducesTo_S512x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S512x32 .f32 := Host.absf main_arg4
  let main_cst_4 : FVec F S_ .f32 := constant S_ .f32 0x7F800000#32
  let main_v15 : FVec F S512x32 .f32 := broadcastInDim S512x32 ![] bcast_S_S512x32 main_cst_4
  let main_v16 : IVec S512x32 1 := cmpf .olt main_v14 main_v15
  fn_part1 (F := F) main_arg5 main_arg6 main_arg7 main_arg8 main_arg9 main_arg10 main_arg11 main_arg12 main_arg13 main_v13 main_v16
-- ==== Kernel.lean ====
abbrev S100000x512 : Shape := ⟨2, ![100000, 512]⟩
abbrev S2x3200000 : Shape := ⟨2, ![2, 3200000]⟩
abbrev S512x32 : Shape := ⟨2, ![512, 32]⟩
abbrev S32 : Shape := ⟨1, ![32]⟩
abbrev S32x40 : Shape := ⟨2, ![32, 40]⟩
abbrev S40 : Shape := ⟨1, ![40]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S512x128 : Shape := ⟨2, ![512, 128]⟩
abbrev S100000x128 : Shape := ⟨2, ![100000, 128]⟩
abbrev S5000x512 : Shape := ⟨2, ![5000, 512]⟩
abbrev S5000x128 : Shape := ⟨2, ![5000, 128]⟩
abbrev S100000x32 : Shape := ⟨2, ![100000, 32]⟩
abbrev S3300000x32 : Shape := ⟨2, ![3300000, 32]⟩
abbrev S1x32 : Shape := ⟨2, ![1, 32]⟩
abbrev S32x80 : Shape := ⟨2, ![32, 80]⟩
abbrev S100000x80 : Shape := ⟨2, ![100000, 80]⟩
abbrev S10000x32 : Shape := ⟨2, ![10000, 32]⟩
abbrev S10000x80 : Shape := ⟨2, ![10000, 80]⟩
abbrev S100000x40 : Shape := ⟨2, ![100000, 40]⟩
abbrev S3300000x40 : Shape := ⟨2, ![3300000, 40]⟩
abbrev S1x40 : Shape := ⟨2, ![1, 40]⟩
abbrev S10000x40 : Shape := ⟨2, ![10000, 40]⟩
abbrev S10000 : Shape := ⟨1, ![10000]⟩
abbrev S10000x1 : Shape := ⟨2, ![10000, 1]⟩

abbrev nBuf : Space → Nat
  | .hbm => 197
  | .vmem => 16
  | .smem => 0
  | _ => 0

abbrev hbmTy0_0 (i : Nat) : BufTy := match i % 128 with
  | 0 => ⟨S100000x512, .f32⟩
  | 1 => ⟨S2x3200000, .i32⟩
  | 2 => ⟨S512x32, .f32⟩
  | 3 => ⟨S32, .f32⟩
  | 4 => ⟨S512x32, .f32⟩
  | 5 => ⟨S32, .f32⟩
  | 6 => ⟨S512x32, .f32⟩
  | 7 => ⟨S32, .f32⟩
  | 8 => ⟨S512x32, .f32⟩
  | 9 => ⟨S32, .f32⟩
  | 10 => ⟨S32x40, .f32⟩
  | 11 => ⟨S40, .f32⟩
  | 12 => ⟨S32x40, .f32⟩
  | 13 => ⟨S40, .f32⟩
  | 14 => ⟨S100000, .i32⟩
  | 15 => ⟨S1x3200000, .i32⟩
  | 16 => ⟨S3200000, .i32⟩
  | 17 => ⟨S3300000, .i32⟩
  | 18 => ⟨S1x3200000, .i32⟩
  | 19 => ⟨S3200000, .i32⟩
  | 20 => ⟨S3300000, .i32⟩
  | 21 => ⟨S_, .f32⟩
  | 22 => ⟨S3300000, .f32⟩
  | 23 => ⟨S_, .f32⟩
  | 24 => ⟨S100000, .f32⟩
  | 25 => ⟨S3300000x1, .i32⟩
  | 26 => ⟨S100000, .f32⟩
  | 27 => ⟨S_, .f32⟩
  | 28 => ⟨S100000, .f32⟩
  | 29 => ⟨S100000, .i1⟩
  | 30 => ⟨S_, .f32⟩
  | 31 => ⟨S100000, .f32⟩
  | 32 => ⟨S100000, .f32⟩
  | 33 => ⟨S100000, .f32⟩
  | 34 => ⟨S_, .f32⟩
  | 35 => ⟨S_, .f32⟩
  | 36 => ⟨S100000, .f32⟩
  | 37 => ⟨S100000, .f32⟩
  | 38 => ⟨S_, .i32⟩
  | 39 => ⟨S3300000, .i32⟩
  | 40 => ⟨S3300000, .i1⟩
  | 41 => ⟨S_, .i32⟩
  | 42 => ⟨S3300000, .i32⟩
  | 43 => ⟨S3300000, .i32⟩
  | 44 => ⟨S3300000, .i32⟩
  | 45 => ⟨S3300000x1, .i32⟩
  | 46 => ⟨S3300000, .f32⟩
  | 47 => ⟨S_, .i32⟩
  | 48 => ⟨S3300000, .i32⟩
  | 49 => ⟨S3300000, .i1⟩
  | 50 => ⟨S_, .i32⟩
  | 51 => ⟨S3300000, .i32⟩
  | 52 => ⟨S3300000, .i32⟩
  | 53 => ⟨S3300000, .i32⟩
  | 54 => ⟨S3300000x1, .i32⟩
  | 55 => ⟨S3300000, .f32⟩
  | 56 => ⟨S3300000, .f32⟩
  | 57 => ⟨S512x128, .f32⟩
  | 58 => ⟨S100000x128, .f32⟩
  | 59 => ⟨S100000x32, .f32⟩
  | 60 => ⟨S100000x32, .f32⟩
  | 61 => ⟨S100000x32, .f32⟩
  | 62 => ⟨S100000x32, .f32⟩
  | 63 => ⟨S_, .i32⟩
  | 64 => ⟨S3300000, .i32⟩
  | 65 => ⟨S3300000, .i1⟩
  | 66 => ⟨S_, .i32⟩
  | 67 => ⟨S3300000, .i32⟩
  | 68 => ⟨S3300000, .i32⟩
  | 69 => ⟨S3300000, .i32⟩
  | 70 => ⟨S3300000x1, .i32⟩
  | 71 => ⟨S3300000x32, .f32⟩
  | 72 => ⟨S3300000x1, .f32⟩
  | 73 => ⟨S3300000x32, .f32⟩
  | 74 => ⟨S3300000x32, .f32⟩
  | 75 => ⟨S_, .f32⟩
  | 76 => ⟨S100000x32, .f32⟩
  | 77 => ⟨S3300000x1, .i32⟩
  | 78 => ⟨S100000x32, .f32⟩
  | 79 => ⟨S1x32, .f32⟩
  | 80 => ⟨S100000x32, .f32⟩
  | 81 => ⟨S100000x32, .f32⟩
  | 82 => ⟨S_, .f32⟩
  | 83 => ⟨S100000x32, .f32⟩
  | 84 => ⟨S100000x32, .f32⟩
  | 85 => ⟨S_, .i32⟩
  | 86 => ⟨S3300000, .i32⟩
  | 87 => ⟨S3300000, .i1⟩
  | 88 => ⟨S_, .i32⟩
  | 89 => ⟨S3300000, .i32⟩
  | 90 => ⟨S3300000, .i32⟩
  | 91 => ⟨S3300000, .i32⟩
  | 92 => ⟨S3300000x1, .i32⟩
  | 93 => ⟨S3300000x32, .f32⟩
  | 94 => ⟨S3300000x1, .f32⟩
  | 95 => ⟨S3300000x32, .f32⟩
  | 96 => ⟨S3300000x32, .f32⟩
  | 97 => ⟨S_, .f32⟩
  | 98 => ⟨S100000x32, .f32⟩
  | 99 => ⟨S3300000x1, .i32⟩
  | 100 => ⟨S100000x32, .f32⟩
  | 101 => ⟨S1x32, .f32⟩
  | 102 => ⟨S100000x32, .f32⟩
  | 103 => ⟨S100000x32, .f32⟩
  | 104 => ⟨S_, .f32⟩
  | 105 => ⟨S100000x32, .f32⟩
  | 106 => ⟨S100000x32, .f32⟩
  | 107 => ⟨S_, .i32⟩
  | 108 => ⟨S3300000, .i32⟩
  | 109 => ⟨S3300000, .i1⟩
  | 110 => ⟨S_, .i32⟩
  | 111 => ⟨S3300000, .i32⟩
  | 112 => ⟨S3300000, .i32⟩
  | 113 => ⟨S3300000, .i32⟩
  | 114 => ⟨S3300000x1, .i32⟩
  | 115 => ⟨S3300000x32, .f32⟩
  | 116 => ⟨S3300000x1, .f32⟩
  | 117 => ⟨S3300000x32, .f32⟩
  | 118 => ⟨S3300000x32, .f32⟩
  | 119 => ⟨S_, .f32⟩
  | 120 => ⟨S100000x32, .f32⟩
  | 121 => ⟨S3300000x1, .i32⟩
  | 122 => ⟨S100000x32, .f32⟩
  | 123 => ⟨S1x32, .f32⟩
  | 124 => ⟨S100000x32, .f32⟩
  | 125 => ⟨S100000x32, .f32⟩
  | 126 => ⟨S_, .f32⟩
  | 127 => ⟨S100000x32, .f32⟩
  | _ => ⟨S100000x512, .f32⟩

abbrev hbmTy0_1 (i : Nat) : BufTy := match i % 128 with
  | 0 => ⟨S100000x32, .f32⟩
  | 1 => ⟨S_, .i32⟩
  | 2 => ⟨S3300000, .i32⟩
  | 3 => ⟨S3300000, .i1⟩
  | 4 => ⟨S_, .i32⟩
  | 5 => ⟨S3300000, .i32⟩
  | 6 => ⟨S3300000, .i32⟩
  | 7 => ⟨S3300000, .i32⟩
  | 8 => ⟨S3300000x1, .i32⟩
  | 9 => ⟨S3300000x32, .f32⟩
  | 10 => ⟨S3300000x1, .f32⟩
  | 11 => ⟨S3300000x32, .f32⟩
  | 12 => ⟨S3300000x32, .f32⟩
  | 13 => ⟨S_, .f32⟩
  | 14 => ⟨S100000x32, .f32⟩
  | 15 => ⟨S3300000x1, .i32⟩
  | 16 => ⟨S100000x32, .f32⟩
  | 17 => ⟨S1x32, .f32⟩
  | 18 => ⟨S100000x32, .f32⟩
  | 19 => ⟨S100000x32, .f32⟩
  | 20 => ⟨S_, .f32⟩
  | 21 => ⟨S100000x32, .f32⟩
  | 22 => ⟨S100000x32, .f32⟩
  | 23 => ⟨S100000x32, .f32⟩
  | 24 => ⟨S100000x32, .f32⟩
  | 25 => ⟨S100000x32, .f32⟩
  | 26 => ⟨S32x80, .f32⟩
  | 27 => ⟨S100000x80, .f32⟩
  | 28 => ⟨S100000x40, .f32⟩
  | 29 => ⟨S100000x40, .f32⟩
  | 30 => ⟨S_, .i32⟩
  | 31 => ⟨S3300000, .i32⟩
  | 32 => ⟨S3300000, .i1⟩
  | 33 => ⟨S_, .i32⟩
  | 34 => ⟨S3300000, .i32⟩
  | 35 => ⟨S3300000, .i32⟩
  | 36 => ⟨S3300000, .i32⟩
  | 37 => ⟨S3300000x1, .i32⟩
  | 38 => ⟨S3300000x40, .f32⟩
  | 39 => ⟨S3300000x1, .f32⟩
  | 40 => ⟨S3300000x40, .f32⟩
  | 41 => ⟨S3300000x40, .f32⟩
  | 42 => ⟨S_, .f32⟩
  | 43 => ⟨S100000x40, .f32⟩
  | 44 => ⟨S3300000x1, .i32⟩
  | 45 => ⟨S100000x40, .f32⟩
  | 46 => ⟨S1x40, .f32⟩
  | 47 => ⟨S100000x40, .f32⟩
  | 48 => ⟨S100000x40, .f32⟩
  | 49 => ⟨S_, .i32⟩
  | 50 => ⟨S3300000, .i32⟩
  | 51 => ⟨S3300000, .i1⟩
  | 52 => ⟨S_, .i32⟩
  | 53 => ⟨S3300000, .i32⟩
  | 54 => ⟨S3300000, .i32⟩
  | 55 => ⟨S3300000, .i32⟩
  | 56 => ⟨S3300000x1, .i32⟩
  | 57 => ⟨S3300000x40, .f32⟩
  | 58 => ⟨S3300000x1, .f32⟩
  | 59 => ⟨S3300000x40, .f32⟩
  | 60 => ⟨S3300000x40, .f32⟩
  | 61 => ⟨S_, .f32⟩
  | 62 => ⟨S100000x40, .f32⟩
  | 63 => ⟨S3300000x1, .i32⟩
  | 64 => ⟨S100000x40, .f32⟩
  | 65 => ⟨S1x40, .f32⟩
  | 66 => ⟨S100000x40, .f32⟩
  | 67 => ⟨S100000x40, .f32⟩
  | 68 => ⟨S100000x40, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | .local _ .vmem, ⟨0, _⟩ => ⟨S5000x512, .f32⟩
  | .local _ .vmem, ⟨1, _⟩ => ⟨S5000x512, .f32⟩
  | .local _ .vmem, ⟨2, _⟩ => ⟨S512x128, .f32⟩
  | .local _ .vmem, ⟨3, _⟩ => ⟨S5000x128, .f32⟩
  | .local _ .vmem, ⟨4, _⟩ => ⟨S5000x128, .f32⟩
  | .local _ .vmem, ⟨5, _⟩ => ⟨S10000x32, .f32⟩
  | .local _ .vmem, ⟨6, _⟩ => ⟨S10000x32, .f32⟩
  | .local _ .vmem, ⟨7, _⟩ => ⟨S32x80, .f32⟩
  | .local _ .vmem, ⟨8, _⟩ => ⟨S10000x80, .f32⟩
  | .local _ .vmem, ⟨9, _⟩ => ⟨S10000x80, .f32⟩
  | .local _ .vmem, ⟨10, _⟩ => ⟨S10000x40, .f32⟩
  | .local _ .vmem, ⟨11, _⟩ => ⟨S10000x40, .f32⟩
  | .local _ .vmem, ⟨12, _⟩ => ⟨S10000x40, .f32⟩
  | .local _ .vmem, ⟨13, _⟩ => ⟨S10000x40, .f32⟩
  | .local _ .vmem, ⟨14, _⟩ => ⟨S10000x40, .f32⟩
  | .local _ .vmem, ⟨15, _⟩ => ⟨S10000x40, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_cst_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_v16 : Ref sig .tc := ⟨.hbm, 37, rfl⟩
abbrev main_c : Ref sig .tc := ⟨.hbm, 38, rfl⟩
abbrev main_v17 : Ref sig .tc := ⟨.hbm, 39, rfl⟩
abbrev main_v18 : Ref sig .tc := ⟨.hbm, 40, rfl⟩
abbrev main_c_4 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_c_5 : Ref sig .tc := ⟨.hbm, 47, rfl⟩
abbrev main_v24 : Ref sig .tc := ⟨.hbm, 48, rfl⟩
abbrev main_v25 : Ref sig .tc := ⟨.hbm, 49, rfl⟩
abbrev main_c_6 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_c_7 : Ref sig .tc := ⟨.hbm, 63, rfl⟩
abbrev main_v38 : Ref sig .tc := ⟨.hbm, 64, rfl⟩
abbrev main_v39 : Ref sig .tc := ⟨.hbm, 65, rfl⟩
abbrev main_c_8 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_9 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_call1_cst : Ref sig .tc := ⟨.hbm, 82, rfl⟩
abbrev main_call1_v0 : Ref sig .tc := ⟨.hbm, 83, rfl⟩
abbrev main_v54 : Ref sig .tc := ⟨.hbm, 84, rfl⟩
abbrev main_c_10 : Ref sig .tc := ⟨.hbm, 85, rfl⟩
abbrev main_v55 : Ref sig .tc := ⟨.hbm, 86, rfl⟩
abbrev main_v56 : Ref sig .tc := ⟨.hbm, 87, rfl⟩
abbrev main_c_11 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_12 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_call2_cst : Ref sig .tc := ⟨.hbm, 104, rfl⟩
abbrev main_call2_v0 : Ref sig .tc := ⟨.hbm, 105, rfl⟩
abbrev main_v71 : Ref sig .tc := ⟨.hbm, 106, rfl⟩
abbrev main_c_13 : Ref sig .tc := ⟨.hbm, 107, rfl⟩
abbrev main_v72 : Ref sig .tc := ⟨.hbm, 108, rfl⟩
abbrev main_v73 : Ref sig .tc := ⟨.hbm, 109, rfl⟩
abbrev main_c_14 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_cst_15 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_call3_cst : Ref sig .tc := ⟨.hbm, 126, rfl⟩
abbrev main_call3_v0 : Ref sig .tc := ⟨.hbm, 127, rfl⟩
abbrev main_v88 : Ref sig .tc := ⟨.hbm, 128, rfl⟩
abbrev main_c_16 : Ref sig .tc := ⟨.hbm, 129, rfl⟩
abbrev main_v89 : Ref sig .tc := ⟨.hbm, 130, rfl⟩
abbrev main_v90 : Ref sig .tc := ⟨.hbm, 131, rfl⟩
abbrev main_c_17 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_cst_18 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_call4_cst : Ref sig .tc := ⟨.hbm, 148, rfl⟩
abbrev main_call4_v0 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_c_19 : Ref sig .tc := ⟨.hbm, 158, rfl⟩
abbrev main_v113 : Ref sig .tc := ⟨.hbm, 159, rfl⟩
abbrev main_v114 : Ref sig .tc := ⟨.hbm, 160, rfl⟩
abbrev main_c_20 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_cst_21 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_c_22 : Ref sig .tc := ⟨.hbm, 177, rfl⟩
abbrev main_v129 : Ref sig .tc := ⟨.hbm, 178, rfl⟩
abbrev main_v130 : Ref sig .tc := ⟨.hbm, 179, rfl⟩
abbrev main_c_23 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_cst_24 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x80 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x80 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x40 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  concatenates_S512x32_S512x32_S512x32_S512x32_S512x128_d1 : Shape.Concatenates [S512x32, S512x32, S512x32, S512x32] S512x128 1
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S5000x128_S5000x128_0_0 : ∀ a, (![0, 0] : Fin 2 → Nat) a + S5000x128.size a ≤ S5000x128.size a
  h_S5000x128 : 0 < S5000x128.numel
  slices_S100000x128_S100000x32_0_0 : S100000x128.Slices ![0, 0] S100000x32
  slices_S100000x128_S100000x32_0_32 : S100000x128.Slices ![0, 32] S100000x32
  slices_S100000x128_S100000x32_0_64 : S100000x128.Slices ![0, 64] S100000x32
  slices_S100000x128_S100000x32_0_96 : S100000x128.Slices ![0, 96] S100000x32
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  concatenates_S32x40_S32x40_S32x80_d1 : Shape.Concatenates [S32x40, S32x40] S32x80 1
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  inb_S32x80_S32x80_0_0 : ∀ a, (![0, 0] : Fin 2 → Nat) a + S32x80.size a ≤ S32x80.size a
  h_S32x80 : 0 < S32x80.numel
  shapeCasts_S32x80_S32x80 : S32x80.ShapeCasts S32x80
  inb_S10000x80_S10000x80_0_0 : ∀ a, (![0, 0] : Fin 2 → Nat) a + S10000x80.size a ≤ S10000x80.size a
  h_S10000x80 : 0 < S10000x80.numel
  slices_S100000x80_S100000x40_0_0 : S100000x80.Slices ![0, 0] S100000x40
  slices_S100000x80_S100000x40_0_40 : S100000x80.Slices ![0, 40] S100000x40
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  inb_S10000x40_S10000x40_0_0 : ∀ a, (![0, 0] : Fin 2 → Nat) a + S10000x40.size a ≤ S10000x40.size a
  h_S10000x40 : 0 < S10000x40.numel
  shapeCasts_S10000x40_S10000x40 : S10000x40.ShapeCasts S10000x40
  reduces_S10000x40_S10000 : S10000x40.Reduces [1] S10000
  shapeCasts_S10000_S10000x1 : S10000.ShapeCasts S10000x1
  broadcasts_S10000x1_S10000x40 : S10000x1.Broadcasts S10000x40
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x512_S512x128_S5000x128_1_0_0_1_n_n_wf : DotDims.WF S5000x512 S512x128 S5000x128 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S10000x32_S32x80_S10000x80_1_0_0_1_n_n_wf : DotDims.WF S10000x32 S32x80 S10000x80 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S100000x32.size a
  hwx1_0 : ∀ i : grid1.Coords, EltTy.bits .f32 = 32 ∨ (Rect.block (s := S100000x32) S10000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x80.size a ≤ S32x80.size a
  hwx1_1 : ∀ i : grid1.Coords, EltTy.bits .f32 = 32 ∨ (Rect.block (s := S32x80) S32x80.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x80.size a ≤ S100000x80.size a
  hwx1_2 : ∀ i : grid1.Coords, EltTy.bits .f32 = 32 ∨ (Rect.block (s := S100000x80) S10000x80.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x40.size a ≤ S100000x40.size a
  hwx2_0 : ∀ i : grid2.Coords, EltTy.bits .f32 = 32 ∨ (Rect.block (s := S100000x40) S10000x40.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x40.size a ≤ S100000x40.size a
  hwx2_1 : ∀ i : grid2.Coords, EltTy.bits .f32 = 32 ∨ (Rect.block (s := S100000x40) S10000x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x40.size a ≤ S100000x40.size a
  hwx2_2 : ∀ i : grid2.Coords, EltTy.bits .f32 = 32 ∨ (Rect.block (s := S100000x40) S10000x40.size (cc2_transform_2 i) (hinb2_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x512_S512x128_S5000x128_1_0_0_1_n_n : DotDims S5000x512 S512x128 S5000x128 where
  lhsContracting := [1]
  rhsContracting := [0]
  lhsNonContracting := [0]
  rhsNonContracting := [1]
  lhsBatch := []
  rhsBatch := []
  wf := dot_S5000x512_S512x128_S5000x128_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S10000x32_S32x80_S10000x80_1_0_0_1_n_n : DotDims S10000x32 S32x80 S10000x80 where
  lhsContracting := [1]
  rhsContracting := [0]
  lhsNonContracting := [0]
  rhsNonContracting := [1]
  lhsBatch := []
  rhsBatch := []
  wf := dot_S10000x32_S32x80_S10000x80_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v108) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v109) S32x80.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v110) S10000x80.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v128) S10000x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v144) S10000x40.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v145) S10000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x32 : Shape := ⟨2, ![512, 32]⟩
abbrev S32 : Shape := ⟨1, ![32]⟩
abbrev S32x40 : Shape := ⟨2, ![32, 40]⟩
abbrev S40 : Shape := ⟨1, ![40]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x32 : Shape := ⟨2, ![100000, 32]⟩
abbrev S3300000x32 : Shape := ⟨2, ![3300000, 32]⟩
abbrev S1x32 : Shape := ⟨2, ![1, 32]⟩
abbrev S100000x40 : Shape := ⟨2, ![100000, 40]⟩
abbrev S3300000x40 : Shape := ⟨2, ![3300000, 40]⟩
abbrev S1x40 : Shape := ⟨2, ![1, 40]⟩
abbrev S100000x1 : Shape := ⟨2, ![100000, 1]⟩

abbrev nBuf : Space → Nat
  | .hbm => 208
  | .vmem => 0
  | .smem => 0
  | _ => 0

abbrev hbmTy0_0 (i : Nat) : BufTy := match i % 128 with
  | 0 => ⟨S100000x512, .f32⟩
  | 1 => ⟨S2x3200000, .i32⟩
  | 2 => ⟨S512x32, .f32⟩
  | 3 => ⟨S32, .f32⟩
  | 4 => ⟨S512x32, .f32⟩
  | 5 => ⟨S32, .f32⟩
  | 6 => ⟨S512x32, .f32⟩
  | 7 => ⟨S32, .f32⟩
  | 8 => ⟨S512x32, .f32⟩
  | 9 => ⟨S32, .f32⟩
  | 10 => ⟨S32x40, .f32⟩
  | 11 => ⟨S40, .f32⟩
  | 12 => ⟨S32x40, .f32⟩
  | 13 => ⟨S40, .f32⟩
  | 14 => ⟨S100000, .i32⟩
  | 15 => ⟨S1x3200000, .i32⟩
  | 16 => ⟨S3200000, .i32⟩
  | 17 => ⟨S3300000, .i32⟩
  | 18 => ⟨S1x3200000, .i32⟩
  | 19 => ⟨S3200000, .i32⟩
  | 20 => ⟨S3300000, .i32⟩
  | 21 => ⟨S_, .f32⟩
  | 22 => ⟨S3300000, .f32⟩
  | 23 => ⟨S_, .f32⟩
  | 24 => ⟨S100000, .f32⟩
  | 25 => ⟨S3300000x1, .i32⟩
  | 26 => ⟨S100000, .f32⟩
  | 27 => ⟨S_, .f32⟩
  | 28 => ⟨S100000, .f32⟩
  | 29 => ⟨S100000, .i1⟩
  | 30 => ⟨S_, .f32⟩
  | 31 => ⟨S100000, .f32⟩
  | 32 => ⟨S100000, .f32⟩
  | 33 => ⟨S100000, .f32⟩
  | 34 => ⟨S_, .f32⟩
  | 35 => ⟨S_, .f32⟩
  | 36 => ⟨S100000, .f32⟩
  | 37 => ⟨S100000, .f32⟩
  | 38 => ⟨S_, .i32⟩
  | 39 => ⟨S3300000, .i32⟩
  | 40 => ⟨S3300000, .i1⟩
  | 41 => ⟨S_, .i32⟩
  | 42 => ⟨S3300000, .i32⟩
  | 43 => ⟨S3300000, .i32⟩
  | 44 => ⟨S3300000, .i32⟩
  | 45 => ⟨S3300000x1, .i32⟩
  | 46 => ⟨S3300000, .f32⟩
  | 47 => ⟨S_, .i32⟩
  | 48 => ⟨S3300000, .i32⟩
  | 49 => ⟨S3300000, .i1⟩
  | 50 => ⟨S_, .i32⟩
  | 51 => ⟨S3300000, .i32⟩
  | 52 => ⟨S3300000, .i32⟩
  | 53 => ⟨S3300000, .i32⟩
  | 54 => ⟨S3300000x1, .i32⟩
  | 55 => ⟨S3300000, .f32⟩
  | 56 => ⟨S3300000, .f32⟩
  | 57 => ⟨S100000x32, .f32⟩
  | 58 => ⟨S_, .i32⟩
  | 59 => ⟨S3300000, .i32⟩
  | 60 => ⟨S3300000, .i1⟩
  | 61 => ⟨S_, .i32⟩
  | 62 => ⟨S3300000, .i32⟩
  | 63 => ⟨S3300000, .i32⟩
  | 64 => ⟨S3300000, .i32⟩
  | 65 => ⟨S3300000x1, .i32⟩
  | 66 => ⟨S3300000x32, .f32⟩
  | 67 => ⟨S3300000x1, .f32⟩
  | 68 => ⟨S3300000x32, .f32⟩
  | 69 => ⟨S3300000x32, .f32⟩
  | 70 => ⟨S_, .f32⟩
  | 71 => ⟨S100000x32, .f32⟩
  | 72 => ⟨S3300000x1, .i32⟩
  | 73 => ⟨S100000x32, .f32⟩
  | 74 => ⟨S1x32, .f32⟩
  | 75 => ⟨S100000x32, .f32⟩
  | 76 => ⟨S100000x32, .f32⟩
  | 77 => ⟨S_, .f32⟩
  | 78 => ⟨S100000x32, .f32⟩
  | 79 => ⟨S100000x32, .f32⟩
  | 80 => ⟨S100000x32, .f32⟩
  | 81 => ⟨S_, .i32⟩
  | 82 => ⟨S3300000, .i32⟩
  | 83 => ⟨S3300000, .i1⟩
  | 84 => ⟨S_, .i32⟩
  | 85 => ⟨S3300000, .i32⟩
  | 86 => ⟨S3300000, .i32⟩
  | 87 => ⟨S3300000, .i32⟩
  | 88 => ⟨S3300000x1, .i32⟩
  | 89 => ⟨S3300000x32, .f32⟩
  | 90 => ⟨S3300000x1, .f32⟩
  | 91 => ⟨S3300000x32, .f32⟩
  | 92 => ⟨S3300000x32, .f32⟩
  | 93 => ⟨S_, .f32⟩
  | 94 => ⟨S100000x32, .f32⟩
  | 95 => ⟨S3300000x1, .i32⟩
  | 96 => ⟨S100000x32, .f32⟩
  | 97 => ⟨S1x32, .f32⟩
  | 98 => ⟨S100000x32, .f32⟩
  | 99 => ⟨S100000x32, .f32⟩
  | 100 => ⟨S_, .f32⟩
  | 101 => ⟨S100000x32, .f32⟩
  | 102 => ⟨S100000x32, .f32⟩
  | 103 => ⟨S100000x32, .f32⟩
  | 104 => ⟨S100000x32, .f32⟩
  | 105 => ⟨S_, .i32⟩
  | 106 => ⟨S3300000, .i32⟩
  | 107 => ⟨S3300000, .i1⟩
  | 108 => ⟨S_, .i32⟩
  | 109 => ⟨S3300000, .i32⟩
  | 110 => ⟨S3300000, .i32⟩
  | 111 => ⟨S3300000, .i32⟩
  | 112 => ⟨S3300000x1, .i32⟩
  | 113 => ⟨S3300000x32, .f32⟩
  | 114 => ⟨S3300000x1, .f32⟩
  | 115 => ⟨S3300000x32, .f32⟩
  | 116 => ⟨S3300000x32, .f32⟩
  | 117 => ⟨S_, .f32⟩
  | 118 => ⟨S100000x32, .f32⟩
  | 119 => ⟨S3300000x1, .i32⟩
  | 120 => ⟨S100000x32, .f32⟩
  | 121 => ⟨S1x32, .f32⟩
  | 122 => ⟨S100000x32, .f32⟩
  | 123 => ⟨S100000x32, .f32⟩
  | 124 => ⟨S_, .f32⟩
  | 125 => ⟨S100000x32, .f32⟩
  | 126 => ⟨S100000x32, .f32⟩
  | 127 => ⟨S100000x32, .f32⟩
  | _ => ⟨S100000x512, .f32⟩

abbrev hbmTy0_1 (i : Nat) : BufTy := match i % 128 with
  | 0 => ⟨S_, .i32⟩
  | 1 => ⟨S3300000, .i32⟩
  | 2 => ⟨S3300000, .i1⟩
  | 3 => ⟨S_, .i32⟩
  | 4 => ⟨S3300000, .i32⟩
  | 5 => ⟨S3300000, .i32⟩
  | 6 => ⟨S3300000, .i32⟩
  | 7 => ⟨S3300000x1, .i32⟩
  | 8 => ⟨S3300000x32, .f32⟩
  | 9 => ⟨S3300000x1, .f32⟩
  | 10 => ⟨S3300000x32, .f32⟩
  | 11 => ⟨S3300000x32, .f32⟩
  | 12 => ⟨S_, .f32⟩
  | 13 => ⟨S100000x32, .f32⟩
  | 14 => ⟨S3300000x1, .i32⟩
  | 15 => ⟨S100000x32, .f32⟩
  | 16 => ⟨S1x32, .f32⟩
  | 17 => ⟨S100000x32, .f32⟩
  | 18 => ⟨S100000x32, .f32⟩
  | 19 => ⟨S_, .f32⟩
  | 20 => ⟨S100000x32, .f32⟩
  | 21 => ⟨S100000x32, .f32⟩
  | 22 => ⟨S100000x32, .f32⟩
  | 23 => ⟨S100000x32, .f32⟩
  | 24 => ⟨S100000x40, .f32⟩
  | 25 => ⟨S_, .i32⟩
  | 26 => ⟨S3300000, .i32⟩
  | 27 => ⟨S3300000, .i1⟩
  | 28 => ⟨S_, .i32⟩
  | 29 => ⟨S3300000, .i32⟩
  | 30 => ⟨S3300000, .i32⟩
  | 31 => ⟨S3300000, .i32⟩
  | 32 => ⟨S3300000x1, .i32⟩
  | 33 => ⟨S3300000x40, .f32⟩
  | 34 => ⟨S3300000x1, .f32⟩
  | 35 => ⟨S3300000x40, .f32⟩
  | 36 => ⟨S3300000x40, .f32⟩
  | 37 => ⟨S_, .f32⟩
  | 38 => ⟨S100000x40, .f32⟩
  | 39 => ⟨S3300000x1, .i32⟩
  | 40 => ⟨S100000x40, .f32⟩
  | 41 => ⟨S1x40, .f32⟩
  | 42 => ⟨S100000x40, .f32⟩
  | 43 => ⟨S100000x40, .f32⟩
  | 44 => ⟨S100000x40, .f32⟩
  | 45 => ⟨S_, .i32⟩
  | 46 => ⟨S3300000, .i32⟩
  | 47 => ⟨S3300000, .i1⟩
  | 48 => ⟨S_, .i32⟩
  | 49 => ⟨S3300000, .i32⟩
  | 50 => ⟨S3300000, .i32⟩
  | 51 => ⟨S3300000, .i32⟩
  | 52 => ⟨S3300000x1, .i32⟩
  | 53 => ⟨S3300000x40, .f32⟩
  | 54 => ⟨S3300000x1, .f32⟩
  | 55 => ⟨S3300000x40, .f32⟩
  | 56 => ⟨S3300000x40, .f32⟩
  | 57 => ⟨S_, .f32⟩
  | 58 => ⟨S100000x40, .f32⟩
  | 59 => ⟨S3300000x1, .i32⟩
  | 60 => ⟨S100000x40, .f32⟩
  | 61 => ⟨S1x40, .f32⟩
  | 62 => ⟨S100000x40, .f32⟩
  | 63 => ⟨S100000x40, .f32⟩
  | 64 => ⟨S100000x40, .f32⟩
  | 65 => ⟨S_, .f32⟩
  | 66 => ⟨S100000, .f32⟩
  | 67 => ⟨S_, .f32⟩
  | 68 => ⟨S100000, .f32⟩
  | 69 => ⟨S100000, .f32⟩
  | 70 => ⟨S100000x1, .f32⟩
  | 71 => ⟨S100000x40, .f32⟩
  | 72 => ⟨S100000x40, .f32⟩
  | 73 => ⟨S100000x40, .f32⟩
  | 74 => ⟨S_, .f32⟩
  | 75 => ⟨S100000, .f32⟩
  | 76 => ⟨S100000x1, .f32⟩
  | 77 => ⟨S100000x1, .f32⟩
  | 78 => ⟨S100000x40, .f32⟩
  | 79 => ⟨S100000x40, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_cst_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_v16 : Ref sig .tc := ⟨.hbm, 37, rfl⟩
abbrev main_c : Ref sig .tc := ⟨.hbm, 38, rfl⟩
abbrev main_v17 : Ref sig .tc := ⟨.hbm, 39, rfl⟩
abbrev main_v18 : Ref sig .tc := ⟨.hbm, 40, rfl⟩
abbrev main_c_4 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_c_5 : Ref sig .tc := ⟨.hbm, 47, rfl⟩
abbrev main_v24 : Ref sig .tc := ⟨.hbm, 48, rfl⟩
abbrev main_v25 : Ref sig .tc := ⟨.hbm, 49, rfl⟩
abbrev main_c_6 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_c_7 : Ref sig .tc := ⟨.hbm, 58, rfl⟩
abbrev main_v33 : Ref sig .tc := ⟨.hbm, 59, rfl⟩
abbrev main_v34 : Ref sig .tc := ⟨.hbm, 60, rfl⟩
abbrev main_c_8 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_cst_9 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_call1_cst : Ref sig .tc := ⟨.hbm, 77, rfl⟩
abbrev main_call1_v0 : Ref sig .tc := ⟨.hbm, 78, rfl⟩
abbrev main_v49 : Ref sig .tc := ⟨.hbm, 79, rfl⟩
abbrev main_v50 : Ref sig .tc := ⟨.hbm, 80, rfl⟩
abbrev main_c_10 : Ref sig .tc := ⟨.hbm, 81, rfl⟩
abbrev main_v51 : Ref sig .tc := ⟨.hbm, 82, rfl⟩
abbrev main_v52 : Ref sig .tc := ⟨.hbm, 83, rfl⟩
abbrev main_c_11 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_12 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_call2_cst : Ref sig .tc := ⟨.hbm, 100, rfl⟩
abbrev main_call2_v0 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_c_13 : Ref sig .tc := ⟨.hbm, 105, rfl⟩
abbrev main_v70 : Ref sig .tc := ⟨.hbm, 106, rfl⟩
abbrev main_v71 : Ref sig .tc := ⟨.hbm, 107, rfl⟩
abbrev main_c_14 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_cst_15 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_call3_cst : Ref sig .tc := ⟨.hbm, 124, rfl⟩
abbrev main_call3_v0 : Ref sig .tc := ⟨.hbm, 125, rfl⟩
abbrev main_v86 : Ref sig .tc := ⟨.hbm, 126, rfl⟩
abbrev main_v87 : Ref sig .tc := ⟨.hbm, 127, rfl⟩
abbrev main_c_16 : Ref sig .tc := ⟨.hbm, 128, rfl⟩
abbrev main_v88 : Ref sig .tc := ⟨.hbm, 129, rfl⟩
abbrev main_v89 : Ref sig .tc := ⟨.hbm, 130, rfl⟩
abbrev main_c_17 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_cst_18 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_call4_cst : Ref sig .tc := ⟨.hbm, 147, rfl⟩
abbrev main_call4_v0 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_c_19 : Ref sig .tc := ⟨.hbm, 153, rfl⟩
abbrev main_v108 : Ref sig .tc := ⟨.hbm, 154, rfl⟩
abbrev main_v109 : Ref sig .tc := ⟨.hbm, 155, rfl⟩
abbrev main_c_20 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_cst_21 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_c_22 : Ref sig .tc := ⟨.hbm, 173, rfl⟩
abbrev main_v125 : Ref sig .tc := ⟨.hbm, 174, rfl⟩
abbrev main_v126 : Ref sig .tc := ⟨.hbm, 175, rfl⟩
abbrev main_c_23 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_cst_24 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_call5_cst : Ref sig .tc := ⟨.hbm, 193, rfl⟩
abbrev main_call5_v0 : Ref sig .tc := ⟨.hbm, 194, rfl⟩
abbrev main_call5_cst_0 : Ref sig .tc := ⟨.hbm, 195, rfl⟩
abbrev main_call5_v1 : Ref sig .tc := ⟨.hbm, 196, rfl⟩
abbrev main_call5_v2 : Ref sig .tc := ⟨.hbm, 197, rfl⟩
abbrev main_call5_v3 : Ref sig .tc := ⟨.hbm, 198, rfl⟩
abbrev main_call5_v4 : Ref sig .tc := ⟨.hbm, 199, rfl⟩
abbrev main_call5_v5 : Ref sig .tc := ⟨.hbm, 200, rfl⟩
abbrev main_call5_v6 : Ref sig .tc := ⟨.hbm, 201, rfl⟩
abbrev main_call5_cst_1 : Ref sig .tc := ⟨.hbm, 202, rfl⟩
abbrev main_call5_v7 : Ref sig .tc := ⟨.hbm, 203, rfl⟩
abbrev main_call5_v8 : Ref sig .tc := ⟨.hbm, 204, rfl⟩
abbrev main_call5_v9 : Ref sig .tc := ⟨.hbm, 205, rfl⟩
abbrev main_call5_v10 : Ref sig .tc := ⟨.hbm, 206, rfl⟩
abbrev main_v142 : Ref sig .tc := ⟨.hbm, 207, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x512_S512x32_S100000x32_1_0_0_1_n_n_wf : DotDims.WF S100000x512 S512x32 S100000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S100000x32_S32x40_S100000x40_1_0_0_1_n_n_wf : DotDims.WF S100000x32 S32x40 S100000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x512_S512x32_S100000x32_1_0_0_1_n_n : DotDims S100000x512 S512x32 S100000x32 where
  lhsContracting := [1]
  rhsContracting := [0]
  lhsNonContracting := [0]
  rhsNonContracting := [1]
  lhsBatch := []
  rhsBatch := []
  wf := dot_S100000x512_S512x32_S100000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S100000x32_S32x40_S100000x40_1_0_0_1_n_n : DotDims S100000x32 S32x40 S100000x40 where
  lhsContracting := [1]
  rhsContracting := [0]
  lhsNonContracting := [0]
  rhsNonContracting := [1]
  lhsBatch := []
  rhsBatch := []
  wf := dot_S100000x32_S32x40_S100000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf

class Facts : Prop extends Facts₀ where

variable [Facts]
-- ==== Proof.BitsFrame.Region0.lean ====
/-
  Region 0 of the program (the node features against the four stacked first-layer weight matrices), on its own: what one grid point's body leaves in the result's staging buffer, that
  the body runs to its end from the three staging buffers held whole, and the bookkeeping the pipeline asks of a region
  (which array each window cuts its blocks from, what each buffer holds after the body at each point).

  Everything is stated at an arbitrary valuation `V` of the unscoped buffers — what the region finds when it is
  entered — and for any float values `F`: nothing here depends on what the numbers mean.

  The body loads the two input buffers whole, stores ONE value — a pure function of the two loads — over the whole of the
  result's buffer, and returns. So after the body the result's buffer holds that value, whatever it held before, and the
  inputs' buffers hold what they held. An input window's buffer holds its block of the entry array at every point,
  whether or not the pipeline fetched it there: where it did not, the block index has not moved.
-/
import proofs.«138793_j80530636800127_1_alg».proof.Proof.Gen.Kernel.Launch
import proofs.«138793_j80530636800127_1_alg».proof.Proof.Gen.Kernel.Skeleton
import proofs.«138793_j80530636800127_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rows of its array (as the region finds it) that the point works on. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first input's staging buffer holds its block at every point, fetched there or not. -/
theorem in0_0_held {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- The second input's staging buffer holds its block at every point, fetched there or not. -/
theorem in0_1_held {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-- The whole of each staging buffer as a rectangle: what the body's loads and its one store go through. -/
abbrev whole0_in0 : Rect S5000x512 := Rect.unit (s := S5000x512) ![0, 0] S5000x512.size inb_S5000x512_S5000x512_0_0
abbrev whole0_in1 : Rect S512x128 := Rect.unit (s := S512x128) ![0, 0] S512x128.size inb_S512x128_S512x128_0_0
abbrev whole0_out : Rect S5000x128 := Rect.unit (s := S5000x128) ![0, 0] S5000x128.size inb_S5000x128_S5000x128_0_0

/-- What the result's staging buffer holds after the body, from the two inputs' buffers: the one stored value, laid over
    the whole buffer. -/
def result0 (x0 : Vec F S5000x512 .f32) (x1 : Vec F S512x128 .f32) : Vec F S5000x128 .f32 :=
  View.canon [⟨whole0_out, k0_pay1 (View.ld x0 whole0_in0) (View.ld x1 whole0_in1)⟩]

/-- The one store covers the buffer. -/
theorem stored0_covers (p0 : Vec F S5000x128 .f32) (y : S5000x128.Idx) :
    ∃ pc ∈ ([⟨whole0_out, p0⟩] : List (View.Piece (Elt F) S5000x128 .f32)), y ∈ pc.1.set :=
  View.cover_of_tiled [⟨whole0_out, p0⟩] S5000x128.size (by rfl) y

set_option maxHeartbeats 4000000 in
/-- The body, from its three staging buffers held whole — the inputs' at known contents, the result's at anything —, runs
    to its return with the inputs' as they were and the result's at `result0` of them. -/
theorem body0_runs (c : Dev nD) (E : Set ℕ) (i : grid0.Coords)
    (arg1 : Memref sig .tc .vmem S5000x512 .f32) (harg1 : arg1.IsWhole) (arg2 : Memref sig .tc .vmem S512x128 .f32) (harg2 : arg2.IsWhole)
    (arg3 : Memref sig .tc .vmem S5000x128 .f32) (harg3 : arg3.IsWhole)
    (x0 : Vec F S5000x512 .f32) (x1 : Vec F S512x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (result0 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (stored0_covers _)

/-- The region's proof data on core `c`: each window's array is the entry valuation's; after the body at point `t` an input's
    buffer holds its block and the result's holds `result0` of the two input blocks; nothing is owed to anyone. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => result0 (blk0 V c 0 t) (blk0 V c 1 t)
  Φ _ := Pipeline.ΦA spec0 c
  q _ := fullShare
  owed _ := 0

theorem dat0_A (c : Dev nD) (w : Fin cfg0.W) : (dat0 V c).A w = V c (Pipeline.arrRef spec0 w) := by
  dsimp only [dat0]

theorem dat0_after_0 (c : Dev nD) (t : Fin cfg0.N) : (dat0 V c).after 0 t = blk0 V c 0 t := by dsimp only [dat0]
theorem dat0_after_1 (c : Dev nD) (t : Fin cfg0.N) : (dat0 V c).after 1 t = blk0 V c 1 t := by dsimp only [dat0]
theorem dat0_after_2 (c : Dev nD) (t : Fin cfg0.N) :
    (dat0 V c).after 2 t = result0 (blk0 V c 0 t) (blk0 V c 1 t) := by dsimp only [dat0]

theorem dat0_before_0 (c : Dev nD) (t : Fin cfg0.N) (d) : (dat0 V c).before 0 t d = blk0 V c 0 t :=
  in0_0_held V (dat0 V c) (dat0_A V c 0) (dat0_after_0 V c) t d
theorem dat0_before_1 (c : Dev nD) (t : Fin cfg0.N) (d) : (dat0 V c).before 1 t d = blk0 V c 1 t :=
  in0_1_held V (dat0 V c) (dat0_A V c 1) (dat0_after_1 V c) t d

/-- What the pipeline hands the body at point `t`, -/
def handed0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what the body hands back. -/
def returned0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so `body0_runs` applies; the invariant and what the core
    owes pass through untouched. -/
theorem body0_at (c : Dev nD) (t : Fin cfg0.N) :
    handed0 V c t ⊢ wp frame (wpE (defs₀ (F := F)) Variants.none c none) Set.univ (bodyAt0 t) (fun _ => returned0 V c t) := by
  unfold handed0 returned0 bodyAt0
  simp only [dat0_before_0, dat0_before_1]
  rw [show (dat0 V c).Φ t.succ = (dat0 V c).Φ t.castSucc from rfl,
    show (dat0 V c).owesAt () t.succ = (dat0 V c).owesAt () t.castSucc from rfl,
    dat0_after_0, dat0_after_1, dat0_after_2]
  iintro ⟨HΦ, Ho, ⟨%d0, H0⟩, ⟨%d1, H1⟩, ⟨%d2, H2⟩⟩
  iapply (body0_runs c Set.univ _ _ _ _ _ _ _ (blk0 V c 0 t) (blk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's obligation on the body, at every point. -/
theorem body0_obligation (c : Dev nD) : BodyObligation (dat0 (F := F) V c) (defs₀ (F := F)) Variants.none () Set.univ := fun t => by
  rw [bigSep_W0, bigSep_W0]
  exact body0_at V c t

end Cert.Kernel.Hand

end
-- ==== Proof.BitsFrame.Region1.lean ====
/-
  Region 1 of the program (the hidden features against the two stacked class-layer weight matrices), on its own: what one grid point's body leaves in the result's staging buffer, that
  the body runs to its end from the three staging buffers held whole, and the bookkeeping the pipeline asks of a region
  (which array each window cuts its blocks from, what each buffer holds after the body at each point).

  Everything is stated at an arbitrary valuation `V` of the unscoped buffers — what the region finds when it is
  entered — and for any float values `F`: nothing here depends on what the numbers mean.

  The body loads the two input buffers whole, stores ONE value — a pure function of the two loads — over the whole of the
  result's buffer, and returns. So after the body the result's buffer holds that value, whatever it held before, and the
  inputs' buffers hold what they held. An input window's buffer holds its block of the entry array at every point,
  whether or not the pipeline fetched it there: where it did not, the block index has not moved.
-/
import proofs.«138793_j80530636800127_1_alg».proof.Proof.Gen.Kernel.Launch
import proofs.«138793_j80530636800127_1_alg».proof.Proof.Gen.Kernel.Skeleton
import proofs.«138793_j80530636800127_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rows of its array (as the region finds it) that the point works on. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first input's staging buffer holds its block at every point, fetched there or not. -/
theorem in1_0_held {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- The second input's staging buffer holds its block at every point, fetched there or not. -/
theorem in1_1_held {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-- The whole of each staging buffer as a rectangle: what the body's loads and its one store go through. -/
abbrev whole1_in0 : Rect S10000x32 := Rect.unit (s := S10000x32) ![0, 0] S10000x32.size inb_S10000x32_S10000x32_0_0
abbrev whole1_in1 : Rect S32x80 := Rect.unit (s := S32x80) ![0, 0] S32x80.size inb_S32x80_S32x80_0_0
abbrev whole1_out : Rect S10000x80 := Rect.unit (s := S10000x80) ![0, 0] S10000x80.size inb_S10000x80_S10000x80_0_0

/-- What the result's staging buffer holds after the body, from the two inputs' buffers: the one stored value, laid over
    the whole buffer. -/
def result1 (x0 : Vec F S10000x32 .f32) (x1 : Vec F S32x80 .f32) : Vec F S10000x80 .f32 :=
  View.canon [⟨whole1_out, k1_pay1 (View.ld x0 whole1_in0) (View.ld x1 whole1_in1)⟩]

/-- The one store covers the buffer. -/
theorem stored1_covers (p0 : Vec F S10000x80 .f32) (y : S10000x80.Idx) :
    ∃ pc ∈ ([⟨whole1_out, p0⟩] : List (View.Piece (Elt F) S10000x80 .f32)), y ∈ pc.1.set :=
  View.cover_of_tiled [⟨whole1_out, p0⟩] S10000x80.size (by rfl) y

set_option maxHeartbeats 4000000 in
/-- The body, from its three staging buffers held whole — the inputs' at known contents, the result's at anything —, runs
    to its return with the inputs' as they were and the result's at `result1` of them. -/
theorem body1_runs (c : Dev nD) (E : Set ℕ) (i : grid1.Coords)
    (arg1 : Memref sig .tc .vmem S10000x32 .f32) (harg1 : arg1.IsWhole) (arg2 : Memref sig .tc .vmem S32x80 .f32) (harg2 : arg2.IsWhole)
    (arg3 : Memref sig .tc .vmem S10000x80 .f32) (harg3 : arg3.IsWhole)
    (x0 : Vec F S10000x32 .f32) (x1 : Vec F S32x80 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (result1 x0 x1)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (stored1_covers _)

/-- The region's proof data on core `c`: each window's array is the entry valuation's; after the body at point `t` an input's
    buffer holds its block and the result's holds `result1` of the two input blocks; nothing is owed to anyone. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => result1 (blk1 V c 0 t) (blk1 V c 1 t)
  Φ _ := Pipeline.ΦA spec1 c
  q _ := fullShare
  owed _ := 0

theorem dat1_A (c : Dev nD) (w : Fin cfg1.W) : (dat1 V c).A w = V c (Pipeline.arrRef spec1 w) := by
  dsimp only [dat1]

theorem dat1_after_0 (c : Dev nD) (t : Fin cfg1.N) : (dat1 V c).after 0 t = blk1 V c 0 t := by dsimp only [dat1]
theorem dat1_after_1 (c : Dev nD) (t : Fin cfg1.N) : (dat1 V c).after 1 t = blk1 V c 1 t := by dsimp only [dat1]
theorem dat1_after_2 (c : Dev nD) (t : Fin cfg1.N) :
    (dat1 V c).after 2 t = result1 (blk1 V c 0 t) (blk1 V c 1 t) := by dsimp only [dat1]

theorem dat1_before_0 (c : Dev nD) (t : Fin cfg1.N) (d) : (dat1 V c).before 0 t d = blk1 V c 0 t :=
  in1_0_held V (dat1 V c) (dat1_A V c 0) (dat1_after_0 V c) t d
theorem dat1_before_1 (c : Dev nD) (t : Fin cfg1.N) (d) : (dat1 V c).before 1 t d = blk1 V c 1 t :=
  in1_1_held V (dat1 V c) (dat1_A V c 1) (dat1_after_1 V c) t d

/-- What the pipeline hands the body at point `t`, -/
def handed1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what the body hands back. -/
def returned1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so `body1_runs` applies; the invariant and what the core
    owes pass through untouched. -/
theorem body1_at (c : Dev nD) (t : Fin cfg1.N) :
    handed1 V c t ⊢ wp frame (wpE (defs₀ (F := F)) Variants.none c none) Set.univ (bodyAt1 t) (fun _ => returned1 V c t) := by
  unfold handed1 returned1 bodyAt1
  simp only [dat1_before_0, dat1_before_1]
  rw [show (dat1 V c).Φ t.succ = (dat1 V c).Φ t.castSucc from rfl,
    show (dat1 V c).owesAt () t.succ = (dat1 V c).owesAt () t.castSucc from rfl,
    dat1_after_0, dat1_after_1, dat1_after_2]
  iintro ⟨HΦ, Ho, ⟨%d0, H0⟩, ⟨%d1, H1⟩, ⟨%d2, H2⟩⟩
  iapply (body1_runs c Set.univ _ _ _ _ _ _ _ (blk1 V c 0 t) (blk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's obligation on the body, at every point. -/
theorem body1_obligation (c : Dev nD) : BodyObligation (dat1 (F := F) V c) (defs₀ (F := F)) Variants.none () Set.univ := fun t => by
  rw [bigSep_W1, bigSep_W1]
  exact body1_at V c t

end Cert.Kernel.Hand

end
-- ==== Proof.BitsFrame.Region2.lean ====
/-
  Region 2 of the program (the row-wise log-softmax of the sum of the two class-layer aggregations), on its own: what one grid point's body leaves in the result's staging buffer, that
  the body runs to its end from the three staging buffers held whole, and the bookkeeping the pipeline asks of a region
  (which array each window cuts its blocks from, what each buffer holds after the body at each point).

  Everything is stated at an arbitrary valuation `V` of the unscoped buffers — what the region finds when it is
  entered — and for any float values `F`: nothing here depends on what the numbers mean.

  The body loads the two input buffers whole, stores ONE value — a pure function of the two loads — over the whole of the
  result's buffer, and returns. So after the body the result's buffer holds that value, whatever it held before, and the
  inputs' buffers hold what they held. An input window's buffer holds its block of the entry array at every point,
  whether or not the pipeline fetched it there: where it did not, the block index has not moved.
-/
import proofs.«138793_j80530636800127_1_alg».proof.Proof.Gen.Kernel.Launch
import proofs.«138793_j80530636800127_1_alg».proof.Proof.Gen.Kernel.Skeleton
import proofs.«138793_j80530636800127_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rows of its array (as the region finds it) that the point works on. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The first input's staging buffer holds its block at every point, fetched there or not. -/
theorem in2_0_held {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)

/-- The second input's staging buffer holds its block at every point, fetched there or not. -/
theorem in2_1_held {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)

/-- The whole of each staging buffer as a rectangle: what the body's loads and its one store go through. -/
abbrev whole2_in0 : Rect S10000x40 := Rect.unit (s := S10000x40) ![0, 0] S10000x40.size inb_S10000x40_S10000x40_0_0
abbrev whole2_in1 : Rect S10000x40 := Rect.unit (s := S10000x40) ![0, 0] S10000x40.size inb_S10000x40_S10000x40_0_0
abbrev whole2_out : Rect S10000x40 := Rect.unit (s := S10000x40) ![0, 0] S10000x40.size inb_S10000x40_S10000x40_0_0

/-- What the result's staging buffer holds after the body, from the two inputs' buffers: the one stored value, laid over
    the whole buffer. -/
def result2 (x0 : Vec F S10000x40 .f32) (x1 : Vec F S10000x40 .f32) : Vec F S10000x40 .f32 :=
  View.canon [⟨whole2_out, k2_pay1 (View.ld x0 whole2_in0) (View.ld x1 whole2_in1)⟩]

/-- The one store covers the buffer. -/
theorem stored2_covers (p0 : Vec F S10000x40 .f32) (y : S10000x40.Idx) :
    ∃ pc ∈ ([⟨whole2_out, p0⟩] : List (View.Piece (Elt F) S10000x40 .f32)), y ∈ pc.1.set :=
  View.cover_of_tiled [⟨whole2_out, p0⟩] S10000x40.size (by rfl) y

set_option maxHeartbeats 4000000 in
/-- The body, from its three staging buffers held whole — the inputs' at known contents, the result's at anything —, runs
    to its return with the inputs' as they were and the result's at `result2` of them. -/
theorem body2_runs (c : Dev nD) (E : Set ℕ) (i : grid2.Coords)
    (arg1 : Memref sig .tc .vmem S10000x40 .f32) (harg1 : arg1.IsWhole) (arg2 : Memref sig .tc .vmem S10000x40 .f32) (harg2 : arg2.IsWhole)
    (arg3 : Memref sig .tc .vmem S10000x40 .f32) (harg3 : arg3.IsWhole)
    (x0 : Vec F S10000x40 .f32) (x1 : Vec F S10000x40 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (result2 x0 x1)) -∗ K ⟨⟩))
      ⊢ wp frame (wpE (defs₀ (F := F)) Variants.none c none) E (cc2__logsoftmax_kernel i arg1 harg1 arg2 harg2 arg3 harg3) K := by
  simp only [cc2__logsoftmax_kernel_eq_skeleton]; unfold cc2__logsoftmax_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (stored2_covers _)

/-- The region's proof data on core `c`: each window's array is the entry valuation's; after the body at point `t` an input's
    buffer holds its block and the result's holds `result2` of the two input blocks; nothing is owed to anyone. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => result2 (blk2 V c 0 t) (blk2 V c 1 t)
  Φ _ := Pipeline.ΦA spec2 c
  q _ := fullShare
  owed _ := 0

theorem dat2_A (c : Dev nD) (w : Fin cfg2.W) : (dat2 V c).A w = V c (Pipeline.arrRef spec2 w) := by
  dsimp only [dat2]

theorem dat2_after_0 (c : Dev nD) (t : Fin cfg2.N) : (dat2 V c).after 0 t = blk2 V c 0 t := by dsimp only [dat2]
theorem dat2_after_1 (c : Dev nD) (t : Fin cfg2.N) : (dat2 V c).after 1 t = blk2 V c 1 t := by dsimp only [dat2]
theorem dat2_after_2 (c : Dev nD) (t : Fin cfg2.N) :
    (dat2 V c).after 2 t = result2 (blk2 V c 0 t) (blk2 V c 1 t) := by dsimp only [dat2]

theorem dat2_before_0 (c : Dev nD) (t : Fin cfg2.N) (d) : (dat2 V c).before 0 t d = blk2 V c 0 t :=
  in2_0_held V (dat2 V c) (dat2_A V c 0) (dat2_after_0 V c) t d
theorem dat2_before_1 (c : Dev nD) (t : Fin cfg2.N) (d) : (dat2 V c).before 1 t d = blk2 V c 1 t :=
  in2_1_held V (dat2 V c) (dat2_A V c 1) (dat2_after_1 V c) t d

/-- What the pipeline hands the body at point `t`, -/
def handed2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what the body hands back. -/
def returned2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so `body2_runs` applies; the invariant and what the core
    owes pass through untouched. -/
theorem body2_at (c : Dev nD) (t : Fin cfg2.N) :
    handed2 V c t ⊢ wp frame (wpE (defs₀ (F := F)) Variants.none c none) Set.univ (bodyAt2 t) (fun _ => returned2 V c t) := by
  unfold handed2 returned2 bodyAt2
  simp only [dat2_before_0, dat2_before_1]
  rw [show (dat2 V c).Φ t.succ = (dat2 V c).Φ t.castSucc from rfl,
    show (dat2 V c).owesAt () t.succ = (dat2 V c).owesAt () t.castSucc from rfl,
    dat2_after_0, dat2_after_1, dat2_after_2]
  iintro ⟨HΦ, Ho, ⟨%d0, H0⟩, ⟨%d1, H1⟩, ⟨%d2, H2⟩⟩
  iapply (body2_runs c Set.univ _ _ _ _ _ _ _ (blk2 V c 0 t) (blk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's obligation on the body, at every point. -/
theorem body2_obligation (c : Dev nD) : BodyObligation (dat2 (F := F) V c) (defs₀ (F := F)) Variants.none () Set.univ := fun t => by
  rw [bigSep_W2, bigSep_W2]
  exact body2_at V c t

end Cert.Kernel.Hand

end
-- ==== Proof.BitsFrame.Run.lean ====
/-
  The whole program as one run: @main is sixteen items in a row — stretches of host operations and the three kernel
  regions — and between two items every unscoped buffer of the core holds known contents:

    B0            the launch memory
    B(j+1)        after a host stretch: what its operations compute from Bj (`StableHlo.after`)
    B4, B14, B16  after a region: the region's arrays at what its grid points wrote back, every other buffer as it was

  Each region is entered from the valuation before it (its proof data are taken there) and left at the one after it; a host
  stretch runs by the library's rule for a line of host operations. The run's conclusion names EVERY unscoped buffer at
  the last valuation `B16`: the frame (no argument is ever written, so `B16` at an argument is the launch memory) and the
  result's value are both read off it.
-/
import proofs.«138793_j80530636800127_1_alg».proof.Proof.BitsFrame.Region0
import proofs.«138793_j80530636800127_1_alg».proof.Proof.BitsFrame.Region1
import proofs.«138793_j80530636800127_1_alg».proof.Proof.BitsFrame.Region2
import proofs.«138793_j80530636800127_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers between two items -/

/-- Core `c`'s buffers at launch. -/
abbrev B0 : Dev nD → Valuation τ sig (Elt F) := fun c b => (s₀ m ρ).mem ((c : Dev nD), b)
/-- After item 0, the host stretch `hostOps0`. -/
abbrev B1 : Dev nD → Valuation τ sig (Elt F) := fun c => StableHlo.after hostOps0 (B0 m ρ c)
/-- After item 1, the host stretch `hostOps0_1`. -/
abbrev B2 : Dev nD → Valuation τ sig (Elt F) := fun c => StableHlo.after hostOps0_1 (B1 m ρ c)
/-- After item 2, the host stretch `hostOps0_2`. -/
abbrev B3 : Dev nD → Valuation τ sig (Elt F) := fun c => StableHlo.after hostOps0_2 (B2 m ρ c)
/-- What region 0 finds on entry, read at the TensorCore's references. -/
abbrev E3 : (c : Dev nD) → (b : Ref sig .tc) → Buf (Elt F) ((c : Thread nD τ).loc b) := fun c b => B3 m ρ c b
/-- After item 3, region 0: its arrays at what the grid's write-backs leave, everything else as entered. -/
def B4 (c : Dev nD) : Valuation τ sig (Elt F) :=
  Pipeline.withArrays spec0 c (B3 m ρ c) fun w => (dat0 (E3 m ρ) c).arrAt w cfg0.N
theorem B4_arr (c : Dev nD) (w : Fin cfg0.W) :
    B4 m ρ c (Proc.devRef .tc (Pipeline.arrRef spec0 w)) = (dat0 (E3 m ρ) c).arrAt w cfg0.N := by
  unfold B4; exact Pipeline.withArrays_arr spec0 launch0.win.arr_inj c _ _ w
theorem B4_of_ne (c : Dev nD) (b : Ref sig .tc) (hb : ∀ w, Pipeline.arrRef spec0 w ≠ b) :
    B4 m ρ c (Proc.devRef .tc b) = B3 m ρ c (Proc.devRef .tc b) := by
  unfold B4; exact Pipeline.withArrays_of_ne spec0 c _ _ b hb
/-- The same read at the TensorCore's references. -/
abbrev E4 : (c : Dev nD) → (b : Ref sig .tc) → Buf (Elt F) ((c : Thread nD τ).loc b) := fun c b => B4 m ρ c b
theorem exit0_arr (c : Dev nD) (w : Fin cfg0.W) : (dat0 (E3 m ρ) c).arrAt w cfg0.N = E4 m ρ c (Pipeline.arrRef spec0 w) :=
  (B4_arr m ρ c w).symm
theorem exit0_rest (c : Dev nD) : ∀ b, b ∉ Finset.univ.image (Pipeline.arrRef spec0) → E4 m ρ c b = E3 m ρ c b :=
  fun b hb => B4_of_ne m ρ c b fun w e => hb (Finset.mem_image.mpr ⟨w, Finset.mem_univ _, e⟩)
/-- After item 4, the host stretch `hostOps1`. -/
abbrev B5 : Dev nD → Valuation τ sig (Elt F) := fun c => StableHlo.after hostOps1 (B4 m ρ c)
/-- After item 5, the host stretch `hostOps1_1`. -/
abbrev B6 : Dev nD → Valuation τ sig (Elt F) := fun c => StableHlo.after hostOps1_1 (B5 m ρ c)
/-- After item 6, the host stretch `hostOps1_2`. -/
abbrev B7 : Dev nD → Valuation τ sig (Elt F) := fun c => StableHlo.after hostOps1_2 (B6 m ρ c)
/-- After item 7, the host stretch `hostOps1_3`. -/
abbrev B8 : Dev nD → Valuation τ sig (Elt F) := fun c => StableHlo.after hostOps1_3 (B7 m ρ c)
/-- After item 8, the host stretch `hostOps1_4`. -/
abbrev B9 : Dev nD → Valuation τ sig (Elt F) := fun c => StableHlo.after hostOps1_4 (B8 m ρ c)
/-- After item 9, the host stretch `hostOps1_5`. -/
abbrev B10 : Dev nD → Valuation τ sig (Elt F) := fun c => StableHlo.after hostOps1_5 (B9 m ρ c)
/-- After item 10, the host stretch `hostOps1_6`. -/
abbrev B11 : Dev nD → Valuation τ sig (Elt F) := fun c => StableHlo.after hostOps1_6 (B10 m ρ c)
/-- After item 11, the host stretch `hostOps1_7`. -/
abbrev B12 : Dev nD → Valuation τ sig (Elt F) := fun c => StableHlo.after hostOps1_7 (B11 m ρ c)
/-- After item 12, the host stretch `hostOps1_8`. -/
abbrev B13 : Dev nD → Valuation τ sig (Elt F) := fun c => StableHlo.after hostOps1_8 (B12 m ρ c)
/-- What region 1 finds on entry, read at the TensorCore's references. -/
abbrev E13 : (c : Dev nD) → (b : Ref sig .tc) → Buf (Elt F) ((c : Thread nD τ).loc b) := fun c b => B13 m ρ c b
/-- After item 13, region 1: its arrays at what the grid's write-backs leave, everything else as entered. -/
def B14 (c : Dev nD) : Valuation τ sig (Elt F) :=
  Pipeline.withArrays spec1 c (B13 m ρ c) fun w => (dat1 (E13 m ρ) c).arrAt w cfg1.N
theorem B14_arr (c : Dev nD) (w : Fin cfg1.W) :
    B14 m ρ c (Proc.devRef .tc (Pipeline.arrRef spec1 w)) = (dat1 (E13 m ρ) c).arrAt w cfg1.N := by
  unfold B14; exact Pipeline.withArrays_arr spec1 launch1.win.arr_inj c _ _ w
theorem B14_of_ne (c : Dev nD) (b : Ref sig .tc) (hb : ∀ w, Pipeline.arrRef spec1 w ≠ b) :
    B14 m ρ c (Proc.devRef .tc b) = B13 m ρ c (Proc.devRef .tc b) := by
  unfold B14; exact Pipeline.withArrays_of_ne spec1 c _ _ b hb
/-- The same read at the TensorCore's references. -/
abbrev E14 : (c : Dev nD) → (b : Ref sig .tc) → Buf (Elt F) ((c : Thread nD τ).loc b) := fun c b => B14 m ρ c b
theorem exit1_arr (c : Dev nD) (w : Fin cfg1.W) : (dat1 (E13 m ρ) c).arrAt w cfg1.N = E14 m ρ c (Pipeline.arrRef spec1 w) :=
  (B14_arr m ρ c w).symm
theorem exit1_rest (c : Dev nD) : ∀ b, b ∉ Finset.univ.image (Pipeline.arrRef spec1) → E14 m ρ c b = E13 m ρ c b :=
  fun b hb => B14_of_ne m ρ c b fun w e => hb (Finset.mem_image.mpr ⟨w, Finset.mem_univ _, e⟩)
/-- After item 14, the host stretch `hostOps2`. -/
abbrev B15 : Dev nD → Valuation τ sig (Elt F) := fun c => StableHlo.after hostOps2 (B14 m ρ c)
/-- What region 2 finds on entry, read at the TensorCore's references. -/
abbrev E15 : (c : Dev nD) → (b : Ref sig .tc) → Buf (Elt F) ((c : Thread nD τ).loc b) := fun c b => B15 m ρ c b
/-- After item 15, region 2: its arrays at what the grid's write-backs leave, everything else as entered. -/
def B16 (c : Dev nD) : Valuation τ sig (Elt F) :=
  Pipeline.withArrays spec2 c (B15 m ρ c) fun w => (dat2 (E15 m ρ) c).arrAt w cfg2.N
theorem B16_arr (c : Dev nD) (w : Fin cfg2.W) :
    B16 m ρ c (Proc.devRef .tc (Pipeline.arrRef spec2 w)) = (dat2 (E15 m ρ) c).arrAt w cfg2.N := by
  unfold B16; exact Pipeline.withArrays_arr spec2 launch2.win.arr_inj c _ _ w
theorem B16_of_ne (c : Dev nD) (b : Ref sig .tc) (hb : ∀ w, Pipeline.arrRef spec2 w ≠ b) :
    B16 m ρ c (Proc.devRef .tc b) = B15 m ρ c (Proc.devRef .tc b) := by
  unfold B16; exact Pipeline.withArrays_of_ne spec2 c _ _ b hb
/-- The same read at the TensorCore's references. -/
abbrev E16 : (c : Dev nD) → (b : Ref sig .tc) → Buf (Elt F) ((c : Thread nD τ).loc b) := fun c b => B16 m ρ c b
theorem exit2_arr (c : Dev nD) (w : Fin cfg2.W) : (dat2 (E15 m ρ) c).arrAt w cfg2.N = E16 m ρ c (Pipeline.arrRef spec2 w) :=
  (B16_arr m ρ c w).symm
theorem exit2_rest (c : Dev nD) : ∀ b, b ∉ Finset.univ.image (Pipeline.arrRef spec2) → E16 m ρ c b = E15 m ρ c b :=
  fun b hb => B16_of_ne m ρ c b fun w e => hb (Finset.mem_image.mpr ⟨w, Finset.mem_univ _, e⟩)

/-! ## A buffer nothing writes keeps its launch contents -/

/-- A buffer that no host stretch writes and that is no region's array — or is one that its region hands back as entered
    (`h4`, `h14`, `h16`) — holds at the end what it held at launch. -/
theorem B16_untouched (c : Dev nD) (r : Ref sig .tc)
    (h1 : r ∉ hostOps0_W) (h2 : r ∉ hostOps0_1_W) (h3 : r ∉ hostOps0_2_W)
    (h4 : B4 m ρ c (Proc.devRef .tc r) = B3 m ρ c (Proc.devRef .tc r))
    (h5 : r ∉ hostOps1_W) (h6 : r ∉ hostOps1_1_W) (h7 : r ∉ hostOps1_2_W) (h8 : r ∉ hostOps1_3_W) (h9 : r ∉ hostOps1_4_W)
    (h10 : r ∉ hostOps1_5_W) (h11 : r ∉ hostOps1_6_W) (h12 : r ∉ hostOps1_7_W) (h13 : r ∉ hostOps1_8_W)
    (h14 : B14 m ρ c (Proc.devRef .tc r) = B13 m ρ c (Proc.devRef .tc r))
    (h15 : r ∉ hostOps2_W)
    (h16 : B16 m ρ c (Proc.devRef .tc r) = B15 m ρ c (Proc.devRef .tc r)) :
    B16 m ρ c (Proc.devRef .tc r) = m ((c : Thread nD τ).loc r) :=
  h16.trans <| (StableHlo.after_of_writes_sub hostOps2 _ hostOps2_writes h15).trans <| h14.trans <|
  (StableHlo.after_of_writes_sub hostOps1_8 _ hostOps1_8_writes h13).trans <|
  (StableHlo.after_of_writes_sub hostOps1_7 _ hostOps1_7_writes h12).trans <|
  (StableHlo.after_of_writes_sub hostOps1_6 _ hostOps1_6_writes h11).trans <|
  (StableHlo.after_of_writes_sub hostOps1_5 _ hostOps1_5_writes h10).trans <|
  (StableHlo.after_of_writes_sub hostOps1_4 _ hostOps1_4_writes h9).trans <|
  (StableHlo.after_of_writes_sub hostOps1_3 _ hostOps1_3_writes h8).trans <|
  (StableHlo.after_of_writes_sub hostOps1_2 _ hostOps1_2_writes h7).trans <|
  (StableHlo.after_of_writes_sub hostOps1_1 _ hostOps1_1_writes h6).trans <|
  (StableHlo.after_of_writes_sub hostOps1 _ hostOps1_writes h5).trans <| h4.trans <|
  (StableHlo.after_of_writes_sub hostOps0_2 _ hostOps0_2_writes h3).trans <|
  (StableHlo.after_of_writes_sub hostOps0_1 _ hostOps0_1_writes h2).trans <|
  (StableHlo.after_of_writes_sub hostOps0 _ hostOps0_writes h1)

/-- An argument that is no region's array: nothing ever writes it. -/
theorem B16_plain_arg (c : Dev nD) (r : Ref sig .tc)
    (h1 : r ∉ hostOps0_W) (h2 : r ∉ hostOps0_1_W) (h3 : r ∉ hostOps0_2_W) (h4 : ∀ w, Pipeline.arrRef spec0 w ≠ r)
    (h5 : r ∉ hostOps1_W) (h6 : r ∉ hostOps1_1_W) (h7 : r ∉ hostOps1_2_W) (h8 : r ∉ hostOps1_3_W) (h9 : r ∉ hostOps1_4_W)
    (h10 : r ∉ hostOps1_5_W) (h11 : r ∉ hostOps1_6_W) (h12 : r ∉ hostOps1_7_W) (h13 : r ∉ hostOps1_8_W)
    (h14 : ∀ w, Pipeline.arrRef spec1 w ≠ r) (h15 : r ∉ hostOps2_W) (h16 : ∀ w, Pipeline.arrRef spec2 w ≠ r) :
    B16 m ρ c (Proc.devRef .tc r) = m ((c : Thread nD τ).loc r) :=
  B16_untouched m ρ c r h1 h2 h3 (B4_of_ne m ρ c r h4) h5 h6 h7 h8 h9 h10 h11 h12 h13 (B14_of_ne m ρ c r h14) h15 (B16_of_ne m ρ c r h16)

/-- The node features are region 0's first INPUT window: the region hands an input's array back as it found it. -/
theorem B16_main_arg0 (c : Dev nD) : B16 m ρ c (Proc.devRef .tc main_arg0) = m ((c : Thread nD τ).loc main_arg0) :=
  B16_untouched m ρ c main_arg0 (by decide) (by decide) (by decide)
    ((B4_arr m ρ c 0).trans (((dat0 (E3 m ρ) c).arrAt_in 0 rfl _).trans (dat0_A (E3 m ρ) c 0)))
    (by decide) (by decide) (by decide) (by decide) (by decide) (by decide) (by decide) (by decide) (by decide)
    (B14_of_ne m ρ c main_arg0 (by decide)) (by decide) (B16_of_ne m ρ c main_arg0 (by decide))
theorem B16_main_arg1 (c : Dev nD) : B16 m ρ c (Proc.devRef .tc main_arg1) = m ((c : Thread nD τ).loc main_arg1) :=
  B16_plain_arg m ρ c main_arg1 (by decide) (by decide) (by decide) (by decide) (by decide) (by decide) (by decide) (by decide)
    (by decide) (by decide) (by decide) (by decide) (by decide) (by decide) (by decide) (by decide)
theorem B16_main_arg2 (c : Dev nD) : B16 m ρ c (Proc.devRef .tc main_arg2) = m ((c : Thread nD τ).loc main_arg2) :=
  B16_plain_arg m ρ c main_arg2 (by decide) (by decide) (by decide) (by decide) (by decide) (by decide) (by decide) (by decide)
    (by decide) (by decide) (by decide) (by decide) (by decide) (by decide) (by decide) (by decide)
theorem B16_main_arg3 (c : Dev nD) : B16 m ρ c (Proc.devRef .tc main_arg3) = m ((c : Thread nD τ).loc main_arg3) :=
  B16_plain_arg m ρ c main_arg3 (by decide) (by decide) (by decide) (by decide) (by decide) (by decide) (by decide) (by decide)
    (by decide) (by decide) (by decide) (by decide) (by decide) (by decide) (by decide) (by decide)
theorem B16_main_arg4 (c : Dev nD) : B16 m ρ c (Proc.devRef .tc main_arg4) = m ((c : Thread nD τ).loc main_arg4) :=
  B16_plain_arg m ρ c main_arg4 (by decide) (by decide) (by decide) (by decide) (by decide) (by decide) (by decide) (by decide)
    (by decide) (by decide) (by decide) (by decide) (by decide) (by decide) (by decide) (by decide)
theorem B16_main_arg5 (c : Dev nD) : B16 m ρ c (Proc.devRef .tc main_arg5) = m ((c : Thread nD τ).loc main_arg5) :=
  B16_plain_arg m ρ c main_arg5 (by decide) (by decide) (by decide) (by decide) (by decide) (by decide) (by decide) (by decide)
    (by decide) (by decide) (by decide) (by decide) (by decide) (by decide) (by decide) (by decide)
theorem B16_main_arg6 (c : Dev nD) : B16 m ρ c (Proc.devRef .tc main_arg6) = m ((c : Thread nD τ).loc main_arg6) :=
  B16_plain_arg m ρ c main_arg6 (by decide) (by decide) (by decide) (by decide) (by decide) (by decide) (by decide) (by decide)
    (by decide) (by decide) (by decide) (by decide) (by decide) (by decide) (by decide) (by decide)
theorem B16_main_arg7 (c : Dev nD) : B16 m ρ c (Proc.devRef .tc main_arg7) = m ((c : Thread nD τ).loc main_arg7) :=
  B16_plain_arg m ρ c main_arg7 (by decide) (by decide) (by decide) (by decide) (by decide) (by decide) (by decide) (by decide)
    (by decide) (by decide) (by decide) (by decide) (by decide) (by decide) (by decide) (by decide)
theorem B16_main_arg8 (c : Dev nD) : B16 m ρ c (Proc.devRef .tc main_arg8) = m ((c : Thread nD τ).loc main_arg8) :=
  B16_plain_arg m ρ c main_arg8 (by decide) (by decide) (by decide) (by decide) (by decide) (by decide) (by decide) (by decide)
    (by decide) (by decide) (by decide) (by decide) (by decide) (by decide) (by decide) (by decide)
theorem B16_main_arg9 (c : Dev nD) : B16 m ρ c (Proc.devRef .tc main_arg9) = m ((c : Thread nD τ).loc main_arg9) :=
  B16_plain_arg m ρ c main_arg9 (by decide) (by decide) (by decide) (by decide) (by decide) (by decide) (by decide) (by decide)
    (by decide) (by decide) (by decide) (by decide) (by decide) (by decide) (by decide) (by decide)
theorem B16_main_arg10 (c : Dev nD) : B16 m ρ c (Proc.devRef .tc main_arg10) = m ((c : Thread nD τ).loc main_arg10) :=
  B16_plain_arg m ρ c main_arg10 (by decide) (by decide) (by decide) (by decide) (by decide) (by decide) (by decide) (by decide)
    (by decide) (by decide) (by decide) (by decide) (by decide) (by decide) (by decide) (by decide)
theorem B16_main_arg11 (c : Dev nD) : B16 m ρ c (Proc.devRef .tc main_arg11) = m ((c : Thread nD τ).loc main_arg11) :=
  B16_plain_arg m ρ c main_arg11 (by decide) (by decide) (by decide) (by decide) (by decide) (by decide) (by decide) (by decide)
    (by decide) (by decide) (by decide) (by decide) (by decide) (by decide) (by decide) (by decide)
theorem B16_main_arg12 (c : Dev nD) : B16 m ρ c (Proc.devRef .tc main_arg12) = m ((c : Thread nD τ).loc main_arg12) :=
  B16_plain_arg m ρ c main_arg12 (by decide) (by decide) (by decide) (by decide) (by decide) (by decide) (by decide) (by decide)
    (by decide) (by decide) (by decide) (by decide) (by decide) (by decide) (by decide) (by decide)
theorem B16_main_arg13 (c : Dev nD) : B16 m ρ c (Proc.devRef .tc main_arg13) = m ((c : Thread nD τ).loc main_arg13) :=
  B16_plain_arg m ρ c main_arg13 (by decide) (by decide) (by decide) (by decide) (by decide) (by decide) (by decide) (by decide)
    (by decide) (by decide) (by decide) (by decide) (by decide) (by decide) (by decide) (by decide)

/-! ## The proof data family and the thread state -/

/-- Every region's proof data, each taken at the valuation the region is entered from. -/
def pdats : (p : Fin 3) → (c : Dev nD) → Dat τ (Elt F) Unit ℕ (UR sig nD τ) ℕ (Pipeline.pin (pcfgs (F := F)) adm p) c
  | ⟨0, _⟩ => fun c => dat0 (E3 m ρ) c
  | ⟨1, _⟩ => fun c => dat1 (E13 m ρ) c
  | ⟨2, _⟩ => fun c => dat2 (E15 m ρ) c
abbrev noVariants : Variants := Variants.none
/-- No core owes another anything. -/
abbrev noPairs : GSem nD τ sig → Finset Unit := fun _ => ∅
abbrev noLevel : GSem nD τ sig → Unit → ℕ := fun _ _ => 0
/-- What rides beside the buffers through every item: the core's generator register at some state, and the core owing
    nothing. -/
abbrev beside (c : Dev nD) : sProp 𝕄 := iprop((∃ r, prngReg c r) ∗ ∃ W, owes (c : Thread nD τ) (0 : CellTallies nD τ sig Unit) W)
/-- A host stretch as an item: run from the valuation `W`, it leaves `StableHlo.after ops (W c)`. -/
abbrev hostItem (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noPairs noLevel :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W beside

theorem mem_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state but for what the core owes: every unscoped buffer at `B16`, the generator register somewhere. -/
abbrev atEnd (c : Dev nD) : sProp 𝕄 := iprop(StableHlo.held (c : Thread nD τ) (Pipeline.ucRefs τ sig) (B16 m ρ c) ∗ ∃ r, prngReg c r)

/-! ## The regions as items -/

set_option backward.isDefEq.respectTransparency.types false in
/-- Region 0: entered with every unscoped buffer at `B3`, left with them at `B4`. On entry its arrays are split out of
    the unscoped buffers and on exit put back at what the grid wrote; the generator register goes into the region's
    invariant and comes back; nothing is owed; the kernel has no semaphore of its own. -/
def region0 : Pipeline.RegionSeg (pcfgs (F := F)) adm (pdats m ρ) () defs₀ noVariants noPairs noLevel 0 where
  win := launch0.win.to₀
  block_pos := launch0.block_pos
  stage_whole := launch0.stage_whole
  K := PEmpty
  osem k := k.elim
  ho := Pipeline.OwnSemFacts.none _
  hbody c := (body0_obligation (E3 m ρ) c).loose
  hwaits := Pipeline.hwaits_of_owed_zero _ _ _ _ noPairs noLevel 0 fun _ _ => rfl
  pre c := iprop(StableHlo.held (c : Thread nD τ) (Pipeline.ucRefs τ sig) (B3 m ρ c) ∗ beside c)
  post c := iprop(StableHlo.held (c : Thread nD τ) (Pipeline.ucRefs τ sig) (B4 m ρ c) ∗ beside c)
  X c := iprop(∃ r, prngReg c r)
  Y c := iprop(∃ r, prngReg c r)
  Z c := Pipeline.unscopedRest (Ix := Unit) (Name := ℕ) (U := UR sig nD τ) (Lvl := ℕ) spec0 c (E3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E3 m ρ c) (E4 m ρ c) ((pdats m ρ 0 c).arrAt · cfg0.N) (exit0_arr m ρ c) (exit0_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered with every unscoped buffer at `B13`, left with them at `B14`. On entry its arrays are split out of
    the unscoped buffers and on exit put back at what the grid wrote; the generator register goes into the region's
    invariant and comes back; nothing is owed; the kernel has no semaphore of its own. -/
def region1 : Pipeline.RegionSeg (pcfgs (F := F)) adm (pdats m ρ) () defs₀ noVariants noPairs noLevel 1 where
  win := launch1.win.to₀
  block_pos := launch1.block_pos
  stage_whole := launch1.stage_whole
  K := PEmpty
  osem k := k.elim
  ho := Pipeline.OwnSemFacts.none _
  hbody c := (body1_obligation (E13 m ρ) c).loose
  hwaits := Pipeline.hwaits_of_owed_zero _ _ _ _ noPairs noLevel 1 fun _ _ => rfl
  pre c := iprop(StableHlo.held (c : Thread nD τ) (Pipeline.ucRefs τ sig) (B13 m ρ c) ∗ beside c)
  post c := iprop(StableHlo.held (c : Thread nD τ) (Pipeline.ucRefs τ sig) (B14 m ρ c) ∗ beside c)
  X c := iprop(∃ r, prngReg c r)
  Y c := iprop(∃ r, prngReg c r)
  Z c := Pipeline.unscopedRest (Ix := Unit) (Name := ℕ) (U := UR sig nD τ) (Lvl := ℕ) spec1 c (E13 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E13 m ρ c) (E14 m ρ c) ((pdats m ρ 1 c).arrAt · cfg1.N) (exit1_arr m ρ c) (exit1_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered with every unscoped buffer at `B15`, left with them at `B16`. On entry its arrays are split out of
    the unscoped buffers and on exit put back at what the grid wrote; the generator register goes into the region's
    invariant and comes back; nothing is owed; the kernel has no semaphore of its own. -/
def region2 : Pipeline.RegionSeg (pcfgs (F := F)) adm (pdats m ρ) () defs₀ noVariants noPairs noLevel 2 where
  win := launch2.win.to₀
  block_pos := launch2.block_pos
  stage_whole := launch2.stage_whole
  K := PEmpty
  osem k := k.elim
  ho := Pipeline.OwnSemFacts.none _
  hbody c := (body2_obligation (E15 m ρ) c).loose
  hwaits := Pipeline.hwaits_of_owed_zero _ _ _ _ noPairs noLevel 2 fun _ _ => rfl
  pre c := iprop(StableHlo.held (c : Thread nD τ) (Pipeline.ucRefs τ sig) (B15 m ρ c) ∗ beside c)
  post c := iprop(atEnd m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E15 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (E15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (E15 m ρ c) (E16 m ρ c) ((pdats m ρ 2 c).arrAt · cfg2.N) (exit2_arr m ρ c) (exit2_rest m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as its items, and the launch -/

/-- @main's sixteen items in order. -/
abbrev items : List (Pipeline.Seg (pcfgs (F := F)) adm (pdats m ρ) () defs₀ noVariants noPairs noLevel) :=
  [ .host (hostItem hostOps0 hostOps0_sub hostOps0_fresh (B0 m ρ)),
    .host (hostItem hostOps0_1 hostOps0_1_sub hostOps0_1_fresh (B1 m ρ)),
    .host (hostItem hostOps0_2 hostOps0_2_sub hostOps0_2_fresh (B2 m ρ)),
    .region (region0 m ρ),
    .host (hostItem hostOps1 hostOps1_sub hostOps1_fresh (B4 m ρ)),
    .host (hostItem hostOps1_1 hostOps1_1_sub hostOps1_1_fresh (B5 m ρ)),
    .host (hostItem hostOps1_2 hostOps1_2_sub hostOps1_2_fresh (B6 m ρ)),
    .host (hostItem hostOps1_3 hostOps1_3_sub hostOps1_3_fresh (B7 m ρ)),
    .host (hostItem hostOps1_4 hostOps1_4_sub hostOps1_4_fresh (B8 m ρ)),
    .host (hostItem hostOps1_5 hostOps1_5_sub hostOps1_5_fresh (B9 m ρ)),
    .host (hostItem hostOps1_6 hostOps1_6_sub hostOps1_6_fresh (B10 m ρ)),
    .host (hostItem hostOps1_7 hostOps1_7_sub hostOps1_7_fresh (B11 m ρ)),
    .host (hostItem hostOps1_8 hostOps1_8_sub hostOps1_8_fresh (B12 m ρ)),
    .region (region1 m ρ),
    .host (hostItem hostOps2 hostOps2_sub hostOps2_fresh (B14 m ρ)),
    .region (region2 m ρ) ]

/-- @main IS the run of its items. -/
theorem main_is_items (c : Dev nD) : main (F := F) c = Pipeline.Seg.run (items m ρ) := (main_chain c).trans (by chain_rfl)

set_option backward.isDefEq.respectTransparency.types false in
/-- From any memory with zero counters, every weakly fair execution of @main terminates, nothing faulting, and in every
    final state each unscoped buffer of each core holds `B16` of it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B16 m ρ c b) :=
  Pipeline.θ_run_regions_kit (pcfgs (F := F)) adm (pdats m ρ) () cellOf_inj emb₁ defs₀ noVariants noPairs noLevel m ρ main (items m ρ)
    (fun c Q => by rw [main_is_items m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ beside c)) (Tₙ := atEnd m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach noPairs noLevel fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B16 m ρ c b)
    (hfin := fun c s' => by
      iintro ⟨⟨Hh, -⟩, HSI⟩
      unfold StableHlo.held
      imodintro
      iapply (pointsTo_read_all (Pipeline.ucRefs τ sig) (fun b => (((c : Thread nD τ)).1, b)) (B16 m ρ c) s')
      isplitl [Hh] <;> iassumption)
    (hQ := fun s h => h)

/-- The frame: every argument array ends as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨(h c _ (mem_unscoped main_arg0 (by decide))).trans (B16_main_arg0 m ρ c),
     (h c _ (mem_unscoped main_arg1 (by decide))).trans (B16_main_arg1 m ρ c),
     (h c _ (mem_unscoped main_arg2 (by decide))).trans (B16_main_arg2 m ρ c),
     (h c _ (mem_unscoped main_arg3 (by decide))).trans (B16_main_arg3 m ρ c),
     (h c _ (mem_unscoped main_arg4 (by decide))).trans (B16_main_arg4 m ρ c),
     (h c _ (mem_unscoped main_arg5 (by decide))).trans (B16_main_arg5 m ρ c),
     (h c _ (mem_unscoped main_arg6 (by decide))).trans (B16_main_arg6 m ρ c),
     (h c _ (mem_unscoped main_arg7 (by decide))).trans (B16_main_arg7 m ρ c),
     (h c _ (mem_unscoped main_arg8 (by decide))).trans (B16_main_arg8 m ρ c),
     (h c _ (mem_unscoped main_arg9 (by decide))).trans (B16_main_arg9 m ρ c),
     (h c _ (mem_unscoped main_arg10 (by decide))).trans (B16_main_arg10 m ρ c),
     (h c _ (mem_unscoped main_arg11 (by decide))).trans (B16_main_arg11 m ρ c),
     (h c _ (mem_unscoped main_arg12 (by decide))).trans (B16_main_arg12 m ρ c),
     (h c _ (mem_unscoped main_arg13 (by decide))).trans (B16_main_arg13 m ρ c)⟩) (run_all m ρ)

end Cert.Kernel.Hand

end
-- ==== Proof.IdealFrame.Region0.lean ====
/-
  Region 0 of the program (the node features against the four stacked first-layer weight matrices), on its own: what one grid point's body leaves in the result's staging buffer, that
  the body runs to its end from the three staging buffers held whole, and the bookkeeping the pipeline asks of a region
  (which array each window cuts its blocks from, what each buffer holds after the body at each point).

  Everything is stated at an arbitrary valuation `V` of the unscoped buffers — what the region finds when it is
  entered — and for any float values `F`: nothing here depends on what the numbers mean.

  The body loads the two input buffers whole, stores ONE value — a pure function of the two loads — over the whole of the
  result's buffer, and returns. So after the body the result's buffer holds that value, whatever it held before, and the
  inputs' buffers hold what they held. An input window's buffer holds its block of the entry array at every point,
  whether or not the pipeline fetched it there: where it did not, the block index has not moved.
-/
import proofs.«138793_j80530636800127_1_alg».proof.Proof.Gen.KernelIdeal.Launch
import proofs.«138793_j80530636800127_1_alg».proof.Proof.Gen.KernelIdeal.Skeleton
import proofs.«138793_j80530636800127_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rows of its array (as the region finds it) that the point works on. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first input's staging buffer holds its block at every point, fetched there or not. -/
theorem in0_0_held {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- The second input's staging buffer holds its block at every point, fetched there or not. -/
theorem in0_1_held {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-- The whole of each staging buffer as a rectangle: what the body's loads and its one store go through. -/
abbrev whole0_in0 : Rect S5000x512 := Rect.unit (s := S5000x512) ![0, 0] S5000x512.size inb_S5000x512_S5000x512_0_0
abbrev whole0_in1 : Rect S512x128 := Rect.unit (s := S512x128) ![0, 0] S512x128.size inb_S512x128_S512x128_0_0
abbrev whole0_out : Rect S5000x128 := Rect.unit (s := S5000x128) ![0, 0] S5000x128.size inb_S5000x128_S5000x128_0_0

/-- What the result's staging buffer holds after the body, from the two inputs' buffers: the one stored value, laid over
    the whole buffer. -/
def result0 (x0 : Vec F S5000x512 .f32) (x1 : Vec F S512x128 .f32) : Vec F S5000x128 .f32 :=
  View.canon [⟨whole0_out, k0_pay1 (View.ld x0 whole0_in0) (View.ld x1 whole0_in1)⟩]

/-- The one store covers the buffer. -/
theorem stored0_covers (p0 : Vec F S5000x128 .f32) (y : S5000x128.Idx) :
    ∃ pc ∈ ([⟨whole0_out, p0⟩] : List (View.Piece (Elt F) S5000x128 .f32)), y ∈ pc.1.set :=
  View.cover_of_tiled [⟨whole0_out, p0⟩] S5000x128.size (by rfl) y

set_option maxHeartbeats 4000000 in
/-- The body, from its three staging buffers held whole — the inputs' at known contents, the result's at anything —, runs
    to its return with the inputs' as they were and the result's at `result0` of them. -/
theorem body0_runs (c : Dev nD) (E : Set ℕ) (i : grid0.Coords)
    (arg1 : Memref sig .tc .vmem S5000x512 .f32) (harg1 : arg1.IsWhole) (arg2 : Memref sig .tc .vmem S512x128 .f32) (harg2 : arg2.IsWhole)
    (arg3 : Memref sig .tc .vmem S5000x128 .f32) (harg3 : arg3.IsWhole)
    (x0 : Vec F S5000x512 .f32) (x1 : Vec F S512x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (result0 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (stored0_covers _)

/-- The region's proof data on core `c`: each window's array is the entry valuation's; after the body at point `t` an input's
    buffer holds its block and the result's holds `result0` of the two input blocks; nothing is owed to anyone. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => result0 (blk0 V c 0 t) (blk0 V c 1 t)
  Φ _ := Pipeline.ΦA spec0 c
  q _ := fullShare
  owed _ := 0

theorem dat0_A (c : Dev nD) (w : Fin cfg0.W) : (dat0 V c).A w = V c (Pipeline.arrRef spec0 w) := by
  dsimp only [dat0]

theorem dat0_after_0 (c : Dev nD) (t : Fin cfg0.N) : (dat0 V c).after 0 t = blk0 V c 0 t := by dsimp only [dat0]
theorem dat0_after_1 (c : Dev nD) (t : Fin cfg0.N) : (dat0 V c).after 1 t = blk0 V c 1 t := by dsimp only [dat0]
theorem dat0_after_2 (c : Dev nD) (t : Fin cfg0.N) :
    (dat0 V c).after 2 t = result0 (blk0 V c 0 t) (blk0 V c 1 t) := by dsimp only [dat0]

theorem dat0_before_0 (c : Dev nD) (t : Fin cfg0.N) (d) : (dat0 V c).before 0 t d = blk0 V c 0 t :=
  in0_0_held V (dat0 V c) (dat0_A V c 0) (dat0_after_0 V c) t d
theorem dat0_before_1 (c : Dev nD) (t : Fin cfg0.N) (d) : (dat0 V c).before 1 t d = blk0 V c 1 t :=
  in0_1_held V (dat0 V c) (dat0_A V c 1) (dat0_after_1 V c) t d

/-- What the pipeline hands the body at point `t`, -/
def handed0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what the body hands back. -/
def returned0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so `body0_runs` applies; the invariant and what the core
    owes pass through untouched. -/
theorem body0_at (c : Dev nD) (t : Fin cfg0.N) :
    handed0 V c t ⊢ wp frame (wpE (defs₀ (F := F)) Variants.none c none) Set.univ (bodyAt0 t) (fun _ => returned0 V c t) := by
  unfold handed0 returned0 bodyAt0
  simp only [dat0_before_0, dat0_before_1]
  rw [show (dat0 V c).Φ t.succ = (dat0 V c).Φ t.castSucc from rfl,
    show (dat0 V c).owesAt () t.succ = (dat0 V c).owesAt () t.castSucc from rfl,
    dat0_after_0, dat0_after_1, dat0_after_2]
  iintro ⟨HΦ, Ho, ⟨%d0, H0⟩, ⟨%d1, H1⟩, ⟨%d2, H2⟩⟩
  iapply (body0_runs c Set.univ _ _ _ _ _ _ _ (blk0 V c 0 t) (blk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's obligation on the body, at every point. -/
theorem body0_obligation (c : Dev nD) : BodyObligation (dat0 (F := F) V c) (defs₀ (F := F)) Variants.none () Set.univ := fun t => by
  rw [bigSep_W0, bigSep_W0]
  exact body0_at V c t

end Cert.KernelIdeal.Hand

end
-- ==== Proof.IdealFrame.Region1.lean ====
/-
  Region 1 of the program (the hidden features against the two stacked class-layer weight matrices), on its own: what one grid point's body leaves in the result's staging buffer, that
  the body runs to its end from the three staging buffers held whole, and the bookkeeping the pipeline asks of a region
  (which array each window cuts its blocks from, what each buffer holds after the body at each point).

  Everything is stated at an arbitrary valuation `V` of the unscoped buffers — what the region finds when it is
  entered — and for any float values `F`: nothing here depends on what the numbers mean.

  The body loads the two input buffers whole, stores ONE value — a pure function of the two loads — over the whole of the
  result's buffer, and returns. So after the body the result's buffer holds that value, whatever it held before, and the
  inputs' buffers hold what they held. An input window's buffer holds its block of the entry array at every point,
  whether or not the pipeline fetched it there: where it did not, the block index has not moved.
-/
import proofs.«138793_j80530636800127_1_alg».proof.Proof.Gen.KernelIdeal.Launch
import proofs.«138793_j80530636800127_1_alg».proof.Proof.Gen.KernelIdeal.Skeleton
import proofs.«138793_j80530636800127_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rows of its array (as the region finds it) that the point works on. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first input's staging buffer holds its block at every point, fetched there or not. -/
theorem in1_0_held {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- The second input's staging buffer holds its block at every point, fetched there or not. -/
theorem in1_1_held {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-- The whole of each staging buffer as a rectangle: what the body's loads and its one store go through. -/
abbrev whole1_in0 : Rect S10000x32 := Rect.unit (s := S10000x32) ![0, 0] S10000x32.size inb_S10000x32_S10000x32_0_0
abbrev whole1_in1 : Rect S32x80 := Rect.unit (s := S32x80) ![0, 0] S32x80.size inb_S32x80_S32x80_0_0
abbrev whole1_out : Rect S10000x80 := Rect.unit (s := S10000x80) ![0, 0] S10000x80.size inb_S10000x80_S10000x80_0_0

/-- What the result's staging buffer holds after the body, from the two inputs' buffers: the one stored value, laid over
    the whole buffer. -/
def result1 (x0 : Vec F S10000x32 .f32) (x1 : Vec F S32x80 .f32) : Vec F S10000x80 .f32 :=
  View.canon [⟨whole1_out, k1_pay1 (View.ld x0 whole1_in0) (View.ld x1 whole1_in1)⟩]

/-- The one store covers the buffer. -/
theorem stored1_covers (p0 : Vec F S10000x80 .f32) (y : S10000x80.Idx) :
    ∃ pc ∈ ([⟨whole1_out, p0⟩] : List (View.Piece (Elt F) S10000x80 .f32)), y ∈ pc.1.set :=
  View.cover_of_tiled [⟨whole1_out, p0⟩] S10000x80.size (by rfl) y

set_option maxHeartbeats 4000000 in
/-- The body, from its three staging buffers held whole — the inputs' at known contents, the result's at anything —, runs
    to its return with the inputs' as they were and the result's at `result1` of them. -/
theorem body1_runs (c : Dev nD) (E : Set ℕ) (i : grid1.Coords)
    (arg1 : Memref sig .tc .vmem S10000x32 .f32) (harg1 : arg1.IsWhole) (arg2 : Memref sig .tc .vmem S32x80 .f32) (harg2 : arg2.IsWhole)
    (arg3 : Memref sig .tc .vmem S10000x80 .f32) (harg3 : arg3.IsWhole)
    (x0 : Vec F S10000x32 .f32) (x1 : Vec F S32x80 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (result1 x0 x1)) -∗ K ⟨⟩))
      ⊢ wp frame (wpE (defs₀ (F := F)) Variants.none c none) E (cc1__matmul_kernel i arg1 harg1 arg2 harg2 arg3 harg3) K := by
  simp only [cc1__matmul_kernel_eq_skeleton]; unfold cc1__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (stored1_covers _)

/-- The region's proof data on core `c`: each window's array is the entry valuation's; after the body at point `t` an input's
    buffer holds its block and the result's holds `result1` of the two input blocks; nothing is owed to anyone. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => result1 (blk1 V c 0 t) (blk1 V c 1 t)
  Φ _ := Pipeline.ΦA spec1 c
  q _ := fullShare
  owed _ := 0

theorem dat1_A (c : Dev nD) (w : Fin cfg1.W) : (dat1 V c).A w = V c (Pipeline.arrRef spec1 w) := by
  dsimp only [dat1]

theorem dat1_after_0 (c : Dev nD) (t : Fin cfg1.N) : (dat1 V c).after 0 t = blk1 V c 0 t := by dsimp only [dat1]
theorem dat1_after_1 (c : Dev nD) (t : Fin cfg1.N) : (dat1 V c).after 1 t = blk1 V c 1 t := by dsimp only [dat1]
theorem dat1_after_2 (c : Dev nD) (t : Fin cfg1.N) :
    (dat1 V c).after 2 t = result1 (blk1 V c 0 t) (blk1 V c 1 t) := by dsimp only [dat1]

theorem dat1_before_0 (c : Dev nD) (t : Fin cfg1.N) (d) : (dat1 V c).before 0 t d = blk1 V c 0 t :=
  in1_0_held V (dat1 V c) (dat1_A V c 0) (dat1_after_0 V c) t d
theorem dat1_before_1 (c : Dev nD) (t : Fin cfg1.N) (d) : (dat1 V c).before 1 t d = blk1 V c 1 t :=
  in1_1_held V (dat1 V c) (dat1_A V c 1) (dat1_after_1 V c) t d

/-- What the pipeline hands the body at point `t`, -/
def handed1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what the body hands back. -/
def returned1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so `body1_runs` applies; the invariant and what the core
    owes pass through untouched. -/
theorem body1_at (c : Dev nD) (t : Fin cfg1.N) :
    handed1 V c t ⊢ wp frame (wpE (defs₀ (F := F)) Variants.none c none) Set.univ (bodyAt1 t) (fun _ => returned1 V c t) := by
  unfold handed1 returned1 bodyAt1
  simp only [dat1_before_0, dat1_before_1]
  rw [show (dat1 V c).Φ t.succ = (dat1 V c).Φ t.castSucc from rfl,
    show (dat1 V c).owesAt () t.succ = (dat1 V c).owesAt () t.castSucc from rfl,
    dat1_after_0, dat1_after_1, dat1_after_2]
  iintro ⟨HΦ, Ho, ⟨%d0, H0⟩, ⟨%d1, H1⟩, ⟨%d2, H2⟩⟩
  iapply (body1_runs c Set.univ _ _ _ _ _ _ _ (blk1 V c 0 t) (blk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's obligation on the body, at every point. -/
theorem body1_obligation (c : Dev nD) : BodyObligation (dat1 (F := F) V c) (defs₀ (F := F)) Variants.none () Set.univ := fun t => by
  rw [bigSep_W1, bigSep_W1]
  exact body1_at V c t

end Cert.KernelIdeal.Hand

end
-- ==== Proof.IdealFrame.Region2.lean ====
/-
  Region 2 of the program (the row-wise log-softmax of the sum of the two class-layer aggregations), on its own: what one grid point's body leaves in the result's staging buffer, that
  the body runs to its end from the three staging buffers held whole, and the bookkeeping the pipeline asks of a region
  (which array each window cuts its blocks from, what each buffer holds after the body at each point).

  Everything is stated at an arbitrary valuation `V` of the unscoped buffers — what the region finds when it is
  entered — and for any float values `F`: nothing here depends on what the numbers mean.

  The body loads the two input buffers whole, stores ONE value — a pure function of the two loads — over the whole of the
  result's buffer, and returns. So after the body the result's buffer holds that value, whatever it held before, and the
  inputs' buffers hold what they held. An input window's buffer holds its block of the entry array at every point,
  whether or not the pipeline fetched it there: where it did not, the block index has not moved.
-/
import proofs.«138793_j80530636800127_1_alg».proof.Proof.Gen.KernelIdeal.Launch
import proofs.«138793_j80530636800127_1_alg».proof.Proof.Gen.KernelIdeal.Skeleton
import proofs.«138793_j80530636800127_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`: the rows of its array (as the region finds it) that the point works on. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The first input's staging buffer holds its block at every point, fetched there or not. -/
theorem in2_0_held {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)

/-- The second input's staging buffer holds its block at every point, fetched there or not. -/
theorem in2_1_held {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)

/-- The whole of each staging buffer as a rectangle: what the body's loads and its one store go through. -/
abbrev whole2_in0 : Rect S10000x40 := Rect.unit (s := S10000x40) ![0, 0] S10000x40.size inb_S10000x40_S10000x40_0_0
abbrev whole2_in1 : Rect S10000x40 := Rect.unit (s := S10000x40) ![0, 0] S10000x40.size inb_S10000x40_S10000x40_0_0
abbrev whole2_out : Rect S10000x40 := Rect.unit (s := S10000x40) ![0, 0] S10000x40.size inb_S10000x40_S10000x40_0_0

/-- What the result's staging buffer holds after the body, from the two inputs' buffers: the one stored value, laid over
    the whole buffer. -/
def result2 (x0 : Vec F S10000x40 .f32) (x1 : Vec F S10000x40 .f32) : Vec F S10000x40 .f32 :=
  View.canon [⟨whole2_out, k2_pay1 (View.ld x0 whole2_in0) (View.ld x1 whole2_in1)⟩]

/-- The one store covers the buffer. -/
theorem stored2_covers (p0 : Vec F S10000x40 .f32) (y : S10000x40.Idx) :
    ∃ pc ∈ ([⟨whole2_out, p0⟩] : List (View.Piece (Elt F) S10000x40 .f32)), y ∈ pc.1.set :=
  View.cover_of_tiled [⟨whole2_out, p0⟩] S10000x40.size (by rfl) y

set_option maxHeartbeats 4000000 in
/-- The body, from its three staging buffers held whole — the inputs' at known contents, the result's at anything —, runs
    to its return with the inputs' as they were and the result's at `result2` of them. -/
theorem body2_runs (c : Dev nD) (E : Set ℕ) (i : grid2.Coords)
    (arg1 : Memref sig .tc .vmem S10000x40 .f32) (harg1 : arg1.IsWhole) (arg2 : Memref sig .tc .vmem S10000x40 .f32) (harg2 : arg2.IsWhole)
    (arg3 : Memref sig .tc .vmem S10000x40 .f32) (harg3 : arg3.IsWhole)
    (x0 : Vec F S10000x40 .f32) (x1 : Vec F S10000x40 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (result2 x0 x1)) -∗ K ⟨⟩))
      ⊢ wp frame (wpE (defs₀ (F := F)) Variants.none c none) E (cc2__logsoftmax_kernel i arg1 harg1 arg2 harg2 arg3 harg3) K := by
  simp only [cc2__logsoftmax_kernel_eq_skeleton]; unfold cc2__logsoftmax_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (stored2_covers _)

/-- The region's proof data on core `c`: each window's array is the entry valuation's; after the body at point `t` an input's
    buffer holds its block and the result's holds `result2` of the two input blocks; nothing is owed to anyone. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => result2 (blk2 V c 0 t) (blk2 V c 1 t)
  Φ _ := Pipeline.ΦA spec2 c
  q _ := fullShare
  owed _ := 0

theorem dat2_A (c : Dev nD) (w : Fin cfg2.W) : (dat2 V c).A w = V c (Pipeline.arrRef spec2 w) := by
  dsimp only [dat2]

theorem dat2_after_0 (c : Dev nD) (t : Fin cfg2.N) : (dat2 V c).after 0 t = blk2 V c 0 t := by dsimp only [dat2]
theorem dat2_after_1 (c : Dev nD) (t : Fin cfg2.N) : (dat2 V c).after 1 t = blk2 V c 1 t := by dsimp only [dat2]
theorem dat2_after_2 (c : Dev nD) (t : Fin cfg2.N) :
    (dat2 V c).after 2 t = result2 (blk2 V c 0 t) (blk2 V c 1 t) := by dsimp only [dat2]

theorem dat2_before_0 (c : Dev nD) (t : Fin cfg2.N) (d) : (dat2 V c).before 0 t d = blk2 V c 0 t :=
  in2_0_held V (dat2 V c) (dat2_A V c 0) (dat2_after_0 V c) t d
theorem dat2_before_1 (c : Dev nD) (t : Fin cfg2.N) (d) : (dat2 V c).before 1 t d = blk2 V c 1 t :=
  in2_1_held V (dat2 V c) (dat2_A V c 1) (dat2_after_1 V c) t d

/-- What the pipeline hands the body at point `t`, -/
def handed2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what the body hands back. -/
def returned2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so `body2_runs` applies; the invariant and what the core
    owes pass through untouched. -/
theorem body2_at (c : Dev nD) (t : Fin cfg2.N) :
    handed2 V c t ⊢ wp frame (wpE (defs₀ (F := F)) Variants.none c none) Set.univ (bodyAt2 t) (fun _ => returned2 V c t) := by
  unfold handed2 returned2 bodyAt2
  simp only [dat2_before_0, dat2_before_1]
  rw [show (dat2 V c).Φ t.succ = (dat2 V c).Φ t.castSucc from rfl,
    show (dat2 V c).owesAt () t.succ = (dat2 V c).owesAt () t.castSucc from rfl,
    dat2_after_0, dat2_after_1, dat2_after_2]
  iintro ⟨HΦ, Ho, ⟨%d0, H0⟩, ⟨%d1, H1⟩, ⟨%d2, H2⟩⟩
  iapply (body2_runs c Set.univ _ _ _ _ _ _ _ (blk2 V c 0 t) (blk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's obligation on the body, at every point. -/
theorem body2_obligation (c : Dev nD) : BodyObligation (dat2 (F := F) V c) (defs₀ (F := F)) Variants.none () Set.univ := fun t => by
  rw [bigSep_W2, bigSep_W2]
  exact body2_at V c t

end Cert.KernelIdeal.Hand

end
-- ==== Proof.IdealFrame.Run.lean ====
/-
  The whole program as one run: @main is sixteen items in a row — stretches of host operations and the three kernel
  regions — and between two items every unscoped buffer of the core holds known contents:

    B0            the launch memory
    B(j+1)        after a host stretch: what its operations compute from Bj (`StableHlo.after`)
    B4, B14, B16  after a region: the region's arrays at what its grid points wrote back, every other buffer as it was

  Each region is entered from the valuation before it (its proof data are taken there) and left at the one after it; a host
  stretch runs by the library's rule for a line of host operations. The run's conclusion names EVERY unscoped buffer at
  the last valuation `B16`: the frame (no argument is ever written, so `B16` at an argument is the launch memory) and the
  result's value are both read off it.
-/
import proofs.«138793_j80530636800127_1_alg».proof.Proof.IdealFrame.Region0
import proofs.«138793_j80530636800127_1_alg».proof.Proof.IdealFrame.Region1
import proofs.«138793_j80530636800127_1_alg».proof.Proof.IdealFrame.Region2
import proofs.«138793_j80530636800127_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers between two items -/

/-- Core `c`'s buffers at launch. -/
abbrev B0 : Dev nD → Valuation τ sig (Elt F) := fun c b => (s₀ m ρ).mem ((c : Dev nD), b)
/-- After item 0, the host stretch `hostOps0`. -/
abbrev B1 : Dev nD → Valuation τ sig (Elt F) := fun c => StableHlo.after hostOps0 (B0 m ρ c)
/-- After item 1, the host stretch `hostOps0_1`. -/
abbrev B2 : Dev nD → Valuation τ sig (Elt F) := fun c => StableHlo.after hostOps0_1 (B1 m ρ c)
/-- After item 2, the host stretch `hostOps0_2`. -/
abbrev B3 : Dev nD → Valuation τ sig (Elt F) := fun c => StableHlo.after hostOps0_2 (B2 m ρ c)
/-- What region 0 finds on entry, read at the TensorCore's references. -/
abbrev E3 : (c : Dev nD) → (b : Ref sig .tc) → Buf (Elt F) ((c : Thread nD τ).loc b) := fun c b => B3 m ρ c b
/-- After item 3, region 0: its arrays at what the grid's write-backs leave, everything else as entered. -/
def B4 (c : Dev nD) : Valuation τ sig (Elt F) :=
  Pipeline.withArrays spec0 c (B3 m ρ c) fun w => (dat0 (E3 m ρ) c).arrAt w cfg0.N
theorem B4_arr (c : Dev nD) (w : Fin cfg0.W) :
    B4 m ρ c (Proc.devRef .tc (Pipeline.arrRef spec0 w)) = (dat0 (E3 m ρ) c).arrAt w cfg0.N := by
  unfold B4; exact Pipeline.withArrays_arr spec0 launch0.win.arr_inj c _ _ w
theorem B4_of_ne (c : Dev nD) (b : Ref sig .tc) (hb : ∀ w, Pipeline.arrRef spec0 w ≠ b) :
    B4 m ρ c (Proc.devRef .tc b) = B3 m ρ c (Proc.devRef .tc b) := by
  unfold B4; exact Pipeline.withArrays_of_ne spec0 c _ _ b hb
/-- The same read at the TensorCore's references. -/
abbrev E4 : (c : Dev nD) → (b : Ref sig .tc) → Buf (Elt F) ((c : Thread nD τ).loc b) := fun c b => B4 m ρ c b
theorem exit0_arr (c : Dev nD) (w : Fin cfg0.W) : (dat0 (E3 m ρ) c).arrAt w cfg0.N = E4 m ρ c (Pipeline.arrRef spec0 w) :=
  (B4_arr m ρ c w).symm
theorem exit0_rest (c : Dev nD) : ∀ b, b ∉ Finset.univ.image (Pipeline.arrRef spec0) → E4 m ρ c b = E3 m ρ c b :=
  fun b hb => B4_of_ne m ρ c b fun w e => hb (Finset.mem_image.mpr ⟨w, Finset.mem_univ _, e⟩)
/-- After item 4, the host stretch `hostOps1`. -/
abbrev B5 : Dev nD → Valuation τ sig (Elt F) := fun c => StableHlo.after hostOps1 (B4 m ρ c)
/-- After item 5, the host stretch `hostOps1_1`. -/
abbrev B6 : Dev nD → Valuation τ sig (Elt F) := fun c => StableHlo.after hostOps1_1 (B5 m ρ c)
/-- After item 6, the host stretch `hostOps1_2`. -/
abbrev B7 : Dev nD → Valuation τ sig (Elt F) := fun c => StableHlo.after hostOps1_2 (B6 m ρ c)
/-- After item 7, the host stretch `hostOps1_3`. -/
abbrev B8 : Dev nD → Valuation τ sig (Elt F) := fun c => StableHlo.after hostOps1_3 (B7 m ρ c)
/-- After item 8, the host stretch `hostOps1_4`. -/
abbrev B9 : Dev nD → Valuation τ sig (Elt F) := fun c => StableHlo.after hostOps1_4 (B8 m ρ c)
/-- After item 9, the host stretch `hostOps1_5`. -/
abbrev B10 : Dev nD → Valuation τ sig (Elt F) := fun c => StableHlo.after hostOps1_5 (B9 m ρ c)
/-- After item 10, the host stretch `hostOps1_6`. -/
abbrev B11 : Dev nD → Valuation τ sig (Elt F) := fun c => StableHlo.after hostOps1_6 (B10 m ρ c)
/-- After item 11, the host stretch `hostOps1_7`. -/
abbrev B12 : Dev nD → Valuation τ sig (Elt F) := fun c => StableHlo.after hostOps1_7 (B11 m ρ c)
/-- After item 12, the host stretch `hostOps1_8`. -/
abbrev B13 : Dev nD → Valuation τ sig (Elt F) := fun c => StableHlo.after hostOps1_8 (B12 m ρ c)
/-- What region 1 finds on entry, read at the TensorCore's references. -/
abbrev E13 : (c : Dev nD) → (b : Ref sig .tc) → Buf (Elt F) ((c : Thread nD τ).loc b) := fun c b => B13 m ρ c b
/-- After item 13, region 1: its arrays at what the grid's write-backs leave, everything else as entered. -/
def B14 (c : Dev nD) : Valuation τ sig (Elt F) :=
  Pipeline.withArrays spec1 c (B13 m ρ c) fun w => (dat1 (E13 m ρ) c).arrAt w cfg1.N
theorem B14_arr (c : Dev nD) (w : Fin cfg1.W) :
    B14 m ρ c (Proc.devRef .tc (Pipeline.arrRef spec1 w)) = (dat1 (E13 m ρ) c).arrAt w cfg1.N := by
  unfold B14; exact Pipeline.withArrays_arr spec1 launch1.win.arr_inj c _ _ w
theorem B14_of_ne (c : Dev nD) (b : Ref sig .tc) (hb : ∀ w, Pipeline.arrRef spec1 w ≠ b) :
    B14 m ρ c (Proc.devRef .tc b) = B13 m ρ c (Proc.devRef .tc b) := by
  unfold B14; exact Pipeline.withArrays_of_ne spec1 c _ _ b hb
/-- The same read at the TensorCore's references. -/
abbrev E14 : (c : Dev nD) → (b : Ref sig .tc) → Buf (Elt F) ((c : Thread nD τ).loc b) := fun c b => B14 m ρ c b
theorem exit1_arr (c : Dev nD) (w : Fin cfg1.W) : (dat1 (E13 m ρ) c).arrAt w cfg1.N = E14 m ρ c (Pipeline.arrRef spec1 w) :=
  (B14_arr m ρ c w).symm
theorem exit1_rest (c : Dev nD) : ∀ b, b ∉ Finset.univ.image (Pipeline.arrRef spec1) → E14 m ρ c b = E13 m ρ c b :=
  fun b hb => B14_of_ne m ρ c b fun w e => hb (Finset.mem_image.mpr ⟨w, Finset.mem_univ _, e⟩)
/-- After item 14, the host stretch `hostOps2`. -/
abbrev B15 : Dev nD → Valuation τ sig (Elt F) := fun c => StableHlo.after hostOps2 (B14 m ρ c)
/-- What region 2 finds on entry, read at the TensorCore's references. -/
abbrev E15 : (c : Dev nD) → (b : Ref sig .tc) → Buf (Elt F) ((c : Thread nD τ).loc b) := fun c b => B15 m ρ c b
/-- After item 15, region 2: its arrays at what the grid's write-backs leave, everything else as entered. -/
def B16 (c : Dev nD) : Valuation τ sig (Elt F) :=
  Pipeline.withArrays spec2 c (B15 m ρ c) fun w => (dat2 (E15 m ρ) c).arrAt w cfg2.N
theorem B16_arr (c : Dev nD) (w : Fin cfg2.W) :
    B16 m ρ c (Proc.devRef .tc (Pipeline.arrRef spec2 w)) = (dat2 (E15 m ρ) c).arrAt w cfg2.N := by
  unfold B16; exact Pipeline.withArrays_arr spec2 launch2.win.arr_inj c _ _ w
theorem B16_of_ne (c : Dev nD) (b : Ref sig .tc) (hb : ∀ w, Pipeline.arrRef spec2 w ≠ b) :
    B16 m ρ c (Proc.devRef .tc b) = B15 m ρ c (Proc.devRef .tc b) := by
  unfold B16; exact Pipeline.withArrays_of_ne spec2 c _ _ b hb
/-- The same read at the TensorCore's references. -/
abbrev E16 : (c : Dev nD) → (b : Ref sig .tc) → Buf (Elt F) ((c : Thread nD τ).loc b) := fun c b => B16 m ρ c b
theorem exit2_arr (c : Dev nD) (w : Fin cfg2.W) : (dat2 (E15 m ρ) c).arrAt w cfg2.N = E16 m ρ c (Pipeline.arrRef spec2 w) :=
  (B16_arr m ρ c w).symm
theorem exit2_rest (c : Dev nD) : ∀ b, b ∉ Finset.univ.image (Pipeline.arrRef spec2) → E16 m ρ c b = E15 m ρ c b :=
  fun b hb => B16_of_ne m ρ c b fun w e => hb (Finset.mem_image.mpr ⟨w, Finset.mem_univ _, e⟩)

/-! ## A buffer nothing writes keeps its launch contents -/

/-- A buffer that no host stretch writes and that is no region's array — or is one that its region hands back as entered
    (`h4`, `h14`, `h16`) — holds at the end what it held at launch. -/
theorem B16_untouched (c : Dev nD) (r : Ref sig .tc)
    (h1 : r ∉ hostOps0_W) (h2 : r ∉ hostOps0_1_W) (h3 : r ∉ hostOps0_2_W)
    (h4 : B4 m ρ c (Proc.devRef .tc r) = B3 m ρ c (Proc.devRef .tc r))
    (h5 : r ∉ hostOps1_W) (h6 : r ∉ hostOps1_1_W) (h7 : r ∉ hostOps1_2_W) (h8 : r ∉ hostOps1_3_W) (h9 : r ∉ hostOps1_4_W)
    (h10 : r ∉ hostOps1_5_W) (h11 : r ∉ hostOps1_6_W) (h12 : r ∉ hostOps1_7_W) (h13 : r ∉ hostOps1_8_W)
    (h14 : B14 m ρ c (Proc.devRef .tc r) = B13 m ρ c (Proc.devRef .tc r))
    (h15 : r ∉ hostOps2_W)
    (h16 : B16 m ρ c (Proc.devRef .tc r) = B15 m ρ c (Proc.devRef .tc r)) :
    B16 m ρ c (Proc.devRef .tc r) = m ((c : Thread nD τ).loc r) :=
  h16.trans <| (StableHlo.after_of_writes_sub hostOps2 _ hostOps2_writes h15).trans <| h14.trans <|
  (StableHlo.after_of_writes_sub hostOps1_8 _ hostOps1_8_writes h13).trans <|
  (StableHlo.after_of_writes_sub hostOps1_7 _ hostOps1_7_writes h12).trans <|
  (StableHlo.after_of_writes_sub hostOps1_6 _ hostOps1_6_writes h11).trans <|
  (StableHlo.after_of_writes_sub hostOps1_5 _ hostOps1_5_writes h10).trans <|
  (StableHlo.after_of_writes_sub hostOps1_4 _ hostOps1_4_writes h9).trans <|
  (StableHlo.after_of_writes_sub hostOps1_3 _ hostOps1_3_writes h8).trans <|
  (StableHlo.after_of_writes_sub hostOps1_2 _ hostOps1_2_writes h7).trans <|
  (StableHlo.after_of_writes_sub hostOps1_1 _ hostOps1_1_writes h6).trans <|
  (StableHlo.after_of_writes_sub hostOps1 _ hostOps1_writes h5).trans <| h4.trans <|
  (StableHlo.after_of_writes_sub hostOps0_2 _ hostOps0_2_writes h3).trans <|
  (StableHlo.after_of_writes_sub hostOps0_1 _ hostOps0_1_writes h2).trans <|
  (StableHlo.after_of_writes_sub hostOps0 _ hostOps0_writes h1)

/-- An argument that is no region's array: nothing ever writes it. -/
theorem B16_plain_arg (c : Dev nD) (r : Ref sig .tc)
    (h1 : r ∉ hostOps0_W) (h2 : r ∉ hostOps0_1_W) (h3 : r ∉ hostOps0_2_W) (h4 : ∀ w, Pipeline.arrRef spec0 w ≠ r)
    (h5 : r ∉ hostOps1_W) (h6 : r ∉ hostOps1_1_W) (h7 : r ∉ hostOps1_2_W) (h8 : r ∉ hostOps1_3_W) (h9 : r ∉ hostOps1_4_W)
    (h10 : r ∉ hostOps1_5_W) (h11 : r ∉ hostOps1_6_W) (h12 : r ∉ hostOps1_7_W) (h13 : r ∉ hostOps1_8_W)
    (h14 : ∀ w, Pipeline.arrRef spec1 w ≠ r) (h15 : r ∉ hostOps2_W) (h16 : ∀ w, Pipeline.arrRef spec2 w ≠ r) :
    B16 m ρ c (Proc.devRef .tc r) = m ((c : Thread nD τ).loc r) :=
  B16_untouched m ρ c r h1 h2 h3 (B4_of_ne m ρ c r h4) h5 h6 h7 h8 h9 h10 h11 h12 h13 (B14_of_ne m ρ c r h14) h15 (B16_of_ne m ρ c r h16)

/-- The node features are region 0's first INPUT window: the region hands an input's array back as it found it. -/
theorem B16_main_arg0 (c : Dev nD) : B16 m ρ c (Proc.devRef .tc main_arg0) = m ((c : Thread nD τ).loc main_arg0) :=
  B16_untouched m ρ c main_arg0 (by decide) (by decide) (by decide)
    ((B4_arr m ρ c 0).trans (((dat0 (E3 m ρ) c).arrAt_in 0 rfl _).trans (dat0_A (E3 m ρ) c 0)))
    (by decide) (by decide) (by decide) (by decide) (by decide) (by decide) (by decide) (by decide) (by decide)
    (B14_of_ne m ρ c main_arg0 (by decide)) (by decide) (B16_of_ne m ρ c main_arg0 (by decide))
theorem B16_main_arg1 (c : Dev nD) : B16 m ρ c (Proc.devRef .tc main_arg1) = m ((c : Thread nD τ).loc main_arg1) :=
  B16_plain_arg m ρ c main_arg1 (by decide) (by decide) (by decide) (by decide) (by decide) (by decide) (by decide) (by decide)
    (by decide) (by decide) (by decide) (by decide) (by decide) (by decide) (by decide) (by decide)
theorem B16_main_arg2 (c : Dev nD) : B16 m ρ c (Proc.devRef .tc main_arg2) = m ((c : Thread nD τ).loc main_arg2) :=
  B16_plain_arg m ρ c main_arg2 (by decide) (by decide) (by decide) (by decide) (by decide) (by decide) (by decide) (by decide)
    (by decide) (by decide) (by decide) (by decide) (by decide) (by decide) (by decide) (by decide)
theorem B16_main_arg3 (c : Dev nD) : B16 m ρ c (Proc.devRef .tc main_arg3) = m ((c : Thread nD τ).loc main_arg3) :=
  B16_plain_arg m ρ c main_arg3 (by decide) (by decide) (by decide) (by decide) (by decide) (by decide) (by decide) (by decide)
    (by decide) (by decide) (by decide) (by decide) (by decide) (by decide) (by decide) (by decide)
theorem B16_main_arg4 (c : Dev nD) : B16 m ρ c (Proc.devRef .tc main_arg4) = m ((c : Thread nD τ).loc main_arg4) :=
  B16_plain_arg m ρ c main_arg4 (by decide) (by decide) (by decide) (by decide) (by decide) (by decide) (by decide) (by decide)
    (by decide) (by decide) (by decide) (by decide) (by decide) (by decide) (by decide) (by decide)
theorem B16_main_arg5 (c : Dev nD) : B16 m ρ c (Proc.devRef .tc main_arg5) = m ((c : Thread nD τ).loc main_arg5) :=
  B16_plain_arg m ρ c main_arg5 (by decide) (by decide) (by decide) (by decide) (by decide) (by decide) (by decide) (by decide)
    (by decide) (by decide) (by decide) (by decide) (by decide) (by decide) (by decide) (by decide)
theorem B16_main_arg6 (c : Dev nD) : B16 m ρ c (Proc.devRef .tc main_arg6) = m ((c : Thread nD τ).loc main_arg6) :=
  B16_plain_arg m ρ c main_arg6 (by decide) (by decide) (by decide) (by decide) (by decide) (by decide) (by decide) (by decide)
    (by decide) (by decide) (by decide) (by decide) (by decide) (by decide) (by decide) (by decide)
theorem B16_main_arg7 (c : Dev nD) : B16 m ρ c (Proc.devRef .tc main_arg7) = m ((c : Thread nD τ).loc main_arg7) :=
  B16_plain_arg m ρ c main_arg7 (by decide) (by decide) (by decide) (by decide) (by decide) (by decide) (by decide) (by decide)
    (by decide) (by decide) (by decide) (by decide) (by decide) (by decide) (by decide) (by decide)
theorem B16_main_arg8 (c : Dev nD) : B16 m ρ c (Proc.devRef .tc main_arg8) = m ((c : Thread nD τ).loc main_arg8) :=
  B16_plain_arg m ρ c main_arg8 (by decide) (by decide) (by decide) (by decide) (by decide) (by decide) (by decide) (by decide)
    (by decide) (by decide) (by decide) (by decide) (by decide) (by decide) (by decide) (by decide)
theorem B16_main_arg9 (c : Dev nD) : B16 m ρ c (Proc.devRef .tc main_arg9) = m ((c : Thread nD τ).loc main_arg9) :=
  B16_plain_arg m ρ c main_arg9 (by decide) (by decide) (by decide) (by decide) (by decide) (by decide) (by decide) (by decide)
    (by decide) (by decide) (by decide) (by decide) (by decide) (by decide) (by decide) (by decide)
theorem B16_main_arg10 (c : Dev nD) : B16 m ρ c (Proc.devRef .tc main_arg10) = m ((c : Thread nD τ).loc main_arg10) :=
  B16_plain_arg m ρ c main_arg10 (by decide) (by decide) (by decide) (by decide) (by decide) (by decide) (by decide) (by decide)
    (by decide) (by decide) (by decide) (by decide) (by decide) (by decide) (by decide) (by decide)
theorem B16_main_arg11 (c : Dev nD) : B16 m ρ c (Proc.devRef .tc main_arg11) = m ((c : Thread nD τ).loc main_arg11) :=
  B16_plain_arg m ρ c main_arg11 (by decide) (by decide) (by decide) (by decide) (by decide) (by decide) (by decide) (by decide)
    (by decide) (by decide) (by decide) (by decide) (by decide) (by decide) (by decide) (by decide)
theorem B16_main_arg12 (c : Dev nD) : B16 m ρ c (Proc.devRef .tc main_arg12) = m ((c : Thread nD τ).loc main_arg12) :=
  B16_plain_arg m ρ c main_arg12 (by decide) (by decide) (by decide) (by decide) (by decide) (by decide) (by decide) (by decide)
    (by decide) (by decide) (by decide) (by decide) (by decide) (by decide) (by decide) (by decide)
theorem B16_main_arg13 (c : Dev nD) : B16 m ρ c (Proc.devRef .tc main_arg13) = m ((c : Thread nD τ).loc main_arg13) :=
  B16_plain_arg m ρ c main_arg13 (by decide) (by decide) (by decide) (by decide) (by decide) (by decide) (by decide) (by decide)
    (by decide) (by decide) (by decide) (by decide) (by decide) (by decide) (by decide) (by decide)

/-! ## The proof data family and the thread state -/

/-- Every region's proof data, each taken at the valuation the region is entered from. -/
def pdats : (p : Fin 3) → (c : Dev nD) → Dat τ (Elt F) Unit ℕ (UR sig nD τ) ℕ (Pipeline.pin (pcfgs (F := F)) adm p) c
  | ⟨0, _⟩ => fun c => dat0 (E3 m ρ) c
  | ⟨1, _⟩ => fun c => dat1 (E13 m ρ) c
  | ⟨2, _⟩ => fun c => dat2 (E15 m ρ) c
abbrev noVariants : Variants := Variants.none
/-- No core owes another anything. -/
abbrev noPairs : GSem nD τ sig → Finset Unit := fun _ => ∅
abbrev noLevel : GSem nD τ sig → Unit → ℕ := fun _ _ => 0
/-- What rides beside the buffers through every item: the core's generator register at some state, and the core owing
    nothing. -/
abbrev beside (c : Dev nD) : sProp 𝕄 := iprop((∃ r, prngReg c r) ∗ ∃ W, owes (c : Thread nD τ) (0 : CellTallies nD τ sig Unit) W)
/-- A host stretch as an item: run from the valuation `W`, it leaves `StableHlo.after ops (W c)`. -/
abbrev hostItem (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noPairs noLevel :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W beside

theorem mem_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state but for what the core owes: every unscoped buffer at `B16`, the generator register somewhere. -/
abbrev atEnd (c : Dev nD) : sProp 𝕄 := iprop(StableHlo.held (c : Thread nD τ) (Pipeline.ucRefs τ sig) (B16 m ρ c) ∗ ∃ r, prngReg c r)

/-! ## The regions as items -/

set_option backward.isDefEq.respectTransparency.types false in
/-- Region 0: entered with every unscoped buffer at `B3`, left with them at `B4`. On entry its arrays are split out of
    the unscoped buffers and on exit put back at what the grid wrote; the generator register goes into the region's
    invariant and comes back; nothing is owed; the kernel has no semaphore of its own. -/
def region0 : Pipeline.RegionSeg (pcfgs (F := F)) adm (pdats m ρ) () defs₀ noVariants noPairs noLevel 0 where
  win := launch0.win.to₀
  block_pos := launch0.block_pos
  stage_whole := launch0.stage_whole
  K := PEmpty
  osem k := k.elim
  ho := Pipeline.OwnSemFacts.none _
  hbody c := (body0_obligation (E3 m ρ) c).loose
  hwaits := Pipeline.hwaits_of_owed_zero _ _ _ _ noPairs noLevel 0 fun _ _ => rfl
  pre c := iprop(StableHlo.held (c : Thread nD τ) (Pipeline.ucRefs τ sig) (B3 m ρ c) ∗ beside c)
  post c := iprop(StableHlo.held (c : Thread nD τ) (Pipeline.ucRefs τ sig) (B4 m ρ c) ∗ beside c)
  X c := iprop(∃ r, prngReg c r)
  Y c := iprop(∃ r, prngReg c r)
  Z c := Pipeline.unscopedRest (Ix := Unit) (Name := ℕ) (U := UR sig nD τ) (Lvl := ℕ) spec0 c (E3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E3 m ρ c) (E4 m ρ c) ((pdats m ρ 0 c).arrAt · cfg0.N) (exit0_arr m ρ c) (exit0_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered with every unscoped buffer at `B13`, left with them at `B14`. On entry its arrays are split out of
    the unscoped buffers and on exit put back at what the grid wrote; the generator register goes into the region's
    invariant and comes back; nothing is owed; the kernel has no semaphore of its own. -/
def region1 : Pipeline.RegionSeg (pcfgs (F := F)) adm (pdats m ρ) () defs₀ noVariants noPairs noLevel 1 where
  win := launch1.win.to₀
  block_pos := launch1.block_pos
  stage_whole := launch1.stage_whole
  K := PEmpty
  osem k := k.elim
  ho := Pipeline.OwnSemFacts.none _
  hbody c := (body1_obligation (E13 m ρ) c).loose
  hwaits := Pipeline.hwaits_of_owed_zero _ _ _ _ noPairs noLevel 1 fun _ _ => rfl
  pre c := iprop(StableHlo.held (c : Thread nD τ) (Pipeline.ucRefs τ sig) (B13 m ρ c) ∗ beside c)
  post c := iprop(StableHlo.held (c : Thread nD τ) (Pipeline.ucRefs τ sig) (B14 m ρ c) ∗ beside c)
  X c := iprop(∃ r, prngReg c r)
  Y c := iprop(∃ r, prngReg c r)
  Z c := Pipeline.unscopedRest (Ix := Unit) (Name := ℕ) (U := UR sig nD τ) (Lvl := ℕ) spec1 c (E13 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E13 m ρ c) (E14 m ρ c) ((pdats m ρ 1 c).arrAt · cfg1.N) (exit1_arr m ρ c) (exit1_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered with every unscoped buffer at `B15`, left with them at `B16`. On entry its arrays are split out of
    the unscoped buffers and on exit put back at what the grid wrote; the generator register goes into the region's
    invariant and comes back; nothing is owed; the kernel has no semaphore of its own. -/
def region2 : Pipeline.RegionSeg (pcfgs (F := F)) adm (pdats m ρ) () defs₀ noVariants noPairs noLevel 2 where
  win := launch2.win.to₀
  block_pos := launch2.block_pos
  stage_whole := launch2.stage_whole
  K := PEmpty
  osem k := k.elim
  ho := Pipeline.OwnSemFacts.none _
  hbody c := (body2_obligation (E15 m ρ) c).loose
  hwaits := Pipeline.hwaits_of_owed_zero _ _ _ _ noPairs noLevel 2 fun _ _ => rfl
  pre c := iprop(StableHlo.held (c : Thread nD τ) (Pipeline.ucRefs τ sig) (B15 m ρ c) ∗ beside c)
  post c := iprop(atEnd m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E15 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (E15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (E15 m ρ c) (E16 m ρ c) ((pdats m ρ 2 c).arrAt · cfg2.N) (exit2_arr m ρ c) (exit2_rest m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as its items, and the launch -/

/-- @main's sixteen items in order. -/
abbrev items : List (Pipeline.Seg (pcfgs (F := F)) adm (pdats m ρ) () defs₀ noVariants noPairs noLevel) :=
  [ .host (hostItem hostOps0 hostOps0_sub hostOps0_fresh (B0 m ρ)),
    .host (hostItem hostOps0_1 hostOps0_1_sub hostOps0_1_fresh (B1 m ρ)),
    .host (hostItem hostOps0_2 hostOps0_2_sub hostOps0_2_fresh (B2 m ρ)),
    .region (region0 m ρ),
    .host (hostItem hostOps1 hostOps1_sub hostOps1_fresh (B4 m ρ)),
    .host (hostItem hostOps1_1 hostOps1_1_sub hostOps1_1_fresh (B5 m ρ)),
    .host (hostItem hostOps1_2 hostOps1_2_sub hostOps1_2_fresh (B6 m ρ)),
    .host (hostItem hostOps1_3 hostOps1_3_sub hostOps1_3_fresh (B7 m ρ)),
    .host (hostItem hostOps1_4 hostOps1_4_sub hostOps1_4_fresh (B8 m ρ)),
    .host (hostItem hostOps1_5 hostOps1_5_sub hostOps1_5_fresh (B9 m ρ)),
    .host (hostItem hostOps1_6 hostOps1_6_sub hostOps1_6_fresh (B10 m ρ)),
    .host (hostItem hostOps1_7 hostOps1_7_sub hostOps1_7_fresh (B11 m ρ)),
    .host (hostItem hostOps1_8 hostOps1_8_sub hostOps1_8_fresh (B12 m ρ)),
    .region (region1 m ρ),
    .host (hostItem hostOps2 hostOps2_sub hostOps2_fresh (B14 m ρ)),
    .region (region2 m ρ) ]

/-- @main IS the run of its items. -/
theorem main_is_items (c : Dev nD) : main (F := F) c = Pipeline.Seg.run (items m ρ) := (main_chain c).trans (by chain_rfl)

set_option backward.isDefEq.respectTransparency.types false in
/-- From any memory with zero counters, every weakly fair execution of @main terminates, nothing faulting, and in every
    final state each unscoped buffer of each core holds `B16` of it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B16 m ρ c b) :=
  Pipeline.θ_run_regions_kit (pcfgs (F := F)) adm (pdats m ρ) () cellOf_inj emb₁ defs₀ noVariants noPairs noLevel m ρ main (items m ρ)
    (fun c Q => by rw [main_is_items m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ beside c)) (Tₙ := atEnd m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach noPairs noLevel fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B16 m ρ c b)
    (hfin := fun c s' => by
      iintro ⟨⟨Hh, -⟩, HSI⟩
      unfold StableHlo.held
      imodintro
      iapply (pointsTo_read_all (Pipeline.ucRefs τ sig) (fun b => (((c : Thread nD τ)).1, b)) (B16 m ρ c) s')
      isplitl [Hh] <;> iassumption)
    (hQ := fun s h => h)

/-- The frame: every argument array ends as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨(h c _ (mem_unscoped main_arg0 (by decide))).trans (B16_main_arg0 m ρ c),
     (h c _ (mem_unscoped main_arg1 (by decide))).trans (B16_main_arg1 m ρ c),
     (h c _ (mem_unscoped main_arg2 (by decide))).trans (B16_main_arg2 m ρ c),
     (h c _ (mem_unscoped main_arg3 (by decide))).trans (B16_main_arg3 m ρ c),
     (h c _ (mem_unscoped main_arg4 (by decide))).trans (B16_main_arg4 m ρ c),
     (h c _ (mem_unscoped main_arg5 (by decide))).trans (B16_main_arg5 m ρ c),
     (h c _ (mem_unscoped main_arg6 (by decide))).trans (B16_main_arg6 m ρ c),
     (h c _ (mem_unscoped main_arg7 (by decide))).trans (B16_main_arg7 m ρ c),
     (h c _ (mem_unscoped main_arg8 (by decide))).trans (B16_main_arg8 m ρ c),
     (h c _ (mem_unscoped main_arg9 (by decide))).trans (B16_main_arg9 m ρ c),
     (h c _ (mem_unscoped main_arg10 (by decide))).trans (B16_main_arg10 m ρ c),
     (h c _ (mem_unscoped main_arg11 (by decide))).trans (B16_main_arg11 m ρ c),
     (h c _ (mem_unscoped main_arg12 (by decide))).trans (B16_main_arg12 m ρ c),
     (h c _ (mem_unscoped main_arg13 (by decide))).trans (B16_main_arg13 m ρ c)⟩) (run_all m ρ)

end Cert.KernelIdeal.Hand

end
-- ==== Proof.Spec.lean ====
/-
  What the three kernels compute, as whole-array functions on the extended reals, with no program in sight.

  * `proj1 x w`: every row of the node features `x` (100000 × 512) against every column of the four first-layer
    weight matrices stacked side by side (512 × 128): entry `(r, j)` is `∑ k, x[r,k] · w[k,j]`.
  * `proj2 h w`: the same for the hidden features `h` (100000 × 32) against the two class-layer weight matrices
    stacked side by side (32 × 80).
  * `logSoftmaxOfSum a b`: with `s = a + b` (100000 × 40), entry `(r, j)` is
    `(s[r,j] − M r) − log (∑ j', exp (s[r,j'] − M r))`, where `M r` is the largest entry of row `r` of `s`, taken as the
    fold of `max` over the row from `−∞`.

  A product of a row with a column is a plain finite sum here: a sum of extended reals does not depend on how it is
  grouped or ordered, so a matrix product computed block of rows by block of rows is this function, and a column of the
  stacked matrix is a column of the matrix it came from.
-/
import Idealize.ShloMosaic.PureOps
import Idealize.ShloMosaic.PureOps.Ideal.Laws
import Idealize.ShloMosaic.Lib.ValueIdx

noncomputable section

namespace Cert.Spec

open Idealize.ShloMosaic Idealize.ShloMosaic.ValueIdx

/-- A two-axis array of extended reals, `r` rows by `c` columns. -/
abbrev Arr (r c : Nat) : Type := (⟨2, ![r, c]⟩ : Shape).Idx → EReal

/-- The word of `−∞` as an extended real: the seed of a row maximum. -/
abbrev negInf : EReal := Ideal.ofBits .f32 0xFF800000#32

/-- Rows of `x` against columns of the stacked first-layer weights. -/
def proj1 (x : Arr 100000 512) (w : Arr 512 128) : Arr 100000 128 :=
  fun i => ∑ k : Fin 512, x (ix2 (i 0) k) * w (ix2 k (i 1))

/-- Rows of the hidden features against columns of the stacked class-layer weights. -/
def proj2 (h : Arr 100000 32) (w : Arr 32 80) : Arr 100000 80 :=
  fun i => ∑ k : Fin 32, h (ix2 (i 0) k) * w (ix2 k (i 1))

/-- The largest entry of row `r`, as a fold of `max` from `−∞`. -/
def rowMax (s : Arr 100000 40) (r : Fin 100000) : EReal :=
  (Finset.univ : Finset (Fin 40)).fold max negInf fun j => s (ix2 r j)

/-- Row-wise log-softmax of the entrywise sum of `a` and `b`. -/
def logSoftmaxOfSum (a b : Arr 100000 40) : Arr 100000 40 := fun i =>
  ((a i + b i) - rowMax (fun j => a j + b j) (i 0))
    - Ideal.log (∑ j : Fin 40, Ideal.exp ((a (ix2 (i 0) j) + b (ix2 (i 0) j)) - rowMax (fun j => a j + b j) (i 0)))

end Cert.Spec

end
-- ==== Proof.PayloadAtIndex.lean ====
/-
  The three kernel bodies' stored values, read at one entry.

  * The two matrix-product bodies store, at entry `(p, q)`, the sum over `k` of `x[p, k] · w[k, q]`: on the extended
    reals the narrowing of the operands is the identity, the cast of an array to its own shape is the identity, and the
    product accumulates into the zero array.
  * The log-softmax body stores, at entry `(p, q)` with `s = a + b`, `(s[p, q] − M) − log (∑ j, exp (s[p, j] − M))`
    where `M` is the fold of `max` over row `p` of `s` from `−∞`: a reduction over the columns read at row `p` is the
    fold (or the sum) over that row's entries, and a per-row value given a trailing unit axis and broadcast along the
    row reads the row's value at every column.
-/
import proofs.«138793_j80530636800127_1_alg».proof.Proof.Gen.KernelIdeal.Skeleton
import proofs.«138793_j80530636800127_1_alg».proof.Proof.Spec
import Idealize.ShloMosaic.Lib.Pipeline.Value
import Idealize.ShloMosaic.Lib.ValueIdx
import Idealize.ShloMosaic.PureOps.Ideal.Laws

noncomputable section

namespace Cert.Bridge

open Idealize.ShloMosaic Idealize.ShloMosaic.ValueIdx Cert.KernelIdeal Cert.KernelIdeal.Gen

/-! ### `k0_pay1`: a row of the left operand against a column of the right one -/

theorem pay0_lhs_0 (i : S5000x128.Idx) (c : dot_S5000x512_S512x128_S5000x128_1_0_0_1_n_n.contr.Idx) :
    (dot_S5000x512_S512x128_S5000x128_1_0_0_1_n_n.lhsIdx i c 0).val = (i 0).val := by
  unfold DotDims.lhsIdx
  rw [dif_neg (show ¬(0 : Fin S5000x512.rank) ∈ dot_S5000x512_S512x128_S5000x128_1_0_0_1_n_n.lhsBatch by decide),
    dif_pos (show (0 : Fin S5000x512.rank) ∈ dot_S5000x512_S512x128_S5000x128_1_0_0_1_n_n.lhsNonContracting by decide)]
  rfl
theorem pay0_lhs_1 (i : S5000x128.Idx) (c : dot_S5000x512_S512x128_S5000x128_1_0_0_1_n_n.contr.Idx) :
    (dot_S5000x512_S512x128_S5000x128_1_0_0_1_n_n.lhsIdx i c 1).val = (c ⟨0, by decide⟩).val :=
  dot_S5000x512_S512x128_S5000x128_1_0_0_1_n_n.lhsIdx_val_of_single rfl i c
theorem pay0_rhs_0 (i : S5000x128.Idx) (c : dot_S5000x512_S512x128_S5000x128_1_0_0_1_n_n.contr.Idx) :
    (dot_S5000x512_S512x128_S5000x128_1_0_0_1_n_n.rhsIdx i c 0).val = (c ⟨0, by decide⟩).val :=
  dot_S5000x512_S512x128_S5000x128_1_0_0_1_n_n.rhsIdx_val_of_single rfl i c
theorem pay0_rhs_1 (i : S5000x128.Idx) (c : dot_S5000x512_S512x128_S5000x128_1_0_0_1_n_n.contr.Idx) :
    (dot_S5000x512_S512x128_S5000x128_1_0_0_1_n_n.rhsIdx i c 1).val = (i 1).val := by
  unfold DotDims.rhsIdx
  rw [dif_neg (show ¬(1 : Fin S512x128.rank) ∈ dot_S5000x512_S512x128_S5000x128_1_0_0_1_n_n.rhsBatch by decide),
    dif_pos (show (1 : Fin S512x128.rank) ∈ dot_S5000x512_S512x128_S5000x128_1_0_0_1_n_n.rhsNonContracting by decide)]
  rfl

set_option maxHeartbeats 400000 in
/-- Entry `(p, q)` of the product: the sum over `k` of `x[p, k] · w[k, q]`. The format changes are the identity on the
    extended reals, the cast to the same shape is the identity, and the accumulator is the zero array. -/
theorem pay0_apply (x : Vec Ideal S5000x512 .f32) (w : Vec Ideal S512x128 .f32) (p : Fin 5000) (q : Fin 128) :
    k0_pay1 (F := Ideal) x w (ix2 p q) = ∑ k : Fin 512, x (ix2 p k) * w (ix2 k q) := by
  unfold k0_pay1
  simp only [shapeCast_self, matmul]
  rw [Ideal.matmul_constant_zero_apply,
    ← Equiv.sum_comp (contrEquiv1 dot_S5000x512_S512x128_S5000x128_1_0_0_1_n_n 512 rfl rfl).symm]
  refine Finset.sum_congr rfl fun k _ => ?_
  have hk := contrEquiv1_symm_val dot_S5000x512_S512x128_S5000x128_1_0_0_1_n_n 512 rfl rfl k
  have el : dot_S5000x512_S512x128_S5000x128_1_0_0_1_n_n.lhsIdx (ix2 p q) ((contrEquiv1 dot_S5000x512_S512x128_S5000x128_1_0_0_1_n_n 512 rfl rfl).symm k) = ix2 p k :=
    funext fun a => Fin.ext (by
      match a with
      | ⟨0, _⟩ => exact pay0_lhs_0 _ _
      | ⟨1, _⟩ => exact (pay0_lhs_1 _ _).trans hk)
  have er : dot_S5000x512_S512x128_S5000x128_1_0_0_1_n_n.rhsIdx (ix2 p q) ((contrEquiv1 dot_S5000x512_S512x128_S5000x128_1_0_0_1_n_n 512 rfl rfl).symm k) = ix2 k q :=
    funext fun a => Fin.ext (by
      match a with
      | ⟨0, _⟩ => exact (pay0_rhs_0 _ _).trans hk
      | ⟨1, _⟩ => exact pay0_rhs_1 _ _)
  rw [el, er]
  rfl

/-! ### `k1_pay1`: a row of the left operand against a column of the right one -/

theorem pay1_lhs_0 (i : S10000x80.Idx) (c : dot_S10000x32_S32x80_S10000x80_1_0_0_1_n_n.contr.Idx) :
    (dot_S10000x32_S32x80_S10000x80_1_0_0_1_n_n.lhsIdx i c 0).val = (i 0).val := by
  unfold DotDims.lhsIdx
  rw [dif_neg (show ¬(0 : Fin S10000x32.rank) ∈ dot_S10000x32_S32x80_S10000x80_1_0_0_1_n_n.lhsBatch by decide),
    dif_pos (show (0 : Fin S10000x32.rank) ∈ dot_S10000x32_S32x80_S10000x80_1_0_0_1_n_n.lhsNonContracting by decide)]
  rfl
theorem pay1_lhs_1 (i : S10000x80.Idx) (c : dot_S10000x32_S32x80_S10000x80_1_0_0_1_n_n.contr.Idx) :
    (dot_S10000x32_S32x80_S10000x80_1_0_0_1_n_n.lhsIdx i c 1).val = (c ⟨0, by decide⟩).val :=
  dot_S10000x32_S32x80_S10000x80_1_0_0_1_n_n.lhsIdx_val_of_single rfl i c
theorem pay1_rhs_0 (i : S10000x80.Idx) (c : dot_S10000x32_S32x80_S10000x80_1_0_0_1_n_n.contr.Idx) :
    (dot_S10000x32_S32x80_S10000x80_1_0_0_1_n_n.rhsIdx i c 0).val = (c ⟨0, by decide⟩).val :=
  dot_S10000x32_S32x80_S10000x80_1_0_0_1_n_n.rhsIdx_val_of_single rfl i c
theorem pay1_rhs_1 (i : S10000x80.Idx) (c : dot_S10000x32_S32x80_S10000x80_1_0_0_1_n_n.contr.Idx) :
    (dot_S10000x32_S32x80_S10000x80_1_0_0_1_n_n.rhsIdx i c 1).val = (i 1).val := by
  unfold DotDims.rhsIdx
  rw [dif_neg (show ¬(1 : Fin S32x80.rank) ∈ dot_S10000x32_S32x80_S10000x80_1_0_0_1_n_n.rhsBatch by decide),
    dif_pos (show (1 : Fin S32x80.rank) ∈ dot_S10000x32_S32x80_S10000x80_1_0_0_1_n_n.rhsNonContracting by decide)]
  rfl

set_option maxHeartbeats 400000 in
/-- Entry `(p, q)` of the product: the sum over `k` of `x[p, k] · w[k, q]`. The format changes are the identity on the
    extended reals, the cast to the same shape is the identity, and the accumulator is the zero array. -/
theorem pay1_apply (x : Vec Ideal S10000x32 .f32) (w : Vec Ideal S32x80 .f32) (p : Fin 10000) (q : Fin 80) :
    k1_pay1 (F := Ideal) x w (ix2 p q) = ∑ k : Fin 32, x (ix2 p k) * w (ix2 k q) := by
  unfold k1_pay1
  simp only [shapeCast_self, matmul]
  rw [Ideal.matmul_constant_zero_apply,
    ← Equiv.sum_comp (contrEquiv1 dot_S10000x32_S32x80_S10000x80_1_0_0_1_n_n 32 rfl rfl).symm]
  refine Finset.sum_congr rfl fun k _ => ?_
  have hk := contrEquiv1_symm_val dot_S10000x32_S32x80_S10000x80_1_0_0_1_n_n 32 rfl rfl k
  have el : dot_S10000x32_S32x80_S10000x80_1_0_0_1_n_n.lhsIdx (ix2 p q) ((contrEquiv1 dot_S10000x32_S32x80_S10000x80_1_0_0_1_n_n 32 rfl rfl).symm k) = ix2 p k :=
    funext fun a => Fin.ext (by
      match a with
      | ⟨0, _⟩ => exact pay1_lhs_0 _ _
      | ⟨1, _⟩ => exact (pay1_lhs_1 _ _).trans hk)
  have er : dot_S10000x32_S32x80_S10000x80_1_0_0_1_n_n.rhsIdx (ix2 p q) ((contrEquiv1 dot_S10000x32_S32x80_S10000x80_1_0_0_1_n_n 32 rfl rfl).symm k) = ix2 k q :=
    funext fun a => Fin.ext (by
      match a with
      | ⟨0, _⟩ => exact (pay1_rhs_0 _ _).trans hk
      | ⟨1, _⟩ => exact pay1_rhs_1 _ _)
  rw [el, er]
  rfl

/-! ### `k2_pay1`: the row-wise log-softmax of a sum -/

/-- The source index over row `p` with column `k` inserted is `(p, k)`. -/
theorem lift_row (h : S10000x40.Reduces [1] S10000) (p : Fin 10000) (k : Fin 40) :
    h.lift (ix1 p) k = ix2 p k := by
  funext c
  match c with
  | ⟨0, _⟩ => exact Fin.ext rfl
  | ⟨1, _⟩ => exact Fin.ext rfl

/-- A column vector broadcast along the rows reads its row's entry. -/
theorem bcastRow_apply {α : Type} (u : S10000x1.Idx → α) (p : Fin 10000) (q : Fin 40) :
    broadcastTo S10000x40 u broadcasts_S10000x1_S10000x40 (ix2 p q) = u (ix2 p (0 : Fin 1)) :=
  broadcastTo_apply u broadcasts_S10000x1_S10000x40 (ix2 p q) (ix2 p (0 : Fin 1)) (fun a => by
    match a with
    | ⟨0, _⟩ => show p.val = if (10000 : Nat) = 1 then 0 else p.val; rw [if_neg (by decide)]
    | ⟨1, _⟩ => show 0 = if (1 : Nat) = 1 then 0 else q.val; rw [if_pos rfl])

/-- A per-row value given a trailing unit axis reads the row's value. -/
theorem castRow_apply {α : Type} (v : S10000.Idx → α) (p : Fin 10000) :
    shapeCast S10000x1 v shapeCasts_S10000_S10000x1 (ix2 p (0 : Fin 1)) = v (ix1 p) := by
  refine shapeCast_apply v shapeCasts_S10000_S10000x1 (ix2 p (0 : Fin 1)) (ix1 p) ?_
  rewrite [Shape.rowMajor_val_two, Shape.rowMajor_val_one]
  show p.val = p.val * 1 + 0
  omega

/-- The exponential and the logarithm of a vector, read at an index. -/
theorem exp_apply {s : Shape} {φ : FTy} (x : FVec Ideal s φ) (i : s.Idx) : exp x i = Ideal.exp (x i) := rfl
theorem log_apply {s : Shape} {φ : FTy} (x : FVec Ideal s φ) (i : s.Idx) : log x i = Ideal.log (x i) := rfl

/-- The maximum over the columns, read at row `p`: the fold of `max` over the row from `−∞`. -/
theorem rowMax_apply (s : FVec Ideal S10000x40 .f32) (hφ : FKind.Formats .f32)
    (hacc : (0xFF800000#32 : BitVec 32) = FKind.maximumf.neutral .f32 hφ) (p : Fin 10000) :
    multiReduction (F := Ideal) .maximumf [1] S10000 s 0xFF800000#32 reduces_S10000x40_S10000 hφ hacc (ix1 p)
      = (Finset.univ : Finset (Fin 40)).fold max Cert.Spec.negInf (fun j => s (ix2 p j)) := by
  refine (Ideal.multiReduction_maximumf_single s 0xFF800000#32 reduces_S10000x40_S10000 hφ hacc (ix1 p)).trans ?_
  refine congrArg (fun f => (Finset.univ : Finset (Fin 40)).fold max Cert.Spec.negInf f) (funext fun j => ?_)
  exact congrArg s (lift_row reduces_S10000x40_S10000 p j)

/-- The sum over the columns, read at row `p`. -/
theorem rowSum_apply (s : FVec Ideal S10000x40 .f32) (hφ : FKind.Formats .f32)
    (hacc : (0x00000000#32 : BitVec 32) = FKind.add.neutral .f32 hφ) (p : Fin 10000) :
    multiReduction (F := Ideal) .add [1] S10000 s 0x00000000#32 reduces_S10000x40_S10000 hφ hacc (ix1 p)
      = ∑ j : Fin 40, s (ix2 p j) := by
  refine (Ideal.multiReduction_add_single s 0x00000000#32 reduces_S10000x40_S10000 hφ hacc (ix1 p)).trans ?_
  exact Finset.sum_congr rfl fun j _ => congrArg s (lift_row reduces_S10000x40_S10000 p j)

set_option maxHeartbeats 400000 in
theorem pay2_apply (a b : Vec Ideal S10000x40 .f32) (p : Fin 10000) (q : Fin 40) :
    k2_pay1 (F := Ideal) a b (ix2 p q)
      = ((a (ix2 p q) + b (ix2 p q)) - (Finset.univ : Finset (Fin 40)).fold max Cert.Spec.negInf (fun j => a (ix2 p j) + b (ix2 p j)))
        - Ideal.log (∑ j : Fin 40, Ideal.exp ((a (ix2 p j) + b (ix2 p j)) - (Finset.univ : Finset (Fin 40)).fold max Cert.Spec.negInf (fun j => a (ix2 p j) + b (ix2 p j)))) := by
  unfold k2_pay1
  simp only [shapeCast_self]
  simp only [subf_apply, bcastRow_apply, castRow_apply, log_apply, addf_apply]
  refine congrArg₂ (fun M S => (a (ix2 p q) + b (ix2 p q) - M) - Ideal.log S) (rowMax_apply (addf a b) _ _ p) ?_
  refine (rowSum_apply _ _ _ p).trans ?_
  refine Finset.sum_congr rfl fun j _ => ?_
  simp only [exp_apply, subf_apply, bcastRow_apply, castRow_apply, addf_apply]
  exact congrArg (fun M => Ideal.exp (a (ix2 p j) + b (ix2 p j) - M)) (rowMax_apply (addf a b) _ _ p)

end Cert.Bridge

end
-- ==== Proof.IdealFrame.Array0.lean ====
/-
  Region 0's result array when the region is left: `Spec.proj1` of the two arrays it was entered with.

  Grid point `t` writes back rows `[5000·t, 5000·(t+1))` of the result, all 128 columns. At row `p`, column `q` of its block
  the body stored `∑ k, X[p,k] · W[k,q]` where `X` is the point's block of the features — rows `5000·t + p` of the array — and
  `W` the stacked weights, which every point sees whole. So the block written back is that block of `proj1`; the twenty
  blocks tile the 100000 rows, so the array ends at `proj1`.
-/
import proofs.«138793_j80530636800127_1_alg».proof.Proof.IdealFrame.Region0
import proofs.«138793_j80530636800127_1_alg».proof.Proof.PayloadAtIndex
import proofs.«138793_j80530636800127_1_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

theorem noOffset : (![0, 0] : Fin 2 → Nat) = fun _ => 0 := funext fun a => by fin_cases a <;> rfl

variable (V : (c : Dev nD) → (b : Ref sig .tc) → Buf (Elt Ideal) ((c : Thread nD τ).loc b))

/-- The stored value of the body at row `p`, column `q` of the block. -/
theorem result0_at (x0 : Vec Ideal S5000x512 .f32) (x1 : Vec Ideal S512x128 .f32) (p : Fin 5000) (q : Fin 128) :
    result0 (F := Ideal) x0 x1 (ix2 p q) = ∑ k : Fin 512, x0 (ix2 p k) * x1 (ix2 k q) := by
  unfold result0
  rw [View.canon_unit_zero noOffset]
  simp only [View.ld_unit_zero (S := S5000x512) noOffset, View.ld_unit_zero (S := S512x128) noOffset]
  exact Cert.Bridge.pay0_apply x0 x1 p q

/-- Where the three windows' blocks sit, decided over the grid: point `t` works on block row `t` of the features and of the
    result, and on the whole of the stacked weights. -/
theorem where0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every block row of the result is some point's. -/
theorem onto0 : ∀ q0 : Fin 20, ∃ t : Fin cfg0.N, t.val = q0.val :=
  (by decide +kernel : ∀ q0 : Fin 20, ∃ t : Fin grid0.N, t.val = q0.val)

/-- What point `t` writes back is its block of `proj1` of the entry arrays. -/
theorem wrote0 (c : Dev nD) (t : Fin cfg0.N) :
    (dat0 (F := Ideal) V c).flushed 2 t
      = ((cfg0.win 2).blk t).view.read (Elt Ideal) (Cert.Spec.proj1 (V c main_arg0) (V c main_v32)) := by
  show (cfg0.win 2).cut (grid0.coords t) ((dat0 V c).after 2 t) = _
  rw [dat0_after_2]
  obtain ⟨e0, e1, e2, e3, e4, e5⟩ := where0 t
  funext j
  obtain ⟨p, q, rfl⟩ : ∃ (p : Fin 5000) (q : Fin 128), j = ix2 p q := ⟨j 0, j 1, eq_ix2 j⟩
  refine (result0_at (blk0 V c 0 t) (blk0 V c 1 t) p q).trans ?_
  show _ = Cert.Spec.proj1 (V c main_arg0) (V c main_v32) (((cfg0.win 2).blk t).view.emb (ix2 p q))
  unfold Cert.Spec.proj1
  refine Finset.sum_congr rfl fun k _ => ?_
  have h0 : ((cfg0.win 0).blk t).view.emb (ix2 p k) = ix2 ((((cfg0.win 2).blk t).view.emb (ix2 p q)) 0) k := by
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 512 + 1 * k.val = k.val; omega
  have h1 : ((cfg0.win 1).blk t).view.emb (ix2 k q) = ix2 k ((((cfg0.win 2).blk t).view.emb (ix2 p q)) 1) := by
    funext a; apply Fin.ext
    match a with
    | ⟨0, _⟩ => show win0_1.index t (0 : Fin 2) * 512 + 1 * k.val = k.val; omega
    | ⟨1, _⟩ => show win0_1.index t (1 : Fin 2) * 128 + 1 * q.val = win0_2.index t (1 : Fin 2) * 128 + 1 * q.val; omega
  refine congrArg₂ (fun a b : EReal => a * b) ?_ ?_
  · exact congrArg (V c main_arg0) h0
  · exact congrArg (V c main_v32) h1

/-- An index of the result is in point `t`'s block iff each coordinate is in the block's range on its axis. -/
theorem inBlock0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v33).slice (win0_2.rect t)).set ↔ _
  rw [View.set_slice_whole, Rect.mem_set_unit]
  exact Iff.rfl

/-- The twenty blocks tile the result: row `r` is in the block of point `r / 5000`. -/
theorem tiled0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := onto0 ⟨(i 0).val / 5000, by omega⟩
  have ht' : t.val = (i 0).val / 5000 := ht
  obtain ⟨e0, e1, e2, e3, e4, e5⟩ := where0 t
  refine ⟨t, flush0_2 t, ?_⟩
  rw [inBlock0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The result array when region 0 is left. -/
theorem array0 (c : Dev nD) :
    (dat0 (F := Ideal) V c).arrAt 2 cfg0.N = Cert.Spec.proj1 (V c main_arg0) (V c main_v32) :=
  (dat0 (F := Ideal) V c).arrAt_eq_of_cover 2 _ (fun t _ => wrote0 V c t) (tiled0)

end Cert.KernelIdeal.Hand

end
-- ==== Proof.IdealFrame.Array1.lean ====
/-
  Region 1's result array when the region is left: `Spec.proj2` of the two arrays it was entered with.

  Grid point `t` writes back rows `[10000·t, 10000·(t+1))` of the result, all 80 columns. At row `p`, column `q` of its
  block the body stored `∑ k, H[p,k] · W[k,q]` where `H` is the point's block of the hidden features — rows `10000·t + p` of
  the array — and `W` the stacked class-layer weights, which every point sees whole. So the block written back is that
  block of `proj2`; the ten blocks tile the 100000 rows, so the array ends at `proj2`.
-/
import proofs.«138793_j80530636800127_1_alg».proof.Proof.IdealFrame.Region1
import proofs.«138793_j80530636800127_1_alg».proof.Proof.PayloadAtIndex
import proofs.«138793_j80530636800127_1_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

theorem noOffset1 : (![0, 0] : Fin 2 → Nat) = fun _ => 0 := funext fun a => by fin_cases a <;> rfl

variable (V : (c : Dev nD) → (b : Ref sig .tc) → Buf (Elt Ideal) ((c : Thread nD τ).loc b))

/-- The stored value of the body at row `p`, column `q` of the block. -/
theorem result1_at (x0 : Vec Ideal S10000x32 .f32) (x1 : Vec Ideal S32x80 .f32) (p : Fin 10000) (q : Fin 80) :
    result1 (F := Ideal) x0 x1 (ix2 p q) = ∑ k : Fin 32, x0 (ix2 p k) * x1 (ix2 k q) := by
  unfold result1
  rw [View.canon_unit_zero noOffset1]
  simp only [View.ld_unit_zero (S := S10000x32) noOffset1, View.ld_unit_zero (S := S32x80) noOffset1]
  exact Cert.Bridge.pay1_apply x0 x1 p q

/-- Where the three windows' blocks sit, decided over the grid: point `t` works on block row `t` of the hidden features and
    of the result, and on the whole of the stacked weights. -/
theorem where1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Every block row of the result is some point's. -/
theorem onto1 : ∀ q0 : Fin 10, ∃ t : Fin cfg1.N, t.val = q0.val :=
  (by decide +kernel : ∀ q0 : Fin 10, ∃ t : Fin grid1.N, t.val = q0.val)

/-- The sum the body stores at row `p`, column `q` of point `t`'s block, over the point's blocks of two arrays `X` and `W`, is
    `proj2 X W` at the entry of the result array under `(p, q)`: the blocks of `X` and of the result sit on the same rows,
    and the block of `W` is all of `W`. -/
theorem block1_proj2 (X : Cert.Spec.Arr 100000 32) (W : Cert.Spec.Arr 32 80) (t : Fin cfg1.N) (p : Fin 10000) (q : Fin 80) :
    (∑ k : Fin 32, X (((cfg1.win 0).blk t).view.emb (ix2 p k)) * W (((cfg1.win 1).blk t).view.emb (ix2 k q)))
      = Cert.Spec.proj2 X W (((cfg1.win 2).blk t).view.emb (ix2 p q)) := by
  obtain ⟨e0, e1, e2, e3, e4, e5⟩ := where1 t
  unfold Cert.Spec.proj2
  refine Finset.sum_congr rfl fun k _ => ?_
  have h0 : ((cfg1.win 0).blk t).view.emb (ix2 p k) = ix2 ((((cfg1.win 2).blk t).view.emb (ix2 p q)) 0) k := by
    funext a; apply Fin.ext
    match a with
    | ⟨0, _⟩ => show win1_0.index t (0 : Fin 2) * 10000 + 1 * p.val = win1_2.index t (0 : Fin 2) * 10000 + 1 * p.val; rw [e0, e4]
    | ⟨1, _⟩ => show win1_0.index t (1 : Fin 2) * 32 + 1 * k.val = k.val; rw [e1, Nat.zero_mul, Nat.zero_add, Nat.one_mul]
  have h1 : ((cfg1.win 1).blk t).view.emb (ix2 k q) = ix2 k ((((cfg1.win 2).blk t).view.emb (ix2 p q)) 1) := by
    funext a; apply Fin.ext
    match a with
    | ⟨0, _⟩ => show win1_1.index t (0 : Fin 2) * 32 + 1 * k.val = k.val; rw [e2, Nat.zero_mul, Nat.zero_add, Nat.one_mul]
    | ⟨1, _⟩ => show win1_1.index t (1 : Fin 2) * 80 + 1 * q.val = win1_2.index t (1 : Fin 2) * 80 + 1 * q.val; rw [e3, e5]
  rw [h0, h1]
  rfl

/-- What point `t` writes back is its block of `proj2` of the entry arrays. -/
theorem wrote1 (c : Dev nD) (t : Fin cfg1.N) :
    (dat1 (F := Ideal) V c).flushed 2 t
      = ((cfg1.win 2).blk t).view.read (Elt Ideal) (Cert.Spec.proj2 (V c main_v108) (V c main_v109)) := by
  show (cfg1.win 2).cut (grid1.coords t) ((dat1 V c).after 2 t) = _
  rw [dat1_after_2]
  funext j
  obtain ⟨p, q, rfl⟩ : ∃ (p : Fin 10000) (q : Fin 80), j = ix2 p q := ⟨j 0, j 1, eq_ix2 j⟩
  refine (result1_at (blk1 V c 0 t) (blk1 V c 1 t) p q).trans ?_
  exact block1_proj2 (V c main_v108) (V c main_v109) t p q

/-- An index of the result is in point `t`'s block iff each coordinate is in the block's range on its axis. -/
theorem inBlock1 (t : Fin cfg1.N) (i : S100000x80.Idx) :
    i ∈ ((cfg1.win 2).blk t).view.set ↔ ∀ a : Fin 2, win1_2.index t a * S10000x80.size a ≤ (i a).val ∧ (i a).val < win1_2.index t a * S10000x80.size a + S10000x80.size a := by
  show i ∈ ((View.whole main_v110).slice (win1_2.rect t)).set ↔ _
  rw [View.set_slice_whole, Rect.mem_set_unit]
  exact Iff.rfl

/-- The ten blocks tile the result: row `r` is in the block of point `r / 10000`. -/
theorem tiled1 (i : S100000x80.Idx) : ∃ t : Fin cfg1.N, (cfg1.win 2).flush t = true ∧ i ∈ ((cfg1.win 2).blk t).view.set := by
  have hi0 : (i 0).val < 100000 := (i 0).isLt
  have hi1 : (i 1).val < 80 := (i 1).isLt
  obtain ⟨t, ht⟩ := onto1 ⟨(i 0).val / 10000, by omega⟩
  have ht' : t.val = (i 0).val / 10000 := ht
  obtain ⟨e0, e1, e2, e3, e4, e5⟩ := where1 t
  refine ⟨t, flush1_2 t, ?_⟩
  rw [inBlock1]
  intro a
  match a with
  | ⟨0, _⟩ => show win1_2.index t (0 : Fin 2) * 10000 ≤ (i 0).val ∧ (i 0).val < win1_2.index t (0 : Fin 2) * 10000 + 10000; rw [e4]; clear e0 e1 e2 e3 e4 e5; omega
  | ⟨1, _⟩ => show win1_2.index t (1 : Fin 2) * 80 ≤ (i 1).val ∧ (i 1).val < win1_2.index t (1 : Fin 2) * 80 + 80; rw [e5]; clear e0 e1 e2 e3 e4 e5; omega

/-- The result array when region 1 is left. -/
theorem array1 (c : Dev nD) :
    (dat1 (F := Ideal) V c).arrAt 2 cfg1.N = Cert.Spec.proj2 (V c main_v108) (V c main_v109) :=
  (dat1 (F := Ideal) V c).arrAt_eq_of_cover 2 _ (fun t _ => wrote1 V c t) (tiled1)

end Cert.KernelIdeal.Hand

end
-- ==== Proof.IdealFrame.Array2.lean ====
/-
  Region 2's result array when the region is left: `Spec.logSoftmaxOfSum` of the two arrays it was entered with.

  Grid point `t` writes back rows `[10000·t, 10000·(t+1))` of the result, all 40 columns, and works on the same rows of
  both inputs. At row `p`, column `q` of its block the body stored the log-softmax entry of the sum of the two input
  blocks: the entry less the row's maximum, less the logarithm of the row's sum of exponentials, the row being row `p` of
  the blocks — row `10000·t + p` of the arrays, all of whose 40 columns are in the block. So the block written back is
  that block of `logSoftmaxOfSum`; the ten blocks tile the 100000 rows, so the array ends at `logSoftmaxOfSum`.
-/
import proofs.«138793_j80530636800127_1_alg».proof.Proof.IdealFrame.Region2
import proofs.«138793_j80530636800127_1_alg».proof.Proof.PayloadAtIndex
import proofs.«138793_j80530636800127_1_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

theorem noOffset2 : (![0, 0] : Fin 2 → Nat) = fun _ => 0 := funext fun a => by fin_cases a <;> rfl

variable (V : (c : Dev nD) → (b : Ref sig .tc) → Buf (Elt Ideal) ((c : Thread nD τ).loc b))

/-- The stored value of the body at row `p`, column `q` of the block. -/
theorem result2_at (x0 x1 : Vec Ideal S10000x40 .f32) (p : Fin 10000) (q : Fin 40) :
    result2 (F := Ideal) x0 x1 (ix2 p q)
      = ((x0 (ix2 p q) + x1 (ix2 p q)) - (Finset.univ : Finset (Fin 40)).fold max Cert.Spec.negInf (fun j => x0 (ix2 p j) + x1 (ix2 p j)))
        - Ideal.log (∑ j : Fin 40, Ideal.exp ((x0 (ix2 p j) + x1 (ix2 p j)) - (Finset.univ : Finset (Fin 40)).fold max Cert.Spec.negInf (fun j => x0 (ix2 p j) + x1 (ix2 p j)))) := by
  unfold result2
  rw [View.canon_unit_zero noOffset2]
  simp only [View.ld_unit_zero (S := S10000x40) noOffset2]
  exact Cert.Bridge.pay2_apply x0 x1 p q

/-- Where the three windows' blocks sit, decided over the grid: point `t` works on block row `t` of both inputs and of the
    result. -/
theorem where2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- Every block row of the result is some point's. -/
theorem onto2 : ∀ q0 : Fin 10, ∃ t : Fin cfg2.N, t.val = q0.val :=
  (by decide +kernel : ∀ q0 : Fin 10, ∃ t : Fin grid2.N, t.val = q0.val)

/-- The value the body stores at row `p`, column `q` of point `t`'s block, over the point's blocks of two arrays `A` and `B`, is
    `logSoftmaxOfSum A B` at the entry of the result array under `(p, q)`: the three blocks sit on the same rows and hold
    all 40 columns, so row `p` of the blocks is one whole row of the arrays. -/
theorem block2_logSoftmax (A B : Cert.Spec.Arr 100000 40) (t : Fin cfg2.N) (p : Fin 10000) (q : Fin 40) :
    ((A (((cfg2.win 0).blk t).view.emb (ix2 p q)) + B (((cfg2.win 1).blk t).view.emb (ix2 p q)))
        - (Finset.univ : Finset (Fin 40)).fold max Cert.Spec.negInf (fun j => A (((cfg2.win 0).blk t).view.emb (ix2 p j)) + B (((cfg2.win 1).blk t).view.emb (ix2 p j))))
      - Ideal.log (∑ j : Fin 40, Ideal.exp ((A (((cfg2.win 0).blk t).view.emb (ix2 p j)) + B (((cfg2.win 1).blk t).view.emb (ix2 p j)))
          - (Finset.univ : Finset (Fin 40)).fold max Cert.Spec.negInf (fun j => A (((cfg2.win 0).blk t).view.emb (ix2 p j)) + B (((cfg2.win 1).blk t).view.emb (ix2 p j)))))
      = Cert.Spec.logSoftmaxOfSum A B (((cfg2.win 2).blk t).view.emb (ix2 p q)) := by
  obtain ⟨e0, e1, e2, e3, e4, e5⟩ := where2 t
  -- the entry of the result array under entry (p, q) of the block: row r = 10000·t + p, column q
  obtain ⟨r, hr⟩ : ∃ r : Fin 100000, ((cfg2.win 2).blk t).view.emb (ix2 p q) = ix2 r q :=
    ⟨(((cfg2.win 2).blk t).view.emb (ix2 p q)) 0, by
      funext a; apply Fin.ext
      match a with
      | ⟨0, _⟩ => rfl
      | ⟨1, _⟩ => show win2_2.index t (1 : Fin 2) * 40 + 1 * q.val = q.val; rw [e5, Nat.zero_mul, Nat.zero_add, Nat.one_mul]⟩
  have hr0 : t.val * 10000 + 1 * p.val = r.val := by
    rw [← e4]; exact congrArg Fin.val (congrFun hr 0)
  -- the entries of the two input arrays under row p of their blocks: the same row r
  have h0 : ∀ j : Fin 40, ((cfg2.win 0).blk t).view.emb (ix2 p j) = ix2 r j := fun j => by
    funext a; apply Fin.ext
    match a with
    | ⟨0, _⟩ => show win2_0.index t (0 : Fin 2) * 10000 + 1 * p.val = r.val; rw [e0]; exact hr0
    | ⟨1, _⟩ => show win2_0.index t (1 : Fin 2) * 40 + 1 * j.val = j.val; rw [e1, Nat.zero_mul, Nat.zero_add, Nat.one_mul]
  have h1 : ∀ j : Fin 40, ((cfg2.win 1).blk t).view.emb (ix2 p j) = ix2 r j := fun j => by
    funext a; apply Fin.ext
    match a with
    | ⟨0, _⟩ => show win2_1.index t (0 : Fin 2) * 10000 + 1 * p.val = r.val; rw [e2]; exact hr0
    | ⟨1, _⟩ => show win2_1.index t (1 : Fin 2) * 40 + 1 * j.val = j.val; rw [e3, Nat.zero_mul, Nat.zero_add, Nat.one_mul]
  rw [hr]
  simp only [h0, h1]
  rfl

/-- What point `t` writes back is its block of `logSoftmaxOfSum` of the entry arrays. -/
theorem wrote2 (c : Dev nD) (t : Fin cfg2.N) :
    (dat2 (F := Ideal) V c).flushed 2 t
      = ((cfg2.win 2).blk t).view.read (Elt Ideal) (Cert.Spec.logSoftmaxOfSum (V c main_v128) (V c main_v144)) := by
  show (cfg2.win 2).cut (grid2.coords t) ((dat2 V c).after 2 t) = _
  rw [dat2_after_2]
  funext j
  obtain ⟨p, q, rfl⟩ : ∃ (p : Fin 10000) (q : Fin 40), j = ix2 p q := ⟨j 0, j 1, eq_ix2 j⟩
  refine (result2_at (blk2 V c 0 t) (blk2 V c 1 t) p q).trans ?_
  exact block2_logSoftmax (V c main_v128) (V c main_v144) t p q

/-- An index of the result is in point `t`'s block iff each coordinate is in the block's range on its axis. -/
theorem inBlock2 (t : Fin cfg2.N) (i : S100000x40.Idx) :
    i ∈ ((cfg2.win 2).blk t).view.set ↔ ∀ a : Fin 2, win2_2.index t a * S10000x40.size a ≤ (i a).val ∧ (i a).val < win2_2.index t a * S10000x40.size a + S10000x40.size a := by
  show i ∈ ((View.whole main_v145).slice (win2_2.rect t)).set ↔ _
  rw [View.set_slice_whole, Rect.mem_set_unit]
  exact Iff.rfl

/-- The ten blocks tile the result: row `r` is in the block of point `r / 10000`. -/
theorem tiled2 (i : S100000x40.Idx) : ∃ t : Fin cfg2.N, (cfg2.win 2).flush t = true ∧ i ∈ ((cfg2.win 2).blk t).view.set := by
  have hi0 : (i 0).val < 100000 := (i 0).isLt
  have hi1 : (i 1).val < 40 := (i 1).isLt
  obtain ⟨t, ht⟩ := onto2 ⟨(i 0).val / 10000, by omega⟩
  have ht' : t.val = (i 0).val / 10000 := ht
  obtain ⟨e0, e1, e2, e3, e4, e5⟩ := where2 t
  refine ⟨t, flush2_2 t, ?_⟩
  rw [inBlock2]
  intro a
  match a with
  | ⟨0, _⟩ => show win2_2.index t (0 : Fin 2) * 10000 ≤ (i 0).val ∧ (i 0).val < win2_2.index t (0 : Fin 2) * 10000 + 10000; rw [e4]; clear e0 e1 e2 e3 e4 e5; omega
  | ⟨1, _⟩ => show win2_2.index t (1 : Fin 2) * 40 ≤ (i 1).val ∧ (i 1).val < win2_2.index t (1 : Fin 2) * 40 + 40; rw [e5]; clear e0 e1 e2 e3 e4 e5; omega

/-- The result array when region 2 is left. -/
theorem array2 (c : Dev nD) :
    (dat2 (F := Ideal) V c).arrAt 2 cfg2.N = Cert.Spec.logSoftmaxOfSum (V c main_v128) (V c main_v144) :=
  (dat2 (F := Ideal) V c).arrAt_eq_of_cover 2 _ (fun t _ => wrote2 V c t) (tiled2)

end Cert.KernelIdeal.Hand

end
-- ==== Proof.GlueSpec.lean ====
/-
  The host computations of the graph-convolution program, as functions of arrays.

  Outside its three kernel regions the program runs plain array operations. They come in a few groups, each defined
  here once as the composition of the operations the program prints, over the program's own shapes and dimension
  records:

  * `srcOf e`, `dstOf e`: row 0 (the source nodes) and row 1 (the destination nodes) of the 2 × 3200000 edge list
    `e`, each followed by the node numbers 0 … 99999 (one self-loop per node): 3300000 entries.
  * `wrapIdx s`: a list of node numbers made ready for a row gather: a negative entry has 100000 added, and the
    list becomes a one-column array.
  * `invSqrtDeg d`: per node, the number of entries of `d` equal to it (a scatter-add of ones into zeros), then the
    reciprocal square root of that count kept at least 1e-12, and zero where the count is not positive.
  * `normOfSD s d`: per edge, the factor of its source node times the factor of its destination node;
    `normOf e` is that for the edge list `e`.
  * `agg32 src dst norm hw b`: the rows of `hw` (100000 × 32) gathered at the source nodes, each scaled by its
    edge's norm, added into the rows of the destination nodes starting from zeros, plus the bias `b` on every row;
    `agg40` is the same at width 40.
  * `relu32 x`: the larger of `x` and zero, entrywise.
  * `hidden …`: the sum of the four clamped aggregations, added as (first + second) + (third + fourth).
  * `cat4`, `cat2`: four 512 × 32 (two 32 × 40) matrices side by side; `sl32_k`, `sl40_k`: the `k`-th block of 32
    (of 40) columns of a 100000 × 128 (100000 × 80) array.
-/
import proofs.«138793_j80530636800127_1_alg».proof.KernelIdeal

noncomputable section

namespace Cert.Glue

open Cert.KernelIdeal Cert.KernelIdeal.Facts₀
open Idealize.ShloMosaic Idealize.SL.Sem

variable {F : FTy → Type} [FloatOps F] [Facts₀]

/-- The source node of every edge, then every node once. -/
def srcOf (e : (⟨S2x3200000, .i32⟩ : BufTy).Contents (Elt F)) : (⟨S3300000, .i32⟩ : BufTy).Contents (Elt F) :=
  concatenate S3300000 0
    [⟨S3200000, shapeCast S3200000 (extractStridedSlice S1x3200000 ![0, 0] e slices_S2x3200000_S1x3200000_0_0)
        shapeCasts_S1x3200000_S3200000⟩,
      ⟨S100000, iotaInDim S100000 32 0⟩]
    concatenates_S3200000_S100000_S3300000_d0

/-- The destination node of every edge, then every node once. -/
def dstOf (e : (⟨S2x3200000, .i32⟩ : BufTy).Contents (Elt F)) : (⟨S3300000, .i32⟩ : BufTy).Contents (Elt F) :=
  concatenate S3300000 0
    [⟨S3200000, shapeCast S3200000 (extractStridedSlice S1x3200000 ![1, 0] e slices_S2x3200000_S1x3200000_1_0)
        shapeCasts_S1x3200000_S3200000⟩,
      ⟨S100000, iotaInDim S100000 32 0⟩]
    concatenates_S3200000_S100000_S3300000_d0

/-- Node numbers as gather indices: a negative one counted from the end, the list as one column. -/
def wrapIdx (s : (⟨S3300000, .i32⟩ : BufTy).Contents (Elt F)) : (⟨S3300000x1, .i32⟩ : BufTy).Contents (Elt F) :=
  broadcastInDim S3300000x1 ![0] bcast_S3300000_S3300000x1_0
    (select (cmpi .slt s (broadcastInDim S3300000 ![] bcast_S_S3300000 (constantI S_ 32 0#32)))
      (addi s (broadcastInDim S3300000 ![] bcast_S_S3300000 (constantI S_ 32 100000#32)))
      s)

/-- How many entries of `d` name each node. -/
def degOf (d : (⟨S3300000, .i32⟩ : BufTy).Contents (Elt F)) : (⟨S100000, .f32⟩ : BufTy).Contents (Elt F) :=
  Host.scatterAdd scatter_S100000_S3300000x1_S3300000_n_0_0_1
    (broadcastInDim S100000 ![] bcast_S_S100000 (constant S_ .f32 0x00000000#32))
    (broadcastInDim S3300000x1 ![0] bcast_S3300000_S3300000x1_0 d)
    (broadcastInDim S3300000 ![] bcast_S_S3300000 (constant S_ .f32 0x3F800000#32))

/-- Per node, one over the square root of its count, and zero where the count is not positive. -/
def invSqrtDeg (d : (⟨S3300000, .i32⟩ : BufTy).Contents (Elt F)) : (⟨S100000, .f32⟩ : BufTy).Contents (Elt F) :=
  select (cmpf .ogt (degOf d) (broadcastInDim S100000 ![] bcast_S_S100000 (constant S_ .f32 0x00000000#32)))
    (Host.rsqrt (maximumf (degOf d) (broadcastInDim S100000 ![] bcast_S_S100000 (constant S_ .f32 0x2B8CBCCC#32))))
    (broadcastInDim S100000 ![] bcast_S_S100000 (constant S_ .f32 0x00000000#32))

/-- Per edge, its source node's factor times its destination node's factor. -/
def normOfSD (s d : (⟨S3300000, .i32⟩ : BufTy).Contents (Elt F)) : (⟨S3300000, .f32⟩ : BufTy).Contents (Elt F) :=
  mulf (Host.gather gather_S100000_S3300000x1_S3300000_n_0_n_n_0_1_1 (invSqrtDeg d) (wrapIdx s))
    (Host.gather gather_S100000_S3300000x1_S3300000_n_0_n_n_0_1_1 (invSqrtDeg d) (wrapIdx d))

/-- The edge norm of the edge list `e`. -/
def normOf (e : (⟨S2x3200000, .i32⟩ : BufTy).Contents (Elt F)) : (⟨S3300000, .f32⟩ : BufTy).Contents (Elt F) :=
  normOfSD (srcOf e) (dstOf e)

/-- Four first-layer weight matrices side by side. -/
def cat4 (w0 w1 w2 w3 : (⟨S512x32, .f32⟩ : BufTy).Contents (Elt F)) : (⟨S512x128, .f32⟩ : BufTy).Contents (Elt F) :=
  concatenate S512x128 1 [⟨S512x32, w0⟩, ⟨S512x32, w1⟩, ⟨S512x32, w2⟩, ⟨S512x32, w3⟩]
    concatenates_S512x32_S512x32_S512x32_S512x32_S512x128_d1

/-- Two class-layer weight matrices side by side. -/
def cat2 (w0 w1 : (⟨S32x40, .f32⟩ : BufTy).Contents (Elt F)) : (⟨S32x80, .f32⟩ : BufTy).Contents (Elt F) :=
  concatenate S32x80 1 [⟨S32x40, w0⟩, ⟨S32x40, w1⟩] concatenates_S32x40_S32x40_S32x80_d1

/-- Columns 0 … 31 of a 100000 × 128 array. -/
def sl32_0 (hw : (⟨S100000x128, .f32⟩ : BufTy).Contents (Elt F)) : (⟨S100000x32, .f32⟩ : BufTy).Contents (Elt F) :=
  extractStridedSlice S100000x32 ![0, 0] hw slices_S100000x128_S100000x32_0_0
/-- Columns 32 … 63. -/
def sl32_1 (hw : (⟨S100000x128, .f32⟩ : BufTy).Contents (Elt F)) : (⟨S100000x32, .f32⟩ : BufTy).Contents (Elt F) :=
  extractStridedSlice S100000x32 ![0, 32] hw slices_S100000x128_S100000x32_0_32
/-- Columns 64 … 95. -/
def sl32_2 (hw : (⟨S100000x128, .f32⟩ : BufTy).Contents (Elt F)) : (⟨S100000x32, .f32⟩ : BufTy).Contents (Elt F) :=
  extractStridedSlice S100000x32 ![0, 64] hw slices_S100000x128_S100000x32_0_64
/-- Columns 96 … 127. -/
def sl32_3 (hw : (⟨S100000x128, .f32⟩ : BufTy).Contents (Elt F)) : (⟨S100000x32, .f32⟩ : BufTy).Contents (Elt F) :=
  extractStridedSlice S100000x32 ![0, 96] hw slices_S100000x128_S100000x32_0_96

/-- Columns 0 … 39 of a 100000 × 80 array. -/
def sl40_0 (hw : (⟨S100000x80, .f32⟩ : BufTy).Contents (Elt F)) : (⟨S100000x40, .f32⟩ : BufTy).Contents (Elt F) :=
  extractStridedSlice S100000x40 ![0, 0] hw slices_S100000x80_S100000x40_0_0
/-- Columns 40 … 79. -/
def sl40_1 (hw : (⟨S100000x80, .f32⟩ : BufTy).Contents (Elt F)) : (⟨S100000x40, .f32⟩ : BufTy).Contents (Elt F) :=
  extractStridedSlice S100000x40 ![0, 40] hw slices_S100000x80_S100000x40_0_40

/-- One aggregation at width 32: gather by source, scale by the norm, scatter-add by destination, add the bias. -/
def agg32 (src dst : (⟨S3300000, .i32⟩ : BufTy).Contents (Elt F)) (norm : (⟨S3300000, .f32⟩ : BufTy).Contents (Elt F))
    (hw : (⟨S100000x32, .f32⟩ : BufTy).Contents (Elt F)) (b : (⟨S32, .f32⟩ : BufTy).Contents (Elt F)) :
    (⟨S100000x32, .f32⟩ : BufTy).Contents (Elt F) :=
  addf
    (Host.scatterAdd scatter_S100000x32_S3300000x1_S3300000x32_1_0_0_1
      (broadcastInDim S100000x32 ![] bcast_S_S100000x32 (constant S_ .f32 0x00000000#32))
      (broadcastInDim S3300000x1 ![0] bcast_S3300000_S3300000x1_0 dst)
      (mulf (Host.gather gather_S100000x32_S3300000x1_S3300000x32_1_0_n_n_0_1_132 hw (wrapIdx src))
        (broadcastInDim S3300000x32 ![0, 1] bcast_S3300000x1_S3300000x32_0_1
          (broadcastInDim S3300000x1 ![0] bcast_S3300000_S3300000x1_0 norm))))
    (broadcastInDim S100000x32 ![0, 1] bcast_S1x32_S100000x32_0_1 (broadcastInDim S1x32 ![1] bcast_S32_S1x32_1 b))

/-- The larger of an entry and zero. -/
def relu32 (x : (⟨S100000x32, .f32⟩ : BufTy).Contents (Elt F)) : (⟨S100000x32, .f32⟩ : BufTy).Contents (Elt F) :=
  maximumf x (broadcastInDim S100000x32 ![] bcast_S_S100000x32 (constant S_ .f32 0x00000000#32))

/-- One aggregation at width 40. -/
def agg40 (src dst : (⟨S3300000, .i32⟩ : BufTy).Contents (Elt F)) (norm : (⟨S3300000, .f32⟩ : BufTy).Contents (Elt F))
    (hw : (⟨S100000x40, .f32⟩ : BufTy).Contents (Elt F)) (b : (⟨S40, .f32⟩ : BufTy).Contents (Elt F)) :
    (⟨S100000x40, .f32⟩ : BufTy).Contents (Elt F) :=
  addf
    (Host.scatterAdd scatter_S100000x40_S3300000x1_S3300000x40_1_0_0_1
      (broadcastInDim S100000x40 ![] bcast_S_S100000x40 (constant S_ .f32 0x00000000#32))
      (broadcastInDim S3300000x1 ![0] bcast_S3300000_S3300000x1_0 dst)
      (mulf (Host.gather gather_S100000x40_S3300000x1_S3300000x40_1_0_n_n_0_1_140 hw (wrapIdx src))
        (broadcastInDim S3300000x40 ![0, 1] bcast_S3300000x1_S3300000x40_0_1
          (broadcastInDim S3300000x1 ![0] bcast_S3300000_S3300000x1_0 norm))))
    (broadcastInDim S100000x40 ![0, 1] bcast_S1x40_S100000x40_0_1 (broadcastInDim S1x40 ![1] bcast_S40_S1x40_1 b))

/-- The hidden features: the four clamped aggregations, added as (first + second) + (third + fourth). -/
def hidden (src dst : (⟨S3300000, .i32⟩ : BufTy).Contents (Elt F)) (norm : (⟨S3300000, .f32⟩ : BufTy).Contents (Elt F))
    (h0 h1 h2 h3 : (⟨S100000x32, .f32⟩ : BufTy).Contents (Elt F)) (b0 b1 b2 b3 : (⟨S32, .f32⟩ : BufTy).Contents (Elt F)) :
    (⟨S100000x32, .f32⟩ : BufTy).Contents (Elt F) :=
  addf (addf (relu32 (agg32 src dst norm h0 b0)) (relu32 (agg32 src dst norm h1 b1)))
    (addf (relu32 (agg32 src dst norm h2 b2)) (relu32 (agg32 src dst norm h3 b3)))

end Cert.Glue

end
-- ==== Proof.GlueKernel.lean ====
/-
  The program's host operations compute the glue functions.

  Between its kernel regions the program runs stretches of plain array operations. Each statement here reads one
  buffer after a stretch (or a run of stretches) as the glue function of GlueSpec.lean applied to what the buffers held
  before: the fold of the operations, unfolded operation by operation, is that function's body. All statements are
  over an arbitrary valuation of the buffers, so they can be used at whatever the kernel regions leave behind.

  * Before the first region: the source and destination node lists, the edge norm, the stacked first-layer weights.
  * Between the first and the second region: the hidden features from the four column blocks of the first region's
    result, and the stacked class-layer weights.
  * Between the second and the third region: the two class aggregations from the two column blocks of the second
    region's result.
-/
import proofs.«138793_j80530636800127_1_alg».proof.Proof.GlueSpec
import proofs.«138793_j80530636800127_1_alg».proof.Proof.Gen.KernelIdeal.Launch
import proofs.«138793_j80530636800127_1_alg».proof.Proof.Gen.KernelIdeal.Regions
import Idealize.ShloMosaic.Lib.StableHlo.Run
import Idealize.ShloMosaic.PureOps.Ideal.Laws

set_option maxRecDepth 1364

noncomputable section

namespace Cert.Glue

open Cert.KernelIdeal Cert.KernelIdeal.Gen
open Idealize.ShloMosaic Idealize.ShloMosaic.TcCoe Idealize.ShloMosaic.StableHlo Idealize.SL.Sem

/-- Each operation's result read at its own buffer, or passed over at another: what is left after the one-pass
    unfolding inside the operands of a concatenation. -/
macro "results_rw" : tactic =>
  `(tactic| repeat (first
      | rw [nullary_result] | rw [unary_result] | rw [binary_result] | rw [ternary_result]
      | rw [reshape_result] | rw [nary4_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)
      | (rw [nary_result_ne]; rotate_left; decide)))

/-- The same for a buffer that every operation in sight passes over. -/
macro "results_ne_rw" : tactic =>
  `(tactic| repeat (first
      | (rw [binary_result_ne]; rotate_left; decide)
      | (rw [unary_result_ne]; rotate_left; decide)
      | (rw [nullary_result_ne]; rotate_left; decide)
      | (rw [ternary_result_ne]; rotate_left; decide)))

/-! ## Before the first kernel region -/

/-- The buffers after the three stretches of host operations that precede the first kernel region. -/
abbrev A3 (V : Valuation τ sig (Elt Ideal)) : Valuation τ sig (Elt Ideal) :=
  after hostOps0_2 (after hostOps0_1 (after hostOps0 V))

/-- The source node list, after the first stretch. -/
theorem ops0_v3 (V : Valuation τ sig (Elt Ideal)) :
    after hostOps0 V (Proc.devRef .tc main_v3) = srcOf (V (Proc.devRef .tc main_arg1)) := by
  after_results_simp
  results_rw
  rfl

/-- The destination node list, after the first stretch. -/
theorem ops0_v6 (V : Valuation τ sig (Elt Ideal)) :
    after hostOps0 V (Proc.devRef .tc main_v6) = dstOf (V (Proc.devRef .tc main_arg1)) := by
  after_results_simp
  results_rw
  rfl

/-- Which nodes have a positive count, after the first stretch. -/
theorem ops0_v12 (V : Valuation τ sig (Elt Ideal)) :
    after hostOps0 V (Proc.devRef .tc main_v12)
      = cmpf .ogt (degOf (dstOf (V (Proc.devRef .tc main_arg1))))
          (broadcastInDim S100000 ![] bcast_S_S100000 (constant S_ .f32 0x00000000#32)) := by
  after_results_simp
  results_rw
  rfl

/-- The reciprocal square root of the count kept away from zero, after the first stretch. -/
theorem ops0_v15 (V : Valuation τ sig (Elt Ideal)) :
    after hostOps0 V (Proc.devRef .tc main_v15)
      = Host.rsqrt (maximumf (degOf (dstOf (V (Proc.devRef .tc main_arg1))))
          (broadcastInDim S100000 ![] bcast_S_S100000 (constant S_ .f32 0x2B8CBCCC#32))) := by
  after_results_simp
  results_rw
  rfl

/-- The zero the second stretch spreads over the nodes. -/
theorem ops0_cst3 (V : Valuation τ sig (Elt Ideal)) :
    after hostOps0 V (Proc.devRef .tc main_cst_3)
      = constant (F := Ideal) S_ .f32 0x00000000#32 := by
  after_results_simp

/-- The selection as the program writes it — a small function called on typed buffers, whose operands pass through
    changes of type that are the identity — is the selection. -/
theorem where_eq (a : (⟨S100000, .i1⟩ : BufTy).Contents (Elt Ideal)) (b : (⟨S100000, .f32⟩ : BufTy).Contents (Elt Ideal))
    (c0 : (⟨S_, .f32⟩ : BufTy).Contents (Elt Ideal)) :
    (TRef.of main_v16 : TRef sig ⟨S100000, .f32⟩).toBuf
      (select ((TRef.of main_v12 : TRef sig ⟨S100000, .i1⟩).ofBuf a) ((TRef.of main_v15 : TRef sig ⟨S100000, .f32⟩).ofBuf b)
        ((TRef.of main_call0_v1 : TRef sig ⟨S100000, .f32⟩).ofBuf
          ((TRef.of main_call0_v1 : TRef sig ⟨S100000, .f32⟩).toBuf
            (broadcastInDim S100000 ![] bcast_S_S100000
              ((TRef.of main_call0_v0 : TRef sig ⟨S_, .f32⟩).ofBuf
                ((TRef.of main_call0_v0 : TRef sig ⟨S_, .f32⟩).toBuf
                  (id ((TRef.of main_cst_3 : TRef sig ⟨S_, .f32⟩).ofBuf c0))))))))
      = select a b (broadcastInDim S100000 ![] bcast_S_S100000 c0) := rfl

/-- The second stretch: the per-node factor, from the three buffers it reads. -/
theorem ops01_v16 (W : Valuation τ sig (Elt Ideal)) (d : (⟨S3300000, .i32⟩ : BufTy).Contents (Elt Ideal))
    (h12 : W (Proc.devRef .tc main_v12)
      = cmpf .ogt (degOf d) (broadcastInDim S100000 ![] bcast_S_S100000 (constant S_ .f32 0x00000000#32)))
    (h15 : W (Proc.devRef .tc main_v15)
      = Host.rsqrt (maximumf (degOf d) (broadcastInDim S100000 ![] bcast_S_S100000 (constant S_ .f32 0x2B8CBCCC#32))))
    (hc : W (Proc.devRef .tc main_cst_3)
      = constant (F := Ideal) S_ .f32 0x00000000#32) :
    after hostOps0_1 W (Proc.devRef .tc main_v16) = invSqrtDeg d := by
  after_results_simp
  rw [h12, h15, hc, where_eq]
  rfl

/-- The third stretch: the edge norm, from the node lists and the per-node factor. -/
theorem ops02_v31 (W : Valuation τ sig (Elt Ideal)) (s d : (⟨S3300000, .i32⟩ : BufTy).Contents (Elt Ideal))
    (h3 : W (Proc.devRef .tc main_v3) = s) (h6 : W (Proc.devRef .tc main_v6) = d)
    (h16 : W (Proc.devRef .tc main_v16) = invSqrtDeg d) :
    after hostOps0_2 W (Proc.devRef .tc main_v31) = normOfSD s d := by
  after_results_simp
  rw [h3, h6, h16]
  rfl

set_option maxHeartbeats 4000000 in
/-- The third stretch: the four first-layer weight matrices side by side. -/
theorem ops02_v32 (W : Valuation τ sig (Elt Ideal)) :
    after hostOps0_2 W (Proc.devRef .tc main_v32)
      = cat4 (W (Proc.devRef .tc main_arg2)) (W (Proc.devRef .tc main_arg4)) (W (Proc.devRef .tc main_arg6))
          (W (Proc.devRef .tc main_arg8)) := by
  simp (disch := decide) only [after_cons, after_nil, nullary_result', unary_result', binary_result', ternary_result',
    nary4_result', nullary_result_ne', unary_result_ne', binary_result_ne', ternary_result_ne', nary_result_ne']
  results_ne_rw
  rfl

/-- A buffer none of the three stretches writes keeps its contents. -/
theorem A3_of (V : Valuation τ sig (Elt Ideal)) {r : Ref sig .tc} (h0 : r ∉ hostOps0_W) (h1 : r ∉ hostOps0_1_W)
    (h2 : r ∉ hostOps0_2_W) : A3 V (Proc.devRef .tc r) = V (Proc.devRef .tc r) :=
  ((after_of_writes_sub hostOps0_2 _ hostOps0_2_writes h2).trans
    (after_of_writes_sub hostOps0_1 _ hostOps0_1_writes h1)).trans (after_of_writes_sub hostOps0 _ hostOps0_writes h0)

/-- The source nodes, after the three stretches. -/
theorem A3_v3 (V : Valuation τ sig (Elt Ideal)) :
    A3 V (Proc.devRef .tc main_v3) = srcOf (V (Proc.devRef .tc main_arg1)) :=
  ((after_of_writes_sub hostOps0_2 _ hostOps0_2_writes (by decide)).trans
    (after_of_writes_sub hostOps0_1 _ hostOps0_1_writes (by decide))).trans (ops0_v3 V)

/-- The destination nodes, after the three stretches. -/
theorem A3_v6 (V : Valuation τ sig (Elt Ideal)) :
    A3 V (Proc.devRef .tc main_v6) = dstOf (V (Proc.devRef .tc main_arg1)) :=
  ((after_of_writes_sub hostOps0_2 _ hostOps0_2_writes (by decide)).trans
    (after_of_writes_sub hostOps0_1 _ hostOps0_1_writes (by decide))).trans (ops0_v6 V)

/-- The edge norm, after the three stretches. -/
theorem A3_v31 (V : Valuation τ sig (Elt Ideal)) :
    A3 V (Proc.devRef .tc main_v31) = normOf (V (Proc.devRef .tc main_arg1)) :=
  ops02_v31 _ _ _
    ((after_of_writes_sub hostOps0_1 _ hostOps0_1_writes (by decide)).trans (ops0_v3 V))
    ((after_of_writes_sub hostOps0_1 _ hostOps0_1_writes (by decide)).trans (ops0_v6 V))
    (ops01_v16 _ _ (ops0_v12 V) (ops0_v15 V) (ops0_cst3 V))

/-- The stacked first-layer weights, after the three stretches: the arguments are not written on the way. -/
theorem A3_v32 (V : Valuation τ sig (Elt Ideal)) :
    A3 V (Proc.devRef .tc main_v32)
      = cat4 (V (Proc.devRef .tc main_arg2)) (V (Proc.devRef .tc main_arg4)) (V (Proc.devRef .tc main_arg6))
          (V (Proc.devRef .tc main_arg8)) := by
  show after hostOps0_2 (after hostOps0_1 (after hostOps0 V)) (Proc.devRef .tc main_v32) = _
  rw [ops02_v32,
    (after_of_writes_sub hostOps0_1 _ hostOps0_1_writes (by decide : main_arg2 ∉ hostOps0_1_W)).trans
      (after_of_writes_sub hostOps0 V hostOps0_writes (by decide : main_arg2 ∉ hostOps0_W)),
    (after_of_writes_sub hostOps0_1 _ hostOps0_1_writes (by decide : main_arg4 ∉ hostOps0_1_W)).trans
      (after_of_writes_sub hostOps0 V hostOps0_writes (by decide : main_arg4 ∉ hostOps0_W)),
    (after_of_writes_sub hostOps0_1 _ hostOps0_1_writes (by decide : main_arg6 ∉ hostOps0_1_W)).trans
      (after_of_writes_sub hostOps0 V hostOps0_writes (by decide : main_arg6 ∉ hostOps0_W)),
    (after_of_writes_sub hostOps0_1 _ hostOps0_1_writes (by decide : main_arg8 ∉ hostOps0_1_W)).trans
      (after_of_writes_sub hostOps0 V hostOps0_writes (by decide : main_arg8 ∉ hostOps0_W))]

/-- The node features are not written before the first region. -/
theorem A3_arg0 (V : Valuation τ sig (Elt Ideal)) :
    A3 V (Proc.devRef .tc main_arg0) = V (Proc.devRef .tc main_arg0) :=
  A3_of V (by decide) (by decide) (by decide)

/-! ## Between the first and the second kernel region -/

/-- One aggregation: a stretch of @main's operations, then the clamp. -/
abbrev L1 (V : Valuation τ sig (Elt Ideal)) : Valuation τ sig (Elt Ideal) := after hostOps1_1 (after hostOps1 V)
/-- The second aggregation. -/
abbrev L2 (V : Valuation τ sig (Elt Ideal)) : Valuation τ sig (Elt Ideal) := after hostOps1_3 (after hostOps1_2 V)
/-- The third aggregation. -/
abbrev L3 (V : Valuation τ sig (Elt Ideal)) : Valuation τ sig (Elt Ideal) := after hostOps1_5 (after hostOps1_4 V)
/-- The fourth aggregation. -/
abbrev L4 (V : Valuation τ sig (Elt Ideal)) : Valuation τ sig (Elt Ideal) := after hostOps1_7 (after hostOps1_6 V)

/-- The buffers after the nine stretches of host operations between the first and the second kernel region. -/
abbrev A13 (V : Valuation τ sig (Elt Ideal)) : Valuation τ sig (Elt Ideal) :=
  after hostOps1_8 (L4 (L3 (L2 (L1 V))))

/-- A buffer the two stretches of an aggregation do not write keeps its contents. -/
theorem L1_of (V : Valuation τ sig (Elt Ideal)) {r : Ref sig .tc} (h : r ∉ hostOps1_W) (h' : r ∉ hostOps1_1_W) :
    L1 V (Proc.devRef .tc r) = V (Proc.devRef .tc r) :=
  (after_of_writes_sub hostOps1_1 _ hostOps1_1_writes h').trans (after_of_writes_sub hostOps1 _ hostOps1_writes h)
theorem L2_of (V : Valuation τ sig (Elt Ideal)) {r : Ref sig .tc} (h : r ∉ hostOps1_2_W) (h' : r ∉ hostOps1_3_W) :
    L2 V (Proc.devRef .tc r) = V (Proc.devRef .tc r) :=
  (after_of_writes_sub hostOps1_3 _ hostOps1_3_writes h').trans (after_of_writes_sub hostOps1_2 _ hostOps1_2_writes h)
theorem L3_of (V : Valuation τ sig (Elt Ideal)) {r : Ref sig .tc} (h : r ∉ hostOps1_4_W) (h' : r ∉ hostOps1_5_W) :
    L3 V (Proc.devRef .tc r) = V (Proc.devRef .tc r) :=
  (after_of_writes_sub hostOps1_5 _ hostOps1_5_writes h').trans (after_of_writes_sub hostOps1_4 _ hostOps1_4_writes h)
theorem L4_of (V : Valuation τ sig (Elt Ideal)) {r : Ref sig .tc} (h : r ∉ hostOps1_6_W) (h' : r ∉ hostOps1_7_W) :
    L4 V (Proc.devRef .tc r) = V (Proc.devRef .tc r) :=
  (after_of_writes_sub hostOps1_7 _ hostOps1_7_writes h').trans (after_of_writes_sub hostOps1_6 _ hostOps1_6_writes h)

/-- A buffer none of the nine stretches writes keeps its contents. -/
theorem A13_of (V : Valuation τ sig (Elt Ideal)) {r : Ref sig .tc}
    (h0 : r ∉ hostOps1_W) (h1 : r ∉ hostOps1_1_W) (h2 : r ∉ hostOps1_2_W) (h3 : r ∉ hostOps1_3_W) (h4 : r ∉ hostOps1_4_W)
    (h5 : r ∉ hostOps1_5_W) (h6 : r ∉ hostOps1_6_W) (h7 : r ∉ hostOps1_7_W) (h8 : r ∉ hostOps1_8_W) :
    A13 V (Proc.devRef .tc r) = V (Proc.devRef .tc r) :=
  (after_of_writes_sub hostOps1_8 _ hostOps1_8_writes h8).trans
    ((L4_of _ h6 h7).trans ((L3_of _ h4 h5).trans ((L2_of _ h2 h3).trans (L1_of V h0 h1))))

/-- The first stretch cuts the first region's result into its four column blocks. -/
theorem ops1_v35 (W : Valuation τ sig (Elt Ideal)) :
    after hostOps1 W (Proc.devRef .tc main_v35) = sl32_1 (W (Proc.devRef .tc main_v33)) := by
  after_results_simp
  rfl
theorem ops1_v36 (W : Valuation τ sig (Elt Ideal)) :
    after hostOps1 W (Proc.devRef .tc main_v36) = sl32_2 (W (Proc.devRef .tc main_v33)) := by
  after_results_simp
  rfl
theorem ops1_v37 (W : Valuation τ sig (Elt Ideal)) :
    after hostOps1 W (Proc.devRef .tc main_v37) = sl32_3 (W (Proc.devRef .tc main_v33)) := by
  after_results_simp
  rfl

/-- The clamp as the program writes it — a small function called on typed buffers, whose operands pass through
    changes of type that are the identity — is the clamp. -/
theorem relu_eq1 (x : (⟨S100000x32, .f32⟩ : BufTy).Contents (Elt Ideal)) :
    (TRef.of main_v54 : TRef sig ⟨S100000x32, .f32⟩).toBuf (Val := Elt Ideal)
      (maximumf (F := Ideal) (s := S100000x32) (φ := .f32)
        ((TRef.of main_v53 : TRef sig ⟨S100000x32, .f32⟩).ofBuf (Val := Elt Ideal) x)
        ((TRef.of main_call1_v0 : TRef sig ⟨S100000x32, .f32⟩).ofBuf (Val := Elt Ideal)
          ((TRef.of main_call1_v0 : TRef sig ⟨S100000x32, .f32⟩).toBuf (Val := Elt Ideal)
            (broadcastInDim S100000x32 ![] bcast_S_S100000x32
              ((TRef.of main_call1_cst : TRef sig ⟨S_, .f32⟩).ofBuf (Val := Elt Ideal)
                ((TRef.of main_call1_cst : TRef sig ⟨S_, .f32⟩).toBuf (Val := Elt Ideal)
                  (constant (F := Ideal) S_ .f32 0x00000000#32)))))))
      = relu32 x := rfl
theorem relu_eq2 (x : (⟨S100000x32, .f32⟩ : BufTy).Contents (Elt Ideal)) :
    (TRef.of main_v71 : TRef sig ⟨S100000x32, .f32⟩).toBuf (Val := Elt Ideal)
      (maximumf (F := Ideal) (s := S100000x32) (φ := .f32)
        ((TRef.of main_v70 : TRef sig ⟨S100000x32, .f32⟩).ofBuf (Val := Elt Ideal) x)
        ((TRef.of main_call2_v0 : TRef sig ⟨S100000x32, .f32⟩).ofBuf (Val := Elt Ideal)
          ((TRef.of main_call2_v0 : TRef sig ⟨S100000x32, .f32⟩).toBuf (Val := Elt Ideal)
            (broadcastInDim S100000x32 ![] bcast_S_S100000x32
              ((TRef.of main_call2_cst : TRef sig ⟨S_, .f32⟩).ofBuf (Val := Elt Ideal)
                ((TRef.of main_call2_cst : TRef sig ⟨S_, .f32⟩).toBuf (Val := Elt Ideal)
                  (constant (F := Ideal) S_ .f32 0x00000000#32)))))))
      = relu32 x := rfl
theorem relu_eq3 (x : (⟨S100000x32, .f32⟩ : BufTy).Contents (Elt Ideal)) :
    (TRef.of main_v88 : TRef sig ⟨S100000x32, .f32⟩).toBuf (Val := Elt Ideal)
      (maximumf (F := Ideal) (s := S100000x32) (φ := .f32)
        ((TRef.of main_v87 : TRef sig ⟨S100000x32, .f32⟩).ofBuf (Val := Elt Ideal) x)
        ((TRef.of main_call3_v0 : TRef sig ⟨S100000x32, .f32⟩).ofBuf (Val := Elt Ideal)
          ((TRef.of main_call3_v0 : TRef sig ⟨S100000x32, .f32⟩).toBuf (Val := Elt Ideal)
            (broadcastInDim S100000x32 ![] bcast_S_S100000x32
              ((TRef.of main_call3_cst : TRef sig ⟨S_, .f32⟩).ofBuf (Val := Elt Ideal)
                ((TRef.of main_call3_cst : TRef sig ⟨S_, .f32⟩).toBuf (Val := Elt Ideal)
                  (constant (F := Ideal) S_ .f32 0x00000000#32)))))))
      = relu32 x := rfl
theorem relu_eq4 (x : (⟨S100000x32, .f32⟩ : BufTy).Contents (Elt Ideal)) :
    (TRef.of main_v105 : TRef sig ⟨S100000x32, .f32⟩).toBuf (Val := Elt Ideal)
      (maximumf (F := Ideal) (s := S100000x32) (φ := .f32)
        ((TRef.of main_v104 : TRef sig ⟨S100000x32, .f32⟩).ofBuf (Val := Elt Ideal) x)
        ((TRef.of main_call4_v0 : TRef sig ⟨S100000x32, .f32⟩).ofBuf (Val := Elt Ideal)
          ((TRef.of main_call4_v0 : TRef sig ⟨S100000x32, .f32⟩).toBuf (Val := Elt Ideal)
            (broadcastInDim S100000x32 ![] bcast_S_S100000x32
              ((TRef.of main_call4_cst : TRef sig ⟨S_, .f32⟩).ofBuf (Val := Elt Ideal)
                ((TRef.of main_call4_cst : TRef sig ⟨S_, .f32⟩).toBuf (Val := Elt Ideal)
                  (constant (F := Ideal) S_ .f32 0x00000000#32)))))))
      = relu32 x := rfl

section Layers

variable (src dst : (⟨S3300000, .i32⟩ : BufTy).Contents (Elt Ideal)) (norm : (⟨S3300000, .f32⟩ : BufTy).Contents (Elt Ideal))

/-- The first block: gathered, scaled, scattered, biased, clamped. -/
theorem layer1 (W : Valuation τ sig (Elt Ideal))
    (hsrc : W (Proc.devRef .tc main_v3) = src) (hdst : W (Proc.devRef .tc main_v6) = dst)
    (hnorm : W (Proc.devRef .tc main_v31) = norm) :
    L1 W (Proc.devRef .tc main_v54)
      = relu32 (agg32 src dst norm (sl32_0 (W (Proc.devRef .tc main_v33))) (W (Proc.devRef .tc main_arg3))) := by
  show after hostOps1_1 (after hostOps1 W) (Proc.devRef .tc main_v54) = _
  after_results_simp
  rw [hsrc, hdst, hnorm, relu_eq1]
  rfl

/-- The second block, cut out by the first stretch. -/
theorem layer2 (W : Valuation τ sig (Elt Ideal)) (hw : (⟨S100000x32, .f32⟩ : BufTy).Contents (Elt Ideal))
    (hsrc : W (Proc.devRef .tc main_v3) = src) (hdst : W (Proc.devRef .tc main_v6) = dst)
    (hnorm : W (Proc.devRef .tc main_v31) = norm) (hs : W (Proc.devRef .tc main_v35) = hw) :
    L2 W (Proc.devRef .tc main_v71) = relu32 (agg32 src dst norm hw (W (Proc.devRef .tc main_arg5))) := by
  show after hostOps1_3 (after hostOps1_2 W) (Proc.devRef .tc main_v71) = _
  after_results_simp
  rw [hsrc, hdst, hnorm, hs, relu_eq2]
  rfl

/-- The third block. -/
theorem layer3 (W : Valuation τ sig (Elt Ideal)) (hw : (⟨S100000x32, .f32⟩ : BufTy).Contents (Elt Ideal))
    (hsrc : W (Proc.devRef .tc main_v3) = src) (hdst : W (Proc.devRef .tc main_v6) = dst)
    (hnorm : W (Proc.devRef .tc main_v31) = norm) (hs : W (Proc.devRef .tc main_v36) = hw) :
    L3 W (Proc.devRef .tc main_v88) = relu32 (agg32 src dst norm hw (W (Proc.devRef .tc main_arg7))) := by
  show after hostOps1_5 (after hostOps1_4 W) (Proc.devRef .tc main_v88) = _
  after_results_simp
  rw [hsrc, hdst, hnorm, hs, relu_eq3]
  rfl

/-- The fourth block. -/
theorem layer4 (W : Valuation τ sig (Elt Ideal)) (hw : (⟨S100000x32, .f32⟩ : BufTy).Contents (Elt Ideal))
    (hsrc : W (Proc.devRef .tc main_v3) = src) (hdst : W (Proc.devRef .tc main_v6) = dst)
    (hnorm : W (Proc.devRef .tc main_v31) = norm) (hs : W (Proc.devRef .tc main_v37) = hw) :
    L4 W (Proc.devRef .tc main_v105) = relu32 (agg32 src dst norm hw (W (Proc.devRef .tc main_arg9))) := by
  show after hostOps1_7 (after hostOps1_6 W) (Proc.devRef .tc main_v105) = _
  after_results_simp
  rw [hsrc, hdst, hnorm, hs, relu_eq4]
  rfl

end Layers

/-- The last stretch adds the four clamped aggregations, (first + second) + (third + fourth). -/
theorem ops18_v108 (W : Valuation τ sig (Elt Ideal)) :
    after hostOps1_8 W (Proc.devRef .tc main_v108)
      = addf (F := Ideal) (s := S100000x32) (φ := .f32)
          (addf (F := Ideal) (s := S100000x32) (φ := .f32) (W (Proc.devRef .tc main_v54)) (W (Proc.devRef .tc main_v71)))
          (addf (F := Ideal) (s := S100000x32) (φ := .f32) (W (Proc.devRef .tc main_v88)) (W (Proc.devRef .tc main_v105))) := by
  after_results_simp

/-- The last stretch lays the two class-layer weight matrices side by side. -/
theorem ops18_v109 (W : Valuation τ sig (Elt Ideal)) :
    after hostOps1_8 W (Proc.devRef .tc main_v109)
      = cat2 (W (Proc.devRef .tc main_arg10)) (W (Proc.devRef .tc main_arg12)) := by
  after_results_simp
  results_rw
  rfl

/-- The hidden features, after the nine stretches, from the node lists, the edge norm, the four column blocks of the
    first region's result and the four biases, all as they were before the stretches. -/
theorem A13_v108 (V : Valuation τ sig (Elt Ideal)) :
    A13 V (Proc.devRef .tc main_v108)
      = hidden (V (Proc.devRef .tc main_v3)) (V (Proc.devRef .tc main_v6)) (V (Proc.devRef .tc main_v31))
          (sl32_0 (V (Proc.devRef .tc main_v33))) (sl32_1 (V (Proc.devRef .tc main_v33)))
          (sl32_2 (V (Proc.devRef .tc main_v33))) (sl32_3 (V (Proc.devRef .tc main_v33)))
          (V (Proc.devRef .tc main_arg3)) (V (Proc.devRef .tc main_arg5)) (V (Proc.devRef .tc main_arg7))
          (V (Proc.devRef .tc main_arg9)) := by
  -- the four aggregations, each read after its own two stretches
  have e1 : L1 V (Proc.devRef .tc main_v54) = _ := layer1 _ _ _ V rfl rfl rfl
  have e2 : L2 (L1 V) (Proc.devRef .tc main_v71) = _ :=
    layer2 (V (Proc.devRef .tc main_v3)) (V (Proc.devRef .tc main_v6)) (V (Proc.devRef .tc main_v31)) (L1 V)
      (sl32_1 (V (Proc.devRef .tc main_v33)))
      (L1_of V (by decide) (by decide)) (L1_of V (by decide) (by decide)) (L1_of V (by decide) (by decide))
      ((after_of_writes_sub hostOps1_1 _ hostOps1_1_writes (by decide)).trans (ops1_v35 V))
  have e3 : L3 (L2 (L1 V)) (Proc.devRef .tc main_v88) = _ :=
    layer3 (V (Proc.devRef .tc main_v3)) (V (Proc.devRef .tc main_v6)) (V (Proc.devRef .tc main_v31)) (L2 (L1 V))
      (sl32_2 (V (Proc.devRef .tc main_v33)))
      ((L2_of _ (by decide) (by decide)).trans (L1_of V (by decide) (by decide)))
      ((L2_of _ (by decide) (by decide)).trans (L1_of V (by decide) (by decide)))
      ((L2_of _ (by decide) (by decide)).trans (L1_of V (by decide) (by decide)))
      ((L2_of _ (by decide) (by decide)).trans
        ((after_of_writes_sub hostOps1_1 _ hostOps1_1_writes (by decide)).trans (ops1_v36 V)))
  have e4 : L4 (L3 (L2 (L1 V))) (Proc.devRef .tc main_v105) = _ :=
    layer4 (V (Proc.devRef .tc main_v3)) (V (Proc.devRef .tc main_v6)) (V (Proc.devRef .tc main_v31)) (L3 (L2 (L1 V)))
      (sl32_3 (V (Proc.devRef .tc main_v33)))
      ((L3_of _ (by decide) (by decide)).trans ((L2_of _ (by decide) (by decide)).trans (L1_of V (by decide) (by decide))))
      ((L3_of _ (by decide) (by decide)).trans ((L2_of _ (by decide) (by decide)).trans (L1_of V (by decide) (by decide))))
      ((L3_of _ (by decide) (by decide)).trans ((L2_of _ (by decide) (by decide)).trans (L1_of V (by decide) (by decide))))
      ((L3_of _ (by decide) (by decide)).trans ((L2_of _ (by decide) (by decide)).trans
        ((after_of_writes_sub hostOps1_1 _ hostOps1_1_writes (by decide)).trans (ops1_v37 V))))
  -- the biases are arguments, written nowhere
  rw [L1_of V (by decide) (by decide)] at e2
  rw [(L2_of _ (by decide) (by decide)).trans (L1_of V (by decide) (by decide))] at e3
  rw [(L3_of _ (by decide) (by decide)).trans ((L2_of _ (by decide) (by decide)).trans (L1_of V (by decide) (by decide)))] at e4
  show after hostOps1_8 (L4 (L3 (L2 (L1 V)))) (Proc.devRef .tc main_v108) = _
  rw [ops18_v108, e4,
    (L4_of _ (by decide) (by decide)).trans e3,
    (L4_of _ (by decide) (by decide)).trans ((L3_of _ (by decide) (by decide)).trans e2),
    (L4_of _ (by decide) (by decide)).trans ((L3_of _ (by decide) (by decide)).trans ((L2_of _ (by decide) (by decide)).trans e1))]
  rfl

/-- The stacked class-layer weights, after the nine stretches. -/
theorem A13_v109 (V : Valuation τ sig (Elt Ideal)) :
    A13 V (Proc.devRef .tc main_v109) = cat2 (V (Proc.devRef .tc main_arg10)) (V (Proc.devRef .tc main_arg12)) := by
  show after hostOps1_8 (L4 (L3 (L2 (L1 V)))) (Proc.devRef .tc main_v109) = _
  rw [ops18_v109,
    (L4_of _ (by decide) (by decide)).trans ((L3_of _ (by decide) (by decide)).trans
      ((L2_of _ (by decide) (by decide)).trans (L1_of V (by decide : main_arg10 ∉ hostOps1_W) (by decide)))),
    (L4_of _ (by decide) (by decide)).trans ((L3_of _ (by decide) (by decide)).trans
      ((L2_of _ (by decide) (by decide)).trans (L1_of V (by decide : main_arg12 ∉ hostOps1_W) (by decide))))]

/-- The node lists, the edge norm and the class-layer biases pass the nine stretches unchanged. -/
theorem A13_v3 (V : Valuation τ sig (Elt Ideal)) : A13 V (Proc.devRef .tc main_v3) = V (Proc.devRef .tc main_v3) :=
  A13_of V (by decide) (by decide) (by decide) (by decide) (by decide) (by decide) (by decide) (by decide) (by decide)
theorem A13_v6 (V : Valuation τ sig (Elt Ideal)) : A13 V (Proc.devRef .tc main_v6) = V (Proc.devRef .tc main_v6) :=
  A13_of V (by decide) (by decide) (by decide) (by decide) (by decide) (by decide) (by decide) (by decide) (by decide)
theorem A13_v31 (V : Valuation τ sig (Elt Ideal)) : A13 V (Proc.devRef .tc main_v31) = V (Proc.devRef .tc main_v31) :=
  A13_of V (by decide) (by decide) (by decide) (by decide) (by decide) (by decide) (by decide) (by decide) (by decide)
theorem A13_arg11 (V : Valuation τ sig (Elt Ideal)) : A13 V (Proc.devRef .tc main_arg11) = V (Proc.devRef .tc main_arg11) :=
  A13_of V (by decide) (by decide) (by decide) (by decide) (by decide) (by decide) (by decide) (by decide) (by decide)
theorem A13_arg13 (V : Valuation τ sig (Elt Ideal)) : A13 V (Proc.devRef .tc main_arg13) = V (Proc.devRef .tc main_arg13) :=
  A13_of V (by decide) (by decide) (by decide) (by decide) (by decide) (by decide) (by decide) (by decide) (by decide)

/-! ## Between the second and the third kernel region -/

/-- The buffers after the stretch of host operations between the second and the third kernel region. -/
abbrev A15 (V : Valuation τ sig (Elt Ideal)) : Valuation τ sig (Elt Ideal) := after hostOps2 V

/-- The first class aggregation, from the first 40 columns of the second region's result. -/
theorem A15_v128 (V : Valuation τ sig (Elt Ideal)) :
    A15 V (Proc.devRef .tc main_v128)
      = agg40 (V (Proc.devRef .tc main_v3)) (V (Proc.devRef .tc main_v6)) (V (Proc.devRef .tc main_v31))
          (sl40_0 (V (Proc.devRef .tc main_v110))) (V (Proc.devRef .tc main_arg11)) := by
  show after hostOps2 V (Proc.devRef .tc main_v128) = _
  after_results_simp
  rfl

/-- The second class aggregation, from the last 40 columns. -/
theorem A15_v144 (V : Valuation τ sig (Elt Ideal)) :
    A15 V (Proc.devRef .tc main_v144)
      = agg40 (V (Proc.devRef .tc main_v3)) (V (Proc.devRef .tc main_v6)) (V (Proc.devRef .tc main_v31))
          (sl40_1 (V (Proc.devRef .tc main_v110))) (V (Proc.devRef .tc main_arg13)) := by
  show after hostOps2 V (Proc.devRef .tc main_v144) = _
  after_results_simp
  rfl

end Cert.Glue

end
-- ==== Proof.ProjectionsVsDots.lean ====
/-
  The two projections, the kernel's way and the reference's way, as one pair of plain matrix products.

  The kernel multiplies the features by the weight matrices stacked side by side and cuts the product's columns apart
  again. Column `C·m + c` of the stacked matrix is column `c` of matrix `m`; so entry `(r, c)` of column block `m` of
  the product is the sum over `k` of `x[r, k] · w_m[k, c]`: the product of the features with matrix `m` alone (`mm1`,
  `mm2`). The reference multiplies by each matrix separately; on the extended reals its product at an entry is the same
  sum, once the contracted axis is indexed by its one coordinate.
-/
import proofs.«138793_j80530636800127_1_alg».proof.Proof.Gen.KernelIdeal
import proofs.«138793_j80530636800127_1_alg».proof.Proof.Gen.ReferenceIdeal
import proofs.«138793_j80530636800127_1_alg».proof.Proof.Spec
import Idealize.ShloMosaic.Lib.Pipeline.Value
import Idealize.ShloMosaic.Lib.ValueIdx
import Idealize.ShloMosaic.PureOps.Ideal.Laws

noncomputable section

namespace Cert.Spec

open Idealize.ShloMosaic Idealize.ShloMosaic.ValueIdx

/-- Rows of the node features against columns of ONE first-layer weight matrix. -/
def mm1 (x : Arr 100000 512) (w : Arr 512 32) : Arr 100000 32 :=
  fun i => ∑ k : Fin 512, x (ix2 (i 0) k) * w (ix2 k (i 1))

/-- Rows of the hidden features against columns of ONE class-layer weight matrix. -/
def mm2 (h : Arr 100000 32) (w : Arr 32 40) : Arr 100000 40 :=
  fun i => ∑ k : Fin 32, h (ix2 (i 0) k) * w (ix2 k (i 1))

end Cert.Spec

namespace Cert.Bridge

open Idealize.ShloMosaic Idealize.ShloMosaic.ValueIdx Cert.KernelIdeal Cert.KernelIdeal.Gen

/-! ### A column of the stacked matrix -/

/-- Column `0 + c` of the matrices side by side is column `c` of matrix 0. -/
theorem cat4_col0 (w0 w1 w2 w3 : FVec Ideal S512x32 .f32) (k : Fin 512) (c : Fin 32) :
    concatenate S512x128 1 [⟨S512x32, w0⟩, ⟨S512x32, w1⟩, ⟨S512x32, w2⟩, ⟨S512x32, w3⟩] concatenates_S512x32_S512x32_S512x32_S512x32_S512x128_d1 (ix2 k (⟨0 + c.val, by omega⟩ : Fin 128)) = w0 (ix2 k c) :=
  concatenate_apply_piece 1 _ _ (ix2 k (⟨0 + c.val, by omega⟩ : Fin 128)) 0 (by show 0 < 4; omega) S512x32 w0 rfl rfl 0 rfl
    (ix2 k c) (fun b hb => by
      match b with
      | ⟨0, _⟩ => rfl
      | ⟨1, _⟩ => exact absurd rfl hb) rfl

/-- Column `32 + c` of the matrices side by side is column `c` of matrix 1. -/
theorem cat4_col1 (w0 w1 w2 w3 : FVec Ideal S512x32 .f32) (k : Fin 512) (c : Fin 32) :
    concatenate S512x128 1 [⟨S512x32, w0⟩, ⟨S512x32, w1⟩, ⟨S512x32, w2⟩, ⟨S512x32, w3⟩] concatenates_S512x32_S512x32_S512x32_S512x32_S512x128_d1 (ix2 k (⟨32 + c.val, by omega⟩ : Fin 128)) = w1 (ix2 k c) :=
  concatenate_apply_piece 1 _ _ (ix2 k (⟨32 + c.val, by omega⟩ : Fin 128)) 1 (by show 1 < 4; omega) S512x32 w1 rfl rfl 32 rfl
    (ix2 k c) (fun b hb => by
      match b with
      | ⟨0, _⟩ => rfl
      | ⟨1, _⟩ => exact absurd rfl hb) rfl

/-- Column `64 + c` of the matrices side by side is column `c` of matrix 2. -/
theorem cat4_col2 (w0 w1 w2 w3 : FVec Ideal S512x32 .f32) (k : Fin 512) (c : Fin 32) :
    concatenate S512x128 1 [⟨S512x32, w0⟩, ⟨S512x32, w1⟩, ⟨S512x32, w2⟩, ⟨S512x32, w3⟩] concatenates_S512x32_S512x32_S512x32_S512x32_S512x128_d1 (ix2 k (⟨64 + c.val, by omega⟩ : Fin 128)) = w2 (ix2 k c) :=
  concatenate_apply_piece 1 _ _ (ix2 k (⟨64 + c.val, by omega⟩ : Fin 128)) 2 (by show 2 < 4; omega) S512x32 w2 rfl rfl 64 rfl
    (ix2 k c) (fun b hb => by
      match b with
      | ⟨0, _⟩ => rfl
      | ⟨1, _⟩ => exact absurd rfl hb) rfl

/-- Column `96 + c` of the matrices side by side is column `c` of matrix 3. -/
theorem cat4_col3 (w0 w1 w2 w3 : FVec Ideal S512x32 .f32) (k : Fin 512) (c : Fin 32) :
    concatenate S512x128 1 [⟨S512x32, w0⟩, ⟨S512x32, w1⟩, ⟨S512x32, w2⟩, ⟨S512x32, w3⟩] concatenates_S512x32_S512x32_S512x32_S512x32_S512x128_d1 (ix2 k (⟨96 + c.val, by omega⟩ : Fin 128)) = w3 (ix2 k c) :=
  concatenate_apply_piece 1 _ _ (ix2 k (⟨96 + c.val, by omega⟩ : Fin 128)) 3 (by show 3 < 4; omega) S512x32 w3 rfl rfl 96 rfl
    (ix2 k c) (fun b hb => by
      match b with
      | ⟨0, _⟩ => rfl
      | ⟨1, _⟩ => exact absurd rfl hb) rfl

/-- Column `0 + c` of the matrices side by side is column `c` of matrix 0. -/
theorem cat2_col0 (w0 w1 : FVec Ideal S32x40 .f32) (k : Fin 32) (c : Fin 40) :
    concatenate S32x80 1 [⟨S32x40, w0⟩, ⟨S32x40, w1⟩] concatenates_S32x40_S32x40_S32x80_d1 (ix2 k (⟨0 + c.val, by omega⟩ : Fin 80)) = w0 (ix2 k c) :=
  concatenate_apply_piece 1 _ _ (ix2 k (⟨0 + c.val, by omega⟩ : Fin 80)) 0 (by show 0 < 2; omega) S32x40 w0 rfl rfl 0 rfl
    (ix2 k c) (fun b hb => by
      match b with
      | ⟨0, _⟩ => rfl
      | ⟨1, _⟩ => exact absurd rfl hb) rfl

/-- Column `40 + c` of the matrices side by side is column `c` of matrix 1. -/
theorem cat2_col1 (w0 w1 : FVec Ideal S32x40 .f32) (k : Fin 32) (c : Fin 40) :
    concatenate S32x80 1 [⟨S32x40, w0⟩, ⟨S32x40, w1⟩] concatenates_S32x40_S32x40_S32x80_d1 (ix2 k (⟨40 + c.val, by omega⟩ : Fin 80)) = w1 (ix2 k c) :=
  concatenate_apply_piece 1 _ _ (ix2 k (⟨40 + c.val, by omega⟩ : Fin 80)) 1 (by show 1 < 2; omega) S32x40 w1 rfl rfl 40 rfl
    (ix2 k c) (fun b hb => by
      match b with
      | ⟨0, _⟩ => rfl
      | ⟨1, _⟩ => exact absurd rfl hb) rfl

/-! ### A column block of the product with the stacked matrix, at an entry -/

/-- Entry `(r, c)` of column block 0 of the product with the stacked matrix: row `r` against column `c` of matrix 0. -/
theorem slice0_proj1_apply (x : FVec Ideal S100000x512 .f32) (w0 w1 w2 w3 : FVec Ideal S512x32 .f32) (r : Fin 100000) (c : Fin 32) :
    extractStridedSlice S100000x32 ![0, 0] (Cert.Spec.proj1 x (concatenate S512x128 1 [⟨S512x32, w0⟩, ⟨S512x32, w1⟩, ⟨S512x32, w2⟩, ⟨S512x32, w3⟩] concatenates_S512x32_S512x32_S512x32_S512x32_S512x128_d1)) slices_S100000x128_S100000x32_0_0 (ix2 r c)
      = ∑ k : Fin 512, x (ix2 r k) * w0 (ix2 k c) := by
  refine (extractStridedSlice_apply ![0, 0] _ slices_S100000x128_S100000x32_0_0 (ix2 r c)
    (ix2 r (⟨0 + c.val, by omega⟩ : Fin 128)) (fun a => by
      match a with
      | ⟨0, _⟩ => show r.val = 0 + r.val; omega
      | ⟨1, _⟩ => rfl)).trans ?_
  unfold Cert.Spec.proj1
  exact Finset.sum_congr rfl fun k _ => congrArg (x (ix2 r k) * ·) (cat4_col0 w0 w1 w2 w3 k c)

/-- The same at an index given whole. -/
theorem slice0_proj1_at (x : FVec Ideal S100000x512 .f32) (w0 w1 w2 w3 : FVec Ideal S512x32 .f32) (i : S100000x32.Idx) :
    extractStridedSlice S100000x32 ![0, 0] (Cert.Spec.proj1 x (concatenate S512x128 1 [⟨S512x32, w0⟩, ⟨S512x32, w1⟩, ⟨S512x32, w2⟩, ⟨S512x32, w3⟩] concatenates_S512x32_S512x32_S512x32_S512x32_S512x128_d1)) slices_S100000x128_S100000x32_0_0 i
      = ∑ k : Fin 512, x (ix2 (i 0) k) * w0 (ix2 k (i 1)) :=
  (congrArg _ (eq_ix2 i)).trans (slice0_proj1_apply x w0 w1 w2 w3 (i 0) (i 1))

/-- Entry `(r, c)` of column block 1 of the product with the stacked matrix: row `r` against column `c` of matrix 1. -/
theorem slice1_proj1_apply (x : FVec Ideal S100000x512 .f32) (w0 w1 w2 w3 : FVec Ideal S512x32 .f32) (r : Fin 100000) (c : Fin 32) :
    extractStridedSlice S100000x32 ![0, 32] (Cert.Spec.proj1 x (concatenate S512x128 1 [⟨S512x32, w0⟩, ⟨S512x32, w1⟩, ⟨S512x32, w2⟩, ⟨S512x32, w3⟩] concatenates_S512x32_S512x32_S512x32_S512x32_S512x128_d1)) slices_S100000x128_S100000x32_0_32 (ix2 r c)
      = ∑ k : Fin 512, x (ix2 r k) * w1 (ix2 k c) := by
  refine (extractStridedSlice_apply ![0, 32] _ slices_S100000x128_S100000x32_0_32 (ix2 r c)
    (ix2 r (⟨32 + c.val, by omega⟩ : Fin 128)) (fun a => by
      match a with
      | ⟨0, _⟩ => show r.val = 0 + r.val; omega
      | ⟨1, _⟩ => rfl)).trans ?_
  unfold Cert.Spec.proj1
  exact Finset.sum_congr rfl fun k _ => congrArg (x (ix2 r k) * ·) (cat4_col1 w0 w1 w2 w3 k c)

/-- The same at an index given whole. -/
theorem slice1_proj1_at (x : FVec Ideal S100000x512 .f32) (w0 w1 w2 w3 : FVec Ideal S512x32 .f32) (i : S100000x32.Idx) :
    extractStridedSlice S100000x32 ![0, 32] (Cert.Spec.proj1 x (concatenate S512x128 1 [⟨S512x32, w0⟩, ⟨S512x32, w1⟩, ⟨S512x32, w2⟩, ⟨S512x32, w3⟩] concatenates_S512x32_S512x32_S512x32_S512x32_S512x128_d1)) slices_S100000x128_S100000x32_0_32 i
      = ∑ k : Fin 512, x (ix2 (i 0) k) * w1 (ix2 k (i 1)) :=
  (congrArg _ (eq_ix2 i)).trans (slice1_proj1_apply x w0 w1 w2 w3 (i 0) (i 1))

/-- Entry `(r, c)` of column block 2 of the product with the stacked matrix: row `r` against column `c` of matrix 2. -/
theorem slice2_proj1_apply (x : FVec Ideal S100000x512 .f32) (w0 w1 w2 w3 : FVec Ideal S512x32 .f32) (r : Fin 100000) (c : Fin 32) :
    extractStridedSlice S100000x32 ![0, 64] (Cert.Spec.proj1 x (concatenate S512x128 1 [⟨S512x32, w0⟩, ⟨S512x32, w1⟩, ⟨S512x32, w2⟩, ⟨S512x32, w3⟩] concatenates_S512x32_S512x32_S512x32_S512x32_S512x128_d1)) slices_S100000x128_S100000x32_0_64 (ix2 r c)
      = ∑ k : Fin 512, x (ix2 r k) * w2 (ix2 k c) := by
  refine (extractStridedSlice_apply ![0, 64] _ slices_S100000x128_S100000x32_0_64 (ix2 r c)
    (ix2 r (⟨64 + c.val, by omega⟩ : Fin 128)) (fun a => by
      match a with
      | ⟨0, _⟩ => show r.val = 0 + r.val; omega
      | ⟨1, _⟩ => rfl)).trans ?_
  unfold Cert.Spec.proj1
  exact Finset.sum_congr rfl fun k _ => congrArg (x (ix2 r k) * ·) (cat4_col2 w0 w1 w2 w3 k c)

/-- The same at an index given whole. -/
theorem slice2_proj1_at (x : FVec Ideal S100000x512 .f32) (w0 w1 w2 w3 : FVec Ideal S512x32 .f32) (i : S100000x32.Idx) :
    extractStridedSlice S100000x32 ![0, 64] (Cert.Spec.proj1 x (concatenate S512x128 1 [⟨S512x32, w0⟩, ⟨S512x32, w1⟩, ⟨S512x32, w2⟩, ⟨S512x32, w3⟩] concatenates_S512x32_S512x32_S512x32_S512x32_S512x128_d1)) slices_S100000x128_S100000x32_0_64 i
      = ∑ k : Fin 512, x (ix2 (i 0) k) * w2 (ix2 k (i 1)) :=
  (congrArg _ (eq_ix2 i)).trans (slice2_proj1_apply x w0 w1 w2 w3 (i 0) (i 1))

/-- Entry `(r, c)` of column block 3 of the product with the stacked matrix: row `r` against column `c` of matrix 3. -/
theorem slice3_proj1_apply (x : FVec Ideal S100000x512 .f32) (w0 w1 w2 w3 : FVec Ideal S512x32 .f32) (r : Fin 100000) (c : Fin 32) :
    extractStridedSlice S100000x32 ![0, 96] (Cert.Spec.proj1 x (concatenate S512x128 1 [⟨S512x32, w0⟩, ⟨S512x32, w1⟩, ⟨S512x32, w2⟩, ⟨S512x32, w3⟩] concatenates_S512x32_S512x32_S512x32_S512x32_S512x128_d1)) slices_S100000x128_S100000x32_0_96 (ix2 r c)
      = ∑ k : Fin 512, x (ix2 r k) * w3 (ix2 k c) := by
  refine (extractStridedSlice_apply ![0, 96] _ slices_S100000x128_S100000x32_0_96 (ix2 r c)
    (ix2 r (⟨96 + c.val, by omega⟩ : Fin 128)) (fun a => by
      match a with
      | ⟨0, _⟩ => show r.val = 0 + r.val; omega
      | ⟨1, _⟩ => rfl)).trans ?_
  unfold Cert.Spec.proj1
  exact Finset.sum_congr rfl fun k _ => congrArg (x (ix2 r k) * ·) (cat4_col3 w0 w1 w2 w3 k c)

/-- The same at an index given whole. -/
theorem slice3_proj1_at (x : FVec Ideal S100000x512 .f32) (w0 w1 w2 w3 : FVec Ideal S512x32 .f32) (i : S100000x32.Idx) :
    extractStridedSlice S100000x32 ![0, 96] (Cert.Spec.proj1 x (concatenate S512x128 1 [⟨S512x32, w0⟩, ⟨S512x32, w1⟩, ⟨S512x32, w2⟩, ⟨S512x32, w3⟩] concatenates_S512x32_S512x32_S512x32_S512x32_S512x128_d1)) slices_S100000x128_S100000x32_0_96 i
      = ∑ k : Fin 512, x (ix2 (i 0) k) * w3 (ix2 k (i 1)) :=
  (congrArg _ (eq_ix2 i)).trans (slice3_proj1_apply x w0 w1 w2 w3 (i 0) (i 1))

/-- Entry `(r, c)` of column block 0 of the product with the stacked matrix: row `r` against column `c` of matrix 0. -/
theorem slice0_proj2_apply (x : FVec Ideal S100000x32 .f32) (w0 w1 : FVec Ideal S32x40 .f32) (r : Fin 100000) (c : Fin 40) :
    extractStridedSlice S100000x40 ![0, 0] (Cert.Spec.proj2 x (concatenate S32x80 1 [⟨S32x40, w0⟩, ⟨S32x40, w1⟩] concatenates_S32x40_S32x40_S32x80_d1)) slices_S100000x80_S100000x40_0_0 (ix2 r c)
      = ∑ k : Fin 32, x (ix2 r k) * w0 (ix2 k c) := by
  refine (extractStridedSlice_apply ![0, 0] _ slices_S100000x80_S100000x40_0_0 (ix2 r c)
    (ix2 r (⟨0 + c.val, by omega⟩ : Fin 80)) (fun a => by
      match a with
      | ⟨0, _⟩ => show r.val = 0 + r.val; omega
      | ⟨1, _⟩ => rfl)).trans ?_
  unfold Cert.Spec.proj2
  exact Finset.sum_congr rfl fun k _ => congrArg (x (ix2 r k) * ·) (cat2_col0 w0 w1 k c)

/-- The same at an index given whole. -/
theorem slice0_proj2_at (x : FVec Ideal S100000x32 .f32) (w0 w1 : FVec Ideal S32x40 .f32) (i : S100000x40.Idx) :
    extractStridedSlice S100000x40 ![0, 0] (Cert.Spec.proj2 x (concatenate S32x80 1 [⟨S32x40, w0⟩, ⟨S32x40, w1⟩] concatenates_S32x40_S32x40_S32x80_d1)) slices_S100000x80_S100000x40_0_0 i
      = ∑ k : Fin 32, x (ix2 (i 0) k) * w0 (ix2 k (i 1)) :=
  (congrArg _ (eq_ix2 i)).trans (slice0_proj2_apply x w0 w1 (i 0) (i 1))

/-- Entry `(r, c)` of column block 1 of the product with the stacked matrix: row `r` against column `c` of matrix 1. -/
theorem slice1_proj2_apply (x : FVec Ideal S100000x32 .f32) (w0 w1 : FVec Ideal S32x40 .f32) (r : Fin 100000) (c : Fin 40) :
    extractStridedSlice S100000x40 ![0, 40] (Cert.Spec.proj2 x (concatenate S32x80 1 [⟨S32x40, w0⟩, ⟨S32x40, w1⟩] concatenates_S32x40_S32x40_S32x80_d1)) slices_S100000x80_S100000x40_0_40 (ix2 r c)
      = ∑ k : Fin 32, x (ix2 r k) * w1 (ix2 k c) := by
  refine (extractStridedSlice_apply ![0, 40] _ slices_S100000x80_S100000x40_0_40 (ix2 r c)
    (ix2 r (⟨40 + c.val, by omega⟩ : Fin 80)) (fun a => by
      match a with
      | ⟨0, _⟩ => show r.val = 0 + r.val; omega
      | ⟨1, _⟩ => rfl)).trans ?_
  unfold Cert.Spec.proj2
  exact Finset.sum_congr rfl fun k _ => congrArg (x (ix2 r k) * ·) (cat2_col1 w0 w1 k c)

/-- The same at an index given whole. -/
theorem slice1_proj2_at (x : FVec Ideal S100000x32 .f32) (w0 w1 : FVec Ideal S32x40 .f32) (i : S100000x40.Idx) :
    extractStridedSlice S100000x40 ![0, 40] (Cert.Spec.proj2 x (concatenate S32x80 1 [⟨S32x40, w0⟩, ⟨S32x40, w1⟩] concatenates_S32x40_S32x40_S32x80_d1)) slices_S100000x80_S100000x40_0_40 i
      = ∑ k : Fin 32, x (ix2 (i 0) k) * w1 (ix2 k (i 1)) :=
  (congrArg _ (eq_ix2 i)).trans (slice1_proj2_apply x w0 w1 (i 0) (i 1))

/-! ### … and whole -/

/-- Column block 0 of the product with the stacked matrix is the product with matrix 0. -/
theorem slice0_proj1 (x : FVec Ideal S100000x512 .f32) (w0 w1 w2 w3 : FVec Ideal S512x32 .f32) :
    extractStridedSlice S100000x32 ![0, 0] (Cert.Spec.proj1 x (concatenate S512x128 1 [⟨S512x32, w0⟩, ⟨S512x32, w1⟩, ⟨S512x32, w2⟩, ⟨S512x32, w3⟩] concatenates_S512x32_S512x32_S512x32_S512x32_S512x128_d1)) slices_S100000x128_S100000x32_0_0
      = Cert.Spec.mm1 x w0 :=
  funext fun i => slice0_proj1_at x w0 w1 w2 w3 i

/-- Column block 1 of the product with the stacked matrix is the product with matrix 1. -/
theorem slice1_proj1 (x : FVec Ideal S100000x512 .f32) (w0 w1 w2 w3 : FVec Ideal S512x32 .f32) :
    extractStridedSlice S100000x32 ![0, 32] (Cert.Spec.proj1 x (concatenate S512x128 1 [⟨S512x32, w0⟩, ⟨S512x32, w1⟩, ⟨S512x32, w2⟩, ⟨S512x32, w3⟩] concatenates_S512x32_S512x32_S512x32_S512x32_S512x128_d1)) slices_S100000x128_S100000x32_0_32
      = Cert.Spec.mm1 x w1 :=
  funext fun i => slice1_proj1_at x w0 w1 w2 w3 i

/-- Column block 2 of the product with the stacked matrix is the product with matrix 2. -/
theorem slice2_proj1 (x : FVec Ideal S100000x512 .f32) (w0 w1 w2 w3 : FVec Ideal S512x32 .f32) :
    extractStridedSlice S100000x32 ![0, 64] (Cert.Spec.proj1 x (concatenate S512x128 1 [⟨S512x32, w0⟩, ⟨S512x32, w1⟩, ⟨S512x32, w2⟩, ⟨S512x32, w3⟩] concatenates_S512x32_S512x32_S512x32_S512x32_S512x128_d1)) slices_S100000x128_S100000x32_0_64
      = Cert.Spec.mm1 x w2 :=
  funext fun i => slice2_proj1_at x w0 w1 w2 w3 i

/-- Column block 3 of the product with the stacked matrix is the product with matrix 3. -/
theorem slice3_proj1 (x : FVec Ideal S100000x512 .f32) (w0 w1 w2 w3 : FVec Ideal S512x32 .f32) :
    extractStridedSlice S100000x32 ![0, 96] (Cert.Spec.proj1 x (concatenate S512x128 1 [⟨S512x32, w0⟩, ⟨S512x32, w1⟩, ⟨S512x32, w2⟩, ⟨S512x32, w3⟩] concatenates_S512x32_S512x32_S512x32_S512x32_S512x128_d1)) slices_S100000x128_S100000x32_0_96
      = Cert.Spec.mm1 x w3 :=
  funext fun i => slice3_proj1_at x w0 w1 w2 w3 i

/-- Column block 0 of the product with the stacked matrix is the product with matrix 0. -/
theorem slice0_proj2 (x : FVec Ideal S100000x32 .f32) (w0 w1 : FVec Ideal S32x40 .f32) :
    extractStridedSlice S100000x40 ![0, 0] (Cert.Spec.proj2 x (concatenate S32x80 1 [⟨S32x40, w0⟩, ⟨S32x40, w1⟩] concatenates_S32x40_S32x40_S32x80_d1)) slices_S100000x80_S100000x40_0_0
      = Cert.Spec.mm2 x w0 :=
  funext fun i => slice0_proj2_at x w0 w1 i

/-- Column block 1 of the product with the stacked matrix is the product with matrix 1. -/
theorem slice1_proj2 (x : FVec Ideal S100000x32 .f32) (w0 w1 : FVec Ideal S32x40 .f32) :
    extractStridedSlice S100000x40 ![0, 40] (Cert.Spec.proj2 x (concatenate S32x80 1 [⟨S32x40, w0⟩, ⟨S32x40, w1⟩] concatenates_S32x40_S32x40_S32x80_d1)) slices_S100000x80_S100000x40_0_40
      = Cert.Spec.mm2 x w1 :=
  funext fun i => slice1_proj2_at x w0 w1 i

/-! ### The reference's products -/

theorem refDot1_lhs_0 (i : Cert.ReferenceIdeal.S100000x32.Idx) (c : Cert.ReferenceIdeal.dot_S100000x512_S512x32_S100000x32_1_0_0_1_n_n.contr.Idx) :
    (Cert.ReferenceIdeal.dot_S100000x512_S512x32_S100000x32_1_0_0_1_n_n.lhsIdx i c 0).val = (i 0).val := by
  unfold DotDims.lhsIdx
  rw [dif_neg (show ¬(0 : Fin Cert.ReferenceIdeal.S100000x512.rank) ∈ Cert.ReferenceIdeal.dot_S100000x512_S512x32_S100000x32_1_0_0_1_n_n.lhsBatch by decide),
    dif_pos (show (0 : Fin Cert.ReferenceIdeal.S100000x512.rank) ∈ Cert.ReferenceIdeal.dot_S100000x512_S512x32_S100000x32_1_0_0_1_n_n.lhsNonContracting by decide)]
  rfl
theorem refDot1_lhs_1 (i : Cert.ReferenceIdeal.S100000x32.Idx) (c : Cert.ReferenceIdeal.dot_S100000x512_S512x32_S100000x32_1_0_0_1_n_n.contr.Idx) :
    (Cert.ReferenceIdeal.dot_S100000x512_S512x32_S100000x32_1_0_0_1_n_n.lhsIdx i c 1).val = (c ⟨0, by decide⟩).val :=
  Cert.ReferenceIdeal.dot_S100000x512_S512x32_S100000x32_1_0_0_1_n_n.lhsIdx_val_of_single rfl i c
theorem refDot1_rhs_0 (i : Cert.ReferenceIdeal.S100000x32.Idx) (c : Cert.ReferenceIdeal.dot_S100000x512_S512x32_S100000x32_1_0_0_1_n_n.contr.Idx) :
    (Cert.ReferenceIdeal.dot_S100000x512_S512x32_S100000x32_1_0_0_1_n_n.rhsIdx i c 0).val = (c ⟨0, by decide⟩).val :=
  Cert.ReferenceIdeal.dot_S100000x512_S512x32_S100000x32_1_0_0_1_n_n.rhsIdx_val_of_single rfl i c
theorem refDot1_rhs_1 (i : Cert.ReferenceIdeal.S100000x32.Idx) (c : Cert.ReferenceIdeal.dot_S100000x512_S512x32_S100000x32_1_0_0_1_n_n.contr.Idx) :
    (Cert.ReferenceIdeal.dot_S100000x512_S512x32_S100000x32_1_0_0_1_n_n.rhsIdx i c 1).val = (i 1).val := by
  unfold DotDims.rhsIdx
  rw [dif_neg (show ¬(1 : Fin Cert.ReferenceIdeal.S512x32.rank) ∈ Cert.ReferenceIdeal.dot_S100000x512_S512x32_S100000x32_1_0_0_1_n_n.rhsBatch by decide),
    dif_pos (show (1 : Fin Cert.ReferenceIdeal.S512x32.rank) ∈ Cert.ReferenceIdeal.dot_S100000x512_S512x32_S100000x32_1_0_0_1_n_n.rhsNonContracting by decide)]
  rfl

set_option maxHeartbeats 400000 in
/-- The reference's product read at an entry: the sum over the contracted axis of the operands' products. -/
theorem refDot1_apply (x : FVec Ideal Cert.ReferenceIdeal.S100000x512 .f32) (w : FVec Ideal Cert.ReferenceIdeal.S512x32 .f32) (i : Cert.ReferenceIdeal.S100000x32.Idx) :
    Host.dotGeneral Cert.ReferenceIdeal.dot_S100000x512_S512x32_S100000x32_1_0_0_1_n_n none x w i = ∑ k : Fin 512, x (ix2 (i 0) k) * w (ix2 k (i 1)) := by
  simp only [Host.dotGeneral]
  rw [Ideal.dotGeneral_apply, ← Equiv.sum_comp (contrEquiv1 Cert.ReferenceIdeal.dot_S100000x512_S512x32_S100000x32_1_0_0_1_n_n 512 rfl rfl).symm]
  refine Finset.sum_congr rfl fun k _ => ?_
  have hk := contrEquiv1_symm_val Cert.ReferenceIdeal.dot_S100000x512_S512x32_S100000x32_1_0_0_1_n_n 512 rfl rfl k
  have el : Cert.ReferenceIdeal.dot_S100000x512_S512x32_S100000x32_1_0_0_1_n_n.lhsIdx i ((contrEquiv1 Cert.ReferenceIdeal.dot_S100000x512_S512x32_S100000x32_1_0_0_1_n_n 512 rfl rfl).symm k) = ix2 (i 0) k :=
    funext fun a => Fin.ext (by
      match a with
      | ⟨0, _⟩ => exact refDot1_lhs_0 _ _
      | ⟨1, _⟩ => exact (refDot1_lhs_1 _ _).trans hk)
  have er : Cert.ReferenceIdeal.dot_S100000x512_S512x32_S100000x32_1_0_0_1_n_n.rhsIdx i ((contrEquiv1 Cert.ReferenceIdeal.dot_S100000x512_S512x32_S100000x32_1_0_0_1_n_n 512 rfl rfl).symm k) = ix2 k (i 1) :=
    funext fun a => Fin.ext (by
      match a with
      | ⟨0, _⟩ => exact (refDot1_rhs_0 _ _).trans hk
      | ⟨1, _⟩ => exact refDot1_rhs_1 _ _)
  rw [el, er]
  rfl

/-- The reference's product is the plain matrix product. -/
theorem refDot1_eq (x : FVec Ideal Cert.ReferenceIdeal.S100000x512 .f32) (w : FVec Ideal Cert.ReferenceIdeal.S512x32 .f32) :
    Host.dotGeneral Cert.ReferenceIdeal.dot_S100000x512_S512x32_S100000x32_1_0_0_1_n_n none x w = Cert.Spec.mm1 x w :=
  funext fun i => refDot1_apply x w i

theorem refDot2_lhs_0 (i : Cert.ReferenceIdeal.S100000x40.Idx) (c : Cert.ReferenceIdeal.dot_S100000x32_S32x40_S100000x40_1_0_0_1_n_n.contr.Idx) :
    (Cert.ReferenceIdeal.dot_S100000x32_S32x40_S100000x40_1_0_0_1_n_n.lhsIdx i c 0).val = (i 0).val := by
  unfold DotDims.lhsIdx
  rw [dif_neg (show ¬(0 : Fin Cert.ReferenceIdeal.S100000x32.rank) ∈ Cert.ReferenceIdeal.dot_S100000x32_S32x40_S100000x40_1_0_0_1_n_n.lhsBatch by decide),
    dif_pos (show (0 : Fin Cert.ReferenceIdeal.S100000x32.rank) ∈ Cert.ReferenceIdeal.dot_S100000x32_S32x40_S100000x40_1_0_0_1_n_n.lhsNonContracting by decide)]
  rfl
theorem refDot2_lhs_1 (i : Cert.ReferenceIdeal.S100000x40.Idx) (c : Cert.ReferenceIdeal.dot_S100000x32_S32x40_S100000x40_1_0_0_1_n_n.contr.Idx) :
    (Cert.ReferenceIdeal.dot_S100000x32_S32x40_S100000x40_1_0_0_1_n_n.lhsIdx i c 1).val = (c ⟨0, by decide⟩).val :=
  Cert.ReferenceIdeal.dot_S100000x32_S32x40_S100000x40_1_0_0_1_n_n.lhsIdx_val_of_single rfl i c
theorem refDot2_rhs_0 (i : Cert.ReferenceIdeal.S100000x40.Idx) (c : Cert.ReferenceIdeal.dot_S100000x32_S32x40_S100000x40_1_0_0_1_n_n.contr.Idx) :
    (Cert.ReferenceIdeal.dot_S100000x32_S32x40_S100000x40_1_0_0_1_n_n.rhsIdx i c 0).val = (c ⟨0, by decide⟩).val :=
  Cert.ReferenceIdeal.dot_S100000x32_S32x40_S100000x40_1_0_0_1_n_n.rhsIdx_val_of_single rfl i c
theorem refDot2_rhs_1 (i : Cert.ReferenceIdeal.S100000x40.Idx) (c : Cert.ReferenceIdeal.dot_S100000x32_S32x40_S100000x40_1_0_0_1_n_n.contr.Idx) :
    (Cert.ReferenceIdeal.dot_S100000x32_S32x40_S100000x40_1_0_0_1_n_n.rhsIdx i c 1).val = (i 1).val := by
  unfold DotDims.rhsIdx
  rw [dif_neg (show ¬(1 : Fin Cert.ReferenceIdeal.S32x40.rank) ∈ Cert.ReferenceIdeal.dot_S100000x32_S32x40_S100000x40_1_0_0_1_n_n.rhsBatch by decide),
    dif_pos (show (1 : Fin Cert.ReferenceIdeal.S32x40.rank) ∈ Cert.ReferenceIdeal.dot_S100000x32_S32x40_S100000x40_1_0_0_1_n_n.rhsNonContracting by decide)]
  rfl

set_option maxHeartbeats 400000 in
/-- The reference's product read at an entry: the sum over the contracted axis of the operands' products. -/
theorem refDot2_apply (x : FVec Ideal Cert.ReferenceIdeal.S100000x32 .f32) (w : FVec Ideal Cert.ReferenceIdeal.S32x40 .f32) (i : Cert.ReferenceIdeal.S100000x40.Idx) :
    Host.dotGeneral Cert.ReferenceIdeal.dot_S100000x32_S32x40_S100000x40_1_0_0_1_n_n none x w i = ∑ k : Fin 32, x (ix2 (i 0) k) * w (ix2 k (i 1)) := by
  simp only [Host.dotGeneral]
  rw [Ideal.dotGeneral_apply, ← Equiv.sum_comp (contrEquiv1 Cert.ReferenceIdeal.dot_S100000x32_S32x40_S100000x40_1_0_0_1_n_n 32 rfl rfl).symm]
  refine Finset.sum_congr rfl fun k _ => ?_
  have hk := contrEquiv1_symm_val Cert.ReferenceIdeal.dot_S100000x32_S32x40_S100000x40_1_0_0_1_n_n 32 rfl rfl k
  have el : Cert.ReferenceIdeal.dot_S100000x32_S32x40_S100000x40_1_0_0_1_n_n.lhsIdx i ((contrEquiv1 Cert.ReferenceIdeal.dot_S100000x32_S32x40_S100000x40_1_0_0_1_n_n 32 rfl rfl).symm k) = ix2 (i 0) k :=
    funext fun a => Fin.ext (by
      match a with
      | ⟨0, _⟩ => exact refDot2_lhs_0 _ _
      | ⟨1, _⟩ => exact (refDot2_lhs_1 _ _).trans hk)
  have er : Cert.ReferenceIdeal.dot_S100000x32_S32x40_S100000x40_1_0_0_1_n_n.rhsIdx i ((contrEquiv1 Cert.ReferenceIdeal.dot_S100000x32_S32x40_S100000x40_1_0_0_1_n_n 32 rfl rfl).symm k) = ix2 k (i 1) :=
    funext fun a => Fin.ext (by
      match a with
      | ⟨0, _⟩ => exact (refDot2_rhs_0 _ _).trans hk
      | ⟨1, _⟩ => exact refDot2_rhs_1 _ _)
  rw [el, er]
  rfl

/-- The reference's product is the plain matrix product. -/
theorem refDot2_eq (x : FVec Ideal Cert.ReferenceIdeal.S100000x32 .f32) (w : FVec Ideal Cert.ReferenceIdeal.S32x40 .f32) :
    Host.dotGeneral Cert.ReferenceIdeal.dot_S100000x32_S32x40_S100000x40_1_0_0_1_n_n none x w = Cert.Spec.mm2 x w :=
  funext fun i => refDot2_apply x w i

end Cert.Bridge

end
-- ==== Proof.LogSoftmaxVsHost.lean ====
/-
  The closing log-softmax, the reference's way, against the whole-array function.

  The reference subtracts from each entry the maximum of its row — reduced from `−∞`, then taken once more against
  `−∞`, which changes nothing since the seed of a fold of `max` is below the fold —, exponentiates, sums each row from
  zero, takes the logarithm and subtracts it. Each keep-dimension broadcast reads the row's value at every column, a row
  reduction read at row `r` is the fold (or the sum) over that row's entries, and on the extended reals the host's
  exponential, logarithm and sum are the exact ones: entry by entry this is `logSoftmaxOfSum`.
-/
import proofs.«138793_j80530636800127_1_alg».proof.Proof.Gen.ReferenceIdeal
import proofs.«138793_j80530636800127_1_alg».proof.Proof.Spec
import Idealize.ShloMosaic.Lib.Pipeline.Value
import Idealize.ShloMosaic.Lib.ValueIdx
import Idealize.ShloMosaic.PureOps.Ideal.Laws
import Idealize.ShloMosaic.PureOps.Reduce

noncomputable section

namespace Cert.Bridge

open Idealize.ShloMosaic Idealize.ShloMosaic.ValueIdx Cert.ReferenceIdeal Cert.ReferenceIdeal.Gen

/-- The reference's closing log-softmax, operation by operation as the reference program spells it, as a function of the
    array `s` it is applied to: the row maximum reduced from `−∞`, its maximum with `−∞`, that given a trailing unit
    axis and broadcast along the rows, the difference, its exponential, the row sum reduced from zero, given a trailing
    unit axis, its logarithm, broadcast along the rows, and the difference of the two. -/
def refLogSoftmax (s : FVec Ideal S100000x40 .f32) : FVec Ideal S100000x40 .f32 :=
  subf
    (subf s
      (broadcastInDim S100000x40 ![0, 1] bcast_S100000x1_S100000x40_0_1
        (broadcastInDim S100000x1 ![0] bcast_S100000_S100000x1_0
          (maximumf (broadcastInDim S100000 ![] bcast_S_S100000 (constant S_ .f32 0xFF800000#32))
            (Host.reduce FloatOps.maximumf s (constant S_ .f32 0xFF800000#32) reducesTo_S100000x40_S100000_d1 h_S_)))))
    (broadcastInDim S100000x40 ![0, 1] bcast_S100000x1_S100000x40_0_1
      (Host.log
        (broadcastInDim S100000x1 ![0] bcast_S100000_S100000x1_0
          (Host.reduceAdd
            (Host.exp
              (subf s
                (broadcastInDim S100000x40 ![0, 1] bcast_S100000x1_S100000x40_0_1
                  (broadcastInDim S100000x1 ![0] bcast_S100000_S100000x1_0
                    (maximumf (broadcastInDim S100000 ![] bcast_S_S100000 (constant S_ .f32 0xFF800000#32))
                      (Host.reduce FloatOps.maximumf s (constant S_ .f32 0xFF800000#32) reducesTo_S100000x40_S100000_d1 h_S_))))))
            (constant S_ .f32 0x00000000#32) reducesTo_S100000x40_S100000_d1 h_S_))))

/-- The shape fact that names the index a row reduction reads. -/
theorem reducesRow : S100000x40.Reduces [1] S100000 := by decide

/-- The source index over row `r` with column `k` inserted is `(r, k)`. -/
theorem liftRow (h : S100000x40.Reduces [1] S100000) (r : Fin 100000) (k : Fin 40) :
    h.lift (ix1 r) k = ix2 r k := by
  funext c
  match c with
  | ⟨0, _⟩ => exact Fin.ext rfl
  | ⟨1, _⟩ => exact Fin.ext rfl

/-- A column vector broadcast along the rows reads its row's entry. -/
theorem bcastCols_apply {α : Type} (u : S100000x1.Idx → α) (r : Fin 100000) (c : Fin 40) :
    broadcastInDim S100000x40 ![0, 1] bcast_S100000x1_S100000x40_0_1 u (ix2 r c) = u (ix2 r (0 : Fin 1)) :=
  broadcastInDim_apply _ bcast_S100000x1_S100000x40_0_1 u (ix2 r c) (ix2 r (0 : Fin 1)) (fun a => by
    match a with
    | ⟨0, _⟩ => show r.val = if (100000 : Nat) = 1 then 0 else r.val; rw [if_neg (by decide)]
    | ⟨1, _⟩ => show 0 = if (1 : Nat) = 1 then 0 else c.val; rw [if_pos rfl])

/-- A per-row value given a trailing unit axis reads the row's value. -/
theorem unitAxis_apply {α : Type} (v : S100000.Idx → α) (r : Fin 100000) :
    broadcastInDim S100000x1 ![0] bcast_S100000_S100000x1_0 v (ix2 r (0 : Fin 1)) = v (ix1 r) :=
  broadcastInDim_apply _ bcast_S100000_S100000x1_0 v (ix2 r (0 : Fin 1)) (ix1 r) (fun a => by
    match a with
    | ⟨0, _⟩ => show r.val = if (100000 : Nat) = 1 then 0 else r.val; rw [if_neg (by decide)])

/-- A scalar broadcast to every row reads the scalar. -/
theorem splat_apply (b : BitVec 32) (r : Fin 100000) :
    broadcastInDim S100000 ![] bcast_S_S100000 (constant (F := Ideal) S_ .f32 b) (ix1 r) = Ideal.ofBits .f32 b :=
  broadcastInDim_apply _ bcast_S_S100000 (constant (F := Ideal) S_ .f32 b) (ix1 r) (fun a => a.elim0) (fun a => a.elim0)

/-- The reference's row maximum, read at row `r`: the fold of `max` over the row from `−∞`. -/
theorem hostRowMax_apply (s : FVec Ideal S100000x40 .f32) (r : Fin 100000) :
    Host.reduce FloatOps.maximumf s (constant S_ .f32 0xFF800000#32) reducesTo_S100000x40_S100000_d1 h_S_ (ix1 r)
      = (Finset.univ : Finset (Fin 40)).fold max Cert.Spec.negInf (fun j => s (ix2 r j)) := by
  refine (Host.reduce_eq_fold_single FloatOps.maximumf s (constant S_ .f32 0xFF800000#32)
    reducesTo_S100000x40_S100000_d1 reducesRow h_S_ (ix1 r)).trans ?_
  refine congrArg (fun f => (Finset.univ : Finset (Fin 40)).fold max Cert.Spec.negInf f) (funext fun j => ?_)
  exact congrArg s (liftRow reducesRow r j)

/-- The reference's row sum, read at row `r`. -/
theorem hostRowSum_apply (y : FVec Ideal S100000x40 .f32) (r : Fin 100000) :
    Host.reduceAdd y (constant S_ .f32 0x00000000#32) reducesTo_S100000x40_S100000_d1 h_S_ (ix1 r)
      = ∑ j : Fin 40, y (ix2 r j) := by
  simp only [Host.reduceAdd, Ideal.hostReduceAdd_def]
  rw [Ideal.hostReduceAdd_single reducesTo_S100000x40_S100000_d1 reducesRow]
  show Ideal.ofBits .f32 0x00000000#32 + _ = _
  rw [Ideal.ofBits_zero_f32, zero_add]
  exact Finset.sum_congr rfl fun j _ => congrArg y (liftRow reducesRow r j)

/-- The host's exponential and logarithm of an array, read at an index. -/
theorem hostExp_apply {s : Shape} {φ : FTy} (x : FVec Ideal s φ) (i : s.Idx) : Host.exp x i = Ideal.exp (x i) := rfl
theorem hostLog_apply {s : Shape} {φ : FTy} (x : FVec Ideal s φ) (i : s.Idx) : Host.log x i = Ideal.log (x i) := rfl

/-- The maximum of `−∞` with a fold of `max` from `−∞` is the fold: the seed is below it. -/
theorem max_negInf_fold (f : Fin 40 → EReal) :
    max Cert.Spec.negInf ((Finset.univ : Finset (Fin 40)).fold max Cert.Spec.negInf f)
      = (Finset.univ : Finset (Fin 40)).fold max Cert.Spec.negInf f :=
  max_eq_right ((Finset.le_fold_max _).mpr (Or.inl le_rfl))

/-- The reference's row maximum after its maximum with `−∞`, given a trailing unit axis and broadcast along the row:
    at every column of row `r`, the fold of `max` over the row from `−∞`. -/
theorem rowMaxChain_apply (s : FVec Ideal S100000x40 .f32) (r : Fin 100000) (c : Fin 40) :
    (broadcastInDim S100000x40 ![0, 1] bcast_S100000x1_S100000x40_0_1
        (broadcastInDim S100000x1 ![0] bcast_S100000_S100000x1_0
          (maximumf (broadcastInDim S100000 ![] bcast_S_S100000 (constant S_ .f32 0xFF800000#32))
            (Host.reduce FloatOps.maximumf s (constant S_ .f32 0xFF800000#32) reducesTo_S100000x40_S100000_d1 h_S_)))) (ix2 r c)
      = (Finset.univ : Finset (Fin 40)).fold max Cert.Spec.negInf (fun j => s (ix2 r j)) := by
  rw [bcastCols_apply, unitAxis_apply, maximumf_apply, splat_apply, hostRowMax_apply]
  exact max_negInf_fold _

/-- The exponential of the entry less the row maximum. -/
theorem expShift_apply (s : FVec Ideal S100000x40 .f32) (r : Fin 100000) (j : Fin 40) :
    Host.exp (subf s (broadcastInDim S100000x40 ![0, 1] bcast_S100000x1_S100000x40_0_1
        (broadcastInDim S100000x1 ![0] bcast_S100000_S100000x1_0
          (maximumf (broadcastInDim S100000 ![] bcast_S_S100000 (constant S_ .f32 0xFF800000#32))
            (Host.reduce FloatOps.maximumf s (constant S_ .f32 0xFF800000#32) reducesTo_S100000x40_S100000_d1 h_S_))))) (ix2 r j)
      = Ideal.exp (s (ix2 r j) - (Finset.univ : Finset (Fin 40)).fold max Cert.Spec.negInf (fun j => s (ix2 r j))) := by
  rw [hostExp_apply, subf_apply, rowMaxChain_apply]

set_option maxHeartbeats 400000 in
/-- The row-wise log-softmax of a sum, as a whole-array function, is the reference's chain applied to the sum. -/
theorem logSoftmaxOfSum_eq (a b : FVec Ideal S100000x40 .f32) :
    Cert.Spec.logSoftmaxOfSum a b = refLogSoftmax (addf a b) := by
  funext i
  obtain ⟨r, c, rfl⟩ : ∃ r c, i = ix2 r c := ⟨i 0, i 1, eq_ix2 i⟩
  symm
  unfold refLogSoftmax
  simp only [subf_apply]
  rw [rowMaxChain_apply, bcastCols_apply, hostLog_apply, unitAxis_apply, hostRowSum_apply,
    Finset.sum_congr rfl (fun j _ => expShift_apply (addf a b) r j)]
  rfl

end Cert.Bridge

end
-- ==== Proof.GcnSpec.lean ====
/-
  The whole network as one function of its arguments, and the two shapes in which the two programs compute it.

  `out` is: the four first-layer products of the node features, each aggregated over the graph and clamped at zero, summed
  into the hidden features; the two class-layer products of the hidden features, each aggregated; the row-wise log-softmax
  of their sum. The kernel program computes every product as a column block of one product with the weight matrices
  stacked side by side; the reference computes each product on its own and ends with the log-softmax written out
  operation by operation. A column block of the stacked product is the product with that block's matrix, the reference's
  product is the plain matrix product, and the written-out log-softmax is the whole-array one: both shapes are `out`.
-/
import proofs.«138793_j80530636800127_1_alg».proof.Proof.GlueSpec
import proofs.«138793_j80530636800127_1_alg».proof.Proof.Gen.KernelIdeal
import proofs.«138793_j80530636800127_1_alg».proof.Proof.Spec
import proofs.«138793_j80530636800127_1_alg».proof.Proof.ProjectionsVsDots
import proofs.«138793_j80530636800127_1_alg».proof.Proof.LogSoftmaxVsHost

noncomputable section

namespace Cert.Gcn

open Idealize.ShloMosaic Idealize.SL.Sem Cert.KernelIdeal

/-- The network's result from @main's fourteen arguments, in their order. -/
def out (x : (⟨S100000x512, .f32⟩ : BufTy).Contents (Elt Ideal))
    (e : (⟨S2x3200000, .i32⟩ : BufTy).Contents (Elt Ideal))
    (w1a : (⟨S512x32, .f32⟩ : BufTy).Contents (Elt Ideal))
    (b1a : (⟨S32, .f32⟩ : BufTy).Contents (Elt Ideal))
    (w1b : (⟨S512x32, .f32⟩ : BufTy).Contents (Elt Ideal))
    (b1b : (⟨S32, .f32⟩ : BufTy).Contents (Elt Ideal))
    (w2a : (⟨S512x32, .f32⟩ : BufTy).Contents (Elt Ideal))
    (b2a : (⟨S32, .f32⟩ : BufTy).Contents (Elt Ideal))
    (w2b : (⟨S512x32, .f32⟩ : BufTy).Contents (Elt Ideal))
    (b2b : (⟨S32, .f32⟩ : BufTy).Contents (Elt Ideal))
    (w3a : (⟨S32x40, .f32⟩ : BufTy).Contents (Elt Ideal))
    (b3a : (⟨S40, .f32⟩ : BufTy).Contents (Elt Ideal))
    (w3b : (⟨S32x40, .f32⟩ : BufTy).Contents (Elt Ideal))
    (b3b : (⟨S40, .f32⟩ : BufTy).Contents (Elt Ideal)) :
    (⟨S100000x40, .f32⟩ : BufTy).Contents (Elt Ideal) :=
  Cert.Spec.logSoftmaxOfSum
    (Cert.Glue.agg40 (F := Ideal) (Cert.Glue.srcOf (F := Ideal) e) (Cert.Glue.dstOf (F := Ideal) e) (Cert.Glue.normOf (F := Ideal) e)
      (Cert.Spec.mm2 (Cert.Glue.hidden (F := Ideal) (Cert.Glue.srcOf (F := Ideal) e) (Cert.Glue.dstOf (F := Ideal) e) (Cert.Glue.normOf (F := Ideal) e)
        (Cert.Spec.mm1 x w1a)
        (Cert.Spec.mm1 x w1b)
        (Cert.Spec.mm1 x w2a)
        (Cert.Spec.mm1 x w2b)
        b1a b1b b2a b2b) w3a) b3a)
    (Cert.Glue.agg40 (F := Ideal) (Cert.Glue.srcOf (F := Ideal) e) (Cert.Glue.dstOf (F := Ideal) e) (Cert.Glue.normOf (F := Ideal) e)
      (Cert.Spec.mm2 (Cert.Glue.hidden (F := Ideal) (Cert.Glue.srcOf (F := Ideal) e) (Cert.Glue.dstOf (F := Ideal) e) (Cert.Glue.normOf (F := Ideal) e)
        (Cert.Spec.mm1 x w1a)
        (Cert.Spec.mm1 x w1b)
        (Cert.Spec.mm1 x w2a)
        (Cert.Spec.mm1 x w2b)
        b1a b1b b2a b2b) w3b) b3b)

/-! ### A column block of a stacked product, in the host computations' names -/

theorem sl32_0_proj1 (x : (⟨S100000x512, .f32⟩ : BufTy).Contents (Elt Ideal)) (w0 w1 w2 w3 : (⟨S512x32, .f32⟩ : BufTy).Contents (Elt Ideal)) :
    Cert.Glue.sl32_0 (F := Ideal) (Cert.Spec.proj1 x (Cert.Glue.cat4 (F := Ideal) w0 w1 w2 w3)) = Cert.Spec.mm1 x w0 :=
  Cert.Bridge.slice0_proj1 x w0 w1 w2 w3

theorem sl32_1_proj1 (x : (⟨S100000x512, .f32⟩ : BufTy).Contents (Elt Ideal)) (w0 w1 w2 w3 : (⟨S512x32, .f32⟩ : BufTy).Contents (Elt Ideal)) :
    Cert.Glue.sl32_1 (F := Ideal) (Cert.Spec.proj1 x (Cert.Glue.cat4 (F := Ideal) w0 w1 w2 w3)) = Cert.Spec.mm1 x w1 :=
  Cert.Bridge.slice1_proj1 x w0 w1 w2 w3

theorem sl32_2_proj1 (x : (⟨S100000x512, .f32⟩ : BufTy).Contents (Elt Ideal)) (w0 w1 w2 w3 : (⟨S512x32, .f32⟩ : BufTy).Contents (Elt Ideal)) :
    Cert.Glue.sl32_2 (F := Ideal) (Cert.Spec.proj1 x (Cert.Glue.cat4 (F := Ideal) w0 w1 w2 w3)) = Cert.Spec.mm1 x w2 :=
  Cert.Bridge.slice2_proj1 x w0 w1 w2 w3

theorem sl32_3_proj1 (x : (⟨S100000x512, .f32⟩ : BufTy).Contents (Elt Ideal)) (w0 w1 w2 w3 : (⟨S512x32, .f32⟩ : BufTy).Contents (Elt Ideal)) :
    Cert.Glue.sl32_3 (F := Ideal) (Cert.Spec.proj1 x (Cert.Glue.cat4 (F := Ideal) w0 w1 w2 w3)) = Cert.Spec.mm1 x w3 :=
  Cert.Bridge.slice3_proj1 x w0 w1 w2 w3

theorem sl40_0_proj2 (h : (⟨S100000x32, .f32⟩ : BufTy).Contents (Elt Ideal)) (w0 w1 : (⟨S32x40, .f32⟩ : BufTy).Contents (Elt Ideal)) :
    Cert.Glue.sl40_0 (F := Ideal) (Cert.Spec.proj2 h (Cert.Glue.cat2 (F := Ideal) w0 w1)) = Cert.Spec.mm2 h w0 :=
  Cert.Bridge.slice0_proj2 h w0 w1

theorem sl40_1_proj2 (h : (⟨S100000x32, .f32⟩ : BufTy).Contents (Elt Ideal)) (w0 w1 : (⟨S32x40, .f32⟩ : BufTy).Contents (Elt Ideal)) :
    Cert.Glue.sl40_1 (F := Ideal) (Cert.Spec.proj2 h (Cert.Glue.cat2 (F := Ideal) w0 w1)) = Cert.Spec.mm2 h w1 :=
  Cert.Bridge.slice1_proj2 h w0 w1

/-! ### The reference's products, over the kernel program's shapes -/

theorem dot1_mm1 (x : (⟨S100000x512, .f32⟩ : BufTy).Contents (Elt Ideal)) (w : (⟨S512x32, .f32⟩ : BufTy).Contents (Elt Ideal)) :
    Host.dotGeneral (F := Ideal) (φ₁ := .f32) (φ₂ := .f32) Cert.ReferenceIdeal.dot_S100000x512_S512x32_S100000x32_1_0_0_1_n_n none x w = Cert.Spec.mm1 x w :=
  Cert.Bridge.refDot1_eq x w

theorem dot2_mm2 (h : (⟨S100000x32, .f32⟩ : BufTy).Contents (Elt Ideal)) (w : (⟨S32x40, .f32⟩ : BufTy).Contents (Elt Ideal)) :
    Host.dotGeneral (F := Ideal) (φ₁ := .f32) (φ₂ := .f32) Cert.ReferenceIdeal.dot_S100000x32_S32x40_S100000x40_1_0_0_1_n_n none h w = Cert.Spec.mm2 h w :=
  Cert.Bridge.refDot2_eq h w

/-! ### The two shapes -/

set_option maxHeartbeats 400000 in
/-- The kernel program's shape: every product a column block of a product with stacked weights. -/
theorem kernel_shape (x : (⟨S100000x512, .f32⟩ : BufTy).Contents (Elt Ideal))
    (e : (⟨S2x3200000, .i32⟩ : BufTy).Contents (Elt Ideal))
    (w1a : (⟨S512x32, .f32⟩ : BufTy).Contents (Elt Ideal))
    (b1a : (⟨S32, .f32⟩ : BufTy).Contents (Elt Ideal))
    (w1b : (⟨S512x32, .f32⟩ : BufTy).Contents (Elt Ideal))
    (b1b : (⟨S32, .f32⟩ : BufTy).Contents (Elt Ideal))
    (w2a : (⟨S512x32, .f32⟩ : BufTy).Contents (Elt Ideal))
    (b2a : (⟨S32, .f32⟩ : BufTy).Contents (Elt Ideal))
    (w2b : (⟨S512x32, .f32⟩ : BufTy).Contents (Elt Ideal))
    (b2b : (⟨S32, .f32⟩ : BufTy).Contents (Elt Ideal))
    (w3a : (⟨S32x40, .f32⟩ : BufTy).Contents (Elt Ideal))
    (b3a : (⟨S40, .f32⟩ : BufTy).Contents (Elt Ideal))
    (w3b : (⟨S32x40, .f32⟩ : BufTy).Contents (Elt Ideal))
    (b3b : (⟨S40, .f32⟩ : BufTy).Contents (Elt Ideal)) :
    Cert.Spec.logSoftmaxOfSum
      (Cert.Glue.agg40 (F := Ideal) (Cert.Glue.srcOf (F := Ideal) e) (Cert.Glue.dstOf (F := Ideal) e) (Cert.Glue.normOf (F := Ideal) e)
        (Cert.Glue.sl40_0 (F := Ideal) (Cert.Spec.proj2 (Cert.Glue.hidden (F := Ideal) (Cert.Glue.srcOf (F := Ideal) e) (Cert.Glue.dstOf (F := Ideal) e) (Cert.Glue.normOf (F := Ideal) e)
        (Cert.Glue.sl32_0 (F := Ideal) (Cert.Spec.proj1 x (Cert.Glue.cat4 (F := Ideal) w1a w1b w2a w2b)))
        (Cert.Glue.sl32_1 (F := Ideal) (Cert.Spec.proj1 x (Cert.Glue.cat4 (F := Ideal) w1a w1b w2a w2b)))
        (Cert.Glue.sl32_2 (F := Ideal) (Cert.Spec.proj1 x (Cert.Glue.cat4 (F := Ideal) w1a w1b w2a w2b)))
        (Cert.Glue.sl32_3 (F := Ideal) (Cert.Spec.proj1 x (Cert.Glue.cat4 (F := Ideal) w1a w1b w2a w2b)))
        b1a b1b b2a b2b) (Cert.Glue.cat2 (F := Ideal) w3a w3b))) b3a)
      (Cert.Glue.agg40 (F := Ideal) (Cert.Glue.srcOf (F := Ideal) e) (Cert.Glue.dstOf (F := Ideal) e) (Cert.Glue.normOf (F := Ideal) e)
        (Cert.Glue.sl40_1 (F := Ideal) (Cert.Spec.proj2 (Cert.Glue.hidden (F := Ideal) (Cert.Glue.srcOf (F := Ideal) e) (Cert.Glue.dstOf (F := Ideal) e) (Cert.Glue.normOf (F := Ideal) e)
        (Cert.Glue.sl32_0 (F := Ideal) (Cert.Spec.proj1 x (Cert.Glue.cat4 (F := Ideal) w1a w1b w2a w2b)))
        (Cert.Glue.sl32_1 (F := Ideal) (Cert.Spec.proj1 x (Cert.Glue.cat4 (F := Ideal) w1a w1b w2a w2b)))
        (Cert.Glue.sl32_2 (F := Ideal) (Cert.Spec.proj1 x (Cert.Glue.cat4 (F := Ideal) w1a w1b w2a w2b)))
        (Cert.Glue.sl32_3 (F := Ideal) (Cert.Spec.proj1 x (Cert.Glue.cat4 (F := Ideal) w1a w1b w2a w2b)))
        b1a b1b b2a b2b) (Cert.Glue.cat2 (F := Ideal) w3a w3b))) b3b)
      = out x e w1a b1a w1b b1b w2a b2a w2b b2b w3a b3a w3b b3b := by
  unfold out
  rw [sl40_0_proj2, sl40_1_proj2, sl32_0_proj1, sl32_1_proj1, sl32_2_proj1, sl32_3_proj1]

set_option maxHeartbeats 400000 in
/-- The reference's shape: every product on its own, the log-softmax written out. -/
theorem reference_shape (x : (⟨S100000x512, .f32⟩ : BufTy).Contents (Elt Ideal))
    (e : (⟨S2x3200000, .i32⟩ : BufTy).Contents (Elt Ideal))
    (w1a : (⟨S512x32, .f32⟩ : BufTy).Contents (Elt Ideal))
    (b1a : (⟨S32, .f32⟩ : BufTy).Contents (Elt Ideal))
    (w1b : (⟨S512x32, .f32⟩ : BufTy).Contents (Elt Ideal))
    (b1b : (⟨S32, .f32⟩ : BufTy).Contents (Elt Ideal))
    (w2a : (⟨S512x32, .f32⟩ : BufTy).Contents (Elt Ideal))
    (b2a : (⟨S32, .f32⟩ : BufTy).Contents (Elt Ideal))
    (w2b : (⟨S512x32, .f32⟩ : BufTy).Contents (Elt Ideal))
    (b2b : (⟨S32, .f32⟩ : BufTy).Contents (Elt Ideal))
    (w3a : (⟨S32x40, .f32⟩ : BufTy).Contents (Elt Ideal))
    (b3a : (⟨S40, .f32⟩ : BufTy).Contents (Elt Ideal))
    (w3b : (⟨S32x40, .f32⟩ : BufTy).Contents (Elt Ideal))
    (b3b : (⟨S40, .f32⟩ : BufTy).Contents (Elt Ideal)) :
    Cert.Bridge.refLogSoftmax
      (addf
        (Cert.Glue.agg40 (F := Ideal) (Cert.Glue.srcOf (F := Ideal) e) (Cert.Glue.dstOf (F := Ideal) e) (Cert.Glue.normOf (F := Ideal) e)
          (Host.dotGeneral (F := Ideal) (φ₁ := .f32) (φ₂ := .f32) Cert.ReferenceIdeal.dot_S100000x32_S32x40_S100000x40_1_0_0_1_n_n none (Cert.Glue.hidden (F := Ideal) (Cert.Glue.srcOf (F := Ideal) e) (Cert.Glue.dstOf (F := Ideal) e) (Cert.Glue.normOf (F := Ideal) e)
        (Host.dotGeneral (F := Ideal) (φ₁ := .f32) (φ₂ := .f32) Cert.ReferenceIdeal.dot_S100000x512_S512x32_S100000x32_1_0_0_1_n_n none x w1a)
        (Host.dotGeneral (F := Ideal) (φ₁ := .f32) (φ₂ := .f32) Cert.ReferenceIdeal.dot_S100000x512_S512x32_S100000x32_1_0_0_1_n_n none x w1b)
        (Host.dotGeneral (F := Ideal) (φ₁ := .f32) (φ₂ := .f32) Cert.ReferenceIdeal.dot_S100000x512_S512x32_S100000x32_1_0_0_1_n_n none x w2a)
        (Host.dotGeneral (F := Ideal) (φ₁ := .f32) (φ₂ := .f32) Cert.ReferenceIdeal.dot_S100000x512_S512x32_S100000x32_1_0_0_1_n_n none x w2b)
        b1a b1b b2a b2b) w3a) b3a)
        (Cert.Glue.agg40 (F := Ideal) (Cert.Glue.srcOf (F := Ideal) e) (Cert.Glue.dstOf (F := Ideal) e) (Cert.Glue.normOf (F := Ideal) e)
          (Host.dotGeneral (F := Ideal) (φ₁ := .f32) (φ₂ := .f32) Cert.ReferenceIdeal.dot_S100000x32_S32x40_S100000x40_1_0_0_1_n_n none (Cert.Glue.hidden (F := Ideal) (Cert.Glue.srcOf (F := Ideal) e) (Cert.Glue.dstOf (F := Ideal) e) (Cert.Glue.normOf (F := Ideal) e)
        (Host.dotGeneral (F := Ideal) (φ₁ := .f32) (φ₂ := .f32) Cert.ReferenceIdeal.dot_S100000x512_S512x32_S100000x32_1_0_0_1_n_n none x w1a)
        (Host.dotGeneral (F := Ideal) (φ₁ := .f32) (φ₂ := .f32) Cert.ReferenceIdeal.dot_S100000x512_S512x32_S100000x32_1_0_0_1_n_n none x w1b)
        (Host.dotGeneral (F := Ideal) (φ₁ := .f32) (φ₂ := .f32) Cert.ReferenceIdeal.dot_S100000x512_S512x32_S100000x32_1_0_0_1_n_n none x w2a)
        (Host.dotGeneral (F := Ideal) (φ₁ := .f32) (φ₂ := .f32) Cert.ReferenceIdeal.dot_S100000x512_S512x32_S100000x32_1_0_0_1_n_n none x w2b)
        b1a b1b b2a b2b) w3b) b3b))
      = out x e w1a b1a w1b b1b w2a b2a w2b b2b w3a b3a w3b b3b := by
  unfold out
  rw [← Cert.Bridge.logSoftmaxOfSum_eq, dot2_mm2, dot2_mm2, dot1_mm1, dot1_mm1, dot1_mm1, dot1_mm1]

end Cert.Gcn

end
-- ==== Proof.IdealFrame.Value.lean ====
/-
  The kernel program's result, read off the run: the last valuation at the result buffer is the closed form `Gcn.out` of
  the argument arrays.

  Walking back from the end: the third region leaves the row-wise log-softmax of the sum of the two arrays it was entered
  with; those are the two class aggregations the host computed from the two column blocks of the second region's
  result; that result is the hidden features against the stacked class-layer weights; the hidden features are what the
  host computed from the four column blocks of the first region's result, which is the node features against the
  stacked first-layer weights. The source and destination lists and the edge norm are computed once, before the first
  region, and nothing writes them afterwards; no argument is ever written.
-/
import proofs.«138793_j80530636800127_1_alg».proof.Proof.IdealFrame.Run
import proofs.«138793_j80530636800127_1_alg».proof.Proof.IdealFrame.Array0
import proofs.«138793_j80530636800127_1_alg».proof.Proof.IdealFrame.Array1
import proofs.«138793_j80530636800127_1_alg».proof.Proof.IdealFrame.Array2
import proofs.«138793_j80530636800127_1_alg».proof.Proof.GlueKernel
import proofs.«138793_j80530636800127_1_alg».proof.Proof.GcnSpec

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL Idealize.SL.Sem

variable (m : (ℓ : Loc nD τ sig) → Buf (Elt Ideal) ℓ) (ρ : Dev nD → PrngReg) (c : Dev nD)

/-! ## Buffers that are carried along -/

/-- A buffer the first three host stretches do not write still holds its launch contents when the first region is entered. -/
theorem B3_keeps {r : Ref sig .tc} (h1 : r ∉ hostOps0_W) (h2 : r ∉ hostOps0_1_W) (h3 : r ∉ hostOps0_2_W) :
    B3 (F := Ideal) m ρ c (Proc.devRef .tc r) = m ((c : Thread nD τ).loc r) :=
  Cert.Glue.A3_of (B0 m ρ c) h1 h2 h3

/-- A buffer that is no array of the first region and that the nine host stretches after it do not write holds, when the
    second region is entered, what it held when the first was. -/
theorem B13_keeps {r : Ref sig .tc} (h4 : ∀ w, Pipeline.arrRef spec0 w ≠ r)
    (h5 : r ∉ hostOps1_W) (h6 : r ∉ hostOps1_1_W) (h7 : r ∉ hostOps1_2_W) (h8 : r ∉ hostOps1_3_W) (h9 : r ∉ hostOps1_4_W)
    (h10 : r ∉ hostOps1_5_W) (h11 : r ∉ hostOps1_6_W) (h12 : r ∉ hostOps1_7_W) (h13 : r ∉ hostOps1_8_W) :
    B13 (F := Ideal) m ρ c (Proc.devRef .tc r) = B3 m ρ c (Proc.devRef .tc r) :=
  (Cert.Glue.A13_of (B4 m ρ c) h5 h6 h7 h8 h9 h10 h11 h12 h13).trans (B4_of_ne m ρ c r h4)

/-- The same up to the entry of the third region. -/
theorem B14_keeps {r : Ref sig .tc} (h4 : ∀ w, Pipeline.arrRef spec0 w ≠ r)
    (h5 : r ∉ hostOps1_W) (h6 : r ∉ hostOps1_1_W) (h7 : r ∉ hostOps1_2_W) (h8 : r ∉ hostOps1_3_W) (h9 : r ∉ hostOps1_4_W)
    (h10 : r ∉ hostOps1_5_W) (h11 : r ∉ hostOps1_6_W) (h12 : r ∉ hostOps1_7_W) (h13 : r ∉ hostOps1_8_W)
    (h14 : ∀ w, Pipeline.arrRef spec1 w ≠ r) :
    B14 (F := Ideal) m ρ c (Proc.devRef .tc r) = B3 m ρ c (Proc.devRef .tc r) :=
  (B14_of_ne m ρ c r h14).trans (B13_keeps m ρ c h4 h5 h6 h7 h8 h9 h10 h11 h12 h13)

/-! ## The graph's lists and the norm, wherever they are read -/

theorem src_at3 : B3 (F := Ideal) m ρ c (Proc.devRef .tc main_v3) = Cert.Glue.srcOf (F := Ideal) (m ((c : Thread nD τ).loc main_arg1)) := Cert.Glue.A3_v3 (B0 m ρ c)
theorem dst_at3 : B3 (F := Ideal) m ρ c (Proc.devRef .tc main_v6) = Cert.Glue.dstOf (F := Ideal) (m ((c : Thread nD τ).loc main_arg1)) := Cert.Glue.A3_v6 (B0 m ρ c)
theorem norm_at3 : B3 (F := Ideal) m ρ c (Proc.devRef .tc main_v31) = Cert.Glue.normOf (F := Ideal) (m ((c : Thread nD τ).loc main_arg1)) := Cert.Glue.A3_v31 (B0 m ρ c)

theorem src_at4 : B4 (F := Ideal) m ρ c (Proc.devRef .tc main_v3) = Cert.Glue.srcOf (F := Ideal) (m ((c : Thread nD τ).loc main_arg1)) :=
  (B4_of_ne m ρ c main_v3 (by decide)).trans (src_at3 m ρ c)
theorem dst_at4 : B4 (F := Ideal) m ρ c (Proc.devRef .tc main_v6) = Cert.Glue.dstOf (F := Ideal) (m ((c : Thread nD τ).loc main_arg1)) :=
  (B4_of_ne m ρ c main_v6 (by decide)).trans (dst_at3 m ρ c)
theorem norm_at4 : B4 (F := Ideal) m ρ c (Proc.devRef .tc main_v31) = Cert.Glue.normOf (F := Ideal) (m ((c : Thread nD τ).loc main_arg1)) :=
  (B4_of_ne m ρ c main_v31 (by decide)).trans (norm_at3 m ρ c)

theorem src_at14 : B14 (F := Ideal) m ρ c (Proc.devRef .tc main_v3) = Cert.Glue.srcOf (F := Ideal) (m ((c : Thread nD τ).loc main_arg1)) :=
  (B14_keeps m ρ c (by decide) (by decide) (by decide) (by decide) (by decide) (by decide) (by decide) (by decide) (by decide) (by decide) (by decide)).trans (src_at3 m ρ c)
theorem dst_at14 : B14 (F := Ideal) m ρ c (Proc.devRef .tc main_v6) = Cert.Glue.dstOf (F := Ideal) (m ((c : Thread nD τ).loc main_arg1)) :=
  (B14_keeps m ρ c (by decide) (by decide) (by decide) (by decide) (by decide) (by decide) (by decide) (by decide) (by decide) (by decide) (by decide)).trans (dst_at3 m ρ c)
theorem norm_at14 : B14 (F := Ideal) m ρ c (Proc.devRef .tc main_v31) = Cert.Glue.normOf (F := Ideal) (m ((c : Thread nD τ).loc main_arg1)) :=
  (B14_keeps m ρ c (by decide) (by decide) (by decide) (by decide) (by decide) (by decide) (by decide) (by decide) (by decide) (by decide) (by decide)).trans (norm_at3 m ρ c)

/-! ## The arguments, wherever they are read -/

theorem arg3_at4 : B4 (F := Ideal) m ρ c (Proc.devRef .tc main_arg3) = m ((c : Thread nD τ).loc main_arg3) :=
  (B4_of_ne m ρ c main_arg3 (by decide)).trans (B3_keeps m ρ c (by decide) (by decide) (by decide))
theorem arg5_at4 : B4 (F := Ideal) m ρ c (Proc.devRef .tc main_arg5) = m ((c : Thread nD τ).loc main_arg5) :=
  (B4_of_ne m ρ c main_arg5 (by decide)).trans (B3_keeps m ρ c (by decide) (by decide) (by decide))
theorem arg7_at4 : B4 (F := Ideal) m ρ c (Proc.devRef .tc main_arg7) = m ((c : Thread nD τ).loc main_arg7) :=
  (B4_of_ne m ρ c main_arg7 (by decide)).trans (B3_keeps m ρ c (by decide) (by decide) (by decide))
theorem arg9_at4 : B4 (F := Ideal) m ρ c (Proc.devRef .tc main_arg9) = m ((c : Thread nD τ).loc main_arg9) :=
  (B4_of_ne m ρ c main_arg9 (by decide)).trans (B3_keeps m ρ c (by decide) (by decide) (by decide))
theorem arg10_at4 : B4 (F := Ideal) m ρ c (Proc.devRef .tc main_arg10) = m ((c : Thread nD τ).loc main_arg10) :=
  (B4_of_ne m ρ c main_arg10 (by decide)).trans (B3_keeps m ρ c (by decide) (by decide) (by decide))
theorem arg12_at4 : B4 (F := Ideal) m ρ c (Proc.devRef .tc main_arg12) = m ((c : Thread nD τ).loc main_arg12) :=
  (B4_of_ne m ρ c main_arg12 (by decide)).trans (B3_keeps m ρ c (by decide) (by decide) (by decide))
theorem arg11_at14 : B14 (F := Ideal) m ρ c (Proc.devRef .tc main_arg11) = m ((c : Thread nD τ).loc main_arg11) :=
  (B14_keeps m ρ c (by decide) (by decide) (by decide) (by decide) (by decide) (by decide) (by decide) (by decide) (by decide) (by decide) (by decide)).trans (B3_keeps m ρ c (by decide) (by decide) (by decide))
theorem arg13_at14 : B14 (F := Ideal) m ρ c (Proc.devRef .tc main_arg13) = m ((c : Thread nD τ).loc main_arg13) :=
  (B14_keeps m ρ c (by decide) (by decide) (by decide) (by decide) (by decide) (by decide) (by decide) (by decide) (by decide) (by decide) (by decide)).trans (B3_keeps m ρ c (by decide) (by decide) (by decide))

/-! ## The three regions' results and the host's steps between them -/

/-- The first region's result: the node features against the stacked first-layer weights. -/
theorem first_product : B4 (F := Ideal) m ρ c (Proc.devRef .tc main_v33)
    = Cert.Spec.proj1 (m ((c : Thread nD τ).loc main_arg0)) (Cert.Glue.cat4 (F := Ideal) (m ((c : Thread nD τ).loc main_arg2)) (m ((c : Thread nD τ).loc main_arg4)) (m ((c : Thread nD τ).loc main_arg6)) (m ((c : Thread nD τ).loc main_arg8))) := by
  have h := (B4_arr m ρ c 2).trans (array0 (E3 m ρ) c)
  have hx : E3 (F := Ideal) m ρ c main_arg0 = (m ((c : Thread nD τ).loc main_arg0)) := (Cert.Glue.A3_arg0 (B0 m ρ c))
  have hw : E3 (F := Ideal) m ρ c main_v32 = Cert.Glue.cat4 (F := Ideal) (m ((c : Thread nD τ).loc main_arg2)) (m ((c : Thread nD τ).loc main_arg4)) (m ((c : Thread nD τ).loc main_arg6)) (m ((c : Thread nD τ).loc main_arg8)) := Cert.Glue.A3_v32 (B0 m ρ c)
  rw [hx, hw] at h
  exact h

/-- The hidden features, as the second region finds them. -/
theorem hidden_features : B13 (F := Ideal) m ρ c (Proc.devRef .tc main_v108)
    = Cert.Glue.hidden (F := Ideal) (Cert.Glue.srcOf (F := Ideal) (m ((c : Thread nD τ).loc main_arg1))) (Cert.Glue.dstOf (F := Ideal) (m ((c : Thread nD τ).loc main_arg1))) (Cert.Glue.normOf (F := Ideal) (m ((c : Thread nD τ).loc main_arg1)))
        (Cert.Glue.sl32_0 (F := Ideal) (Cert.Spec.proj1 (m ((c : Thread nD τ).loc main_arg0)) (Cert.Glue.cat4 (F := Ideal) (m ((c : Thread nD τ).loc main_arg2)) (m ((c : Thread nD τ).loc main_arg4)) (m ((c : Thread nD τ).loc main_arg6)) (m ((c : Thread nD τ).loc main_arg8)))))
        (Cert.Glue.sl32_1 (F := Ideal) (Cert.Spec.proj1 (m ((c : Thread nD τ).loc main_arg0)) (Cert.Glue.cat4 (F := Ideal) (m ((c : Thread nD τ).loc main_arg2)) (m ((c : Thread nD τ).loc main_arg4)) (m ((c : Thread nD τ).loc main_arg6)) (m ((c : Thread nD τ).loc main_arg8)))))
        (Cert.Glue.sl32_2 (F := Ideal) (Cert.Spec.proj1 (m ((c : Thread nD τ).loc main_arg0)) (Cert.Glue.cat4 (F := Ideal) (m ((c : Thread nD τ).loc main_arg2)) (m ((c : Thread nD τ).loc main_arg4)) (m ((c : Thread nD τ).loc main_arg6)) (m ((c : Thread nD τ).loc main_arg8)))))
        (Cert.Glue.sl32_3 (F := Ideal) (Cert.Spec.proj1 (m ((c : Thread nD τ).loc main_arg0)) (Cert.Glue.cat4 (F := Ideal) (m ((c : Thread nD τ).loc main_arg2)) (m ((c : Thread nD τ).loc main_arg4)) (m ((c : Thread nD τ).loc main_arg6)) (m ((c : Thread nD τ).loc main_arg8)))))
        (m ((c : Thread nD τ).loc main_arg3)) (m ((c : Thread nD τ).loc main_arg5)) (m ((c : Thread nD τ).loc main_arg7)) (m ((c : Thread nD τ).loc main_arg9)) := by
  have h := Cert.Glue.A13_v108 (B4 (F := Ideal) m ρ c)
  rw [src_at4 m ρ c, dst_at4 m ρ c, norm_at4 m ρ c, first_product m ρ c,
    arg3_at4 m ρ c, arg5_at4 m ρ c, arg7_at4 m ρ c, arg9_at4 m ρ c] at h
  exact h

/-- The stacked class-layer weights, as the second region finds them. -/
theorem class_weights : B13 (F := Ideal) m ρ c (Proc.devRef .tc main_v109) = Cert.Glue.cat2 (F := Ideal) (m ((c : Thread nD τ).loc main_arg10)) (m ((c : Thread nD τ).loc main_arg12)) := by
  have h := Cert.Glue.A13_v109 (B4 (F := Ideal) m ρ c)
  rw [arg10_at4 m ρ c, arg12_at4 m ρ c] at h
  exact h

/-- The second region's result: the hidden features against the stacked class-layer weights. -/
theorem second_product : B14 (F := Ideal) m ρ c (Proc.devRef .tc main_v110)
    = Cert.Spec.proj2 (B13 (F := Ideal) m ρ c (Proc.devRef .tc main_v108)) (B13 (F := Ideal) m ρ c (Proc.devRef .tc main_v109)) :=
  (B14_arr m ρ c 2).trans (array1 (E13 m ρ) c)

/-- The third region's result: the row-wise log-softmax of the sum of the two class aggregations. -/
theorem third_result : B16 (F := Ideal) m ρ c (Proc.devRef .tc main_v145)
    = Cert.Spec.logSoftmaxOfSum (B15 (F := Ideal) m ρ c (Proc.devRef .tc main_v128)) (B15 (F := Ideal) m ρ c (Proc.devRef .tc main_v144)) :=
  (B16_arr m ρ c 2).trans (array2 (E15 m ρ) c)

/-- THE KERNEL PROGRAM'S RESULT is the closed form of the arguments. -/
theorem kernel_value : B16 (F := Ideal) m ρ c (Proc.devRef .tc main_v145)
    = Cert.Gcn.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  have ha := Cert.Glue.A15_v128 (B14 (F := Ideal) m ρ c)
  have hb := Cert.Glue.A15_v144 (B14 (F := Ideal) m ρ c)
  rw [src_at14 m ρ c, dst_at14 m ρ c, norm_at14 m ρ c, second_product m ρ c, hidden_features m ρ c, class_weights m ρ c,
    arg11_at14 m ρ c] at ha
  rw [src_at14 m ρ c, dst_at14 m ρ c, norm_at14 m ρ c, second_product m ρ c, hidden_features m ρ c, class_weights m ρ c,
    arg13_at14 m ρ c] at hb
  refine (third_result m ρ c).trans ?_
  rw [show B15 (F := Ideal) m ρ c (Proc.devRef .tc main_v128) = _ from ha, show B15 (F := Ideal) m ρ c (Proc.devRef .tc main_v144) = _ from hb]
  exact Cert.Gcn.kernel_shape _ _ _ _ _ _ _ _ _ _ _ _ _ _

/-- The kernel program's run, in the form the claim asks for: it terminates, the result array ends at the closed form of
    the arguments, and every argument array ends as launched. -/
theorem kernel_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v145) = Cert.Gcn.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨(h c _ (mem_unscoped main_v145 (by decide))).trans (kernel_value m ρ c),
     (h c _ (mem_unscoped main_arg0 (by decide))).trans (B16_main_arg0 m ρ c),
     (h c _ (mem_unscoped main_arg1 (by decide))).trans (B16_main_arg1 m ρ c),
     (h c _ (mem_unscoped main_arg2 (by decide))).trans (B16_main_arg2 m ρ c),
     (h c _ (mem_unscoped main_arg3 (by decide))).trans (B16_main_arg3 m ρ c),
     (h c _ (mem_unscoped main_arg4 (by decide))).trans (B16_main_arg4 m ρ c),
     (h c _ (mem_unscoped main_arg5 (by decide))).trans (B16_main_arg5 m ρ c),
     (h c _ (mem_unscoped main_arg6 (by decide))).trans (B16_main_arg6 m ρ c),
     (h c _ (mem_unscoped main_arg7 (by decide))).trans (B16_main_arg7 m ρ c),
     (h c _ (mem_unscoped main_arg8 (by decide))).trans (B16_main_arg8 m ρ c),
     (h c _ (mem_unscoped main_arg9 (by decide))).trans (B16_main_arg9 m ρ c),
     (h c _ (mem_unscoped main_arg10 (by decide))).trans (B16_main_arg10 m ρ c),
     (h c _ (mem_unscoped main_arg11 (by decide))).trans (B16_main_arg11 m ρ c),
     (h c _ (mem_unscoped main_arg12 (by decide))).trans (B16_main_arg12 m ρ c),
     (h c _ (mem_unscoped main_arg13 (by decide))).trans (B16_main_arg13 m ρ c)⟩) (run_all m ρ)

end Cert.KernelIdeal.Hand

end
-- ==== Proof.RefChunks.lean ====
/-
  The reference's 194 host operations cut into four consecutive stretches, so that each can be read on its own from an
  arbitrary valuation of the buffers:

    normOps     (operations 0–42)    the graph's source and destination lists with self-loops, and the edge norm
    hiddenOps   (operations 43–137)  the four first-layer convolutions (product, gather, scale, scatter-add, bias, relu) and their sum
    classOps    (operations 138–178) the two class-layer convolutions and their sum
    softmaxOps  (operations 179–193) the row-wise log-softmax

  The entries are those of the operation list `ValueP.ops`, in order; `ops_chunks` says so. The buffers after a
  concatenation of stretches are the buffers after the last, from those after the ones before it.
-/
import proofs.«138793_j80530636800127_1_alg».proof.Proof.RefRunPatched

noncomputable section

namespace Cert.ReferenceIdeal.Chunks

open Cert.ReferenceIdeal Cert.ReferenceIdeal.Gen Idealize.ShloMosaic Idealize.ShloMosaic.TcCoe Idealize.SL.Sem Idealize.ShloMosaic.StableHlo

variable {F : FTy → Type} [FloatOps F]

/-- Operations 0–42: sources, destinations, the edge norm. -/
abbrev normOps : List (HloOp τ sig (Elt F)) :=
  [ nullary main_v0 (iotaInDim S100000 32 0),
    unary main_arg1 main_v1 ((extractStridedSlice S1x3200000 ![0, 0] · slices_S2x3200000_S1x3200000_0_0) : (⟨S2x3200000, .i32⟩ : BufTy).Contents (Elt F) → (⟨S1x3200000, .i32⟩ : BufTy).Contents (Elt F)),
    reshape main_v1 main_v2 rfl shapeCasts_S1x3200000_S3200000,
    binary main_v2 main_v0 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg1 main_v4 ((extractStridedSlice S1x3200000 ![1, 0] · slices_S2x3200000_S1x3200000_1_0) : (⟨S2x3200000, .i32⟩ : BufTy).Contents (Elt F) → (⟨S1x3200000, .i32⟩ : BufTy).Contents (Elt F)),
    reshape main_v4 main_v5 rfl shapeCasts_S1x3200000_S3200000,
    binary main_v5 main_v0 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst (constant S_ .f32 0x3F800000#32),
    unary main_cst main_v7 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S3300000x1 ![0] bcast_S3300000_S3300000x1_0 : (⟨S3300000, .i32⟩ : BufTy).Contents (Elt F) → (⟨S3300000x1, .i32⟩ : BufTy).Contents (Elt F)),
    ternary main_v8 main_v9 main_v7 main_v10 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    nullary main_cst_2 (constant S_ .f32 0x2B8CBCCC#32),
    unary main_cst_2 main_v13 (broadcastInDim S100000 ![] bcast_S_S100000 : (⟨S_, .f32⟩ : BufTy).Contents (Elt F) → (⟨S100000, .f32⟩ : BufTy).Contents (Elt F)),
    binary main_v10 main_v13 main_v14 (maximumf : (⟨S100000, .f32⟩ : BufTy).Contents (Elt F) → (⟨S100000, .f32⟩ : BufTy).Contents (Elt F) → (⟨S100000, .f32⟩ : BufTy).Contents (Elt F)),
    unary main_v14 main_v15 (Host.rsqrt : (⟨S100000, .f32⟩ : BufTy).Contents (Elt F) → (⟨S100000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v15) (TRef.of (T := ⟨S100000, .f32⟩) main_call0_v1) (TRef.of (T := ⟨S100000, .f32⟩) main_v16) select,
    nullary main_c (constantI S_ 32 0#32),
    unary main_c main_v17 (broadcastInDim S3300000 ![] bcast_S_S3300000 : (⟨S_, .i32⟩ : BufTy).Contents (Elt F) → (⟨S3300000, .i32⟩ : BufTy).Contents (Elt F)),
    binary main_v3 main_v17 main_v18 (cmpi .slt : (⟨S3300000, .i32⟩ : BufTy).Contents (Elt F) → (⟨S3300000, .i32⟩ : BufTy).Contents (Elt F) → (⟨S3300000, .i1⟩ : BufTy).Contents (Elt F)),
    nullary main_c_4 (constantI S_ 32 100000#32),
    unary main_c_4 main_v19 (broadcastInDim S3300000 ![] bcast_S_S3300000 : (⟨S_, .i32⟩ : BufTy).Contents (Elt F) → (⟨S3300000, .i32⟩ : BufTy).Contents (Elt F)),
    binary main_v3 main_v19 main_v20 (addi : (⟨S3300000, .i32⟩ : BufTy).Contents (Elt F) → (⟨S3300000, .i32⟩ : BufTy).Contents (Elt F) → (⟨S3300000, .i32⟩ : BufTy).Contents (Elt F)),
    ternary main_v18 main_v20 main_v3 main_v21 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v21 main_v22 (broadcastInDim S3300000x1 ![0] bcast_S3300000_S3300000x1_0 : (⟨S3300000, .i32⟩ : BufTy).Contents (Elt F) → (⟨S3300000x1, .i32⟩ : BufTy).Contents (Elt F)),
    binary main_v16 main_v22 main_v23 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_5 (constantI S_ 32 0#32),
    unary main_c_5 main_v24 (broadcastInDim S3300000 ![] bcast_S_S3300000 : (⟨S_, .i32⟩ : BufTy).Contents (Elt F) → (⟨S3300000, .i32⟩ : BufTy).Contents (Elt F)),
    binary main_v6 main_v24 main_v25 (cmpi .slt : (⟨S3300000, .i32⟩ : BufTy).Contents (Elt F) → (⟨S3300000, .i32⟩ : BufTy).Contents (Elt F) → (⟨S3300000, .i1⟩ : BufTy).Contents (Elt F)),
    nullary main_c_6 (constantI S_ 32 100000#32),
    unary main_c_6 main_v26 (broadcastInDim S3300000 ![] bcast_S_S3300000 : (⟨S_, .i32⟩ : BufTy).Contents (Elt F) → (⟨S3300000, .i32⟩ : BufTy).Contents (Elt F)),
    binary main_v6 main_v26 main_v27 (addi : (⟨S3300000, .i32⟩ : BufTy).Contents (Elt F) → (⟨S3300000, .i32⟩ : BufTy).Contents (Elt F) → (⟨S3300000, .i32⟩ : BufTy).Contents (Elt F)),
    ternary main_v25 main_v27 main_v6 main_v28 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v28 main_v29 (broadcastInDim S3300000x1 ![0] bcast_S3300000_S3300000x1_0 : (⟨S3300000, .i32⟩ : BufTy).Contents (Elt F) → (⟨S3300000x1, .i32⟩ : BufTy).Contents (Elt F)),
    binary main_v16 main_v29 main_v30 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v23 main_v30 main_v31 (mulf : (⟨S3300000, .f32⟩ : BufTy).Contents (Elt F) → (⟨S3300000, .f32⟩ : BufTy).Contents (Elt F) → (⟨S3300000, .f32⟩ : BufTy).Contents (Elt F)) ]

/-- Operations 43–137: the hidden features. -/
abbrev hiddenOps : List (HloOp τ sig (Elt F)) :=
  [ binary main_arg0 main_arg2 main_v32 ((fun l r => Host.dotGeneral dot_S100000x512_S512x32_S100000x32_1_0_0_1_n_n none l r) : (⟨S100000x512, .f32⟩ : BufTy).Contents (Elt F) → (⟨S512x32, .f32⟩ : BufTy).Contents (Elt F) → (⟨S100000x32, .f32⟩ : BufTy).Contents (Elt F)),
    nullary main_c_7 (constantI S_ 32 0#32),
    unary main_c_7 main_v33 (broadcastInDim S3300000 ![] bcast_S_S3300000 : (⟨S_, .i32⟩ : BufTy).Contents (Elt F) → (⟨S3300000, .i32⟩ : BufTy).Contents (Elt F)),
    binary main_v3 main_v33 main_v34 (cmpi .slt : (⟨S3300000, .i32⟩ : BufTy).Contents (Elt F) → (⟨S3300000, .i32⟩ : BufTy).Contents (Elt F) → (⟨S3300000, .i1⟩ : BufTy).Contents (Elt F)),
    nullary main_c_8 (constantI S_ 32 100000#32),
    unary main_c_8 main_v35 (broadcastInDim S3300000 ![] bcast_S_S3300000 : (⟨S_, .i32⟩ : BufTy).Contents (Elt F) → (⟨S3300000, .i32⟩ : BufTy).Contents (Elt F)),
    binary main_v3 main_v35 main_v36 (addi : (⟨S3300000, .i32⟩ : BufTy).Contents (Elt F) → (⟨S3300000, .i32⟩ : BufTy).Contents (Elt F) → (⟨S3300000, .i32⟩ : BufTy).Contents (Elt F)),
    ternary main_v34 main_v36 main_v3 main_v37 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v37 main_v38 (broadcastInDim S3300000x1 ![0] bcast_S3300000_S3300000x1_0 : (⟨S3300000, .i32⟩ : BufTy).Contents (Elt F) → (⟨S3300000x1, .i32⟩ : BufTy).Contents (Elt F)),
    binary main_v32 main_v38 main_v39 ((fun x i => Host.gather gather_S100000x32_S3300000x1_S3300000x32_1_0_n_n_0_1_132 x i) : (⟨S100000x32, .f32⟩ : BufTy).Contents (Elt F) → (⟨S3300000x1, .i32⟩ : BufTy).Contents (Elt F) → (⟨S3300000x32, .f32⟩ : BufTy).Contents (Elt F)),
    unary main_v31 main_v40 (broadcastInDim S3300000x1 ![0] bcast_S3300000_S3300000x1_0 : (⟨S3300000, .f32⟩ : BufTy).Contents (Elt F) → (⟨S3300000x1, .f32⟩ : BufTy).Contents (Elt F)),
    unary main_v40 main_v41 (broadcastInDim S3300000x32 ![0, 1] bcast_S3300000x1_S3300000x32_0_1 : (⟨S3300000x1, .f32⟩ : BufTy).Contents (Elt F) → (⟨S3300000x32, .f32⟩ : BufTy).Contents (Elt F)),
    binary main_v39 main_v41 main_v42 (mulf : (⟨S3300000x32, .f32⟩ : BufTy).Contents (Elt F) → (⟨S3300000x32, .f32⟩ : BufTy).Contents (Elt F) → (⟨S3300000x32, .f32⟩ : BufTy).Contents (Elt F)),
    nullary main_cst_9 (constant S_ .f32 0x00000000#32),
    unary main_cst_9 main_v43 (broadcastInDim S100000x32 ![] bcast_S_S100000x32 : (⟨S_, .f32⟩ : BufTy).Contents (Elt F) → (⟨S100000x32, .f32⟩ : BufTy).Contents (Elt F)),
    unary main_v6 main_v44 (broadcastInDim S3300000x1 ![0] bcast_S3300000_S3300000x1_0 : (⟨S3300000, .i32⟩ : BufTy).Contents (Elt F) → (⟨S3300000x1, .i32⟩ : BufTy).Contents (Elt F)),
    ternary main_v43 main_v44 main_v42 main_v45 ((fun x i u => Host.scatterAdd scatter_S100000x32_S3300000x1_S3300000x32_1_0_0_1 x i u) : (⟨S100000x32, .f32⟩ : BufTy).Contents (Elt F) → (⟨S3300000x1, .i32⟩ : BufTy).Contents (Elt F) → (⟨S3300000x32, .f32⟩ : BufTy).Contents (Elt F) → (⟨S100000x32, .f32⟩ : BufTy).Contents (Elt F)),
    unary main_arg3 main_v46 (broadcastInDim S1x32 ![1] bcast_S32_S1x32_1 : (⟨S32, .f32⟩ : BufTy).Contents (Elt F) → (⟨S1x32, .f32⟩ : BufTy).Contents (Elt F)),
    unary main_v46 main_v47 (broadcastInDim S100000x32 ![0, 1] bcast_S1x32_S100000x32_0_1 : (⟨S1x32, .f32⟩ : BufTy).Contents (Elt F) → (⟨S100000x32, .f32⟩ : BufTy).Contents (Elt F)),
    binary main_v45 main_v47 main_v48 (addf : (⟨S100000x32, .f32⟩ : BufTy).Contents (Elt F) → (⟨S100000x32, .f32⟩ : BufTy).Contents (Elt F) → (⟨S100000x32, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x32, .f32⟩) main_call1_v0) (broadcastInDim S100000x32 ![] bcast_S_S100000x32),
    TRef.binary (TRef.of (T := ⟨S100000x32, .f32⟩) main_v48) (TRef.of (T := ⟨S100000x32, .f32⟩) main_call1_v0) (TRef.of (T := ⟨S100000x32, .f32⟩) main_v49) maximumf,
    binary main_arg0 main_arg4 main_v50 ((fun l r => Host.dotGeneral dot_S100000x512_S512x32_S100000x32_1_0_0_1_n_n none l r) : (⟨S100000x512, .f32⟩ : BufTy).Contents (Elt F) → (⟨S512x32, .f32⟩ : BufTy).Contents (Elt F) → (⟨S100000x32, .f32⟩ : BufTy).Contents (Elt F)),
    nullary main_c_10 (constantI S_ 32 0#32),
    unary main_c_10 main_v51 (broadcastInDim S3300000 ![] bcast_S_S3300000 : (⟨S_, .i32⟩ : BufTy).Contents (Elt F) → (⟨S3300000, .i32⟩ : BufTy).Contents (Elt F)),
    binary main_v3 main_v51 main_v52 (cmpi .slt : (⟨S3300000, .i32⟩ : BufTy).Contents (Elt F) → (⟨S3300000, .i32⟩ : BufTy).Contents (Elt F) → (⟨S3300000, .i1⟩ : BufTy).Contents (Elt F)),
    nullary main_c_11 (constantI S_ 32 100000#32),
    unary main_c_11 main_v53 (broadcastInDim S3300000 ![] bcast_S_S3300000 : (⟨S_, .i32⟩ : BufTy).Contents (Elt F) → (⟨S3300000, .i32⟩ : BufTy).Contents (Elt F)),
    binary main_v3 main_v53 main_v54 (addi : (⟨S3300000, .i32⟩ : BufTy).Contents (Elt F) → (⟨S3300000, .i32⟩ : BufTy).Contents (Elt F) → (⟨S3300000, .i32⟩ : BufTy).Contents (Elt F)),
    ternary main_v52 main_v54 main_v3 main_v55 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v55 main_v56 (broadcastInDim S3300000x1 ![0] bcast_S3300000_S3300000x1_0 : (⟨S3300000, .i32⟩ : BufTy).Contents (Elt F) → (⟨S3300000x1, .i32⟩ : BufTy).Contents (Elt F)),
    binary main_v50 main_v56 main_v57 ((fun x i => Host.gather gather_S100000x32_S3300000x1_S3300000x32_1_0_n_n_0_1_132 x i) : (⟨S100000x32, .f32⟩ : BufTy).Contents (Elt F) → (⟨S3300000x1, .i32⟩ : BufTy).Contents (Elt F) → (⟨S3300000x32, .f32⟩ : BufTy).Contents (Elt F)),
    unary main_v31 main_v58 (broadcastInDim S3300000x1 ![0] bcast_S3300000_S3300000x1_0 : (⟨S3300000, .f32⟩ : BufTy).Contents (Elt F) → (⟨S3300000x1, .f32⟩ : BufTy).Contents (Elt F)),
    unary main_v58 main_v59 (broadcastInDim S3300000x32 ![0, 1] bcast_S3300000x1_S3300000x32_0_1 : (⟨S3300000x1, .f32⟩ : BufTy).Contents (Elt F) → (⟨S3300000x32, .f32⟩ : BufTy).Contents (Elt F)),
    binary main_v57 main_v59 main_v60 (mulf : (⟨S3300000x32, .f32⟩ : BufTy).Contents (Elt F) → (⟨S3300000x32, .f32⟩ : BufTy).Contents (Elt F) → (⟨S3300000x32, .f32⟩ : BufTy).Contents (Elt F)),
    nullary main_cst_12 (constant S_ .f32 0x00000000#32),
    unary main_cst_12 main_v61 (broadcastInDim S100000x32 ![] bcast_S_S100000x32 : (⟨S_, .f32⟩ : BufTy).Contents (Elt F) → (⟨S100000x32, .f32⟩ : BufTy).Contents (Elt F)),
    unary main_v6 main_v62 (broadcastInDim S3300000x1 ![0] bcast_S3300000_S3300000x1_0 : (⟨S3300000, .i32⟩ : BufTy).Contents (Elt F) → (⟨S3300000x1, .i32⟩ : BufTy).Contents (Elt F)),
    ternary main_v61 main_v62 main_v60 main_v63 ((fun x i u => Host.scatterAdd scatter_S100000x32_S3300000x1_S3300000x32_1_0_0_1 x i u) : (⟨S100000x32, .f32⟩ : BufTy).Contents (Elt F) → (⟨S3300000x1, .i32⟩ : BufTy).Contents (Elt F) → (⟨S3300000x32, .f32⟩ : BufTy).Contents (Elt F) → (⟨S100000x32, .f32⟩ : BufTy).Contents (Elt F)),
    unary main_arg5 main_v64 (broadcastInDim S1x32 ![1] bcast_S32_S1x32_1 : (⟨S32, .f32⟩ : BufTy).Contents (Elt F) → (⟨S1x32, .f32⟩ : BufTy).Contents (Elt F)),
    unary main_v64 main_v65 (broadcastInDim S100000x32 ![0, 1] bcast_S1x32_S100000x32_0_1 : (⟨S1x32, .f32⟩ : BufTy).Contents (Elt F) → (⟨S100000x32, .f32⟩ : BufTy).Contents (Elt F)),
    binary main_v63 main_v65 main_v66 (addf : (⟨S100000x32, .f32⟩ : BufTy).Contents (Elt F) → (⟨S100000x32, .f32⟩ : BufTy).Contents (Elt F) → (⟨S100000x32, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x32, .f32⟩) main_call2_v0) (broadcastInDim S100000x32 ![] bcast_S_S100000x32),
    TRef.binary (TRef.of (T := ⟨S100000x32, .f32⟩) main_v66) (TRef.of (T := ⟨S100000x32, .f32⟩) main_call2_v0) (TRef.of (T := ⟨S100000x32, .f32⟩) main_v67) maximumf,
    binary main_v49 main_v67 main_v68 (addf : (⟨S100000x32, .f32⟩ : BufTy).Contents (Elt F) → (⟨S100000x32, .f32⟩ : BufTy).Contents (Elt F) → (⟨S100000x32, .f32⟩ : BufTy).Contents (Elt F)),
    binary main_arg0 main_arg6 main_v69 ((fun l r => Host.dotGeneral dot_S100000x512_S512x32_S100000x32_1_0_0_1_n_n none l r) : (⟨S100000x512, .f32⟩ : BufTy).Contents (Elt F) → (⟨S512x32, .f32⟩ : BufTy).Contents (Elt F) → (⟨S100000x32, .f32⟩ : BufTy).Contents (Elt F)),
    nullary main_c_13 (constantI S_ 32 0#32),
    unary main_c_13 main_v70 (broadcastInDim S3300000 ![] bcast_S_S3300000 : (⟨S_, .i32⟩ : BufTy).Contents (Elt F) → (⟨S3300000, .i32⟩ : BufTy).Contents (Elt F)),
    binary main_v3 main_v70 main_v71 (cmpi .slt : (⟨S3300000, .i32⟩ : BufTy).Contents (Elt F) → (⟨S3300000, .i32⟩ : BufTy).Contents (Elt F) → (⟨S3300000, .i1⟩ : BufTy).Contents (Elt F)),
    nullary main_c_14 (constantI S_ 32 100000#32),
    unary main_c_14 main_v72 (broadcastInDim S3300000 ![] bcast_S_S3300000 : (⟨S_, .i32⟩ : BufTy).Contents (Elt F) → (⟨S3300000, .i32⟩ : BufTy).Contents (Elt F)),
    binary main_v3 main_v72 main_v73 (addi : (⟨S3300000, .i32⟩ : BufTy).Contents (Elt F) → (⟨S3300000, .i32⟩ : BufTy).Contents (Elt F) → (⟨S3300000, .i32⟩ : BufTy).Contents (Elt F)),
    ternary main_v71 main_v73 main_v3 main_v74 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v74 main_v75 (broadcastInDim S3300000x1 ![0] bcast_S3300000_S3300000x1_0 : (⟨S3300000, .i32⟩ : BufTy).Contents (Elt F) → (⟨S3300000x1, .i32⟩ : BufTy).Contents (Elt F)),
    binary main_v69 main_v75 main_v76 ((fun x i => Host.gather gather_S100000x32_S3300000x1_S3300000x32_1_0_n_n_0_1_132 x i) : (⟨S100000x32, .f32⟩ : BufTy).Contents (Elt F) → (⟨S3300000x1, .i32⟩ : BufTy).Contents (Elt F) → (⟨S3300000x32, .f32⟩ : BufTy).Contents (Elt F)),
    unary main_v31 main_v77 (broadcastInDim S3300000x1 ![0] bcast_S3300000_S3300000x1_0 : (⟨S3300000, .f32⟩ : BufTy).Contents (Elt F) → (⟨S3300000x1, .f32⟩ : BufTy).Contents (Elt F)),
    unary main_v77 main_v78 (broadcastInDim S3300000x32 ![0, 1] bcast_S3300000x1_S3300000x32_0_1 : (⟨S3300000x1, .f32⟩ : BufTy).Contents (Elt F) → (⟨S3300000x32, .f32⟩ : BufTy).Contents (Elt F)),
    binary main_v76 main_v78 main_v79 (mulf : (⟨S3300000x32, .f32⟩ : BufTy).Contents (Elt F) → (⟨S3300000x32, .f32⟩ : BufTy).Contents (Elt F) → (⟨S3300000x32, .f32⟩ : BufTy).Contents (Elt F)),
    nullary main_cst_15 (constant S_ .f32 0x00000000#32),
    unary main_cst_15 main_v80 (broadcastInDim S100000x32 ![] bcast_S_S100000x32 : (⟨S_, .f32⟩ : BufTy).Contents (Elt F) → (⟨S100000x32, .f32⟩ : BufTy).Contents (Elt F)),
    unary main_v6 main_v81 (broadcastInDim S3300000x1 ![0] bcast_S3300000_S3300000x1_0 : (⟨S3300000, .i32⟩ : BufTy).Contents (Elt F) → (⟨S3300000x1, .i32⟩ : BufTy).Contents (Elt F)),
    ternary main_v80 main_v81 main_v79 main_v82 ((fun x i u => Host.scatterAdd scatter_S100000x32_S3300000x1_S3300000x32_1_0_0_1 x i u) : (⟨S100000x32, .f32⟩ : BufTy).Contents (Elt F) → (⟨S3300000x1, .i32⟩ : BufTy).Contents (Elt F) → (⟨S3300000x32, .f32⟩ : BufTy).Contents (Elt F) → (⟨S100000x32, .f32⟩ : BufTy).Contents (Elt F)),
    unary main_arg7 main_v83 (broadcastInDim S1x32 ![1] bcast_S32_S1x32_1 : (⟨S32, .f32⟩ : BufTy).Contents (Elt F) → (⟨S1x32, .f32⟩ : BufTy).Contents (Elt F)),
    unary main_v83 main_v84 (broadcastInDim S100000x32 ![0, 1] bcast_S1x32_S100000x32_0_1 : (⟨S1x32, .f32⟩ : BufTy).Contents (Elt F) → (⟨S100000x32, .f32⟩ : BufTy).Contents (Elt F)),
    binary main_v82 main_v84 main_v85 (addf : (⟨S100000x32, .f32⟩ : BufTy).Contents (Elt F) → (⟨S100000x32, .f32⟩ : BufTy).Contents (Elt F) → (⟨S100000x32, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x32, .f32⟩) main_call3_v0) (broadcastInDim S100000x32 ![] bcast_S_S100000x32),
    TRef.binary (TRef.of (T := ⟨S100000x32, .f32⟩) main_v85) (TRef.of (T := ⟨S100000x32, .f32⟩) main_call3_v0) (TRef.of (T := ⟨S100000x32, .f32⟩) main_v86) maximumf,
    binary main_arg0 main_arg8 main_v87 ((fun l r => Host.dotGeneral dot_S100000x512_S512x32_S100000x32_1_0_0_1_n_n none l r) : (⟨S100000x512, .f32⟩ : BufTy).Contents (Elt F) → (⟨S512x32, .f32⟩ : BufTy).Contents (Elt F) → (⟨S100000x32, .f32⟩ : BufTy).Contents (Elt F)),
    nullary main_c_16 (constantI S_ 32 0#32),
    unary main_c_16 main_v88 (broadcastInDim S3300000 ![] bcast_S_S3300000 : (⟨S_, .i32⟩ : BufTy).Contents (Elt F) → (⟨S3300000, .i32⟩ : BufTy).Contents (Elt F)),
    binary main_v3 main_v88 main_v89 (cmpi .slt : (⟨S3300000, .i32⟩ : BufTy).Contents (Elt F) → (⟨S3300000, .i32⟩ : BufTy).Contents (Elt F) → (⟨S3300000, .i1⟩ : BufTy).Contents (Elt F)),
    nullary main_c_17 (constantI S_ 32 100000#32),
    unary main_c_17 main_v90 (broadcastInDim S3300000 ![] bcast_S_S3300000 : (⟨S_, .i32⟩ : BufTy).Contents (Elt F) → (⟨S3300000, .i32⟩ : BufTy).Contents (Elt F)),
    binary main_v3 main_v90 main_v91 (addi : (⟨S3300000, .i32⟩ : BufTy).Contents (Elt F) → (⟨S3300000, .i32⟩ : BufTy).Contents (Elt F) → (⟨S3300000, .i32⟩ : BufTy).Contents (Elt F)),
    ternary main_v89 main_v91 main_v3 main_v92 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v92 main_v93 (broadcastInDim S3300000x1 ![0] bcast_S3300000_S3300000x1_0 : (⟨S3300000, .i32⟩ : BufTy).Contents (Elt F) → (⟨S3300000x1, .i32⟩ : BufTy).Contents (Elt F)),
    binary main_v87 main_v93 main_v94 ((fun x i => Host.gather gather_S100000x32_S3300000x1_S3300000x32_1_0_n_n_0_1_132 x i) : (⟨S100000x32, .f32⟩ : BufTy).Contents (Elt F) → (⟨S3300000x1, .i32⟩ : BufTy).Contents (Elt F) → (⟨S3300000x32, .f32⟩ : BufTy).Contents (Elt F)),
    unary main_v31 main_v95 (broadcastInDim S3300000x1 ![0] bcast_S3300000_S3300000x1_0 : (⟨S3300000, .f32⟩ : BufTy).Contents (Elt F) → (⟨S3300000x1, .f32⟩ : BufTy).Contents (Elt F)),
    unary main_v95 main_v96 (broadcastInDim S3300000x32 ![0, 1] bcast_S3300000x1_S3300000x32_0_1 : (⟨S3300000x1, .f32⟩ : BufTy).Contents (Elt F) → (⟨S3300000x32, .f32⟩ : BufTy).Contents (Elt F)),
    binary main_v94 main_v96 main_v97 (mulf : (⟨S3300000x32, .f32⟩ : BufTy).Contents (Elt F) → (⟨S3300000x32, .f32⟩ : BufTy).Contents (Elt F) → (⟨S3300000x32, .f32⟩ : BufTy).Contents (Elt F)),
    nullary main_cst_18 (constant S_ .f32 0x00000000#32),
    unary main_cst_18 main_v98 (broadcastInDim S100000x32 ![] bcast_S_S100000x32 : (⟨S_, .f32⟩ : BufTy).Contents (Elt F) → (⟨S100000x32, .f32⟩ : BufTy).Contents (Elt F)),
    unary main_v6 main_v99 (broadcastInDim S3300000x1 ![0] bcast_S3300000_S3300000x1_0 : (⟨S3300000, .i32⟩ : BufTy).Contents (Elt F) → (⟨S3300000x1, .i32⟩ : BufTy).Contents (Elt F)),
    ternary main_v98 main_v99 main_v97 main_v100 ((fun x i u => Host.scatterAdd scatter_S100000x32_S3300000x1_S3300000x32_1_0_0_1 x i u) : (⟨S100000x32, .f32⟩ : BufTy).Contents (Elt F) → (⟨S3300000x1, .i32⟩ : BufTy).Contents (Elt F) → (⟨S3300000x32, .f32⟩ : BufTy).Contents (Elt F) → (⟨S100000x32, .f32⟩ : BufTy).Contents (Elt F)),
    unary main_arg9 main_v101 (broadcastInDim S1x32 ![1] bcast_S32_S1x32_1 : (⟨S32, .f32⟩ : BufTy).Contents (Elt F) → (⟨S1x32, .f32⟩ : BufTy).Contents (Elt F)),
    unary main_v101 main_v102 (broadcastInDim S100000x32 ![0, 1] bcast_S1x32_S100000x32_0_1 : (⟨S1x32, .f32⟩ : BufTy).Contents (Elt F) → (⟨S100000x32, .f32⟩ : BufTy).Contents (Elt F)),
    binary main_v100 main_v102 main_v103 (addf : (⟨S100000x32, .f32⟩ : BufTy).Contents (Elt F) → (⟨S100000x32, .f32⟩ : BufTy).Contents (Elt F) → (⟨S100000x32, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S100000x32, .f32⟩) main_call4_v0) (broadcastInDim S100000x32 ![] bcast_S_S100000x32),
    TRef.binary (TRef.of (T := ⟨S100000x32, .f32⟩) main_v103) (TRef.of (T := ⟨S100000x32, .f32⟩) main_call4_v0) (TRef.of (T := ⟨S100000x32, .f32⟩) main_v104) maximumf,
    binary main_v86 main_v104 main_v105 (addf : (⟨S100000x32, .f32⟩ : BufTy).Contents (Elt F) → (⟨S100000x32, .f32⟩ : BufTy).Contents (Elt F) → (⟨S100000x32, .f32⟩ : BufTy).Contents (Elt F)),
    binary main_v68 main_v105 main_v106 (addf : (⟨S100000x32, .f32⟩ : BufTy).Contents (Elt F) → (⟨S100000x32, .f32⟩ : BufTy).Contents (Elt F) → (⟨S100000x32, .f32⟩ : BufTy).Contents (Elt F)) ]

/-- Operations 138–178: the two class-layer convolutions and their sum. -/
abbrev classOps : List (HloOp τ sig (Elt F)) :=
  [ binary main_v106 main_arg10 main_v107 ((fun l r => Host.dotGeneral dot_S100000x32_S32x40_S100000x40_1_0_0_1_n_n none l r) : (⟨S100000x32, .f32⟩ : BufTy).Contents (Elt F) → (⟨S32x40, .f32⟩ : BufTy).Contents (Elt F) → (⟨S100000x40, .f32⟩ : BufTy).Contents (Elt F)),
    nullary main_c_19 (constantI S_ 32 0#32),
    unary main_c_19 main_v108 (broadcastInDim S3300000 ![] bcast_S_S3300000 : (⟨S_, .i32⟩ : BufTy).Contents (Elt F) → (⟨S3300000, .i32⟩ : BufTy).Contents (Elt F)),
    binary main_v3 main_v108 main_v109 (cmpi .slt : (⟨S3300000, .i32⟩ : BufTy).Contents (Elt F) → (⟨S3300000, .i32⟩ : BufTy).Contents (Elt F) → (⟨S3300000, .i1⟩ : BufTy).Contents (Elt F)),
    nullary main_c_20 (constantI S_ 32 100000#32),
    unary main_c_20 main_v110 (broadcastInDim S3300000 ![] bcast_S_S3300000 : (⟨S_, .i32⟩ : BufTy).Contents (Elt F) → (⟨S3300000, .i32⟩ : BufTy).Contents (Elt F)),
    binary main_v3 main_v110 main_v111 (addi : (⟨S3300000, .i32⟩ : BufTy).Contents (Elt F) → (⟨S3300000, .i32⟩ : BufTy).Contents (Elt F) → (⟨S3300000, .i32⟩ : BufTy).Contents (Elt F)),
    ternary main_v109 main_v111 main_v3 main_v112 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v112 main_v113 (broadcastInDim S3300000x1 ![0] bcast_S3300000_S3300000x1_0 : (⟨S3300000, .i32⟩ : BufTy).Contents (Elt F) → (⟨S3300000x1, .i32⟩ : BufTy).Contents (Elt F)),
    binary main_v107 main_v113 main_v114 ((fun x i => Host.gather gather_S100000x40_S3300000x1_S3300000x40_1_0_n_n_0_1_140 x i) : (⟨S100000x40, .f32⟩ : BufTy).Contents (Elt F) → (⟨S3300000x1, .i32⟩ : BufTy).Contents (Elt F) → (⟨S3300000x40, .f32⟩ : BufTy).Contents (Elt F)),
    unary main_v31 main_v115 (broadcastInDim S3300000x1 ![0] bcast_S3300000_S3300000x1_0 : (⟨S3300000, .f32⟩ : BufTy).Contents (Elt F) → (⟨S3300000x1, .f32⟩ : BufTy).Contents (Elt F)),
    unary main_v115 main_v116 (broadcastInDim S3300000x40 ![0, 1] bcast_S3300000x1_S3300000x40_0_1 : (⟨S3300000x1, .f32⟩ : BufTy).Contents (Elt F) → (⟨S3300000x40, .f32⟩ : BufTy).Contents (Elt F)),
    binary main_v114 main_v116 main_v117 (mulf : (⟨S3300000x40, .f32⟩ : BufTy).Contents (Elt F) → (⟨S3300000x40, .f32⟩ : BufTy).Contents (Elt F) → (⟨S3300000x40, .f32⟩ : BufTy).Contents (Elt F)),
    nullary main_cst_21 (constant S_ .f32 0x00000000#32),
    unary main_cst_21 main_v118 (broadcastInDim S100000x40 ![] bcast_S_S100000x40 : (⟨S_, .f32⟩ : BufTy).Contents (Elt F) → (⟨S100000x40, .f32⟩ : BufTy).Contents (Elt F)),
    unary main_v6 main_v119 (broadcastInDim S3300000x1 ![0] bcast_S3300000_S3300000x1_0 : (⟨S3300000, .i32⟩ : BufTy).Contents (Elt F) → (⟨S3300000x1, .i32⟩ : BufTy).Contents (Elt F)),
    ternary main_v118 main_v119 main_v117 main_v120 ((fun x i u => Host.scatterAdd scatter_S100000x40_S3300000x1_S3300000x40_1_0_0_1 x i u) : (⟨S100000x40, .f32⟩ : BufTy).Contents (Elt F) → (⟨S3300000x1, .i32⟩ : BufTy).Contents (Elt F) → (⟨S3300000x40, .f32⟩ : BufTy).Contents (Elt F) → (⟨S100000x40, .f32⟩ : BufTy).Contents (Elt F)),
    unary main_arg11 main_v121 (broadcastInDim S1x40 ![1] bcast_S40_S1x40_1 : (⟨S40, .f32⟩ : BufTy).Contents (Elt F) → (⟨S1x40, .f32⟩ : BufTy).Contents (Elt F)),
    unary main_v121 main_v122 (broadcastInDim S100000x40 ![0, 1] bcast_S1x40_S100000x40_0_1 : (⟨S1x40, .f32⟩ : BufTy).Contents (Elt F) → (⟨S100000x40, .f32⟩ : BufTy).Contents (Elt F)),
    binary main_v120 main_v122 main_v123 (addf : (⟨S100000x40, .f32⟩ : BufTy).Contents (Elt F) → (⟨S100000x40, .f32⟩ : BufTy).Contents (Elt F) → (⟨S100000x40, .f32⟩ : BufTy).Contents (Elt F)),
    binary main_v106 main_arg12 main_v124 ((fun l r => Host.dotGeneral dot_S100000x32_S32x40_S100000x40_1_0_0_1_n_n none l r) : (⟨S100000x32, .f32⟩ : BufTy).Contents (Elt F) → (⟨S32x40, .f32⟩ : BufTy).Contents (Elt F) → (⟨S100000x40, .f32⟩ : BufTy).Contents (Elt F)),
    nullary main_c_22 (constantI S_ 32 0#32),
    unary main_c_22 main_v125 (broadcastInDim S3300000 ![] bcast_S_S3300000 : (⟨S_, .i32⟩ : BufTy).Contents (Elt F) → (⟨S3300000, .i32⟩ : BufTy).Contents (Elt F)),
    binary main_v3 main_v125 main_v126 (cmpi .slt : (⟨S3300000, .i32⟩ : BufTy).Contents (Elt F) → (⟨S3300000, .i32⟩ : BufTy).Contents (Elt F) → (⟨S3300000, .i1⟩ : BufTy).Contents (Elt F)),
    nullary main_c_23 (constantI S_ 32 100000#32),
    unary main_c_23 main_v127 (broadcastInDim S3300000 ![] bcast_S_S3300000 : (⟨S_, .i32⟩ : BufTy).Contents (Elt F) → (⟨S3300000, .i32⟩ : BufTy).Contents (Elt F)),
    binary main_v3 main_v127 main_v128 (addi : (⟨S3300000, .i32⟩ : BufTy).Contents (Elt F) → (⟨S3300000, .i32⟩ : BufTy).Contents (Elt F) → (⟨S3300000, .i32⟩ : BufTy).Contents (Elt F)),
    ternary main_v126 main_v128 main_v3 main_v129 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v129 main_v130 (broadcastInDim S3300000x1 ![0] bcast_S3300000_S3300000x1_0 : (⟨S3300000, .i32⟩ : BufTy).Contents (Elt F) → (⟨S3300000x1, .i32⟩ : BufTy).Contents (Elt F)),
    binary main_v124 main_v130 main_v131 ((fun x i => Host.gather gather_S100000x40_S3300000x1_S3300000x40_1_0_n_n_0_1_140 x i) : (⟨S100000x40, .f32⟩ : BufTy).Contents (Elt F) → (⟨S3300000x1, .i32⟩ : BufTy).Contents (Elt F) → (⟨S3300000x40, .f32⟩ : BufTy).Contents (Elt F)),
    unary main_v31 main_v132 (broadcastInDim S3300000x1 ![0] bcast_S3300000_S3300000x1_0 : (⟨S3300000, .f32⟩ : BufTy).Contents (Elt F) → (⟨S3300000x1, .f32⟩ : BufTy).Contents (Elt F)),
    unary main_v132 main_v133 (broadcastInDim S3300000x40 ![0, 1] bcast_S3300000x1_S3300000x40_0_1 : (⟨S3300000x1, .f32⟩ : BufTy).Contents (Elt F) → (⟨S3300000x40, .f32⟩ : BufTy).Contents (Elt F)),
    binary main_v131 main_v133 main_v134 (mulf : (⟨S3300000x40, .f32⟩ : BufTy).Contents (Elt F) → (⟨S3300000x40, .f32⟩ : BufTy).Contents (Elt F) → (⟨S3300000x40, .f32⟩ : BufTy).Contents (Elt F)),
    nullary main_cst_24 (constant S_ .f32 0x00000000#32),
    unary main_cst_24 main_v135 (broadcastInDim S100000x40 ![] bcast_S_S100000x40 : (⟨S_, .f32⟩ : BufTy).Contents (Elt F) → (⟨S100000x40, .f32⟩ : BufTy).Contents (Elt F)),
    unary main_v6 main_v136 (broadcastInDim S3300000x1 ![0] bcast_S3300000_S3300000x1_0 : (⟨S3300000, .i32⟩ : BufTy).Contents (Elt F) → (⟨S3300000x1, .i32⟩ : BufTy).Contents (Elt F)),
    ternary main_v135 main_v136 main_v134 main_v137 ((fun x i u => Host.scatterAdd scatter_S100000x40_S3300000x1_S3300000x40_1_0_0_1 x i u) : (⟨S100000x40, .f32⟩ : BufTy).Contents (Elt F) → (⟨S3300000x1, .i32⟩ : BufTy).Contents (Elt F) → (⟨S3300000x40, .f32⟩ : BufTy).Contents (Elt F) → (⟨S100000x40, .f32⟩ : BufTy).Contents (Elt F)),
    unary main_arg13 main_v138 (broadcastInDim S1x40 ![1] bcast_S40_S1x40_1 : (⟨S40, .f32⟩ : BufTy).Contents (Elt F) → (⟨S1x40, .f32⟩ : BufTy).Contents (Elt F)),
    unary main_v138 main_v139 (broadcastInDim S100000x40 ![0, 1] bcast_S1x40_S100000x40_0_1 : (⟨S1x40, .f32⟩ : BufTy).Contents (Elt F) → (⟨S100000x40, .f32⟩ : BufTy).Contents (Elt F)),
    binary main_v137 main_v139 main_v140 (addf : (⟨S100000x40, .f32⟩ : BufTy).Contents (Elt F) → (⟨S100000x40, .f32⟩ : BufTy).Contents (Elt F) → (⟨S100000x40, .f32⟩ : BufTy).Contents (Elt F)),
    binary main_v123 main_v140 main_v141 (addf : (⟨S100000x40, .f32⟩ : BufTy).Contents (Elt F) → (⟨S100000x40, .f32⟩ : BufTy).Contents (Elt F) → (⟨S100000x40, .f32⟩ : BufTy).Contents (Elt F)) ]

/-- Operations 179–193: the row-wise log-softmax. -/
abbrev softmaxOps : List (HloOp τ sig (Elt F)) :=
  [ TRef.nullary (TRef.of (T := ⟨S_, .f32⟩) main_call5_cst) (constant S_ .f32 0xFF800000#32),
    TRef.binary (TRef.of (T := ⟨S100000x40, .f32⟩) main_v141) (TRef.of (T := ⟨S_, .f32⟩) main_call5_cst) (TRef.of (T := ⟨S100000, .f32⟩) main_call5_v0) (fun x v => Host.reduce FloatOps.maximumf x v reducesTo_S100000x40_S100000_d1 h_S_),
    TRef.nullary (TRef.of (T := ⟨S_, .f32⟩) main_call5_cst_0) (constant S_ .f32 0xFF800000#32),
    TRef.unary (TRef.of (T := ⟨S_, .f32⟩) main_call5_cst_0) (TRef.of (T := ⟨S100000, .f32⟩) main_call5_v1) (broadcastInDim S100000 ![] bcast_S_S100000),
    TRef.binary (TRef.of (T := ⟨S100000, .f32⟩) main_call5_v1) (TRef.of (T := ⟨S100000, .f32⟩) main_call5_v0) (TRef.of (T := ⟨S100000, .f32⟩) main_call5_v2) maximumf,
    TRef.unary (TRef.of (T := ⟨S100000, .f32⟩) main_call5_v2) (TRef.of (T := ⟨S100000x1, .f32⟩) main_call5_v3) (broadcastInDim S100000x1 ![0] bcast_S100000_S100000x1_0),
    TRef.unary (TRef.of (T := ⟨S100000x1, .f32⟩) main_call5_v3) (TRef.of (T := ⟨S100000x40, .f32⟩) main_call5_v4) (broadcastInDim S100000x40 ![0, 1] bcast_S100000x1_S100000x40_0_1),
    TRef.binary (TRef.of (T := ⟨S100000x40, .f32⟩) main_v141) (TRef.of (T := ⟨S100000x40, .f32⟩) main_call5_v4) (TRef.of (T := ⟨S100000x40, .f32⟩) main_call5_v5) subf,
    TRef.unary (TRef.of (T := ⟨S100000x40, .f32⟩) main_call5_v5) (TRef.of (T := ⟨S100000x40, .f32⟩) main_call5_v6) Host.exp,
    TRef.nullary (TRef.of (T := ⟨S_, .f32⟩) main_call5_cst_1) (constant S_ .f32 0x00000000#32),
    TRef.binary (TRef.of (T := ⟨S100000x40, .f32⟩) main_call5_v6) (TRef.of (T := ⟨S_, .f32⟩) main_call5_cst_1) (TRef.of (T := ⟨S100000, .f32⟩) main_call5_v7) (fun x v => Host.reduceAdd x v reducesTo_S100000x40_S100000_d1 h_S_),
    TRef.unary (TRef.of (T := ⟨S100000, .f32⟩) main_call5_v7) (TRef.of (T := ⟨S100000x1, .f32⟩) main_call5_v8) (broadcastInDim S100000x1 ![0] bcast_S100000_S100000x1_0),
    TRef.unary (TRef.of (T := ⟨S100000x1, .f32⟩) main_call5_v8) (TRef.of (T := ⟨S100000x1, .f32⟩) main_call5_v9) Host.log,
    TRef.unary (TRef.of (T := ⟨S100000x1, .f32⟩) main_call5_v9) (TRef.of (T := ⟨S100000x40, .f32⟩) main_call5_v10) (broadcastInDim S100000x40 ![0, 1] bcast_S100000x1_S100000x40_0_1),
    TRef.binary (TRef.of (T := ⟨S100000x40, .f32⟩) main_call5_v5) (TRef.of (T := ⟨S100000x40, .f32⟩) main_call5_v10) (TRef.of (T := ⟨S100000x40, .f32⟩) main_v142) subf ]

set_option maxRecDepth 8192 in
/-- The four stretches, in order, are the whole list. -/
theorem ops_chunks : (Cert.ReferenceIdeal.ValueP.ops : List (HloOp τ sig (Elt F))) = normOps ++ (hiddenOps ++ (classOps ++ softmaxOps)) := rfl

/-- The buffers after two stretches in a row. -/
theorem after_append (A B : List (HloOp τ sig (Elt F))) (V : Valuation τ sig (Elt F)) :
    after (A ++ B) V = after B (after A V) := by
  induction A generalizing V with
  | nil => rfl
  | cons a A ih => simp only [List.cons_append, after_cons, ih]

/-- The buffers after the whole list, stretch by stretch. -/
theorem after_ops (V : Valuation τ sig (Elt F)) :
    after (Cert.ReferenceIdeal.ValueP.ops : List (HloOp τ sig (Elt F))) V
      = after softmaxOps (after classOps (after hiddenOps (after normOps V))) := by
  rw [ops_chunks, after_append, after_append, after_append]

end Cert.ReferenceIdeal.Chunks

end
-- ==== Proof.RefGlue.lean ====
/-
  The reference's host operations compute the glue functions.

  The reference program is one straight line of plain array operations, cut into consecutive stretches. Each statement
  here reads one buffer after a stretch as a glue function of GlueSpec.lean applied to what the buffers held before the
  stretch: the fold of the stretch's operations, unfolded operation by operation, is that function's body. The glue
  functions are written over the kernel program's shapes and dimension records; the reference's are separate constants
  with the same definitions, so the two sides agree by unfolding. All statements are over an arbitrary valuation of the
  buffers, so they compose along the stretches.

  * The first stretch: the source and destination node lists (with one self-loop per node) and the edge norm.
  * The second stretch: the hidden features, from the node lists, the edge norm and the four first-layer products.
  * A buffer a stretch does not write keeps its contents; in particular no stretch writes an argument.

  A function the reference calls (`where`, `relu`) is inlined at typed references, which move contents to the buffer's
  own type and back; at literal buffers both moves are the identity, and they are removed before the two sides are
  compared.
-/
import proofs.«138793_j80530636800127_1_alg».proof.Proof.RefChunks
import proofs.«138793_j80530636800127_1_alg».proof.Proof.GlueSpec
import proofs.«138793_j80530636800127_1_alg».proof.Proof.Gen.KernelIdeal
import proofs.«138793_j80530636800127_1_alg».proof.Proof.LogSoftmaxVsHost
import Idealize.ShloMosaic.Lib.StableHlo.Run

set_option maxRecDepth 4096

noncomputable section

namespace Cert.RefGlue

open Cert.ReferenceIdeal Cert.ReferenceIdeal.Gen Cert.ReferenceIdeal.Chunks
open Idealize.ShloMosaic Idealize.ShloMosaic.TcCoe Idealize.ShloMosaic.StableHlo Idealize.SL.Sem

/-- Each operation's result read at its own buffer, or passed over at another: what is left inside the operands of a
    concatenation after the one-pass unfolding. -/
macro "results_rw" : tactic =>
  `(tactic| repeat (first
      | rw [nullary_result] | rw [unary_result] | rw [binary_result] | rw [ternary_result]
      | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

/-- Contents moved to a typed reference's buffer type and back are unchanged. -/
theorem ofBuf_toBuf {T : BufTy} (x : TRef sig T) (v : T.Contents (Elt Ideal)) : x.ofBuf (x.toBuf v) = v := by
  simp only [TRef.ofBuf, TRef.toBuf, cast_cast, cast_eq]

/-! ## Typed references at literal buffers carry their contents unchanged -/

theorem ofBuf_cst_3 (y : (⟨S_, .f32⟩ : BufTy).Contents (Elt Ideal)) :
    (TRef.of (T := ⟨S_, .f32⟩) main_cst_3).ofBuf (Val := Elt Ideal) y = y := rfl
theorem ofBuf_v12 (y : (⟨S100000, .i1⟩ : BufTy).Contents (Elt Ideal)) :
    (TRef.of (T := ⟨S100000, .i1⟩) main_v12).ofBuf (Val := Elt Ideal) y = y := rfl
theorem ofBuf_v15 (y : (⟨S100000, .f32⟩ : BufTy).Contents (Elt Ideal)) :
    (TRef.of (T := ⟨S100000, .f32⟩) main_v15).ofBuf (Val := Elt Ideal) y = y := rfl
theorem toBuf_v16 (y : (⟨S100000, .f32⟩ : BufTy).Contents (Elt Ideal)) :
    (TRef.of (T := ⟨S100000, .f32⟩) main_v16).toBuf (Val := Elt Ideal) y = y := rfl
theorem ofBuf_v48 (y : (⟨S100000x32, .f32⟩ : BufTy).Contents (Elt Ideal)) :
    (TRef.of (T := ⟨S100000x32, .f32⟩) main_v48).ofBuf (Val := Elt Ideal) y = y := rfl
theorem ofBuf_v66 (y : (⟨S100000x32, .f32⟩ : BufTy).Contents (Elt Ideal)) :
    (TRef.of (T := ⟨S100000x32, .f32⟩) main_v66).ofBuf (Val := Elt Ideal) y = y := rfl
theorem ofBuf_v85 (y : (⟨S100000x32, .f32⟩ : BufTy).Contents (Elt Ideal)) :
    (TRef.of (T := ⟨S100000x32, .f32⟩) main_v85).ofBuf (Val := Elt Ideal) y = y := rfl
theorem ofBuf_v103 (y : (⟨S100000x32, .f32⟩ : BufTy).Contents (Elt Ideal)) :
    (TRef.of (T := ⟨S100000x32, .f32⟩) main_v103).ofBuf (Val := Elt Ideal) y = y := rfl
theorem toBuf_v49 (y : (⟨S100000x32, .f32⟩ : BufTy).Contents (Elt Ideal)) :
    (TRef.of (T := ⟨S100000x32, .f32⟩) main_v49).toBuf (Val := Elt Ideal) y = y := rfl
theorem toBuf_v67 (y : (⟨S100000x32, .f32⟩ : BufTy).Contents (Elt Ideal)) :
    (TRef.of (T := ⟨S100000x32, .f32⟩) main_v67).toBuf (Val := Elt Ideal) y = y := rfl
theorem toBuf_v86 (y : (⟨S100000x32, .f32⟩ : BufTy).Contents (Elt Ideal)) :
    (TRef.of (T := ⟨S100000x32, .f32⟩) main_v86).toBuf (Val := Elt Ideal) y = y := rfl
theorem toBuf_v104 (y : (⟨S100000x32, .f32⟩ : BufTy).Contents (Elt Ideal)) :
    (TRef.of (T := ⟨S100000x32, .f32⟩) main_v104).toBuf (Val := Elt Ideal) y = y := rfl

/-! ## The first stretch: node lists and the edge norm -/

set_option maxHeartbeats 400000 in
/-- The source node list. -/
theorem normOps_v3 (W : Valuation τ sig (Elt Ideal)) :
    after normOps W (Proc.devRef .tc main_v3) = Cert.Glue.srcOf (W (Proc.devRef .tc main_arg1)) := by
  show after normOps W (Proc.devRef .tc main_v3) = _
  after_results_simp
  results_rw
  rfl

set_option maxHeartbeats 400000 in
/-- The destination node list. -/
theorem normOps_v6 (W : Valuation τ sig (Elt Ideal)) :
    after normOps W (Proc.devRef .tc main_v6) = Cert.Glue.dstOf (W (Proc.devRef .tc main_arg1)) := by
  show after normOps W (Proc.devRef .tc main_v6) = _
  after_results_simp
  results_rw
  rfl

set_option maxHeartbeats 1000000 in
/-- The edge norm. -/
theorem normOps_v31 (W : Valuation τ sig (Elt Ideal)) :
    after normOps W (Proc.devRef .tc main_v31) = Cert.Glue.normOf (W (Proc.devRef .tc main_arg1)) := by
  show after normOps W (Proc.devRef .tc main_v31) = _
  after_results_simp
  results_rw
  simp only [ofBuf_toBuf, ofBuf_cst_3, ofBuf_v12, ofBuf_v15, toBuf_v16, id]
  rfl

/-- The buffers the first stretch writes. -/
abbrev normW : List (Ref sig .tc) := [main_v0, main_v1, main_v2, main_v3, main_v4, main_v5, main_v6, main_cst, main_v7, main_cst_0, main_v8, main_v9, main_v10, main_cst_1, main_v11, main_v12, main_cst_2, main_v13, main_v14, main_v15, main_cst_3, main_call0_v0, main_call0_v1, main_v16, main_c, main_v17, main_v18, main_c_4, main_v19, main_v20, main_v21, main_v22, main_v23, main_c_5, main_v24, main_v25, main_c_6, main_v26, main_v27, main_v28, main_v29, main_v30, main_v31]

/-- Every operation of the stretch writes one buffer of that list. -/
theorem norm_writes : (normOps : List (HloOp τ sig (Elt Ideal))).Forall fun op => op.writes ⊆ (normW.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals
    simp only [nullary_writes, unary_writes, binary_writes, ternary_writes, reshape_writes, Finset.singleton_subset_iff, List.mem_toFinset]
    exact List.mem_map_of_mem (by decide)

/-- A buffer the first stretch does not write keeps its contents. -/
theorem norm_frame (W : Valuation τ sig (Elt Ideal)) {r : Ref sig .tc} (h : r ∉ normW) :
    after normOps W (Proc.devRef .tc r) = W (Proc.devRef .tc r) :=
  after_of_writes_sub normOps W norm_writes h

/-! No operation of the first stretch writes an argument. -/
theorem normOps_arg0 (W : Valuation τ sig (Elt Ideal)) : after normOps W (Proc.devRef .tc main_arg0) = W (Proc.devRef .tc main_arg0) := norm_frame W (by decide)
theorem normOps_arg1 (W : Valuation τ sig (Elt Ideal)) : after normOps W (Proc.devRef .tc main_arg1) = W (Proc.devRef .tc main_arg1) := norm_frame W (by decide)
theorem normOps_arg2 (W : Valuation τ sig (Elt Ideal)) : after normOps W (Proc.devRef .tc main_arg2) = W (Proc.devRef .tc main_arg2) := norm_frame W (by decide)
theorem normOps_arg3 (W : Valuation τ sig (Elt Ideal)) : after normOps W (Proc.devRef .tc main_arg3) = W (Proc.devRef .tc main_arg3) := norm_frame W (by decide)
theorem normOps_arg4 (W : Valuation τ sig (Elt Ideal)) : after normOps W (Proc.devRef .tc main_arg4) = W (Proc.devRef .tc main_arg4) := norm_frame W (by decide)
theorem normOps_arg5 (W : Valuation τ sig (Elt Ideal)) : after normOps W (Proc.devRef .tc main_arg5) = W (Proc.devRef .tc main_arg5) := norm_frame W (by decide)
theorem normOps_arg6 (W : Valuation τ sig (Elt Ideal)) : after normOps W (Proc.devRef .tc main_arg6) = W (Proc.devRef .tc main_arg6) := norm_frame W (by decide)
theorem normOps_arg7 (W : Valuation τ sig (Elt Ideal)) : after normOps W (Proc.devRef .tc main_arg7) = W (Proc.devRef .tc main_arg7) := norm_frame W (by decide)
theorem normOps_arg8 (W : Valuation τ sig (Elt Ideal)) : after normOps W (Proc.devRef .tc main_arg8) = W (Proc.devRef .tc main_arg8) := norm_frame W (by decide)
theorem normOps_arg9 (W : Valuation τ sig (Elt Ideal)) : after normOps W (Proc.devRef .tc main_arg9) = W (Proc.devRef .tc main_arg9) := norm_frame W (by decide)
theorem normOps_arg10 (W : Valuation τ sig (Elt Ideal)) : after normOps W (Proc.devRef .tc main_arg10) = W (Proc.devRef .tc main_arg10) := norm_frame W (by decide)
theorem normOps_arg11 (W : Valuation τ sig (Elt Ideal)) : after normOps W (Proc.devRef .tc main_arg11) = W (Proc.devRef .tc main_arg11) := norm_frame W (by decide)
theorem normOps_arg12 (W : Valuation τ sig (Elt Ideal)) : after normOps W (Proc.devRef .tc main_arg12) = W (Proc.devRef .tc main_arg12) := norm_frame W (by decide)
theorem normOps_arg13 (W : Valuation τ sig (Elt Ideal)) : after normOps W (Proc.devRef .tc main_arg13) = W (Proc.devRef .tc main_arg13) := norm_frame W (by decide)

/-! ## The second stretch: the hidden features -/

set_option maxHeartbeats 4000000 in
/-- The hidden features: the four clamped aggregations of the four first-layer products, added pairwise. -/
theorem hiddenOps_v106 (W : Valuation τ sig (Elt Ideal)) :
    after hiddenOps W (Proc.devRef .tc main_v106)
      = Cert.Glue.hidden (F := Ideal) (W (Proc.devRef .tc main_v3)) (W (Proc.devRef .tc main_v6)) (W (Proc.devRef .tc main_v31))
          (Host.dotGeneral (F := Ideal) (φ₁ := .f32) (φ₂ := .f32) dot_S100000x512_S512x32_S100000x32_1_0_0_1_n_n none (W (Proc.devRef .tc main_arg0)) (W (Proc.devRef .tc main_arg2)))
          (Host.dotGeneral (F := Ideal) (φ₁ := .f32) (φ₂ := .f32) dot_S100000x512_S512x32_S100000x32_1_0_0_1_n_n none (W (Proc.devRef .tc main_arg0)) (W (Proc.devRef .tc main_arg4)))
          (Host.dotGeneral (F := Ideal) (φ₁ := .f32) (φ₂ := .f32) dot_S100000x512_S512x32_S100000x32_1_0_0_1_n_n none (W (Proc.devRef .tc main_arg0)) (W (Proc.devRef .tc main_arg6)))
          (Host.dotGeneral (F := Ideal) (φ₁ := .f32) (φ₂ := .f32) dot_S100000x512_S512x32_S100000x32_1_0_0_1_n_n none (W (Proc.devRef .tc main_arg0)) (W (Proc.devRef .tc main_arg8)))
          (W (Proc.devRef .tc main_arg3)) (W (Proc.devRef .tc main_arg5)) (W (Proc.devRef .tc main_arg7)) (W (Proc.devRef .tc main_arg9)) := by
  show after hiddenOps W (Proc.devRef .tc main_v106) = _
  after_results_simp
  simp only [ofBuf_toBuf, ofBuf_v48, ofBuf_v66, ofBuf_v85, ofBuf_v103, toBuf_v49, toBuf_v67, toBuf_v86, toBuf_v104]
  rfl

/-- The buffers the second stretch writes. -/
abbrev hiddenW : List (Ref sig .tc) := [main_v32, main_c_7, main_v33, main_v34, main_c_8, main_v35, main_v36, main_v37, main_v38, main_v39, main_v40, main_v41, main_v42, main_cst_9, main_v43, main_v44, main_v45, main_v46, main_v47, main_v48, main_call1_cst, main_call1_v0, main_v49, main_v50, main_c_10, main_v51, main_v52, main_c_11, main_v53, main_v54, main_v55, main_v56, main_v57, main_v58, main_v59, main_v60, main_cst_12, main_v61, main_v62, main_v63, main_v64, main_v65, main_v66, main_call2_cst, main_call2_v0, main_v67, main_v68, main_v69, main_c_13, main_v70, main_v71, main_c_14, main_v72, main_v73, main_v74, main_v75, main_v76, main_v77, main_v78, main_v79, main_cst_15, main_v80, main_v81, main_v82, main_v83, main_v84, main_v85, main_call3_cst, main_call3_v0, main_v86, main_v87, main_c_16, main_v88, main_v89, main_c_17, main_v90, main_v91, main_v92, main_v93, main_v94, main_v95, main_v96, main_v97, main_cst_18, main_v98, main_v99, main_v100, main_v101, main_v102, main_v103, main_call4_cst, main_call4_v0, main_v104, main_v105, main_v106]

/-- Every operation of the stretch writes one buffer of that list. -/
theorem hidden_writes : (hiddenOps : List (HloOp τ sig (Elt Ideal))).Forall fun op => op.writes ⊆ (hiddenW.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals
    simp only [nullary_writes, unary_writes, binary_writes, ternary_writes, reshape_writes, Finset.singleton_subset_iff, List.mem_toFinset]
    exact List.mem_map_of_mem (by decide)

/-- A buffer the second stretch does not write keeps its contents. -/
theorem hidden_frame (W : Valuation τ sig (Elt Ideal)) {r : Ref sig .tc} (h : r ∉ hiddenW) :
    after hiddenOps W (Proc.devRef .tc r) = W (Proc.devRef .tc r) :=
  after_of_writes_sub hiddenOps W hidden_writes h

/-! The second stretch keeps the node lists and the edge norm, and writes no argument. -/
theorem hiddenOps_v3 (W : Valuation τ sig (Elt Ideal)) : after hiddenOps W (Proc.devRef .tc main_v3) = W (Proc.devRef .tc main_v3) := hidden_frame W (by decide)
theorem hiddenOps_v6 (W : Valuation τ sig (Elt Ideal)) : after hiddenOps W (Proc.devRef .tc main_v6) = W (Proc.devRef .tc main_v6) := hidden_frame W (by decide)
theorem hiddenOps_v31 (W : Valuation τ sig (Elt Ideal)) : after hiddenOps W (Proc.devRef .tc main_v31) = W (Proc.devRef .tc main_v31) := hidden_frame W (by decide)
theorem hiddenOps_arg0 (W : Valuation τ sig (Elt Ideal)) : after hiddenOps W (Proc.devRef .tc main_arg0) = W (Proc.devRef .tc main_arg0) := hidden_frame W (by decide)
theorem hiddenOps_arg1 (W : Valuation τ sig (Elt Ideal)) : after hiddenOps W (Proc.devRef .tc main_arg1) = W (Proc.devRef .tc main_arg1) := hidden_frame W (by decide)
theorem hiddenOps_arg2 (W : Valuation τ sig (Elt Ideal)) : after hiddenOps W (Proc.devRef .tc main_arg2) = W (Proc.devRef .tc main_arg2) := hidden_frame W (by decide)
theorem hiddenOps_arg3 (W : Valuation τ sig (Elt Ideal)) : after hiddenOps W (Proc.devRef .tc main_arg3) = W (Proc.devRef .tc main_arg3) := hidden_frame W (by decide)
theorem hiddenOps_arg4 (W : Valuation τ sig (Elt Ideal)) : after hiddenOps W (Proc.devRef .tc main_arg4) = W (Proc.devRef .tc main_arg4) := hidden_frame W (by decide)
theorem hiddenOps_arg5 (W : Valuation τ sig (Elt Ideal)) : after hiddenOps W (Proc.devRef .tc main_arg5) = W (Proc.devRef .tc main_arg5) := hidden_frame W (by decide)
theorem hiddenOps_arg6 (W : Valuation τ sig (Elt Ideal)) : after hiddenOps W (Proc.devRef .tc main_arg6) = W (Proc.devRef .tc main_arg6) := hidden_frame W (by decide)
theorem hiddenOps_arg7 (W : Valuation τ sig (Elt Ideal)) : after hiddenOps W (Proc.devRef .tc main_arg7) = W (Proc.devRef .tc main_arg7) := hidden_frame W (by decide)
theorem hiddenOps_arg8 (W : Valuation τ sig (Elt Ideal)) : after hiddenOps W (Proc.devRef .tc main_arg8) = W (Proc.devRef .tc main_arg8) := hidden_frame W (by decide)
theorem hiddenOps_arg9 (W : Valuation τ sig (Elt Ideal)) : after hiddenOps W (Proc.devRef .tc main_arg9) = W (Proc.devRef .tc main_arg9) := hidden_frame W (by decide)
theorem hiddenOps_arg10 (W : Valuation τ sig (Elt Ideal)) : after hiddenOps W (Proc.devRef .tc main_arg10) = W (Proc.devRef .tc main_arg10) := hidden_frame W (by decide)
theorem hiddenOps_arg11 (W : Valuation τ sig (Elt Ideal)) : after hiddenOps W (Proc.devRef .tc main_arg11) = W (Proc.devRef .tc main_arg11) := hidden_frame W (by decide)
theorem hiddenOps_arg12 (W : Valuation τ sig (Elt Ideal)) : after hiddenOps W (Proc.devRef .tc main_arg12) = W (Proc.devRef .tc main_arg12) := hidden_frame W (by decide)
theorem hiddenOps_arg13 (W : Valuation τ sig (Elt Ideal)) : after hiddenOps W (Proc.devRef .tc main_arg13) = W (Proc.devRef .tc main_arg13) := hidden_frame W (by decide)

end Cert.RefGlue

end
-- ==== Proof.RefGlueB.lean ====
/-
  The reference's last two stretches of host operations, read as functions of what the buffers held before them.

  * The class-layer stretch leaves, in the buffer the log-softmax reads, the sum of the two class aggregations: each the
    product of the hidden features with one class-layer weight matrix, gathered at the source nodes, scaled by the edge
    norm, added into the destination nodes' rows, plus its bias.
  * The log-softmax stretch leaves, in the result buffer, the written-out log-softmax of what that buffer held.
  * Neither stretch writes an argument of the program.

  The fold of the operations, unfolded operation by operation, is the function's body; the statements hold at any
  valuation of the buffers.
-/
import proofs.«138793_j80530636800127_1_alg».proof.Proof.RefChunks
import proofs.«138793_j80530636800127_1_alg».proof.Proof.GlueSpec
import proofs.«138793_j80530636800127_1_alg».proof.Proof.Gen.KernelIdeal
import proofs.«138793_j80530636800127_1_alg».proof.Proof.LogSoftmaxVsHost
import Idealize.ShloMosaic.Lib.StableHlo.Run

set_option maxRecDepth 16384

noncomputable section

namespace Cert.RefGlue

open Cert.ReferenceIdeal Cert.ReferenceIdeal.Chunks
open Idealize.ShloMosaic Idealize.ShloMosaic.TcCoe Idealize.ShloMosaic.StableHlo Idealize.SL.Sem

set_option maxHeartbeats 1000000 in
/-- After the class-layer stretch: the sum of the two class aggregations of the hidden features. -/
theorem classOps_v141 (W : Valuation τ sig (Elt Ideal)) :
    after (classOps (F := Ideal)) W (Proc.devRef .tc main_v141)
      = (addf (F := Ideal) (φ := .f32)
        (Cert.Glue.agg40 (F := Ideal) (W (Proc.devRef .tc main_v3)) (W (Proc.devRef .tc main_v6)) (W (Proc.devRef .tc main_v31))
          (Host.dotGeneral (F := Ideal) (φ₁ := .f32) (φ₂ := .f32) Cert.ReferenceIdeal.dot_S100000x32_S32x40_S100000x40_1_0_0_1_n_n none (W (Proc.devRef .tc main_v106)) (W (Proc.devRef .tc main_arg10)))
          (W (Proc.devRef .tc main_arg11)))
        (Cert.Glue.agg40 (F := Ideal) (W (Proc.devRef .tc main_v3)) (W (Proc.devRef .tc main_v6)) (W (Proc.devRef .tc main_v31))
          (Host.dotGeneral (F := Ideal) (φ₁ := .f32) (φ₂ := .f32) Cert.ReferenceIdeal.dot_S100000x32_S32x40_S100000x40_1_0_0_1_n_n none (W (Proc.devRef .tc main_v106)) (W (Proc.devRef .tc main_arg12)))
          (W (Proc.devRef .tc main_arg13)))
        : (⟨Cert.KernelIdeal.S100000x40, .f32⟩ : BufTy).Contents (Elt Ideal)) := by
  after_results_simp
  rfl

/-! ### The inlined log-softmax's buffers hold what is written to them

Each intermediate value of the inlined function is written to its buffer at the value's own type and read back at it:
the two transports along the buffer's type cancel. The function's argument is read, and its result written, at the type
the buffer already has. -/

theorem strip_cst (v : (⟨S_, .f32⟩ : BufTy).Contents (Elt Ideal)) :
    (TRef.of main_call5_cst : TRef sig ⟨S_, .f32⟩).ofBuf ((TRef.of main_call5_cst : TRef sig ⟨S_, .f32⟩).toBuf v) = v := rfl
theorem strip_v0 (v : (⟨S100000, .f32⟩ : BufTy).Contents (Elt Ideal)) :
    (TRef.of main_call5_v0 : TRef sig ⟨S100000, .f32⟩).ofBuf ((TRef.of main_call5_v0 : TRef sig ⟨S100000, .f32⟩).toBuf v) = v := rfl
theorem strip_cst_0 (v : (⟨S_, .f32⟩ : BufTy).Contents (Elt Ideal)) :
    (TRef.of main_call5_cst_0 : TRef sig ⟨S_, .f32⟩).ofBuf ((TRef.of main_call5_cst_0 : TRef sig ⟨S_, .f32⟩).toBuf v) = v := rfl
theorem strip_v1 (v : (⟨S100000, .f32⟩ : BufTy).Contents (Elt Ideal)) :
    (TRef.of main_call5_v1 : TRef sig ⟨S100000, .f32⟩).ofBuf ((TRef.of main_call5_v1 : TRef sig ⟨S100000, .f32⟩).toBuf v) = v := rfl
theorem strip_v2 (v : (⟨S100000, .f32⟩ : BufTy).Contents (Elt Ideal)) :
    (TRef.of main_call5_v2 : TRef sig ⟨S100000, .f32⟩).ofBuf ((TRef.of main_call5_v2 : TRef sig ⟨S100000, .f32⟩).toBuf v) = v := rfl
theorem strip_v3 (v : (⟨S100000x1, .f32⟩ : BufTy).Contents (Elt Ideal)) :
    (TRef.of main_call5_v3 : TRef sig ⟨S100000x1, .f32⟩).ofBuf ((TRef.of main_call5_v3 : TRef sig ⟨S100000x1, .f32⟩).toBuf v) = v := rfl
theorem strip_v4 (v : (⟨S100000x40, .f32⟩ : BufTy).Contents (Elt Ideal)) :
    (TRef.of main_call5_v4 : TRef sig ⟨S100000x40, .f32⟩).ofBuf ((TRef.of main_call5_v4 : TRef sig ⟨S100000x40, .f32⟩).toBuf v) = v := rfl
theorem strip_v5 (v : (⟨S100000x40, .f32⟩ : BufTy).Contents (Elt Ideal)) :
    (TRef.of main_call5_v5 : TRef sig ⟨S100000x40, .f32⟩).ofBuf ((TRef.of main_call5_v5 : TRef sig ⟨S100000x40, .f32⟩).toBuf v) = v := rfl
theorem strip_v6 (v : (⟨S100000x40, .f32⟩ : BufTy).Contents (Elt Ideal)) :
    (TRef.of main_call5_v6 : TRef sig ⟨S100000x40, .f32⟩).ofBuf ((TRef.of main_call5_v6 : TRef sig ⟨S100000x40, .f32⟩).toBuf v) = v := rfl
theorem strip_cst_1 (v : (⟨S_, .f32⟩ : BufTy).Contents (Elt Ideal)) :
    (TRef.of main_call5_cst_1 : TRef sig ⟨S_, .f32⟩).ofBuf ((TRef.of main_call5_cst_1 : TRef sig ⟨S_, .f32⟩).toBuf v) = v := rfl
theorem strip_v7 (v : (⟨S100000, .f32⟩ : BufTy).Contents (Elt Ideal)) :
    (TRef.of main_call5_v7 : TRef sig ⟨S100000, .f32⟩).ofBuf ((TRef.of main_call5_v7 : TRef sig ⟨S100000, .f32⟩).toBuf v) = v := rfl
theorem strip_v8 (v : (⟨S100000x1, .f32⟩ : BufTy).Contents (Elt Ideal)) :
    (TRef.of main_call5_v8 : TRef sig ⟨S100000x1, .f32⟩).ofBuf ((TRef.of main_call5_v8 : TRef sig ⟨S100000x1, .f32⟩).toBuf v) = v := rfl
theorem strip_v9 (v : (⟨S100000x1, .f32⟩ : BufTy).Contents (Elt Ideal)) :
    (TRef.of main_call5_v9 : TRef sig ⟨S100000x1, .f32⟩).ofBuf ((TRef.of main_call5_v9 : TRef sig ⟨S100000x1, .f32⟩).toBuf v) = v := rfl
theorem strip_v10 (v : (⟨S100000x40, .f32⟩ : BufTy).Contents (Elt Ideal)) :
    (TRef.of main_call5_v10 : TRef sig ⟨S100000x40, .f32⟩).ofBuf ((TRef.of main_call5_v10 : TRef sig ⟨S100000x40, .f32⟩).toBuf v) = v := rfl

theorem read_v141 (W : Valuation τ sig (Elt Ideal)) :
    (TRef.of main_v141 : TRef sig ⟨S100000x40, .f32⟩).ofBuf (W (Proc.devRef .tc main_v141))
      = (W (Proc.devRef .tc main_v141) : (⟨S100000x40, .f32⟩ : BufTy).Contents (Elt Ideal)) := rfl

theorem write_v142 (v : (⟨S100000x40, .f32⟩ : BufTy).Contents (Elt Ideal)) :
    (TRef.of main_v142 : TRef sig ⟨S100000x40, .f32⟩).toBuf v = v := rfl

set_option maxHeartbeats 1000000 in
/-- After the log-softmax stretch: the written-out log-softmax of the buffer it reads. -/
theorem softmaxOps_v142 (W : Valuation τ sig (Elt Ideal)) :
    after (softmaxOps (F := Ideal)) W (Proc.devRef .tc main_v142)
      = Cert.Bridge.refLogSoftmax (W (Proc.devRef .tc main_v141)) := by
  after_results_simp
  rw [write_v142, strip_v10, strip_v9, strip_v8, strip_v7, strip_cst_1, strip_v6, strip_v5, strip_v4, strip_v3, strip_v2, strip_v1,
    strip_cst_0, strip_v0, read_v141]
  rfl

/-! ### The program's arguments are not written -/

theorem classOps_arg0 (W : Valuation τ sig (Elt Ideal)) :
    after (classOps (F := Ideal)) W (Proc.devRef .tc main_arg0) = W (Proc.devRef .tc main_arg0) := by
  after_results_simp

theorem classOps_arg1 (W : Valuation τ sig (Elt Ideal)) :
    after (classOps (F := Ideal)) W (Proc.devRef .tc main_arg1) = W (Proc.devRef .tc main_arg1) := by
  after_results_simp

theorem classOps_arg2 (W : Valuation τ sig (Elt Ideal)) :
    after (classOps (F := Ideal)) W (Proc.devRef .tc main_arg2) = W (Proc.devRef .tc main_arg2) := by
  after_results_simp

theorem classOps_arg3 (W : Valuation τ sig (Elt Ideal)) :
    after (classOps (F := Ideal)) W (Proc.devRef .tc main_arg3) = W (Proc.devRef .tc main_arg3) := by
  after_results_simp

theorem classOps_arg4 (W : Valuation τ sig (Elt Ideal)) :
    after (classOps (F := Ideal)) W (Proc.devRef .tc main_arg4) = W (Proc.devRef .tc main_arg4) := by
  after_results_simp

theorem classOps_arg5 (W : Valuation τ sig (Elt Ideal)) :
    after (classOps (F := Ideal)) W (Proc.devRef .tc main_arg5) = W (Proc.devRef .tc main_arg5) := by
  after_results_simp

theorem classOps_arg6 (W : Valuation τ sig (Elt Ideal)) :
    after (classOps (F := Ideal)) W (Proc.devRef .tc main_arg6) = W (Proc.devRef .tc main_arg6) := by
  after_results_simp

theorem classOps_arg7 (W : Valuation τ sig (Elt Ideal)) :
    after (classOps (F := Ideal)) W (Proc.devRef .tc main_arg7) = W (Proc.devRef .tc main_arg7) := by
  after_results_simp

theorem classOps_arg8 (W : Valuation τ sig (Elt Ideal)) :
    after (classOps (F := Ideal)) W (Proc.devRef .tc main_arg8) = W (Proc.devRef .tc main_arg8) := by
  after_results_simp

theorem classOps_arg9 (W : Valuation τ sig (Elt Ideal)) :
    after (classOps (F := Ideal)) W (Proc.devRef .tc main_arg9) = W (Proc.devRef .tc main_arg9) := by
  after_results_simp

theorem classOps_arg10 (W : Valuation τ sig (Elt Ideal)) :
    after (classOps (F := Ideal)) W (Proc.devRef .tc main_arg10) = W (Proc.devRef .tc main_arg10) := by
  after_results_simp

theorem classOps_arg11 (W : Valuation τ sig (Elt Ideal)) :
    after (classOps (F := Ideal)) W (Proc.devRef .tc main_arg11) = W (Proc.devRef .tc main_arg11) := by
  after_results_simp

theorem classOps_arg12 (W : Valuation τ sig (Elt Ideal)) :
    after (classOps (F := Ideal)) W (Proc.devRef .tc main_arg12) = W (Proc.devRef .tc main_arg12) := by
  after_results_simp

theorem classOps_arg13 (W : Valuation τ sig (Elt Ideal)) :
    after (classOps (F := Ideal)) W (Proc.devRef .tc main_arg13) = W (Proc.devRef .tc main_arg13) := by
  after_results_simp

theorem softmaxOps_arg0 (W : Valuation τ sig (Elt Ideal)) :
    after (softmaxOps (F := Ideal)) W (Proc.devRef .tc main_arg0) = W (Proc.devRef .tc main_arg0) := by
  after_results_simp

theorem softmaxOps_arg1 (W : Valuation τ sig (Elt Ideal)) :
    after (softmaxOps (F := Ideal)) W (Proc.devRef .tc main_arg1) = W (Proc.devRef .tc main_arg1) := by
  after_results_simp

theorem softmaxOps_arg2 (W : Valuation τ sig (Elt Ideal)) :
    after (softmaxOps (F := Ideal)) W (Proc.devRef .tc main_arg2) = W (Proc.devRef .tc main_arg2) := by
  after_results_simp

theorem softmaxOps_arg3 (W : Valuation τ sig (Elt Ideal)) :
    after (softmaxOps (F := Ideal)) W (Proc.devRef .tc main_arg3) = W (Proc.devRef .tc main_arg3) := by
  after_results_simp

theorem softmaxOps_arg4 (W : Valuation τ sig (Elt Ideal)) :
    after (softmaxOps (F := Ideal)) W (Proc.devRef .tc main_arg4) = W (Proc.devRef .tc main_arg4) := by
  after_results_simp

theorem softmaxOps_arg5 (W : Valuation τ sig (Elt Ideal)) :
    after (softmaxOps (F := Ideal)) W (Proc.devRef .tc main_arg5) = W (Proc.devRef .tc main_arg5) := by
  after_results_simp

theorem softmaxOps_arg6 (W : Valuation τ sig (Elt Ideal)) :
    after (softmaxOps (F := Ideal)) W (Proc.devRef .tc main_arg6) = W (Proc.devRef .tc main_arg6) := by
  after_results_simp

theorem softmaxOps_arg7 (W : Valuation τ sig (Elt Ideal)) :
    after (softmaxOps (F := Ideal)) W (Proc.devRef .tc main_arg7) = W (Proc.devRef .tc main_arg7) := by
  after_results_simp

theorem softmaxOps_arg8 (W : Valuation τ sig (Elt Ideal)) :
    after (softmaxOps (F := Ideal)) W (Proc.devRef .tc main_arg8) = W (Proc.devRef .tc main_arg8) := by
  after_results_simp

theorem softmaxOps_arg9 (W : Valuation τ sig (Elt Ideal)) :
    after (softmaxOps (F := Ideal)) W (Proc.devRef .tc main_arg9) = W (Proc.devRef .tc main_arg9) := by
  after_results_simp

theorem softmaxOps_arg10 (W : Valuation τ sig (Elt Ideal)) :
    after (softmaxOps (F := Ideal)) W (Proc.devRef .tc main_arg10) = W (Proc.devRef .tc main_arg10) := by
  after_results_simp

theorem softmaxOps_arg11 (W : Valuation τ sig (Elt Ideal)) :
    after (softmaxOps (F := Ideal)) W (Proc.devRef .tc main_arg11) = W (Proc.devRef .tc main_arg11) := by
  after_results_simp

theorem softmaxOps_arg12 (W : Valuation τ sig (Elt Ideal)) :
    after (softmaxOps (F := Ideal)) W (Proc.devRef .tc main_arg12) = W (Proc.devRef .tc main_arg12) := by
  after_results_simp

theorem softmaxOps_arg13 (W : Valuation τ sig (Elt Ideal)) :
    after (softmaxOps (F := Ideal)) W (Proc.devRef .tc main_arg13) = W (Proc.devRef .tc main_arg13) := by
  after_results_simp

end Cert.RefGlue

end
-- ==== Proof.RefValue.lean ====
/-
  The reference program's result, read off its run: after its 194 host operations the result buffer holds the closed form
  `Gcn.out` of the argument arrays, and no argument is written.

  The operations are read in four stretches. The first leaves the source and destination lists and the edge norm; the
  second the hidden features — four products of the node features with a first-layer matrix, each aggregated over the
  graph, clamped at zero, and summed; the third the sum of the two class aggregations of the hidden features' products
  with the class-layer matrices; the fourth its row-wise log-softmax. A product here is the plain sum over the
  contracted axis, which is what the kernel's stacked product gives column block by column block.
-/
import proofs.«138793_j80530636800127_1_alg».proof.Proof.RefGlue
import proofs.«138793_j80530636800127_1_alg».proof.Proof.RefGlueB
import proofs.«138793_j80530636800127_1_alg».proof.Proof.GcnSpec

noncomputable section

namespace Cert.ReferenceIdeal.Hand

open Cert.ReferenceIdeal Cert.ReferenceIdeal.Gen Cert.ReferenceIdeal.Chunks
open Idealize.ShloMosaic Idealize.ShloMosaic.TcCoe Idealize.ShloMosaic.StableHlo
open Idealize.SL Idealize.SL.Sem

variable (m : (ℓ : Loc nD τ sig) → Buf (Elt Ideal) ℓ) (c : Dev nD)

/-- The buffers after the first stretch, the first two, the first three. -/
abbrev W1 : Valuation τ sig (Elt Ideal) := after normOps (launchContents m c)
abbrev W2 : Valuation τ sig (Elt Ideal) := after hiddenOps (W1 m c)
abbrev W3 : Valuation τ sig (Elt Ideal) := after classOps (W2 m c)

theorem arg0_at1 : W1 m c (Proc.devRef .tc main_arg0) = m ((c.tc : Thread nD τ).loc main_arg0) := Cert.RefGlue.normOps_arg0 (launchContents m c)
theorem arg0_at2 : W2 m c (Proc.devRef .tc main_arg0) = m ((c.tc : Thread nD τ).loc main_arg0) := (Cert.RefGlue.hiddenOps_arg0 (W1 m c)).trans (arg0_at1 m c)
theorem arg1_at1 : W1 m c (Proc.devRef .tc main_arg1) = m ((c.tc : Thread nD τ).loc main_arg1) := Cert.RefGlue.normOps_arg1 (launchContents m c)
theorem arg1_at2 : W2 m c (Proc.devRef .tc main_arg1) = m ((c.tc : Thread nD τ).loc main_arg1) := (Cert.RefGlue.hiddenOps_arg1 (W1 m c)).trans (arg1_at1 m c)
theorem arg2_at1 : W1 m c (Proc.devRef .tc main_arg2) = m ((c.tc : Thread nD τ).loc main_arg2) := Cert.RefGlue.normOps_arg2 (launchContents m c)
theorem arg2_at2 : W2 m c (Proc.devRef .tc main_arg2) = m ((c.tc : Thread nD τ).loc main_arg2) := (Cert.RefGlue.hiddenOps_arg2 (W1 m c)).trans (arg2_at1 m c)
theorem arg3_at1 : W1 m c (Proc.devRef .tc main_arg3) = m ((c.tc : Thread nD τ).loc main_arg3) := Cert.RefGlue.normOps_arg3 (launchContents m c)
theorem arg3_at2 : W2 m c (Proc.devRef .tc main_arg3) = m ((c.tc : Thread nD τ).loc main_arg3) := (Cert.RefGlue.hiddenOps_arg3 (W1 m c)).trans (arg3_at1 m c)
theorem arg4_at1 : W1 m c (Proc.devRef .tc main_arg4) = m ((c.tc : Thread nD τ).loc main_arg4) := Cert.RefGlue.normOps_arg4 (launchContents m c)
theorem arg4_at2 : W2 m c (Proc.devRef .tc main_arg4) = m ((c.tc : Thread nD τ).loc main_arg4) := (Cert.RefGlue.hiddenOps_arg4 (W1 m c)).trans (arg4_at1 m c)
theorem arg5_at1 : W1 m c (Proc.devRef .tc main_arg5) = m ((c.tc : Thread nD τ).loc main_arg5) := Cert.RefGlue.normOps_arg5 (launchContents m c)
theorem arg5_at2 : W2 m c (Proc.devRef .tc main_arg5) = m ((c.tc : Thread nD τ).loc main_arg5) := (Cert.RefGlue.hiddenOps_arg5 (W1 m c)).trans (arg5_at1 m c)
theorem arg6_at1 : W1 m c (Proc.devRef .tc main_arg6) = m ((c.tc : Thread nD τ).loc main_arg6) := Cert.RefGlue.normOps_arg6 (launchContents m c)
theorem arg6_at2 : W2 m c (Proc.devRef .tc main_arg6) = m ((c.tc : Thread nD τ).loc main_arg6) := (Cert.RefGlue.hiddenOps_arg6 (W1 m c)).trans (arg6_at1 m c)
theorem arg7_at1 : W1 m c (Proc.devRef .tc main_arg7) = m ((c.tc : Thread nD τ).loc main_arg7) := Cert.RefGlue.normOps_arg7 (launchContents m c)
theorem arg7_at2 : W2 m c (Proc.devRef .tc main_arg7) = m ((c.tc : Thread nD τ).loc main_arg7) := (Cert.RefGlue.hiddenOps_arg7 (W1 m c)).trans (arg7_at1 m c)
theorem arg8_at1 : W1 m c (Proc.devRef .tc main_arg8) = m ((c.tc : Thread nD τ).loc main_arg8) := Cert.RefGlue.normOps_arg8 (launchContents m c)
theorem arg8_at2 : W2 m c (Proc.devRef .tc main_arg8) = m ((c.tc : Thread nD τ).loc main_arg8) := (Cert.RefGlue.hiddenOps_arg8 (W1 m c)).trans (arg8_at1 m c)
theorem arg9_at1 : W1 m c (Proc.devRef .tc main_arg9) = m ((c.tc : Thread nD τ).loc main_arg9) := Cert.RefGlue.normOps_arg9 (launchContents m c)
theorem arg9_at2 : W2 m c (Proc.devRef .tc main_arg9) = m ((c.tc : Thread nD τ).loc main_arg9) := (Cert.RefGlue.hiddenOps_arg9 (W1 m c)).trans (arg9_at1 m c)
theorem arg10_at1 : W1 m c (Proc.devRef .tc main_arg10) = m ((c.tc : Thread nD τ).loc main_arg10) := Cert.RefGlue.normOps_arg10 (launchContents m c)
theorem arg10_at2 : W2 m c (Proc.devRef .tc main_arg10) = m ((c.tc : Thread nD τ).loc main_arg10) := (Cert.RefGlue.hiddenOps_arg10 (W1 m c)).trans (arg10_at1 m c)
theorem arg11_at1 : W1 m c (Proc.devRef .tc main_arg11) = m ((c.tc : Thread nD τ).loc main_arg11) := Cert.RefGlue.normOps_arg11 (launchContents m c)
theorem arg11_at2 : W2 m c (Proc.devRef .tc main_arg11) = m ((c.tc : Thread nD τ).loc main_arg11) := (Cert.RefGlue.hiddenOps_arg11 (W1 m c)).trans (arg11_at1 m c)
theorem arg12_at1 : W1 m c (Proc.devRef .tc main_arg12) = m ((c.tc : Thread nD τ).loc main_arg12) := Cert.RefGlue.normOps_arg12 (launchContents m c)
theorem arg12_at2 : W2 m c (Proc.devRef .tc main_arg12) = m ((c.tc : Thread nD τ).loc main_arg12) := (Cert.RefGlue.hiddenOps_arg12 (W1 m c)).trans (arg12_at1 m c)
theorem arg13_at1 : W1 m c (Proc.devRef .tc main_arg13) = m ((c.tc : Thread nD τ).loc main_arg13) := Cert.RefGlue.normOps_arg13 (launchContents m c)
theorem arg13_at2 : W2 m c (Proc.devRef .tc main_arg13) = m ((c.tc : Thread nD τ).loc main_arg13) := (Cert.RefGlue.hiddenOps_arg13 (W1 m c)).trans (arg13_at1 m c)

theorem src_at1 : W1 m c (Proc.devRef .tc main_v3) = Cert.Glue.srcOf (F := Ideal) (m ((c.tc : Thread nD τ).loc main_arg1)) := Cert.RefGlue.normOps_v3 (launchContents m c)
theorem dst_at1 : W1 m c (Proc.devRef .tc main_v6) = Cert.Glue.dstOf (F := Ideal) (m ((c.tc : Thread nD τ).loc main_arg1)) := Cert.RefGlue.normOps_v6 (launchContents m c)
theorem norm_at1 : W1 m c (Proc.devRef .tc main_v31) = Cert.Glue.normOf (F := Ideal) (m ((c.tc : Thread nD τ).loc main_arg1)) := Cert.RefGlue.normOps_v31 (launchContents m c)
theorem src_at2 : W2 m c (Proc.devRef .tc main_v3) = Cert.Glue.srcOf (F := Ideal) (m ((c.tc : Thread nD τ).loc main_arg1)) := (Cert.RefGlue.hiddenOps_v3 (W1 m c)).trans (src_at1 m c)
theorem dst_at2 : W2 m c (Proc.devRef .tc main_v6) = Cert.Glue.dstOf (F := Ideal) (m ((c.tc : Thread nD τ).loc main_arg1)) := (Cert.RefGlue.hiddenOps_v6 (W1 m c)).trans (dst_at1 m c)
theorem norm_at2 : W2 m c (Proc.devRef .tc main_v31) = Cert.Glue.normOf (F := Ideal) (m ((c.tc : Thread nD τ).loc main_arg1)) := (Cert.RefGlue.hiddenOps_v31 (W1 m c)).trans (norm_at1 m c)

/-- THE REFERENCE'S RESULT is the closed form of the arguments. -/
theorem reference_value : after (Cert.ReferenceIdeal.ValueP.ops : List (HloOp τ sig (Elt Ideal))) (launchContents m c) (Proc.devRef .tc main_v142)
    = Cert.Gcn.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  rw [after_ops]
  have hh := Cert.RefGlue.hiddenOps_v106 (W1 m c)
  rw [src_at1 m c, dst_at1 m c, norm_at1 m c, arg0_at1 m c, arg2_at1 m c, arg4_at1 m c, arg6_at1 m c, arg8_at1 m c,
    arg3_at1 m c, arg5_at1 m c, arg7_at1 m c, arg9_at1 m c] at hh
  have hc := Cert.RefGlue.classOps_v141 (W2 m c)
  rw [src_at2 m c, dst_at2 m c, norm_at2 m c, show W2 m c (Proc.devRef .tc main_v106) = _ from hh,
    arg10_at2 m c, arg11_at2 m c, arg12_at2 m c, arg13_at2 m c] at hc
  refine (Cert.RefGlue.softmaxOps_v142 (W3 m c)).trans ?_
  rw [show W3 m c (Proc.devRef .tc main_v141) = _ from hc]
  exact Cert.Gcn.reference_shape _ _ _ _ _ _ _ _ _ _ _ _ _ _

theorem arg0_kept : after (Cert.ReferenceIdeal.ValueP.ops : List (HloOp τ sig (Elt Ideal))) (launchContents m c) (Proc.devRef .tc main_arg0) = m ((c.tc : Thread nD τ).loc main_arg0) := by
  rw [after_ops]
  exact (Cert.RefGlue.softmaxOps_arg0 _).trans ((Cert.RefGlue.classOps_arg0 _).trans (arg0_at2 m c))
theorem arg1_kept : after (Cert.ReferenceIdeal.ValueP.ops : List (HloOp τ sig (Elt Ideal))) (launchContents m c) (Proc.devRef .tc main_arg1) = m ((c.tc : Thread nD τ).loc main_arg1) := by
  rw [after_ops]
  exact (Cert.RefGlue.softmaxOps_arg1 _).trans ((Cert.RefGlue.classOps_arg1 _).trans (arg1_at2 m c))
theorem arg2_kept : after (Cert.ReferenceIdeal.ValueP.ops : List (HloOp τ sig (Elt Ideal))) (launchContents m c) (Proc.devRef .tc main_arg2) = m ((c.tc : Thread nD τ).loc main_arg2) := by
  rw [after_ops]
  exact (Cert.RefGlue.softmaxOps_arg2 _).trans ((Cert.RefGlue.classOps_arg2 _).trans (arg2_at2 m c))
theorem arg3_kept : after (Cert.ReferenceIdeal.ValueP.ops : List (HloOp τ sig (Elt Ideal))) (launchContents m c) (Proc.devRef .tc main_arg3) = m ((c.tc : Thread nD τ).loc main_arg3) := by
  rw [after_ops]
  exact (Cert.RefGlue.softmaxOps_arg3 _).trans ((Cert.RefGlue.classOps_arg3 _).trans (arg3_at2 m c))
theorem arg4_kept : after (Cert.ReferenceIdeal.ValueP.ops : List (HloOp τ sig (Elt Ideal))) (launchContents m c) (Proc.devRef .tc main_arg4) = m ((c.tc : Thread nD τ).loc main_arg4) := by
  rw [after_ops]
  exact (Cert.RefGlue.softmaxOps_arg4 _).trans ((Cert.RefGlue.classOps_arg4 _).trans (arg4_at2 m c))
theorem arg5_kept : after (Cert.ReferenceIdeal.ValueP.ops : List (HloOp τ sig (Elt Ideal))) (launchContents m c) (Proc.devRef .tc main_arg5) = m ((c.tc : Thread nD τ).loc main_arg5) := by
  rw [after_ops]
  exact (Cert.RefGlue.softmaxOps_arg5 _).trans ((Cert.RefGlue.classOps_arg5 _).trans (arg5_at2 m c))
theorem arg6_kept : after (Cert.ReferenceIdeal.ValueP.ops : List (HloOp τ sig (Elt Ideal))) (launchContents m c) (Proc.devRef .tc main_arg6) = m ((c.tc : Thread nD τ).loc main_arg6) := by
  rw [after_ops]
  exact (Cert.RefGlue.softmaxOps_arg6 _).trans ((Cert.RefGlue.classOps_arg6 _).trans (arg6_at2 m c))
theorem arg7_kept : after (Cert.ReferenceIdeal.ValueP.ops : List (HloOp τ sig (Elt Ideal))) (launchContents m c) (Proc.devRef .tc main_arg7) = m ((c.tc : Thread nD τ).loc main_arg7) := by
  rw [after_ops]
  exact (Cert.RefGlue.softmaxOps_arg7 _).trans ((Cert.RefGlue.classOps_arg7 _).trans (arg7_at2 m c))
theorem arg8_kept : after (Cert.ReferenceIdeal.ValueP.ops : List (HloOp τ sig (Elt Ideal))) (launchContents m c) (Proc.devRef .tc main_arg8) = m ((c.tc : Thread nD τ).loc main_arg8) := by
  rw [after_ops]
  exact (Cert.RefGlue.softmaxOps_arg8 _).trans ((Cert.RefGlue.classOps_arg8 _).trans (arg8_at2 m c))
theorem arg9_kept : after (Cert.ReferenceIdeal.ValueP.ops : List (HloOp τ sig (Elt Ideal))) (launchContents m c) (Proc.devRef .tc main_arg9) = m ((c.tc : Thread nD τ).loc main_arg9) := by
  rw [after_ops]
  exact (Cert.RefGlue.softmaxOps_arg9 _).trans ((Cert.RefGlue.classOps_arg9 _).trans (arg9_at2 m c))
theorem arg10_kept : after (Cert.ReferenceIdeal.ValueP.ops : List (HloOp τ sig (Elt Ideal))) (launchContents m c) (Proc.devRef .tc main_arg10) = m ((c.tc : Thread nD τ).loc main_arg10) := by
  rw [after_ops]
  exact (Cert.RefGlue.softmaxOps_arg10 _).trans ((Cert.RefGlue.classOps_arg10 _).trans (arg10_at2 m c))
theorem arg11_kept : after (Cert.ReferenceIdeal.ValueP.ops : List (HloOp τ sig (Elt Ideal))) (launchContents m c) (Proc.devRef .tc main_arg11) = m ((c.tc : Thread nD τ).loc main_arg11) := by
  rw [after_ops]
  exact (Cert.RefGlue.softmaxOps_arg11 _).trans ((Cert.RefGlue.classOps_arg11 _).trans (arg11_at2 m c))
theorem arg12_kept : after (Cert.ReferenceIdeal.ValueP.ops : List (HloOp τ sig (Elt Ideal))) (launchContents m c) (Proc.devRef .tc main_arg12) = m ((c.tc : Thread nD τ).loc main_arg12) := by
  rw [after_ops]
  exact (Cert.RefGlue.softmaxOps_arg12 _).trans ((Cert.RefGlue.classOps_arg12 _).trans (arg12_at2 m c))
theorem arg13_kept : after (Cert.ReferenceIdeal.ValueP.ops : List (HloOp τ sig (Elt Ideal))) (launchContents m c) (Proc.devRef .tc main_arg13) = m ((c.tc : Thread nD τ).loc main_arg13) := by
  rw [after_ops]
  exact (Cert.RefGlue.softmaxOps_arg13 _).trans ((Cert.RefGlue.classOps_arg13 _).trans (arg13_at2 m c))

/-- The reference's run, in the form the claim asks for. -/
theorem reference_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v142) = Cert.Gcn.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c =>
    ⟨(h c main_v142).trans (reference_value m c),
     (h c main_arg0).trans (arg0_kept m c),
     (h c main_arg1).trans (arg1_kept m c),
     (h c main_arg2).trans (arg2_kept m c),
     (h c main_arg3).trans (arg3_kept m c),
     (h c main_arg4).trans (arg4_kept m c),
     (h c main_arg5).trans (arg5_kept m c),
     (h c main_arg6).trans (arg6_kept m c),
     (h c main_arg7).trans (arg7_kept m c),
     (h c main_arg8).trans (arg8_kept m c),
     (h c main_arg9).trans (arg9_kept m c),
     (h c main_arg10).trans (arg10_kept m c),
     (h c main_arg11).trans (arg11_kept m c),
     (h c main_arg12).trans (arg12_kept m c),
     (h c main_arg13).trans (arg13_kept m c)⟩) (Cert.ReferenceIdeal.ValueP.run (F := Ideal) m ρ)

end Cert.ReferenceIdeal.Hand

end
-- ==== Proof.lean ====
/-
  A graph network of two layers of paired graph convolutions, written with three kernels — the node features against
  the four first-layer weight matrices stacked side by side; the hidden features against the two class-layer matrices
  stacked side by side; the row-wise log-softmax of the sum of the two class-layer aggregations — inside the host's
  gathers and scatter-adds, against the same network written with one matrix product per weight matrix.

  Over the extended reals the two agree entry by entry. A product of a row with a column is a finite sum, so the product
  with the stacked matrix, read at a column, IS the product with the matrix that column came from; a matrix product
  computed block of rows by block of rows is the product; the aggregation steps in between are the same operations on
  both sides; and `s − max − log Σ exp (s − max)` is what both sides compute at the end, the reference's extra
  `max (−∞, ·)` changing nothing. Both results are the one closed form `Gcn.out` of the arguments. No finiteness of
  the inputs is used.

  The frames: each kernel program runs as sixteen items (host stretches and the three kernel regions), and no item writes
  an argument. The reference runs as a line of host operations none of which writes an argument. The idealized kernel
  program is the kernel program's own text, so there is nothing to preserve.
-/
import proofs.«138793_j80530636800127_1_alg».proof.Defs
import proofs.«138793_j80530636800127_1_alg».proof.Proof.Gen.Kernel
import proofs.«138793_j80530636800127_1_alg».proof.Proof.Gen.KernelIdeal
import proofs.«138793_j80530636800127_1_alg».proof.Proof.Gen.ReferenceIdeal
import proofs.«138793_j80530636800127_1_alg».proof.Proof.Gen.Pre_finite_inputs
import proofs.«138793_j80530636800127_1_alg».proof.Proof.BitsFrame.Run
import proofs.«138793_j80530636800127_1_alg».proof.Proof.IdealFrame.Value
import proofs.«138793_j80530636800127_1_alg».proof.Proof.RefValue
import Idealize.ShloMosaic.Adequacy
import Idealize.ShloMosaic.Init

noncomputable section

namespace Cert.Proof

open Idealize.ShloMosaic Idealize.SL.Sem

/-- The kernel program, at the machine's words: it terminates, faults nowhere, and leaves its arguments as launched. -/
theorem frame_kernel : Cert.frame_Kernel := fun m ρ _ => Cert.Kernel.Hand.frame_all (F := Bits) m ρ

/-- The same program read over the extended reals. -/
theorem frame_kernelIdeal : Cert.frame_KernelIdeal := fun m ρ _ => Cert.KernelIdeal.Hand.frame_all (F := Ideal) m ρ

/-- The reference: its run with the result's value dropped. -/
theorem frame_reference : Cert.frame_ReferenceIdeal := fun m ρ _ =>
  (θ_run Cert.ReferenceIdeal.defs _ _).mono (fun _ h c => (h c).2) (Cert.ReferenceIdeal.Hand.reference_run m ρ)

/-- The idealization rewrote nothing. -/
theorem preserves : Cert.preserves_Kernel_KernelIdeal := trivial

/-- From memories that agree on the arguments both programs end with the closed form of those arguments in their result
    arrays. -/
theorem algebraic : Cert.algebraic_KernelIdeal_ReferenceIdeal := by
  intro m ρ m' ρ' _ hagree
  refine ⟨fun c => Cert.Gcn.out (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13)),
    Cert.KernelIdeal.Hand.kernel_run m ρ, ?_⟩
  refine (θ_run Cert.ReferenceIdeal.defs _ _).mono (fun r h c => ⟨(h c).1.trans ?_, (h c).2⟩)
    (Cert.ReferenceIdeal.Hand.reference_run m' ρ')
  obtain ⟨e0, e1, e2, e3, e4, e5, e6, e7, e8, e9, e10, e11, e12, e13⟩ := hagree c
  rw [e0, e1, e2, e3, e4, e5, e6, e7, e8, e9, e10, e11, e12, e13]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
